-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x24x32768 : Shape := ⟨3, ![256, 24, 32768]⟩
abbrev S_ : Shape := ⟨0, ![]⟩

class Facts : Prop where
  bcast_S_S256x24x32768 : S_.BroadcastsInDim S256x24x32768 (![] : Fin 0 → Fin S256x24x32768.rank)
  reducesTo_S256x24x32768_S_d0_1_2 : S256x24x32768.ReducesTo [0, 1, 2] S_
  h_S_ : 0 < S_.numel

variable [Facts]

def fn {F : FTy → Type} [FloatOps F] (main_arg0 : FVec F S256x24x32768 .f32) : IVec S_ 1 :=
  let main_v0 : FVec F S256x24x32768 .f32 := Host.absf main_arg0
  let main_cst : FVec F S_ .f32 := constant S_ .f32 0x7F800000#32
  let main_v1 : FVec F S256x24x32768 .f32 := broadcastInDim S256x24x32768 ![] bcast_S_S256x24x32768 main_cst
  let main_v2 : IVec S256x24x32768 1 := cmpf .olt main_v0 main_v1
  let main_c : IVec S_ 1 := constantI S_ 1 1#1
  let main_v3 : IVec S_ 1 := (fun x v => Host.reduce IntOp.andi x v reducesTo_S256x24x32768_S_d0_1_2 h_S_) main_v2 main_c
  main_v3
-- ==== Kernel.lean ====
abbrev S256x24x32768 : Shape := ⟨3, ![256, 24, 32768]⟩
abbrev S256x4x6x32768 : Shape := ⟨4, ![256, 4, 6, 32768]⟩
abbrev S256x4 : Shape := ⟨2, ![256, 4]⟩
abbrev S256x6 : Shape := ⟨2, ![256, 6]⟩
abbrev S16x4x6x8192 : Shape := ⟨4, ![16, 4, 6, 8192]⟩
abbrev S16x4 : Shape := ⟨2, ![16, 4]⟩
abbrev S16x6 : Shape := ⟨2, ![16, 6]⟩
abbrev S16x1x6x8192 : Shape := ⟨4, ![16, 1, 6, 8192]⟩
abbrev S16x6x8192 : Shape := ⟨3, ![16, 6, 8192]⟩
abbrev S16 : Shape := ⟨1, ![16]⟩
abbrev S16x1 : Shape := ⟨2, ![16, 1]⟩
abbrev S_ : Shape := ⟨0, ![]⟩
abbrev S256 : Shape := ⟨1, ![256]⟩
abbrev S256x1 : Shape := ⟨2, ![256, 1]⟩
abbrev S256x14 : Shape := ⟨2, ![256, 14]⟩

abbrev nBuf : Space → Nat
  | .hbm => 218
  | .vmem => 14
  | .smem => 0
  | _ => 0

abbrev hbmTy0_0 (i : Nat) : BufTy := match i % 128 with
  | 0 => ⟨S256x24x32768, .f32⟩
  | 1 => ⟨S256x4x6x32768, .f32⟩
  | 2 => ⟨S256x4, .f32⟩
  | 3 => ⟨S256x4, .f32⟩
  | 4 => ⟨S256x6, .f32⟩
  | 5 => ⟨S256x6, .f32⟩
  | 6 => ⟨S_, .f32⟩
  | 7 => ⟨S256x4, .f32⟩
  | 8 => ⟨S256x4, .f32⟩
  | 9 => ⟨S_, .f32⟩
  | 10 => ⟨S256x4, .f32⟩
  | 11 => ⟨S256x4, .f32⟩
  | 12 => ⟨S_, .i32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S256x4, .f32⟩
  | 20 => ⟨S256x4, .f32⟩
  | 21 => ⟨S256x4, .f32⟩
  | 22 => ⟨S_, .f32⟩
  | 23 => ⟨S_, .f32⟩
  | 24 => ⟨S_, .f32⟩
  | 25 => ⟨S_, .f32⟩
  | 26 => ⟨S256, .f32⟩
  | 27 => ⟨S256, .f32⟩
  | 28 => ⟨S256, .f32⟩
  | 29 => ⟨S_, .f32⟩
  | 30 => ⟨S_, .i1⟩
  | 31 => ⟨S_, .f32⟩
  | 32 => ⟨S_, .f32⟩
  | 33 => ⟨S256, .f32⟩
  | 34 => ⟨S256, .f32⟩
  | 35 => ⟨S256, .f32⟩
  | 36 => ⟨S_, .f32⟩
  | 37 => ⟨S256, .f32⟩
  | 38 => ⟨S_, .f32⟩
  | 39 => ⟨S256, .f32⟩
  | 40 => ⟨S_, .f32⟩
  | 41 => ⟨S256, .f32⟩
  | 42 => ⟨S256, .f32⟩
  | 43 => ⟨S256, .f32⟩
  | 44 => ⟨S_, .f32⟩
  | 45 => ⟨S256x4, .f32⟩
  | 46 => ⟨S256x4, .f32⟩
  | 47 => ⟨S256x4, .f32⟩
  | 48 => ⟨S256x4, .f32⟩
  | 49 => ⟨S_, .f32⟩
  | 50 => ⟨S256x4, .f32⟩
  | 51 => ⟨S256x4, .f32⟩
  | 52 => ⟨S256x4, .f32⟩
  | 53 => ⟨S256x1, .f32⟩
  | 54 => ⟨S256, .f32⟩
  | 55 => ⟨S256x1, .f32⟩
  | 56 => ⟨S256, .f32⟩
  | 57 => ⟨S_, .f32⟩
  | 58 => ⟨S256, .f32⟩
  | 59 => ⟨S256, .f32⟩
  | 60 => ⟨S256x1, .f32⟩
  | 61 => ⟨S256, .f32⟩
  | 62 => ⟨S256, .f32⟩
  | 63 => ⟨S256, .f32⟩
  | 64 => ⟨S256x1, .f32⟩
  | 65 => ⟨S256, .f32⟩
  | 66 => ⟨S256x1, .f32⟩
  | 67 => ⟨S256, .f32⟩
  | 68 => ⟨S256, .f32⟩
  | 69 => ⟨S_, .f32⟩
  | 70 => ⟨S256, .f32⟩
  | 71 => ⟨S256, .f32⟩
  | 72 => ⟨S256, .f32⟩
  | 73 => ⟨S256x1, .f32⟩
  | 74 => ⟨S256, .f32⟩
  | 75 => ⟨S256x1, .f32⟩
  | 76 => ⟨S256, .f32⟩
  | 77 => ⟨S_, .f32⟩
  | 78 => ⟨S256, .f32⟩
  | 79 => ⟨S256, .f32⟩
  | 80 => ⟨S256x1, .f32⟩
  | 81 => ⟨S256, .f32⟩
  | 82 => ⟨S256, .f32⟩
  | 83 => ⟨S256, .f32⟩
  | 84 => ⟨S256x1, .f32⟩
  | 85 => ⟨S256, .f32⟩
  | 86 => ⟨S256x1, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S256x1, .f32⟩
  | 94 => ⟨S256, .f32⟩
  | 95 => ⟨S256x1, .f32⟩
  | 96 => ⟨S256, .f32⟩
  | 97 => ⟨S_, .f32⟩
  | 98 => ⟨S256, .f32⟩
  | 99 => ⟨S256, .f32⟩
  | 100 => ⟨S256x1, .f32⟩
  | 101 => ⟨S256, .f32⟩
  | 102 => ⟨S256, .f32⟩
  | 103 => ⟨S256, .f32⟩
  | 104 => ⟨S256x1, .f32⟩
  | 105 => ⟨S256, .f32⟩
  | 106 => ⟨S256x1, .f32⟩
  | 107 => ⟨S256, .f32⟩
  | 108 => ⟨S256, .f32⟩
  | 109 => ⟨S_, .f32⟩
  | 110 => ⟨S256, .f32⟩
  | 111 => ⟨S256, .f32⟩
  | 112 => ⟨S256, .f32⟩
  | 113 => ⟨S256x1, .f32⟩
  | 114 => ⟨S256, .f32⟩
  | 115 => ⟨S256x1, .f32⟩
  | 116 => ⟨S256, .f32⟩
  | 117 => ⟨S_, .f32⟩
  | 118 => ⟨S256, .f32⟩
  | 119 => ⟨S256, .f32⟩
  | 120 => ⟨S256x1, .f32⟩
  | 121 => ⟨S256, .f32⟩
  | 122 => ⟨S256, .f32⟩
  | 123 => ⟨S256, .f32⟩
  | 124 => ⟨S256x1, .f32⟩
  | 125 => ⟨S256, .f32⟩
  | 126 => ⟨S256x1, .f32⟩
  | 127 => ⟨S256, .f32⟩
  | _ => ⟨S256x24x32768, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256, .f32⟩
  | 5 => ⟨S256x1, .f32⟩
  | 6 => ⟨S256, .f32⟩
  | 7 => ⟨S256x1, .f32⟩
  | 8 => ⟨S256, .f32⟩
  | 9 => ⟨S_, .f32⟩
  | 10 => ⟨S256, .f32⟩
  | 11 => ⟨S256, .f32⟩
  | 12 => ⟨S256x1, .f32⟩
  | 13 => ⟨S256, .f32⟩
  | 14 => ⟨S256, .f32⟩
  | 15 => ⟨S256, .f32⟩
  | 16 => ⟨S256x1, .f32⟩
  | 17 => ⟨S256, .f32⟩
  | 18 => ⟨S256x1, .f32⟩
  | 19 => ⟨S256, .f32⟩
  | 20 => ⟨S256, .f32⟩
  | 21 => ⟨S_, .f32⟩
  | 22 => ⟨S256, .f32⟩
  | 23 => ⟨S256, .f32⟩
  | 24 => ⟨S256, .f32⟩
  | 25 => ⟨S256x1, .f32⟩
  | 26 => ⟨S256, .f32⟩
  | 27 => ⟨S256x1, .f32⟩
  | 28 => ⟨S256, .f32⟩
  | 29 => ⟨S_, .f32⟩
  | 30 => ⟨S256, .f32⟩
  | 31 => ⟨S256, .f32⟩
  | 32 => ⟨S256x1, .f32⟩
  | 33 => ⟨S256, .f32⟩
  | 34 => ⟨S256, .f32⟩
  | 35 => ⟨S256, .f32⟩
  | 36 => ⟨S256x1, .f32⟩
  | 37 => ⟨S256, .f32⟩
  | 38 => ⟨S256x1, .f32⟩
  | 39 => ⟨S256, .f32⟩
  | 40 => ⟨S256, .f32⟩
  | 41 => ⟨S_, .f32⟩
  | 42 => ⟨S256, .f32⟩
  | 43 => ⟨S256, .f32⟩
  | 44 => ⟨S256, .f32⟩
  | 45 => ⟨S256x1, .f32⟩
  | 46 => ⟨S256, .f32⟩
  | 47 => ⟨S_, .f32⟩
  | 48 => ⟨S256, .f32⟩
  | 49 => ⟨S256, .f32⟩
  | 50 => ⟨S256x1, .f32⟩
  | 51 => ⟨S256, .f32⟩
  | 52 => ⟨S_, .f32⟩
  | 53 => ⟨S256, .f32⟩
  | 54 => ⟨S256, .f32⟩
  | 55 => ⟨S256x1, .f32⟩
  | 56 => ⟨S256, .f32⟩
  | 57 => ⟨S_, .f32⟩
  | 58 => ⟨S256, .f32⟩
  | 59 => ⟨S256, .f32⟩
  | 60 => ⟨S256x1, .f32⟩
  | 61 => ⟨S256, .f32⟩
  | 62 => ⟨S_, .f32⟩
  | 63 => ⟨S256, .f32⟩
  | 64 => ⟨S256, .f32⟩
  | 65 => ⟨S256x1, .f32⟩
  | 66 => ⟨S256, .f32⟩
  | 67 => ⟨S_, .f32⟩
  | 68 => ⟨S256, .f32⟩
  | 69 => ⟨S256, .f32⟩
  | 70 => ⟨S256x1, .f32⟩
  | 71 => ⟨S256, .f32⟩
  | 72 => ⟨S_, .f32⟩
  | 73 => ⟨S256, .f32⟩
  | 74 => ⟨S256, .f32⟩
  | 75 => ⟨S256x1, .f32⟩
  | 76 => ⟨S256x1, .f32⟩
  | 77 => ⟨S256x1, .f32⟩
  | 78 => ⟨S256x1, .f32⟩
  | 79 => ⟨S256x1, .f32⟩
  | 80 => ⟨S256x1, .f32⟩
  | 81 => ⟨S256x1, .f32⟩
  | 82 => ⟨S256x1, .f32⟩
  | 83 => ⟨S256x1, .f32⟩
  | 84 => ⟨S256x1, .f32⟩
  | 85 => ⟨S256x1, .f32⟩
  | 86 => ⟨S256x1, .f32⟩
  | 87 => ⟨S256x1, .f32⟩
  | 88 => ⟨S256x1, .f32⟩
  | 89 => ⟨S256x14, .f32⟩
  | _ => ⟨S256x24x32768, .f32⟩

abbrev hbmTy (i : Nat) : BufTy := match i / 128 with
  | 0 => hbmTy0_0 i
  | 1 => hbmTy0_1 i
  | _ => ⟨S256x24x32768, .f32⟩

abbrev bufTy : (tb : Table) → Fin (tcTables nBuf tb) → BufTy
  | .hbm, ⟨i, _⟩ => hbmTy i
  | .local _ .vmem, ⟨0, _⟩ => ⟨S16x4x6x8192, .f32⟩
  | .local _ .vmem, ⟨1, _⟩ => ⟨S16x4x6x8192, .f32⟩
  | .local _ .vmem, ⟨2, _⟩ => ⟨S16x4, .f32⟩
  | .local _ .vmem, ⟨3, _⟩ => ⟨S16x4, .f32⟩
  | .local _ .vmem, ⟨4, _⟩ => ⟨S16x4, .f32⟩
  | .local _ .vmem, ⟨5, _⟩ => ⟨S16x4, .f32⟩
  | .local _ .vmem, ⟨6, _⟩ => ⟨S16x6, .f32⟩
  | .local _ .vmem, ⟨7, _⟩ => ⟨S16x6, .f32⟩
  | .local _ .vmem, ⟨8, _⟩ => ⟨S16x6, .f32⟩
  | .local _ .vmem, ⟨9, _⟩ => ⟨S16x6, .f32⟩
  | .local _ .vmem, ⟨10, _⟩ => ⟨S16x4, .f32⟩
  | .local _ .vmem, ⟨11, _⟩ => ⟨S16x4, .f32⟩
  | .local _ .vmem, ⟨12, _⟩ => ⟨S16x6, .f32⟩
  | .local _ .vmem, ⟨13, _⟩ => ⟨S16x6, .f32⟩
  | _, _ => ⟨S256x24x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_cst_3 : Ref sig .tc := ⟨.hbm, 29, rfl⟩
abbrev main_call0_call0_v12 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_cst_2 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_4 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_5 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_11 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_12 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_13 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_14 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_15 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_16 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_17 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_18 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_19 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_20 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_21 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_22 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_23 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v117 : BitVec 1 := Scalar.cmpi .eq arg1 c3_i32
  let v118 : BitVec 32 := Scalar.extui v117
  let c0_i32_68 : BitVec 32 := 0#32
  let v119 : BitVec 1 := Scalar.cmpi .ne v118 c0_i32_68
  v119

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x4x6x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256x24x32768_S256x4x6x32768 : S256x24x32768.ShapeCasts S256x4x6x32768
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S16x6_S16x6_0_0 : ∀ a, (![0, 0] : Fin 2 → Nat) a + S16x6.size a ≤ S16x6.size a
  h_S16x6 : 0 < S16x6.numel
  shapeCasts_S16x6_S16x6 : S16x6.ShapeCasts S16x6
  inb_S16x4x6x8192_S16x1x6x8192_0_0_0_0 : ∀ a, (![0, 0, 0, 0] : Fin 4 → Nat) a + S16x1x6x8192.size a ≤ S16x4x6x8192.size a
  h_S16x1x6x8192 : 0 < S16x1x6x8192.numel
  shapeCasts_S16x1x6x8192_S16x6x8192 : S16x1x6x8192.ShapeCasts S16x6x8192
  inb_S16x4x6x8192_S16x1x6x8192_0_1_0_0 : ∀ a, (![0, 1, 0, 0] : Fin 4 → Nat) a + S16x1x6x8192.size a ≤ S16x4x6x8192.size a
  inb_S16x4x6x8192_S16x1x6x8192_0_2_0_0 : ∀ a, (![0, 2, 0, 0] : Fin 4 → Nat) a + S16x1x6x8192.size a ≤ S16x4x6x8192.size a
  inb_S16x4x6x8192_S16x1x6x8192_0_3_0_0 : ∀ a, (![0, 3, 0, 0] : Fin 4 → Nat) a + S16x1x6x8192.size a ≤ S16x4x6x8192.size a
  reduces_S16x6x8192_S16x6 : S16x6x8192.Reduces [2] S16x6
  reduces_S16x6_S16 : S16x6.Reduces [1] S16
  shapeCasts_S16_S16x1 : S16.ShapeCasts S16x1
  concatenates_S16x1_S16x1_S16x1_S16x1_S16x4_d1 : Shape.Concatenates [S16x1, S16x1, S16x1, S16x1] S16x4 1
  concatenates_S16x1_S16x1_S16x1_S16x1_S16x1_S16x1_S16x6_d1 : Shape.Concatenates [S16x1, S16x1, S16x1, S16x1, S16x1, S16x1] S16x6 1
  bcast_S_S256x4 : S_.BroadcastsInDim S256x4 (![] : Fin 0 → Fin S256x4.rank)
  reducesTo_S256x4_S256_d1 : S256x4.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x4_0_1 : S256x1.BroadcastsInDim S256x4 (![0, 1] : Fin 2 → Fin S256x4.rank)
  bcast_S_S256 : S_.BroadcastsInDim S256 (![] : Fin 0 → Fin S256.rank)
  slices_S256x6_S256x1_0_0 : S256x6.Slices ![0, 0] S256x1
  shapeCasts_S256x1_S256 : S256x1.ShapeCasts S256
  slices_S256x4_S256x1_0_0 : S256x4.Slices ![0, 0] S256x1
  slices_S256x4_S256x1_0_1 : S256x4.Slices ![0, 1] S256x1
  slices_S256x6_S256x1_0_1 : S256x6.Slices ![0, 1] S256x1
  slices_S256x4_S256x1_0_2 : S256x4.Slices ![0, 2] S256x1
  slices_S256x6_S256x1_0_2 : S256x6.Slices ![0, 2] S256x1
  slices_S256x4_S256x1_0_3 : S256x4.Slices ![0, 3] S256x1
  slices_S256x6_S256x1_0_3 : S256x6.Slices ![0, 3] S256x1
  slices_S256x6_S256x1_0_4 : S256x6.Slices ![0, 4] S256x1
  slices_S256x6_S256x1_0_5 : S256x6.Slices ![0, 5] S256x1
  concatenates_S256x1_S256x1_S256x1_S256x1_S256x1_S256x1_S256x1_S256x1_S256x1_S256x1_S256x1_S256x1_S256x1_S256x1_S256x14_d1 : Shape.Concatenates [S256x1, S256x1, S256x1, S256x1, S256x1, S256x1, S256x1, S256x1, S256x1, S256x1, S256x1, S256x1, S256x1, S256x1] S256x14 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x6x8192.size a ≤ S256x4x6x32768.size a
  hwx0_0 : ∀ i : grid0.Coords, EltTy.bits .f32 = 32 ∨ (Rect.block (s := S256x4x6x32768) S16x4x6x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S256x4.size a
  hwx0_1 : ∀ i : grid0.Coords, EltTy.bits .f32 = 32 ∨ (Rect.block (s := S256x4) S16x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S256x4.size a
  hwx0_2 : ∀ i : grid0.Coords, EltTy.bits .f32 = 32 ∨ (Rect.block (s := S256x4) S16x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x6.size a ≤ S256x6.size a
  hwx0_3 : ∀ i : grid0.Coords, EltTy.bits .f32 = 32 ∨ (Rect.block (s := S256x6) S16x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x6.size a ≤ S256x6.size a
  hwx0_4 : ∀ i : grid0.Coords, EltTy.bits .f32 = 32 ∨ (Rect.block (s := S256x6) S16x6.size (cc0_transform_4 i) (hinb0_4 i)).WholeWords (EltTy.packing .f32)

variable [Facts₀]

abbrev win0_0 : Pipeline.Window sig grid0 :=
  Pipeline.Window.ofSpec (Memref.whole main_v0) S16x4x6x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S16x4.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S16x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S16x6.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_3) S16x6.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun i => !(k0_cond2 i == 1#1) | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x24x32768 : Shape := ⟨3, ![256, 24, 32768]⟩
abbrev S256x4x6x32768 : Shape := ⟨4, ![256, 4, 6, 32768]⟩
abbrev S_ : Shape := ⟨0, ![]⟩
abbrev S256x4 : Shape := ⟨2, ![256, 4]⟩
abbrev S256 : Shape := ⟨1, ![256]⟩
abbrev S256x1 : Shape := ⟨2, ![256, 1]⟩
abbrev S256x4x196608 : Shape := ⟨3, ![256, 4, 196608]⟩
abbrev S256x4x1 : Shape := ⟨3, ![256, 4, 1]⟩
abbrev S256x4x4 : Shape := ⟨3, ![256, 4, 4]⟩
abbrev S4 : Shape := ⟨1, ![4]⟩
abbrev S4x1 : Shape := ⟨2, ![4, 1]⟩
abbrev S4x2 : Shape := ⟨2, ![4, 2]⟩
abbrev S256x1x1 : Shape := ⟨3, ![256, 1, 1]⟩
abbrev S256x1x6x32768 : Shape := ⟨4, ![256, 1, 6, 32768]⟩
abbrev S256x6x32768 : Shape := ⟨3, ![256, 6, 32768]⟩
abbrev S256x14 : Shape := ⟨2, ![256, 14]⟩

abbrev nBuf : Space → Nat
  | .hbm => 218
  | .vmem => 0
  | .smem => 0
  | _ => 0

abbrev hbmTy0_0 (i : Nat) : BufTy := match i % 128 with
  | 0 => ⟨S256x24x32768, .f32⟩
  | 1 => ⟨S256x4x6x32768, .f32⟩
  | 2 => ⟨S256x4x6x32768, .f32⟩
  | 3 => ⟨S_, .f32⟩
  | 4 => ⟨S256x4, .f32⟩
  | 5 => ⟨S_, .f32⟩
  | 6 => ⟨S256x4, .f32⟩
  | 7 => ⟨S256x4, .f32⟩
  | 8 => ⟨S_, .i32⟩
  | 9 => ⟨S_, .f32⟩
  | 10 => ⟨S256, .f32⟩
  | 11 => ⟨S256x1, .f32⟩
  | 12 => ⟨S_, .f32⟩
  | 13 => ⟨S256x1, .f32⟩
  | 14 => ⟨S256x1, .f32⟩
  | 15 => ⟨S256x4, .f32⟩
  | 16 => ⟨S256x4, .f32⟩
  | 17 => ⟨S256x4, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S256, .f32⟩
  | 32 => ⟨S_, .f32⟩
  | 33 => ⟨S256, .f32⟩
  | 34 => ⟨S_, .f32⟩
  | 35 => ⟨S256, .f32⟩
  | 36 => ⟨S_, .f32⟩
  | 37 => ⟨S256, .f32⟩
  | 38 => ⟨S256, .f32⟩
  | 39 => ⟨S256, .f32⟩
  | 40 => ⟨S256x4x196608, .f32⟩
  | 41 => ⟨S_, .f32⟩
  | 42 => ⟨S256x4, .f32⟩
  | 43 => ⟨S256x4x1, .f32⟩
  | 44 => ⟨S_, .f32⟩
  | 45 => ⟨S256x4x1, .f32⟩
  | 46 => ⟨S256x4x1, .f32⟩
  | 47 => ⟨S256x4x196608, .f32⟩
  | 48 => ⟨S256x4x196608, .f32⟩
  | 49 => ⟨S256x4x4, .f32⟩
  | 50 => ⟨S4, .i32⟩
  | 51 => ⟨S4, .i32⟩
  | 52 => ⟨S_, .i32⟩
  | 53 => ⟨S4, .i32⟩
  | 54 => ⟨S4, .i1⟩
  | 55 => ⟨S_, .i32⟩
  | 56 => ⟨S4, .i32⟩
  | 57 => ⟨S4, .i32⟩
  | 58 => ⟨S4, .i32⟩
  | 59 => ⟨S_, .i32⟩
  | 60 => ⟨S4, .i32⟩
  | 61 => ⟨S4, .i1⟩
  | 62 => ⟨S_, .i32⟩
  | 63 => ⟨S4, .i32⟩
  | 64 => ⟨S4, .i32⟩
  | 65 => ⟨S4, .i32⟩
  | 66 => ⟨S4x1, .i32⟩
  | 67 => ⟨S4x1, .i32⟩
  | 68 => ⟨S4x2, .i32⟩
  | 69 => ⟨S256x4, .f32⟩
  | 70 => ⟨S256x4, .f32⟩
  | 71 => ⟨S256x1x1, .f32⟩
  | 72 => ⟨S256, .f32⟩
  | 73 => ⟨S256x1, .f32⟩
  | 74 => ⟨S256, .f32⟩
  | 75 => ⟨S256x1, .f32⟩
  | 76 => ⟨S256, .f32⟩
  | 77 => ⟨S256, .f32⟩
  | 78 => ⟨S_, .f32⟩
  | 79 => ⟨S256, .f32⟩
  | 80 => ⟨S256, .f32⟩
  | 81 => ⟨S256, .f32⟩
  | 82 => ⟨S256x1x1, .f32⟩
  | 83 => ⟨S256, .f32⟩
  | 84 => ⟨S256x1, .f32⟩
  | 85 => ⟨S256, .f32⟩
  | 86 => ⟨S256x1, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S256x1x1, .f32⟩
  | 94 => ⟨S256, .f32⟩
  | 95 => ⟨S256x1, .f32⟩
  | 96 => ⟨S256, .f32⟩
  | 97 => ⟨S256x1, .f32⟩
  | 98 => ⟨S256, .f32⟩
  | 99 => ⟨S256, .f32⟩
  | 100 => ⟨S_, .f32⟩
  | 101 => ⟨S256, .f32⟩
  | 102 => ⟨S256, .f32⟩
  | 103 => ⟨S256, .f32⟩
  | 104 => ⟨S256x1x1, .f32⟩
  | 105 => ⟨S256, .f32⟩
  | 106 => ⟨S256x1, .f32⟩
  | 107 => ⟨S256, .f32⟩
  | 108 => ⟨S256x1, .f32⟩
  | 109 => ⟨S256, .f32⟩
  | 110 => ⟨S256, .f32⟩
  | 111 => ⟨S_, .f32⟩
  | 112 => ⟨S256, .f32⟩
  | 113 => ⟨S256, .f32⟩
  | 114 => ⟨S256, .f32⟩
  | 115 => ⟨S256x1x1, .f32⟩
  | 116 => ⟨S256, .f32⟩
  | 117 => ⟨S256x1, .f32⟩
  | 118 => ⟨S256, .f32⟩
  | 119 => ⟨S256x1, .f32⟩
  | 120 => ⟨S256, .f32⟩
  | 121 => ⟨S256, .f32⟩
  | 122 => ⟨S_, .f32⟩
  | 123 => ⟨S256, .f32⟩
  | 124 => ⟨S256, .f32⟩
  | 125 => ⟨S256, .f32⟩
  | 126 => ⟨S256x1x1, .f32⟩
  | 127 => ⟨S256, .f32⟩
  | _ => ⟨S256x24x32768, .f32⟩

abbrev hbmTy0_1 (i : Nat) : BufTy := match i % 128 with
  | 0 => ⟨S256x1, .f32⟩
  | 1 => ⟨S256, .f32⟩
  | 2 => ⟨S256x1, .f32⟩
  | 3 => ⟨S256, .f32⟩
  | 4 => ⟨S256, .f32⟩
  | 5 => ⟨S_, .f32⟩
  | 6 => ⟨S256, .f32⟩
  | 7 => ⟨S256, .f32⟩
  | 8 => ⟨S256, .f32⟩
  | 9 => ⟨S256x1x6x32768, .f32⟩
  | 10 => ⟨S256x6x32768, .f32⟩
  | 11 => ⟨S256x1x6x32768, .f32⟩
  | 12 => ⟨S256x6x32768, .f32⟩
  | 13 => ⟨S256x6x32768, .f32⟩
  | 14 => ⟨S256x6x32768, .f32⟩
  | 15 => ⟨S_, .f32⟩
  | 16 => ⟨S256, .f32⟩
  | 17 => ⟨S_, .f32⟩
  | 18 => ⟨S256, .f32⟩
  | 19 => ⟨S256, .f32⟩
  | 20 => ⟨S256x1x6x32768, .f32⟩
  | 21 => ⟨S256x6x32768, .f32⟩
  | 22 => ⟨S256x1x6x32768, .f32⟩
  | 23 => ⟨S256x6x32768, .f32⟩
  | 24 => ⟨S256x6x32768, .f32⟩
  | 25 => ⟨S256x6x32768, .f32⟩
  | 26 => ⟨S_, .f32⟩
  | 27 => ⟨S256, .f32⟩
  | 28 => ⟨S_, .f32⟩
  | 29 => ⟨S256, .f32⟩
  | 30 => ⟨S256, .f32⟩
  | 31 => ⟨S256x1x6x32768, .f32⟩
  | 32 => ⟨S256x6x32768, .f32⟩
  | 33 => ⟨S256x1x6x32768, .f32⟩
  | 34 => ⟨S256x6x32768, .f32⟩
  | 35 => ⟨S256x6x32768, .f32⟩
  | 36 => ⟨S256x6x32768, .f32⟩
  | 37 => ⟨S_, .f32⟩
  | 38 => ⟨S256, .f32⟩
  | 39 => ⟨S_, .f32⟩
  | 40 => ⟨S256, .f32⟩
  | 41 => ⟨S256, .f32⟩
  | 42 => ⟨S256x1x6x32768, .f32⟩
  | 43 => ⟨S256x6x32768, .f32⟩
  | 44 => ⟨S256x1x6x32768, .f32⟩
  | 45 => ⟨S256x6x32768, .f32⟩
  | 46 => ⟨S256x6x32768, .f32⟩
  | 47 => ⟨S256x6x32768, .f32⟩
  | 48 => ⟨S_, .f32⟩
  | 49 => ⟨S256, .f32⟩
  | 50 => ⟨S_, .f32⟩
  | 51 => ⟨S256, .f32⟩
  | 52 => ⟨S256, .f32⟩
  | 53 => ⟨S256x1x6x32768, .f32⟩
  | 54 => ⟨S256x6x32768, .f32⟩
  | 55 => ⟨S256x1x6x32768, .f32⟩
  | 56 => ⟨S256x6x32768, .f32⟩
  | 57 => ⟨S256x6x32768, .f32⟩
  | 58 => ⟨S256x6x32768, .f32⟩
  | 59 => ⟨S_, .f32⟩
  | 60 => ⟨S256, .f32⟩
  | 61 => ⟨S_, .f32⟩
  | 62 => ⟨S256, .f32⟩
  | 63 => ⟨S256, .f32⟩
  | 64 => ⟨S256x1x6x32768, .f32⟩
  | 65 => ⟨S256x6x32768, .f32⟩
  | 66 => ⟨S256x1x6x32768, .f32⟩
  | 67 => ⟨S256x6x32768, .f32⟩
  | 68 => ⟨S256x6x32768, .f32⟩
  | 69 => ⟨S256x6x32768, .f32⟩
  | 70 => ⟨S_, .f32⟩
  | 71 => ⟨S256, .f32⟩
  | 72 => ⟨S_, .f32⟩
  | 73 => ⟨S256, .f32⟩
  | 74 => ⟨S256, .f32⟩
  | 75 => ⟨S256x1, .f32⟩
  | 76 => ⟨S256x1, .f32⟩
  | 77 => ⟨S256x1, .f32⟩
  | 78 => ⟨S256x1, .f32⟩
  | 79 => ⟨S256x1, .f32⟩
  | 80 => ⟨S256x1, .f32⟩
  | 81 => ⟨S256x1, .f32⟩
  | 82 => ⟨S256x1, .f32⟩
  | 83 => ⟨S256x1, .f32⟩
  | 84 => ⟨S256x1, .f32⟩
  | 85 => ⟨S256x1, .f32⟩
  | 86 => ⟨S256x1, .f32⟩
  | 87 => ⟨S256x1, .f32⟩
  | 88 => ⟨S256x1, .f32⟩
  | 89 => ⟨S256x14, .f32⟩
  | _ => ⟨S256x24x32768, .f32⟩

abbrev hbmTy (i : Nat) : BufTy := match i / 128 with
  | 0 => hbmTy0_0 i
  | 1 => hbmTy0_1 i
  | _ => ⟨S256x24x32768, .f32⟩

abbrev bufTy : (tb : Table) → Fin (tcTables nBuf tb) → BufTy
  | .hbm, ⟨i, _⟩ => hbmTy i
  | _, _ => ⟨S256x24x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_cst_3 : Ref sig .tc := ⟨.hbm, 25, rfl⟩
abbrev main_call0_call0_v12 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_4 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call1_v0 : Ref sig .tc := ⟨.hbm, 50, rfl⟩
abbrev main_call1_v1 : Ref sig .tc := ⟨.hbm, 51, rfl⟩
abbrev main_call1_c : Ref sig .tc := ⟨.hbm, 52, rfl⟩
abbrev main_call1_v2 : Ref sig .tc := ⟨.hbm, 53, rfl⟩
abbrev main_call1_v3 : Ref sig .tc := ⟨.hbm, 54, rfl⟩
abbrev main_call1_c_0 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_c_1 : Ref sig .tc := ⟨.hbm, 59, rfl⟩
abbrev main_call1_v7 : Ref sig .tc := ⟨.hbm, 60, rfl⟩
abbrev main_call1_v8 : Ref sig .tc := ⟨.hbm, 61, rfl⟩
abbrev main_call1_c_2 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_6 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_7 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_8 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_9 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_10 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_11 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_12 : Ref sig .tc := ⟨.hbm, 143, rfl⟩
abbrev main_v87 : Ref sig .tc := ⟨.hbm, 144, rfl⟩
abbrev main_cst_13 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_14 : Ref sig .tc := ⟨.hbm, 154, rfl⟩
abbrev main_v96 : Ref sig .tc := ⟨.hbm, 155, rfl⟩
abbrev main_cst_15 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_16 : Ref sig .tc := ⟨.hbm, 165, rfl⟩
abbrev main_v105 : Ref sig .tc := ⟨.hbm, 166, rfl⟩
abbrev main_cst_17 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_18 : Ref sig .tc := ⟨.hbm, 176, rfl⟩
abbrev main_v114 : Ref sig .tc := ⟨.hbm, 177, rfl⟩
abbrev main_cst_19 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_20 : Ref sig .tc := ⟨.hbm, 187, rfl⟩
abbrev main_v123 : Ref sig .tc := ⟨.hbm, 188, rfl⟩
abbrev main_cst_21 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_22 : Ref sig .tc := ⟨.hbm, 198, rfl⟩
abbrev main_v132 : Ref sig .tc := ⟨.hbm, 199, rfl⟩
abbrev main_cst_23 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩

abbrev nD : Nat := 1
abbrev τ : Topo := Topo.v7x

variable {F : FTy → Type} [FloatOps F]

class Facts₀ : Prop where
  shapeCasts_S256x24x32768_S256x4x6x32768 : S256x24x32768.ShapeCasts S256x4x6x32768
  reducesTo_S256x4x6x32768_S256x4_d2_3 : S256x4x6x32768.ReducesTo [2, 3] S256x4
  h_S_ : 0 < S_.numel
  bcast_S_S256x4 : S_.BroadcastsInDim S256x4 (![] : Fin 0 → Fin S256x4.rank)
  reducesTo_S256x4_S256_d1 : S256x4.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x4_0_1 : S256x1.BroadcastsInDim S256x4 (![0, 1] : Fin 2 → Fin S256x4.rank)
  bcast_S_S256 : S_.BroadcastsInDim S256 (![] : Fin 0 → Fin S256.rank)
  shapeCasts_S256x4x6x32768_S256x4x196608 : S256x4x6x32768.ShapeCasts S256x4x196608
  reducesTo_S256x4x196608_S256x4_d2 : S256x4x196608.ReducesTo [2] S256x4
  bcast_S256x4_S256x4x1_0_1 : S256x4.BroadcastsInDim S256x4x1 (![0, 1] : Fin 2 → Fin S256x4x1.rank)
  bcast_S_S256x4x1 : S_.BroadcastsInDim S256x4x1 (![] : Fin 0 → Fin S256x4x1.rank)
  bcast_S256x4x1_S256x4x196608_0_1_2 : S256x4x1.BroadcastsInDim S256x4x196608 (![0, 1, 2] : Fin 3 → Fin S256x4x196608.rank)
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  slices_S256x4x4_S256x1x1_0_0_1 : S256x4x4.Slices ![0, 0, 1] S256x1x1
  shapeCasts_S256x1x1_S256 : S256x1x1.ShapeCasts S256
  slices_S256x4_S256x1_0_0 : S256x4.Slices ![0, 0] S256x1
  shapeCasts_S256x1_S256 : S256x1.ShapeCasts S256
  slices_S256x4_S256x1_0_1 : S256x4.Slices ![0, 1] S256x1
  slices_S256x4x4_S256x1x1_0_0_2 : S256x4x4.Slices ![0, 0, 2] S256x1x1
  slices_S256x4_S256x1_0_2 : S256x4.Slices ![0, 2] S256x1
  slices_S256x4x4_S256x1x1_0_0_3 : S256x4x4.Slices ![0, 0, 3] S256x1x1
  slices_S256x4_S256x1_0_3 : S256x4.Slices ![0, 3] S256x1
  slices_S256x4x4_S256x1x1_0_1_2 : S256x4x4.Slices ![0, 1, 2] S256x1x1
  slices_S256x4x4_S256x1x1_0_1_3 : S256x4x4.Slices ![0, 1, 3] S256x1x1
  slices_S256x4x4_S256x1x1_0_2_3 : S256x4x4.Slices ![0, 2, 3] S256x1x1
  slices_S256x4x6x32768_S256x1x6x32768_0_0_0_0 : S256x4x6x32768.Slices ![0, 0, 0, 0] S256x1x6x32768
  shapeCasts_S256x1x6x32768_S256x6x32768 : S256x1x6x32768.ShapeCasts S256x6x32768
  slices_S256x4x6x32768_S256x1x6x32768_0_2_0_0 : S256x4x6x32768.Slices ![0, 2, 0, 0] S256x1x6x32768
  reducesTo_S256x6x32768_S256_d1_2 : S256x6x32768.ReducesTo [1, 2] S256
  slices_S256x4x6x32768_S256x1x6x32768_0_1_0_0 : S256x4x6x32768.Slices ![0, 1, 0, 0] S256x1x6x32768
  slices_S256x4x6x32768_S256x1x6x32768_0_3_0_0 : S256x4x6x32768.Slices ![0, 3, 0, 0] S256x1x6x32768
  concatenates_S256x1_S256x1_S256x1_S256x1_S256x1_S256x1_S256x1_S256x1_S256x1_S256x1_S256x1_S256x1_S256x1_S256x1_S256x14_d1 : Shape.Concatenates [S256x1, S256x1, S256x1, S256x1, S256x1, S256x1, S256x1, S256x1, S256x1, S256x1, S256x1, S256x1, S256x1, S256x1] S256x14 1
  dot_S256x4x196608_S256x4x196608_S256x4x4_2_2_1_1_0_0_wf : DotDims.WF S256x4x196608 S256x4x196608 S256x4x4 [2] [2] [1] [1] [0] [0]
  gather_S256x4x4_S4x2_S256x4_0_12_n_n_12_1_25611_wf : GatherDims.WF S256x4x4 S4x2 S256x4 [0] [1, 2] [] [1, 2] [] 1 ![256, 1, 1]

variable [Facts₀]

def dot_S256x4x196608_S256x4x196608_S256x4x4_2_2_1_1_0_0 : DotDims S256x4x196608 S256x4x196608 S256x4x4 where
  lhsContracting := [2]
  rhsContracting := [2]
  lhsNonContracting := [1]
  rhsNonContracting := [1]
  lhsBatch := [0]
  rhsBatch := [0]
  wf := dot_S256x4x196608_S256x4x196608_S256x4x4_2_2_1_1_0_0_wf
def gather_S256x4x4_S4x2_S256x4_0_12_n_n_12_1_25611 : GatherDims S256x4x4 S4x2 S256x4 where
  offsetDims := [0]
  collapsedSliceDims := [1, 2]
  operandBatchingDims := []
  startIndicesBatchingDims := []
  startIndexMap := [1, 2]
  indexVectorDim := 1
  sliceSizes := ![256, 1, 1]
  wf := gather_S256x4x4_S4x2_S256x4_0_12_n_n_12_1_25611_wf

class Facts : Prop extends Facts₀ where

variable [Facts]
-- ==== Proof.KernelFrame.Base.lean ====
/-
  The launch side of the reduction kernel's frame: the program's entry point is one reshape of the argument, the
  region (a 16 × 4 grid: sixteen batch tiles, four time tiles each), and a tail of host operations that
  turn the four accumulated moment arrays into the fourteen features. Stated here: the buffer contents when the
  region is entered, that the tail's operations touch no scoped buffer, allocate nothing and write neither the argument
  nor any array the region stages, the two branch conditions of the body in closed form over the grid (the first time
  tile of a batch tile resets the accumulators, the last one copies them out), and where each output window is idle.
-/
import proofs.«168515_j63797444215021_2_alg».proof.Proof.Gen.Kernel.Launch
import proofs.«168515_j63797444215021_2_alg».proof.Proof.Gen.Kernel.Skeleton
import proofs.«168515_j63797444215021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around the region -/

/-- A core's buffer contents when the region is entered: the launch memory after the one reshape. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The entry point is the reshape, the region, and the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2])) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- Membership in one of the tail's three stretches. -/
theorem tail_cases {Q : HloOp τ sig (Elt F) → Prop}
    (h1 : (hostOps1 : List (HloOp τ sig (Elt F))).Forall Q) (h2 : (hostOps1_1 : List (HloOp τ sig (Elt F))).Forall Q)
    (h3 : (hostOps1_2 : List (HloOp τ sig (Elt F))).Forall Q) :
    ∀ ops ∈ ([hostOps1, hostOps1_1, hostOps1_2] : List (List (HloOp τ sig (Elt F)))), ∀ op ∈ ops, Q op := by
  intro ops hops op hop
  simp only [List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

/-- The tail touches unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- It allocates nothing. -/
theorem sfx_fresh : ∀ ops ∈ ([hostOps1, hostOps1_1, hostOps1_2] : List (List (HloOp τ sig (Elt F)))), ∀ op ∈ ops, op.fresh = ∅ :=
  tail_cases hostOps1_fresh hostOps1_1_fresh hostOps1_2_fresh

/-! ## What the operations around the region write -/

/-- No operation of this stretch writes an array the region stages. -/
theorem hostOps1_keeps : (hostOps1 : List (HloOp τ sig (Elt F))).Forall fun op => ∀ w, Proc.devRef .tc (Pipeline.arrRef spec0 w) ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_arg : (hostOps1 : List (HloOp τ sig (Elt F))).Forall fun op => Proc.devRef .tc main_arg0 ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No operation of this stretch writes an array the region stages. -/
theorem hostOps1_1_keeps : (hostOps1_1 : List (HloOp τ sig (Elt F))).Forall fun op => ∀ w, Proc.devRef .tc (Pipeline.arrRef spec0 w) ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_1_arg : (hostOps1_1 : List (HloOp τ sig (Elt F))).Forall fun op => Proc.devRef .tc main_arg0 ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No operation of this stretch writes an array the region stages. -/
theorem hostOps1_2_keeps : (hostOps1_2 : List (HloOp τ sig (Elt F))).Forall fun op => ∀ w, Proc.devRef .tc (Pipeline.arrRef spec0 w) ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_2_arg : (hostOps1_2 : List (HloOp τ sig (Elt F))).Forall fun op => Proc.devRef .tc main_arg0 ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The tail writes no array the region stages. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  tail_cases hostOps1_keeps hostOps1_1_keeps hostOps1_2_keeps

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nothing in the tail writes the argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (by
      intro op hop
      simp only [List.flatten_cons, List.flatten_nil, List.append_nil, List.mem_append] at hop
      rcases hop with h | h | h
      · exact (List.forall_iff_forall_mem.mp hostOps1_arg) op h
      · exact (List.forall_iff_forall_mem.mp hostOps1_1_arg) op h
      · exact (List.forall_iff_forall_mem.mp hostOps1_2_arg) op h),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data over these arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no array of the region and the tail does not write it: a run to the library's frame post leaves it
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's two branch conditions -/

/-- The first branch (reset the accumulators): the time coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulators out): the time coordinate is the last, three. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of output window 1, through which its contents are stated. -/
abbrev VO0_1 : View sig .tc .vmem S16x4 .f32 := (Memref.whole cc0_stg1_0 : Memref sig .tc .vmem S16x4 .f32).view
/-- One staging buffer of output window 2, through which its contents are stated. -/
abbrev VO0_2 : View sig .tc .vmem S16x4 .f32 := (Memref.whole cc0_stg2_0 : Memref sig .tc .vmem S16x4 .f32).view
/-- One staging buffer of output window 3, through which its contents are stated. -/
abbrev VO0_3 : View sig .tc .vmem S16x6 .f32 := (Memref.whole cc0_stg3_0 : Memref sig .tc .vmem S16x6 .f32).view
/-- One staging buffer of output window 4, through which its contents are stated. -/
abbrev VO0_4 : View sig .tc .vmem S16x6 .f32 := (Memref.whole cc0_stg4_0 : Memref sig .tc .vmem S16x6 .f32).view
abbrev ms0_0 (t : Fin cfg0.N) : Memref sig .tc .vmem S16x4x6x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x6 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x6 .f32 := win0_4.stage (cfg0.slots t 4)
abbrev hs0_4 (t : Fin cfg0.N) : (ms0_4 t).IsWhole := hstage0_4 ((cfg0.slots t 4).cast nbuf0_4)
/-- Accumulator 0: a whole scoped buffer of the kernel's own, and the view its contents are stated through. -/
abbrev scM0_0 : Memref sig .tc .vmem S16x4 .f32 := Memref.whole cc0_scratch0
abbrev VS0_0 : View sig .tc .vmem S16x4 .f32 := scM0_0.view
/-- Accumulator 1: a whole scoped buffer of the kernel's own, and the view its contents are stated through. -/
abbrev scM0_1 : Memref sig .tc .vmem S16x4 .f32 := Memref.whole cc0_scratch1
abbrev VS0_1 : View sig .tc .vmem S16x4 .f32 := scM0_1.view
/-- Accumulator 2: a whole scoped buffer of the kernel's own, and the view its contents are stated through. -/
abbrev scM0_2 : Memref sig .tc .vmem S16x6 .f32 := Memref.whole cc0_scratch2
abbrev VS0_2 : View sig .tc .vmem S16x6 .f32 := scM0_2.view
/-- Accumulator 3: a whole scoped buffer of the kernel's own, and the view its contents are stated through. -/
abbrev scM0_3 : Memref sig .tc .vmem S16x6 .f32 := Memref.whole cc0_scratch3
abbrev VS0_3 : View sig .tc .vmem S16x6 .f32 := scM0_3.view

/-- The class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelFrame.RunA.lean ====
/-
  The kernel body run on any whole staging memrefs at the first time tile of a batch tile: the accumulators are reset to zero and then take this tile's sums; nothing is stored into the output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelFrame.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (xi1 : Vec F S16x4 .f32) (xi2 : Vec F S16x4 .f32) (xi3 : Vec F S16x6 .f32) (xi4 : Vec F S16x6 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨[], [], [], [], ?_, ?_, ?_, ?_, fun xi1 xi2 xi3 xi4 E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.KernelFrame.RunB.lean ====
/-
  The kernel body run on any whole staging memrefs at a middle time tile: the accumulators take this tile's sums on top of what the tile before left; nothing is stored into the output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelFrame.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (xi1 : Vec F S16x4 .f32) (xi2 : Vec F S16x4 .f32) (xi3 : Vec F S16x6 .f32) (xi4 : Vec F S16x6 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨[], [], [], [], ?_, ?_, ?_, ?_, fun xi1 xi2 xi3 xi4 E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.KernelFrame.RunC.lean ====
/-
  The kernel body run on any whole staging memrefs at the last time tile of a batch tile: the accumulators take this tile's sums on top of what the tile before left, and are then copied whole into the four output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelFrame.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_C (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨?_, ?_, ?_, ?_, ?_, ?_, ?_, ?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.KernelFrame.Frame.lean ====
/-
  The frame of the reduction kernel, at any float instance. The body has three control cases over the time coordinate of
  a grid point: at the first time tile of a batch tile the four accumulators are reset and take the tile's sums, at the
  middle tiles they add the tile's sums to what the tile before left, and at the last tile they do the same and are then
  copied whole into the four output windows, which are written back only there. Stated here: what each case leaves in
  every buffer it stores into, the contents of the eight buffers after each grid point by recursion on the point, the
  region's invariant (the accumulators at what the point before left), the proof data, the body obligation at every
  point, and the run of the whole entry point: it terminates, faults nowhere, and ends with every staged array at what
  the proof data says and the argument as launched.
-/
import proofs.«168515_j63797444215021_2_alg».proof.Proof.KernelFrame.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four output windows' staging buffers, and the four accumulators. -/
abbrev Outs (F : FTy → Type) [FloatOps F] := Vec F S16x4 .f32 × Vec F S16x4 .f32 × Vec F S16x6 .f32 × Vec F S16x6 .f32
abbrev Scr (F : FTy → Type) [FloatOps F] := Vec F S16x4 .f32 × Vec F S16x4 .f32 × Vec F S16x6 .f32 × Vec F S16x6 .f32

/-- An output window's buffer at a point where the body stores nothing into it: nothing consults it there (the
    window is neither written back nor read at the next point). -/
def idleOut1 : Vec F S16x4 .f32 := VO0_1.read (Elt F) VO0_1.junk
def idleOut2 : Vec F S16x4 .f32 := VO0_2.read (Elt F) VO0_2.junk
def idleOut3 : Vec F S16x6 .f32 := VO0_3.read (Elt F) VO0_3.junk
def idleOut4 : Vec F S16x6 .f32 := VO0_4.read (Elt F) VO0_4.junk

/-! ## What each case leaves -/

/-- Case A's pieces for accumulator 0 tile it, so they cover it. -/
theorem scover0_A_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x4.Idx) :
    ∃ pc ∈ (kernelRun0_A c i arg2 harg2 arg3 harg3 arg4 harg4 arg5 harg5 arg6 harg6 arg7 harg7 arg8 harg8 arg9 harg9 arg10 harg10 hc0 hc1 x0).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.1 S16x4.size (by sl_kernel_rfl) y
/-- What case A leaves in accumulator 0: its pieces read back. -/
def sout0_A_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x4 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0).2.2.2.2.1)
/-- Case A's pieces for accumulator 1 tile it, so they cover it. -/
theorem scover0_A_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x4.Idx) :
    ∃ pc ∈ (kernelRun0_A c i arg2 harg2 arg3 harg3 arg4 harg4 arg5 harg5 arg6 harg6 arg7 harg7 arg8 harg8 arg9 harg9 arg10 harg10 hc0 hc1 x0).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.1 S16x4.size (by sl_kernel_rfl) y
/-- What case A leaves in accumulator 1: its pieces read back. -/
def sout0_A_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x4 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0).2.2.2.2.2.1)
/-- Case A's pieces for accumulator 2 tile it, so they cover it. -/
theorem scover0_A_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x6.Idx) :
    ∃ pc ∈ (kernelRun0_A c i arg2 harg2 arg3 harg3 arg4 harg4 arg5 harg5 arg6 harg6 arg7 harg7 arg8 harg8 arg9 harg9 arg10 harg10 hc0 hc1 x0).2.2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.2.1 S16x6.size (by sl_kernel_rfl) y
/-- What case A leaves in accumulator 2: its pieces read back. -/
def sout0_A_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x6 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0).2.2.2.2.2.2.1)
/-- Case A's pieces for accumulator 3 tile it, so they cover it. -/
theorem scover0_A_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x6.Idx) :
    ∃ pc ∈ (kernelRun0_A c i arg2 harg2 arg3 harg3 arg4 harg4 arg5 harg5 arg6 harg6 arg7 harg7 arg8 harg8 arg9 harg9 arg10 harg10 hc0 hc1 x0).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.2.2.1 S16x6.size (by sl_kernel_rfl) y
/-- What case A leaves in accumulator 3: its pieces read back. -/
def sout0_A_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x6 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0).2.2.2.2.2.2.2.1)

/-- Case B's pieces for accumulator 0 tile it, so they cover it. -/
theorem scover0_B_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.1 S16x4.size (by sl_kernel_rfl) y
/-- What case B leaves in accumulator 0: its pieces read back. -/
def sout0_B_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 xs0 xs1 xs2 xs3).2.2.2.2.1)
/-- Case B's pieces for accumulator 1 tile it, so they cover it. -/
theorem scover0_B_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.1 S16x4.size (by sl_kernel_rfl) y
/-- What case B leaves in accumulator 1: its pieces read back. -/
def sout0_B_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 xs0 xs1 xs2 xs3).2.2.2.2.2.1)
/-- Case B's pieces for accumulator 2 tile it, so they cover it. -/
theorem scover0_B_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.2.1 S16x6.size (by sl_kernel_rfl) y
/-- What case B leaves in accumulator 2: its pieces read back. -/
def sout0_B_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 xs0 xs1 xs2 xs3).2.2.2.2.2.2.1)
/-- Case B's pieces for accumulator 3 tile it, so they cover it. -/
theorem scover0_B_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1 S16x6.size (by sl_kernel_rfl) y
/-- What case B leaves in accumulator 3: its pieces read back. -/
def sout0_B_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1)

/-- Case C's pieces for accumulator 0 tile it, so they cover it. -/
theorem scover0_C_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.1 S16x4.size (by sl_kernel_rfl) y
/-- What case C leaves in accumulator 0: its pieces read back. -/
def sout0_C_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 xs0 xs1 xs2 xs3).2.2.2.2.1)
/-- Case C's pieces for accumulator 1 tile it, so they cover it. -/
theorem scover0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.1 S16x4.size (by sl_kernel_rfl) y
/-- What case C leaves in accumulator 1: its pieces read back. -/
def sout0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 xs0 xs1 xs2 xs3).2.2.2.2.2.1)
/-- Case C's pieces for accumulator 2 tile it, so they cover it. -/
theorem scover0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.2.1 S16x6.size (by sl_kernel_rfl) y
/-- What case C leaves in accumulator 2: its pieces read back. -/
def sout0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 xs0 xs1 xs2 xs3).2.2.2.2.2.2.1)
/-- Case C's pieces for accumulator 3 tile it, so they cover it. -/
theorem scover0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1 S16x6.size (by sl_kernel_rfl) y
/-- What case C leaves in accumulator 3: its pieces read back. -/
def sout0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1)
/-- Case C's one store into output 1 covers its block. -/
theorem cover0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).1 S16x4.size (by sl_kernel_rfl) y
/-- What case C leaves in output 1's staging buffer. -/
def out0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VO0_1.read (Elt F) (VO0_1.writes (Elt F) VO0_1.junk (kernelRun0_C c i arg2 harg2 arg3 harg3 arg4 harg4 arg5 harg5 arg6 harg6 arg7 harg7 arg8 harg8 arg9 harg9 arg10 harg10 hc0 hc1 x0 xs0 xs1 xs2 xs3).1)
/-- Case C's one store into output 2 covers its block. -/
theorem cover0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.1 S16x4.size (by sl_kernel_rfl) y
/-- What case C leaves in output 2's staging buffer. -/
def out0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VO0_2.read (Elt F) (VO0_2.writes (Elt F) VO0_2.junk (kernelRun0_C c i arg2 harg2 arg3 harg3 arg4 harg4 arg5 harg5 arg6 harg6 arg7 harg7 arg8 harg8 arg9 harg9 arg10 harg10 hc0 hc1 x0 xs0 xs1 xs2 xs3).2.1)
/-- Case C's one store into output 3 covers its block. -/
theorem cover0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.1 S16x6.size (by sl_kernel_rfl) y
/-- What case C leaves in output 3's staging buffer. -/
def out0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 xs0 xs1 xs2 xs3).2.2.1)
/-- Case C's one store into output 4 covers its block. -/
theorem cover0_C_4 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.1 S16x6.size (by sl_kernel_rfl) y
/-- What case C leaves in output 4's staging buffer. -/
def out0_C_4 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 xs0 xs1 xs2 xs3).2.2.2.1)

/-! ## The eight buffers after each point -/

/-- The eight buffers after a point of case A. -/
def stepA (c : Dev nD) (t : Fin cfg0.N) (h0 : t.val % 4 = 0) (h1 : ¬t.val % 4 = 3) : Outs F × Scr F :=
  ((idleOut1,
    idleOut2,
    idleOut3,
    idleOut4),
   (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)))

/-- The eight buffers after a point of case B, over the accumulators as the point before left them. -/
def stepB (c : Dev nD) (t : Fin cfg0.N) (h0 : ¬t.val % 4 = 0) (h1 : ¬t.val % 4 = 3) (prev : Scr F) : Outs F × Scr F :=
  ((idleOut1,
    idleOut2,
    idleOut3,
    idleOut4),
   (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2))

/-- The eight buffers after a point of case C, over the accumulators as the point before left them. -/
def stepC (c : Dev nD) (t : Fin cfg0.N) (h0 : ¬t.val % 4 = 0) (h1 : t.val % 4 = 3) (prev : Scr F) : Outs F × Scr F :=
  ((out0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2),
   (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2))

/-- What the outputs' staging buffers and the accumulators hold after the body at position `n`: the case the time
    coordinate selects, run at the point's memrefs and input block, over the accumulators as position `n - 1` left them. -/
def outsAt0 (c : Dev nD) : (n : ℕ) → n < cfg0.N → Outs F × Scr F
  | 0, hn => stepA m c ⟨0, hn⟩ (Nat.zero_mod _) (show ¬(0 % 4 = 3) by decide)
  | n + 1, hn =>
    if h0 : (n + 1) % 4 = 0 then
      if h1 : (n + 1) % 4 = 3 then
        False.elim (by omega)
      else
        stepA m c ⟨n + 1, hn⟩ h0 h1
    else
      if h1 : (n + 1) % 4 = 3 then
        stepC m c ⟨n + 1, hn⟩ h0 h1 (outsAt0 c n (Nat.lt_of_succ_lt hn)).2
      else
        stepB m c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = stepB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class invariant (every accumulator at anything); afterwards each
    accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data -/

/-- The arrays as the region finds them; after the body at point `t` the input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1.1
    | ⟨2, _⟩ => (outsAt0 m c t.val t.isLt).1.2.1
    | ⟨3, _⟩ => (outsAt0 m c t.val t.isLt).1.2.2.1
    | ⟨4, _⟩ => (outsAt0 m c t.val t.isLt).1.2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1.1 := by dsimp only [dats]
theorem after0_2 (c : Dev nD) (t : Fin cfg0.N) : (dats m 0 c).after 2 t = (outsAt0 m c t.val t.isLt).1.2.1 := by dsimp only [dats]
theorem after0_3 (c : Dev nD) (t : Fin cfg0.N) : (dats m 0 c).after 3 t = (outsAt0 m c t.val t.isLt).1.2.2.1 := by dsimp only [dats]
theorem after0_4 (c : Dev nD) (t : Fin cfg0.N) : (dats m 0 c).after 4 t = (outsAt0 m c t.val t.isLt).1.2.2.2 := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 16000000 in
/-- The body at any point. The time coordinate says which case the point is in; the input's memref holds its block; the
    invariant hands the body the accumulators (at anything at the region's entry, else at what the point before left) and
    takes them back at this point's contents, which the case's pieces cover; an output the case does not store into is
    handed back untouched, and at the last time tile each output's one store covers its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold stepA sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t)).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t)).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1_C t (fun h => h0 ((hcond0_0 t).mp h)) ((hcond0_1 t).mpr h1)], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold stepC out0_C_1 out0_C_2 out0_C_3 out0_C_4 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk m c 0 t) _ _ _ _).2.2.2.2.2.2.2.2 Set.univ _)
        isplitl [H0]; · iexact H0
        isplitl [H1]; · iexists _; iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        isplitl [HS3]; · iexact HS3
        iintro ⟨H0, ⟨%e1, H1⟩, ⟨%e2, H2⟩, ⟨%e3, H3⟩, ⟨%e4, H4⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _)
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _ _ _ _ _ _ _ _ _ _ _)
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold stepB sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) _ _ _ _).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the entry point terminates, and every final state
    has each staged array at what the library computes from the proof data and every other unscoped buffer as the
    tail leaves it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the entry point runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Hand

end
-- ==== Proof.KernelIdealFrame.Base.lean ====
/-
  The launch side of the reduction kernel's frame: the program's entry point is one reshape of the argument, the
  region (a 16 × 4 grid: sixteen batch tiles, four time tiles each), and a tail of host operations that
  turn the four accumulated moment arrays into the fourteen features. Stated here: the buffer contents when the
  region is entered, that the tail's operations touch no scoped buffer, allocate nothing and write neither the argument
  nor any array the region stages, the two branch conditions of the body in closed form over the grid (the first time
  tile of a batch tile resets the accumulators, the last one copies them out), and where each output window is idle.
-/
import proofs.«168515_j63797444215021_2_alg».proof.Proof.Gen.KernelIdeal.Launch
import proofs.«168515_j63797444215021_2_alg».proof.Proof.Gen.KernelIdeal.Skeleton
import proofs.«168515_j63797444215021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point around the region -/

/-- A core's buffer contents when the region is entered: the launch memory after the one reshape. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The entry point is the reshape, the region, and the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2])) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- Membership in one of the tail's three stretches. -/
theorem tail_cases {Q : HloOp τ sig (Elt F) → Prop}
    (h1 : (hostOps1 : List (HloOp τ sig (Elt F))).Forall Q) (h2 : (hostOps1_1 : List (HloOp τ sig (Elt F))).Forall Q)
    (h3 : (hostOps1_2 : List (HloOp τ sig (Elt F))).Forall Q) :
    ∀ ops ∈ ([hostOps1, hostOps1_1, hostOps1_2] : List (List (HloOp τ sig (Elt F)))), ∀ op ∈ ops, Q op := by
  intro ops hops op hop
  simp only [List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

/-- The tail touches unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- It allocates nothing. -/
theorem sfx_fresh : ∀ ops ∈ ([hostOps1, hostOps1_1, hostOps1_2] : List (List (HloOp τ sig (Elt F)))), ∀ op ∈ ops, op.fresh = ∅ :=
  tail_cases hostOps1_fresh hostOps1_1_fresh hostOps1_2_fresh

/-! ## What the operations around the region write -/

/-- No operation of this stretch writes an array the region stages. -/
theorem hostOps1_keeps : (hostOps1 : List (HloOp τ sig (Elt F))).Forall fun op => ∀ w, Proc.devRef .tc (Pipeline.arrRef spec0 w) ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_arg : (hostOps1 : List (HloOp τ sig (Elt F))).Forall fun op => Proc.devRef .tc main_arg0 ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No operation of this stretch writes an array the region stages. -/
theorem hostOps1_1_keeps : (hostOps1_1 : List (HloOp τ sig (Elt F))).Forall fun op => ∀ w, Proc.devRef .tc (Pipeline.arrRef spec0 w) ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_1_arg : (hostOps1_1 : List (HloOp τ sig (Elt F))).Forall fun op => Proc.devRef .tc main_arg0 ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- No operation of this stretch writes an array the region stages. -/
theorem hostOps1_2_keeps : (hostOps1_2 : List (HloOp τ sig (Elt F))).Forall fun op => ∀ w, Proc.devRef .tc (Pipeline.arrRef spec0 w) ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals intro w; fin_cases w <;> exact StableHlo.devRef_ne_of_ne (by decide)
/-- Nor the argument. -/
theorem hostOps1_2_arg : (hostOps1_2 : List (HloOp τ sig (Elt F))).Forall fun op => Proc.devRef .tc main_arg0 ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The tail writes no array the region stages. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  tail_cases hostOps1_keeps hostOps1_1_keeps hostOps1_2_keeps

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nothing in the tail writes the argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (by
      intro op hop
      simp only [List.flatten_cons, List.flatten_nil, List.append_nil, List.mem_append] at hop
      rcases hop with h | h | h
      · exact (List.forall_iff_forall_mem.mp hostOps1_arg) op h
      · exact (List.forall_iff_forall_mem.mp hostOps1_1_arg) op h
      · exact (List.forall_iff_forall_mem.mp hostOps1_2_arg) op h),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data over these arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no array of the region and the tail does not write it: a run to the library's frame post leaves it
    as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's two branch conditions -/

/-- The first branch (reset the accumulators): the time coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulators out): the time coordinate is the last, three. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of output window 1, through which its contents are stated. -/
abbrev VO0_1 : View sig .tc .vmem S16x4 .f32 := (Memref.whole cc0_stg1_0 : Memref sig .tc .vmem S16x4 .f32).view
/-- One staging buffer of output window 2, through which its contents are stated. -/
abbrev VO0_2 : View sig .tc .vmem S16x4 .f32 := (Memref.whole cc0_stg2_0 : Memref sig .tc .vmem S16x4 .f32).view
/-- One staging buffer of output window 3, through which its contents are stated. -/
abbrev VO0_3 : View sig .tc .vmem S16x6 .f32 := (Memref.whole cc0_stg3_0 : Memref sig .tc .vmem S16x6 .f32).view
/-- One staging buffer of output window 4, through which its contents are stated. -/
abbrev VO0_4 : View sig .tc .vmem S16x6 .f32 := (Memref.whole cc0_stg4_0 : Memref sig .tc .vmem S16x6 .f32).view
abbrev ms0_0 (t : Fin cfg0.N) : Memref sig .tc .vmem S16x4x6x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x6 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x6 .f32 := win0_4.stage (cfg0.slots t 4)
abbrev hs0_4 (t : Fin cfg0.N) : (ms0_4 t).IsWhole := hstage0_4 ((cfg0.slots t 4).cast nbuf0_4)
/-- Accumulator 0: a whole scoped buffer of the kernel's own, and the view its contents are stated through. -/
abbrev scM0_0 : Memref sig .tc .vmem S16x4 .f32 := Memref.whole cc0_scratch0
abbrev VS0_0 : View sig .tc .vmem S16x4 .f32 := scM0_0.view
/-- Accumulator 1: a whole scoped buffer of the kernel's own, and the view its contents are stated through. -/
abbrev scM0_1 : Memref sig .tc .vmem S16x4 .f32 := Memref.whole cc0_scratch1
abbrev VS0_1 : View sig .tc .vmem S16x4 .f32 := scM0_1.view
/-- Accumulator 2: a whole scoped buffer of the kernel's own, and the view its contents are stated through. -/
abbrev scM0_2 : Memref sig .tc .vmem S16x6 .f32 := Memref.whole cc0_scratch2
abbrev VS0_2 : View sig .tc .vmem S16x6 .f32 := scM0_2.view
/-- Accumulator 3: a whole scoped buffer of the kernel's own, and the view its contents are stated through. -/
abbrev scM0_3 : Memref sig .tc .vmem S16x6 .f32 := Memref.whole cc0_scratch3
abbrev VS0_3 : View sig .tc .vmem S16x6 .f32 := scM0_3.view

/-- The class invariant with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KernelIdealFrame.RunA.lean ====
/-
  The kernel body run on any whole staging memrefs at the first time tile of a batch tile: the accumulators are reset to zero and then take this tile's sums; nothing is stored into the output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelIdealFrame.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (xi1 : Vec F S16x4 .f32) (xi2 : Vec F S16x4 .f32) (xi3 : Vec F S16x6 .f32) (xi4 : Vec F S16x6 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨[], [], [], [], ?_, ?_, ?_, ?_, fun xi1 xi2 xi3 xi4 E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KernelIdealFrame.RunB.lean ====
/-
  The kernel body run on any whole staging memrefs at a middle time tile: the accumulators take this tile's sums on top of what the tile before left; nothing is stored into the output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelIdealFrame.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (xi1 : Vec F S16x4 .f32) (xi2 : Vec F S16x4 .f32) (xi3 : Vec F S16x6 .f32) (xi4 : Vec F S16x6 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare xi1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨[], [], [], [], ?_, ?_, ?_, ?_, fun xi1 xi2 xi3 xi4 E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KernelIdealFrame.RunC.lean ====
/-
  The kernel body run on any whole staging memrefs at the last time tile of a batch tile: the accumulators take this tile's sums on top of what the tile before left, and are then copied whole into the four output windows.
  The run yields, for every buffer the body stores into, the list of pieces its stores leave (last first), together with
  the triple: from the input block at its contents, the outputs and the accumulators as this case finds them, the body
  runs to the end and leaves every buffer with exactly those pieces written.
-/
import proofs.«168515_j63797444215021_2_alg».proof.Proof.KernelIdealFrame.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_C (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) :
    Σ' (L1 : List (View.Piece (Elt F) S16x4 .f32)) (L2 : List (View.Piece (Elt F) S16x4 .f32)) (L3 : List (View.Piece (Elt F) S16x6 .f32)) (L4 : List (View.Piece (Elt F) S16x6 .f32))
      (LS0 : List (View.Piece (Elt F) S16x4 .f32)) (LS1 : List (View.Piece (Elt F) S16x4 .f32)) (LS2 : List (View.Piece (Elt F) S16x6 .f32)),
      { LS3 : List (View.Piece (Elt F) S16x6 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10) K } := by
  refine ⟨?_, ?_, ?_, ?_, ?_, ?_, ?_, ?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KernelIdealFrame.Frame.lean ====
/-
  The frame of the reduction kernel, at any float instance. The body has three control cases over the time coordinate of
  a grid point: at the first time tile of a batch tile the four accumulators are reset and take the tile's sums, at the
  middle tiles they add the tile's sums to what the tile before left, and at the last tile they do the same and are then
  copied whole into the four output windows, which are written back only there. Stated here: what each case leaves in
  every buffer it stores into, the contents of the eight buffers after each grid point by recursion on the point, the
  region's invariant (the accumulators at what the point before left), the proof data, the body obligation at every
  point, and the run of the whole entry point: it terminates, faults nowhere, and ends with every staged array at what
  the proof data says and the argument as launched.
-/
import proofs.«168515_j63797444215021_2_alg».proof.Proof.KernelIdealFrame.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four output windows' staging buffers, and the four accumulators. -/
abbrev Outs (F : FTy → Type) [FloatOps F] := Vec F S16x4 .f32 × Vec F S16x4 .f32 × Vec F S16x6 .f32 × Vec F S16x6 .f32
abbrev Scr (F : FTy → Type) [FloatOps F] := Vec F S16x4 .f32 × Vec F S16x4 .f32 × Vec F S16x6 .f32 × Vec F S16x6 .f32

/-- An output window's buffer at a point where the body stores nothing into it: nothing consults it there (the
    window is neither written back nor read at the next point). -/
def idleOut1 : Vec F S16x4 .f32 := VO0_1.read (Elt F) VO0_1.junk
def idleOut2 : Vec F S16x4 .f32 := VO0_2.read (Elt F) VO0_2.junk
def idleOut3 : Vec F S16x6 .f32 := VO0_3.read (Elt F) VO0_3.junk
def idleOut4 : Vec F S16x6 .f32 := VO0_4.read (Elt F) VO0_4.junk

/-! ## What each case leaves -/

/-- Case A's pieces for accumulator 0 tile it, so they cover it. -/
theorem scover0_A_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x4.Idx) :
    ∃ pc ∈ (kernelRun0_A c i arg2 harg2 arg3 harg3 arg4 harg4 arg5 harg5 arg6 harg6 arg7 harg7 arg8 harg8 arg9 harg9 arg10 harg10 hc0 hc1 x0).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.1 S16x4.size (by sl_kernel_rfl) y
/-- What case A leaves in accumulator 0: its pieces read back. -/
def sout0_A_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x4 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0).2.2.2.2.1)
/-- Case A's pieces for accumulator 1 tile it, so they cover it. -/
theorem scover0_A_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x4.Idx) :
    ∃ pc ∈ (kernelRun0_A c i arg2 harg2 arg3 harg3 arg4 harg4 arg5 harg5 arg6 harg6 arg7 harg7 arg8 harg8 arg9 harg9 arg10 harg10 hc0 hc1 x0).2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.1 S16x4.size (by sl_kernel_rfl) y
/-- What case A leaves in accumulator 1: its pieces read back. -/
def sout0_A_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x4 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0).2.2.2.2.2.1)
/-- Case A's pieces for accumulator 2 tile it, so they cover it. -/
theorem scover0_A_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x6.Idx) :
    ∃ pc ∈ (kernelRun0_A c i arg2 harg2 arg3 harg3 arg4 harg4 arg5 harg5 arg6 harg6 arg7 harg7 arg8 harg8 arg9 harg9 arg10 harg10 hc0 hc1 x0).2.2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.2.1 S16x6.size (by sl_kernel_rfl) y
/-- What case A leaves in accumulator 2: its pieces read back. -/
def sout0_A_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x6 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0).2.2.2.2.2.2.1)
/-- Case A's pieces for accumulator 3 tile it, so they cover it. -/
theorem scover0_A_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) (y : S16x6.Idx) :
    ∃ pc ∈ (kernelRun0_A c i arg2 harg2 arg3 harg3 arg4 harg4 arg5 harg5 arg6 harg6 arg7 harg7 arg8 harg8 arg9 harg9 arg10 harg10 hc0 hc1 x0).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0).2.2.2.2.2.2.2.1 S16x6.size (by sl_kernel_rfl) y
/-- What case A leaves in accumulator 3: its pieces read back. -/
def sout0_A_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i)
    (x0 : Vec F S16x4x6x8192 .f32) : Vec F S16x6 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 x0).2.2.2.2.2.2.2.1)

/-- Case B's pieces for accumulator 0 tile it, so they cover it. -/
theorem scover0_B_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.1 S16x4.size (by sl_kernel_rfl) y
/-- What case B leaves in accumulator 0: its pieces read back. -/
def sout0_B_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 xs0 xs1 xs2 xs3).2.2.2.2.1)
/-- Case B's pieces for accumulator 1 tile it, so they cover it. -/
theorem scover0_B_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.1 S16x4.size (by sl_kernel_rfl) y
/-- What case B leaves in accumulator 1: its pieces read back. -/
def sout0_B_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 xs0 xs1 xs2 xs3).2.2.2.2.2.1)
/-- Case B's pieces for accumulator 2 tile it, so they cover it. -/
theorem scover0_B_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.2.1 S16x6.size (by sl_kernel_rfl) y
/-- What case B leaves in accumulator 2: its pieces read back. -/
def sout0_B_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 xs0 xs1 xs2 xs3).2.2.2.2.2.2.1)
/-- Case B's pieces for accumulator 3 tile it, so they cover it. -/
theorem scover0_B_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1 S16x6.size (by sl_kernel_rfl) y
/-- What case B leaves in accumulator 3: its pieces read back. -/
def sout0_B_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 x0 xs0 xs1 xs2 xs3).2.2.2.2.2.2.2.1)

/-- Case C's pieces for accumulator 0 tile it, so they cover it. -/
theorem scover0_C_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.1 S16x4.size (by sl_kernel_rfl) y
/-- What case C leaves in accumulator 0: its pieces read back. -/
def sout0_C_0 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 xs0 xs1 xs2 xs3).2.2.2.2.1)
/-- Case C's pieces for accumulator 1 tile it, so they cover it. -/
theorem scover0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.1 S16x4.size (by sl_kernel_rfl) y
/-- What case C leaves in accumulator 1: its pieces read back. -/
def sout0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 xs0 xs1 xs2 xs3).2.2.2.2.2.1)
/-- Case C's pieces for accumulator 2 tile it, so they cover it. -/
theorem scover0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.2.1 S16x6.size (by sl_kernel_rfl) y
/-- What case C leaves in accumulator 2: its pieces read back. -/
def sout0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 xs0 xs1 xs2 xs3).2.2.2.2.2.2.1)
/-- Case C's pieces for accumulator 3 tile it, so they cover it. -/
theorem scover0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1 S16x6.size (by sl_kernel_rfl) y
/-- What case C leaves in accumulator 3: its pieces read back. -/
def sout0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 x0 xs0 xs1 xs2 xs3).2.2.2.2.2.2.2.1)
/-- Case C's one store into output 1 covers its block. -/
theorem cover0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).1 S16x4.size (by sl_kernel_rfl) y
/-- What case C leaves in output 1's staging buffer. -/
def out0_C_1 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VO0_1.read (Elt F) (VO0_1.writes (Elt F) VO0_1.junk (kernelRun0_C c i arg2 harg2 arg3 harg3 arg4 harg4 arg5 harg5 arg6 harg6 arg7 harg7 arg8 harg8 arg9 harg9 arg10 harg10 hc0 hc1 x0 xs0 xs1 xs2 xs3).1)
/-- Case C's one store into output 2 covers its block. -/
theorem cover0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x4.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.1 S16x4.size (by sl_kernel_rfl) y
/-- What case C leaves in output 2's staging buffer. -/
def out0_C_2 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x4 .f32 :=
  VO0_2.read (Elt F) (VO0_2.writes (Elt F) VO0_2.junk (kernelRun0_C c i arg2 harg2 arg3 harg3 arg4 harg4 arg5 harg5 arg6 harg6 arg7 harg7 arg8 harg8 arg9 harg9 arg10 harg10 hc0 hc1 x0 xs0 xs1 xs2 xs3).2.1)
/-- Case C's one store into output 3 covers its block. -/
theorem cover0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.1 S16x6.size (by sl_kernel_rfl) y
/-- What case C leaves in output 3's staging buffer. -/
def out0_C_3 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 xs0 xs1 xs2 xs3).2.2.1)
/-- Case C's one store into output 4 covers its block. -/
theorem cover0_C_4 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) (y : S16x6.Idx) :
    ∃ pc ∈ (kernelRun0_C c i arg2 harg2 arg3 harg3 arg4 harg4 arg5 harg5 arg6 harg6 arg7 harg7 arg8 harg8 arg9 harg9 arg10 harg10 hc0 hc1 x0 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 xs0 xs1 xs2 xs3).2.2.2.1 S16x6.size (by sl_kernel_rfl) y
/-- What case C leaves in output 4's staging buffer. -/
def out0_C_4 (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i)
    (x0 : Vec F S16x4x6x8192 .f32) (xs0 : Vec F S16x4 .f32) (xs1 : Vec F S16x4 .f32) (xs2 : Vec F S16x6 .f32) (xs3 : Vec F S16x6 .f32) : Vec F S16x6 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 xs0 xs1 xs2 xs3).2.2.2.1)

/-! ## The eight buffers after each point -/

/-- The eight buffers after a point of case A. -/
def stepA (c : Dev nD) (t : Fin cfg0.N) (h0 : t.val % 4 = 0) (h1 : ¬t.val % 4 = 3) : Outs F × Scr F :=
  ((idleOut1,
    idleOut2,
    idleOut3,
    idleOut4),
   (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)))

/-- The eight buffers after a point of case B, over the accumulators as the point before left them. -/
def stepB (c : Dev nD) (t : Fin cfg0.N) (h0 : ¬t.val % 4 = 0) (h1 : ¬t.val % 4 = 3) (prev : Scr F) : Outs F × Scr F :=
  ((idleOut1,
    idleOut2,
    idleOut3,
    idleOut4),
   (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2,
    sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2))

/-- The eight buffers after a point of case C, over the accumulators as the point before left them. -/
def stepC (c : Dev nD) (t : Fin cfg0.N) (h0 : ¬t.val % 4 = 0) (h1 : t.val % 4 = 3) (prev : Scr F) : Outs F × Scr F :=
  ((out0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2),
   (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2,
    sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2))

/-- What the outputs' staging buffers and the accumulators hold after the body at position `n`: the case the time
    coordinate selects, run at the point's memrefs and input block, over the accumulators as position `n - 1` left them. -/
def outsAt0 (c : Dev nD) : (n : ℕ) → n < cfg0.N → Outs F × Scr F
  | 0, hn => stepA m c ⟨0, hn⟩ (Nat.zero_mod _) (show ¬(0 % 4 = 3) by decide)
  | n + 1, hn =>
    if h0 : (n + 1) % 4 = 0 then
      if h1 : (n + 1) % 4 = 3 then
        False.elim (by omega)
      else
        stepA m c ⟨n + 1, hn⟩ h0 h1
    else
      if h1 : (n + 1) % 4 = 3 then
        stepC m c ⟨n + 1, hn⟩ h0 h1 (outsAt0 c n (Nat.lt_of_succ_lt hn)).2
      else
        stepB m c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = stepB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class invariant (every accumulator at anything); afterwards each
    accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data -/

/-- The arrays as the region finds them; after the body at point `t` the input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1.1
    | ⟨2, _⟩ => (outsAt0 m c t.val t.isLt).1.2.1
    | ⟨3, _⟩ => (outsAt0 m c t.val t.isLt).1.2.2.1
    | ⟨4, _⟩ => (outsAt0 m c t.val t.isLt).1.2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1.1 := by dsimp only [dats]
theorem after0_2 (c : Dev nD) (t : Fin cfg0.N) : (dats m 0 c).after 2 t = (outsAt0 m c t.val t.isLt).1.2.1 := by dsimp only [dats]
theorem after0_3 (c : Dev nD) (t : Fin cfg0.N) : (dats m 0 c).after 3 t = (outsAt0 m c t.val t.isLt).1.2.2.1 := by dsimp only [dats]
theorem after0_4 (c : Dev nD) (t : Fin cfg0.N) : (dats m 0 c).after 4 t = (outsAt0 m c t.val t.isLt).1.2.2.2 := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 16000000 in
/-- The body at any point. The time coordinate says which case the point is in; the input's memref holds its block; the
    invariant hands the body the accumulators (at anything at the region's entry, else at what the point before left) and
    takes them back at this point's contents, which the case's pieces cover; an output the case does not store into is
    handed back untouched, and at the last time tile each output's one store covers its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold stepA sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t)).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (iblk m c 0 t)).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1_C t (fun h => h0 ((hcond0_0 t).mp h)) ((hcond0_1 t).mpr h1)], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold stepC out0_C_1 out0_C_2 out0_C_3 out0_C_4 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) ((hcond0_1 t).mpr h1) (iblk m c 0 t) _ _ _ _).2.2.2.2.2.2.2.2 Set.univ _)
        isplitl [H0]; · iexact H0
        isplitl [H1]; · iexists _; iexact H1
        isplitl [H2]; · iexists _; iexact H2
        isplitl [H3]; · iexists _; iexact H3
        isplitl [H4]; · iexists _; iexact H4
        isplitl [HS0]; · iexact HS0
        isplitl [HS1]; · iexact HS1
        isplitl [HS2]; · iexact HS2
        isplitl [HS3]; · iexact HS3
        iintro ⟨H0, ⟨%e1, H1⟩, ⟨%e2, H2⟩, ⟨%e3, H3⟩, ⟨%e4, H4⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _)
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _ _ _ _ _ _ _ _ _ _ _)
        isplitl [H2]
        · unfold owns; iexists _; isplitr
          swap; · iexact H2
          ipureintro; exact View.read_writes_of_cover _ _ _ _ _ (cover0_C_2 c _ _ _ _ _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold stepB sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) _ _ _ _).2.2.2.2.2.2.2.2 _ _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the entry point terminates, and every final state
    has each staged array at what the library computes from the proof data and every other unscoped buffer as the
    tail leaves it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the entry point runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Hand

end
-- ==== Proof.Spec.lean ====
/-
  The quantities both programs are made of. The argument is read as batch × motor × channel × time,
  256 × 4 × 6 × 32768 extended reals. For a batch row and motors i, k: the sum of motor i over channels and time, the
  sum of the products of motors i and k, and the sum of the absolute differences of motors i and k (the absolute value
  of an extended real being the larger of it and its negative). Each motor signal has 6 · 32768 = 196608 entries.
-/
import Idealize.ShloMosaic.PureOps.Ideal
import Idealize.ShloMosaic.Lib.ValueIdx

noncomputable section

namespace Cert.Spec

open Idealize.ShloMosaic Idealize.ShloMosaic.ValueIdx
open scoped BigOperators

/-- The argument as batch × motor × channel × time. -/
abbrev Arr4 : Type := (⟨4, ![256, 4, 6, 32768]⟩ : Shape).Idx → EReal

/-- The sum of motor `i` of batch row `b` over channels and time. -/
def sum1 (X : Arr4) (b : Fin 256) (i : Fin 4) : EReal :=
  ∑ ch : Fin 6, ∑ t : Fin 32768, X (ix4 b i ch t)

/-- The sum of the products of motors `i` and `k` of batch row `b`. -/
def sum2 (X : Arr4) (b : Fin 256) (i k : Fin 4) : EReal :=
  ∑ ch : Fin 6, ∑ t : Fin 32768, X (ix4 b i ch t) * X (ix4 b k ch t)

/-- The sum of the absolute differences of motors `i` and `k` of batch row `b`. -/
def sumAbs (X : Arr4) (b : Fin 256) (i k : Fin 4) : EReal :=
  ∑ ch : Fin 6, ∑ t : Fin 32768, max (X (ix4 b i ch t) - X (ix4 b k ch t)) (-(X (ix4 b i ch t) - X (ix4 b k ch t)))

/-- The six motor pairs whose correlation is taken, in the order of the result's columns 2 … 7. -/
def corrPair : Fin 6 → Fin 4 × Fin 4 := ![(0, 1), (0, 2), (0, 3), (1, 2), (1, 3), (2, 3)]

/-- The six motor pairs whose mean absolute difference is taken, in the order of the result's columns 8 … 13. -/
def diffPair : Fin 6 → Fin 4 × Fin 4 := ![(0, 2), (1, 3), (0, 1), (1, 2), (2, 3), (3, 0)]

end Cert.Spec

end
-- ==== Proof.KernelIdealValue.Tiles.lean ====
/-
  The four tiles of sums the reduction kernel forms from one input block, read at an index over the extended reals.
  A block is batch row × motor × channel × time, 16 × 4 × 6 × 8192. Motor `k`'s slab is the block's unit-stride rectangle
  at offset (0, k, 0, 0) with the unit motor axis dropped: at (r, ch, l) it is the block at (r, k, ch, l). A sum over
  the lanes followed by a sum over the channels, viewed as a column, is the double sum over channels and lanes; the
  concatenation of columns along axis 1 reads, at column `i`, its `i`-th piece. So the four tiles are, at batch row `r`:
  column `i` of the first the sum of motor `i`; of the second the sum of its squares; column `p` of the third the sum of
  the products of the `p`-th correlation pair of motors; of the fourth the sum of the absolute differences of the `p`-th
  difference pair (the absolute value of an extended real being the larger of it and its negative). Adding a tile to an
  accumulator is pointwise addition, and the block the reset stores is zero.
-/
import proofs.«168515_j63797444215021_2_alg».proof.Proof.KernelIdealFrame.Frame
import proofs.«168515_j63797444215021_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open scoped BigOperators

section Generic
variable {F : FTy → Type} [FloatOps F]

theorem hz2 : (![0, 0] : Fin 2 → Nat) = fun _ => 0 := funext fun a => by fin_cases a <;> rfl

/-- Motor 0's slab of an input block. -/
abbrev slab0 (x0 : Vec F S16x4x6x8192 .f32) : Vec F S16x1x6x8192 .f32 :=
  View.ld x0 (Rect.unit (s := S16x4x6x8192) ![0, 0, 0, 0] S16x1x6x8192.size inb_S16x4x6x8192_S16x1x6x8192_0_0_0_0)
/-- Motor 1's slab. -/
abbrev slab1 (x0 : Vec F S16x4x6x8192 .f32) : Vec F S16x1x6x8192 .f32 :=
  View.ld x0 (Rect.unit (s := S16x4x6x8192) ![0, 1, 0, 0] S16x1x6x8192.size inb_S16x4x6x8192_S16x1x6x8192_0_1_0_0)
/-- Motor 2's slab. -/
abbrev slab2 (x0 : Vec F S16x4x6x8192 .f32) : Vec F S16x1x6x8192 .f32 :=
  View.ld x0 (Rect.unit (s := S16x4x6x8192) ![0, 2, 0, 0] S16x1x6x8192.size inb_S16x4x6x8192_S16x1x6x8192_0_2_0_0)
/-- Motor 3's slab. -/
abbrev slab3 (x0 : Vec F S16x4x6x8192 .f32) : Vec F S16x1x6x8192 .f32 :=
  View.ld x0 (Rect.unit (s := S16x4x6x8192) ![0, 3, 0, 0] S16x1x6x8192.size inb_S16x4x6x8192_S16x1x6x8192_0_3_0_0)

/-- The tile of per-motor sums of a block. -/
abbrev tileSum (x0 : Vec F S16x4x6x8192 .f32) : FVec F S16x4 .f32 :=
  k0_pay11 (slab0 x0) (slab1 x0) (slab2 x0) (slab3 x0)
/-- The tile of per-motor sums of squares. -/
abbrev tileSq (x0 : Vec F S16x4x6x8192 .f32) : FVec F S16x4 .f32 :=
  k0_pay14 (k0_pay9 (slab2 x0)) (k0_pay10 (slab3 x0)) (k0_pay12 (slab0 x0)) (k0_pay13 (slab1 x0))
/-- The tile of the six cross-product sums. -/
abbrev tileProd (x0 : Vec F S16x4x6x8192 .f32) : FVec F S16x6 .f32 :=
  k0_pay15 (k0_pay7 (slab0 x0)) (k0_pay8 (slab1 x0)) (k0_pay9 (slab2 x0)) (k0_pay10 (slab3 x0))
/-- The tile of the six sums of absolute differences. -/
abbrev tileAbs (x0 : Vec F S16x4x6x8192 .f32) : FVec F S16x6 .f32 :=
  k0_pay17 (k0_pay7 (slab0 x0)) (k0_pay8 (slab1 x0)) (k0_pay9 (slab2 x0)) (k0_pay10 (slab3 x0))
    (k0_pay16 (k0_pay7 (slab0 x0)) (k0_pay9 (slab2 x0)))

end Generic

/-! ## One block's sums -/

/-- The sum of motor `i` of batch row `r` of a block over channels and lanes. -/
def bsum1 (x : Vec Ideal S16x4x6x8192 .f32) (r : Fin 16) (i : Fin 4) : EReal :=
  ∑ ch : Fin 6, ∑ l : Fin 8192, x (ix4 r i ch l)
/-- The sum of the products of motors `i` and `k`. -/
def bsum2 (x : Vec Ideal S16x4x6x8192 .f32) (r : Fin 16) (i k : Fin 4) : EReal :=
  ∑ ch : Fin 6, ∑ l : Fin 8192, x (ix4 r i ch l) * x (ix4 r k ch l)
/-- The sum of the absolute differences of motors `i` and `k`. -/
def bsumAbs (x : Vec Ideal S16x4x6x8192 .f32) (r : Fin 16) (i k : Fin 4) : EReal :=
  ∑ ch : Fin 6, ∑ l : Fin 8192, max (x (ix4 r i ch l) - x (ix4 r k ch l)) (-(x (ix4 r i ch l) - x (ix4 r k ch l)))

/-! ## The layout steps at an index -/

/-- A motor's slab with its unit axis dropped, at (r, ch, l): the block at (r, k, ch, l). -/
theorem slab_apply (x : Vec Ideal S16x4x6x8192 .f32) (off : Fin 4 → Nat) (k : Fin 4) (hoff : off = ![0, k.val, 0, 0])
    (inb : ∀ a, off a + S16x1x6x8192.size a ≤ S16x4x6x8192.size a) (h : S16x1x6x8192.ShapeCasts S16x6x8192)
    (r : Fin 16) (ch : Fin 6) (l : Fin 8192) :
    shapeCast S16x6x8192 (View.ld x (Rect.unit (s := S16x4x6x8192) off S16x1x6x8192.size inb)) h (ix3 r ch l) = x (ix4 r k ch l) := by
  subst hoff
  refine (shapeCast_apply _ h (ix3 r ch l) (ix4 r (0 : Fin 1) ch l) ?_).trans ?_
  · rw [Shape.rowMajor_val_four, Shape.rowMajor_val_three]
    show ((r.val * 1 + 0) * 6 + ch.val) * 8192 + l.val = (r.val * 6 + ch.val) * 8192 + l.val
    omega
  · show x _ = x _
    refine congrArg x (funext fun a => Fin.ext ?_)
    match a with
    | ⟨0, _⟩ => show 0 + 1 * r.val = r.val; omega
    | ⟨1, _⟩ => show k.val + 1 * 0 = k.val; omega
    | ⟨2, _⟩ => show 0 + 1 * ch.val = ch.val; omega
    | ⟨3, _⟩ => show 0 + 1 * l.val = l.val; omega

/-- A sum over the lanes at (r, ch). -/
theorem lanes_apply (v : FVec Ideal S16x6x8192 .f32) (hφ : FKind.Formats .f32)
    (hacc : (0x00000000#32 : BitVec 32) = FKind.add.neutral .f32 hφ) (r : Fin 16) (ch : Fin 6) :
    multiReduction .add [2] S16x6 v 0x00000000#32 reduces_S16x6x8192_S16x6 hφ hacc (ix2 r ch) = ∑ l : Fin 8192, v (ix3 r ch l) := by
  refine (Ideal.multiReduction_add_single v 0x00000000#32 reduces_S16x6x8192_S16x6 hφ hacc (ix2 r ch)).trans ?_
  show ∑ l : Fin 8192, v _ = _
  refine Finset.sum_congr rfl fun l _ => congrArg v (funext fun a => Fin.ext ?_)
  match a with
  | ⟨0, _⟩ => rfl
  | ⟨1, _⟩ => rfl
  | ⟨2, _⟩ => rfl

/-- A sum over the channels at r. -/
theorem chans_apply (w : FVec Ideal S16x6 .f32) (hφ : FKind.Formats .f32)
    (hacc : (0x00000000#32 : BitVec 32) = FKind.add.neutral .f32 hφ) (r : Fin 16) :
    multiReduction .add [1] S16 w 0x00000000#32 reduces_S16x6_S16 hφ hacc (ix1 r) = ∑ ch : Fin 6, w (ix2 r ch) := by
  refine (Ideal.multiReduction_add_single w 0x00000000#32 reduces_S16x6_S16 hφ hacc (ix1 r)).trans ?_
  show ∑ ch : Fin 6, w _ = _
  refine Finset.sum_congr rfl fun ch _ => congrArg w (funext fun a => Fin.ext ?_)
  match a with
  | ⟨0, _⟩ => rfl
  | ⟨1, _⟩ => rfl

/-- A vector over the batch rows viewed as a column. -/
theorem col_cast {α : Type} (u : S16.Idx → α) (r : Fin 16) :
    shapeCast S16x1 u shapeCasts_S16_S16x1 (ix2 r (0 : Fin 1)) = u (ix1 r) := by
  refine shapeCast_apply u shapeCasts_S16_S16x1 (ix2 r (0 : Fin 1)) (ix1 r) ?_
  rw [Shape.rowMajor_val_one, Shape.rowMajor_val_two]
  show r.val = r.val * 1 + 0
  omega

/-- Lanes then channels at r: the double sum. -/
theorem chanlane_apply (v : FVec Ideal S16x6x8192 .f32) (hφ : FKind.Formats .f32)
    (hacc : (0x00000000#32 : BitVec 32) = FKind.add.neutral .f32 hφ) (hφ' : FKind.Formats .f32)
    (hacc' : (0x00000000#32 : BitVec 32) = FKind.add.neutral .f32 hφ') (r : Fin 16) :
    multiReduction .add [1] S16 (multiReduction .add [2] S16x6 v 0x00000000#32 reduces_S16x6x8192_S16x6 hφ hacc)
        0x00000000#32 reduces_S16x6_S16 hφ' hacc' (ix1 r)
      = ∑ ch : Fin 6, ∑ l : Fin 8192, v (ix3 r ch l) :=
  (chans_apply _ hφ' hacc' r).trans (Finset.sum_congr rfl fun ch _ => lanes_apply v hφ hacc r ch)

/-! ## Columns side by side -/

/-- Column 0 of 4 columns laid side by side. -/
theorem cat4_0 {α : Type} (a0 a1 a2 a3 : S16x1.Idx → α) (r : Fin 16) :
    concatenate S16x4 1 [⟨S16x1, a0⟩, ⟨S16x1, a1⟩, ⟨S16x1, a2⟩, ⟨S16x1, a3⟩] concatenates_S16x1_S16x1_S16x1_S16x1_S16x4_d1 (ix2 r (0 : Fin 4)) = a0 (ix2 r (0 : Fin 1)) :=
  concatenate_apply_piece (1 : Fin S16x4.rank) [⟨S16x1, a0⟩, ⟨S16x1, a1⟩, ⟨S16x1, a2⟩, ⟨S16x1, a3⟩] concatenates_S16x1_S16x1_S16x1_S16x1_S16x4_d1 (ix2 r (0 : Fin 4)) 0 (by show (0 : ℕ) < 4; omega) S16x1 a0 rfl rfl 0 rfl
    (ix2 r (0 : Fin 1)) (fun b hb => by
      match b with
      | ⟨0, _⟩ => rfl
      | ⟨1, _⟩ => exact absurd rfl hb) rfl

/-- Column 1 of 4 columns laid side by side. -/
theorem cat4_1 {α : Type} (a0 a1 a2 a3 : S16x1.Idx → α) (r : Fin 16) :
    concatenate S16x4 1 [⟨S16x1, a0⟩, ⟨S16x1, a1⟩, ⟨S16x1, a2⟩, ⟨S16x1, a3⟩] concatenates_S16x1_S16x1_S16x1_S16x1_S16x4_d1 (ix2 r (1 : Fin 4)) = a1 (ix2 r (0 : Fin 1)) :=
  concatenate_apply_piece (1 : Fin S16x4.rank) [⟨S16x1, a0⟩, ⟨S16x1, a1⟩, ⟨S16x1, a2⟩, ⟨S16x1, a3⟩] concatenates_S16x1_S16x1_S16x1_S16x1_S16x4_d1 (ix2 r (1 : Fin 4)) 1 (by show (1 : ℕ) < 4; omega) S16x1 a1 rfl rfl 1 rfl
    (ix2 r (0 : Fin 1)) (fun b hb => by
      match b with
      | ⟨0, _⟩ => rfl
      | ⟨1, _⟩ => exact absurd rfl hb) rfl

/-- Column 2 of 4 columns laid side by side. -/
theorem cat4_2 {α : Type} (a0 a1 a2 a3 : S16x1.Idx → α) (r : Fin 16) :
    concatenate S16x4 1 [⟨S16x1, a0⟩, ⟨S16x1, a1⟩, ⟨S16x1, a2⟩, ⟨S16x1, a3⟩] concatenates_S16x1_S16x1_S16x1_S16x1_S16x4_d1 (ix2 r (2 : Fin 4)) = a2 (ix2 r (0 : Fin 1)) :=
  concatenate_apply_piece (1 : Fin S16x4.rank) [⟨S16x1, a0⟩, ⟨S16x1, a1⟩, ⟨S16x1, a2⟩, ⟨S16x1, a3⟩] concatenates_S16x1_S16x1_S16x1_S16x1_S16x4_d1 (ix2 r (2 : Fin 4)) 2 (by show (2 : ℕ) < 4; omega) S16x1 a2 rfl rfl 2 rfl
    (ix2 r (0 : Fin 1)) (fun b hb => by
      match b with
      | ⟨0, _⟩ => rfl
      | ⟨1, _⟩ => exact absurd rfl hb) rfl

/-- Column 3 of 4 columns laid side by side. -/
theorem cat4_3 {α : Type} (a0 a1 a2 a3 : S16x1.Idx → α) (r : Fin 16) :
    concatenate S16x4 1 [⟨S16x1, a0⟩, ⟨S16x1, a1⟩, ⟨S16x1, a2⟩, ⟨S16x1, a3⟩] concatenates_S16x1_S16x1_S16x1_S16x1_S16x4_d1 (ix2 r (3 : Fin 4)) = a3 (ix2 r (0 : Fin 1)) :=
  concatenate_apply_piece (1 : Fin S16x4.rank) [⟨S16x1, a0⟩, ⟨S16x1, a1⟩, ⟨S16x1, a2⟩, ⟨S16x1, a3⟩] concatenates_S16x1_S16x1_S16x1_S16x1_S16x4_d1 (ix2 r (3 : Fin 4)) 3 (by show (3 : ℕ) < 4; omega) S16x1 a3 rfl rfl 3 rfl
    (ix2 r (0 : Fin 1)) (fun b hb => by
      match b with
      | ⟨0, _⟩ => rfl
      | ⟨1, _⟩ => exact absurd rfl hb) rfl

/-- Column 0 of 6 columns laid side by side. -/
theorem cat6_0 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (0 : Fin 6)) = a0 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (0 : Fin 6)) 0 (by show (0 : ℕ) < 6; omega) S16x1 a0 rfl rfl 0 rfl
    (ix2 r (0 : Fin 1)) (fun b hb => by
      match b with
      | ⟨0, _⟩ => rfl
      | ⟨1, _⟩ => exact absurd rfl hb) rfl

/-- Column 1 of 6 columns laid side by side. -/
theorem cat6_1 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (1 : Fin 6)) = a1 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (1 : Fin 6)) 1 (by show (1 : ℕ) < 6; omega) S16x1 a1 rfl rfl 1 rfl
    (ix2 r (0 : Fin 1)) (fun b hb => by
      match b with
      | ⟨0, _⟩ => rfl
      | ⟨1, _⟩ => exact absurd rfl hb) rfl

/-- Column 2 of 6 columns laid side by side. -/
theorem cat6_2 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (2 : Fin 6)) = a2 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (2 : Fin 6)) 2 (by show (2 : ℕ) < 6; omega) S16x1 a2 rfl rfl 2 rfl
    (ix2 r (0 : Fin 1)) (fun b hb => by
      match b with
      | ⟨0, _⟩ => rfl
      | ⟨1, _⟩ => exact absurd rfl hb) rfl

/-- Column 3 of 6 columns laid side by side. -/
theorem cat6_3 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (3 : Fin 6)) = a3 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (3 : Fin 6)) 3 (by show (3 : ℕ) < 6; omega) S16x1 a3 rfl rfl 3 rfl
    (ix2 r (0 : Fin 1)) (fun b hb => by
      match b with
      | ⟨0, _⟩ => rfl
      | ⟨1, _⟩ => exact absurd rfl hb) rfl

/-- Column 4 of 6 columns laid side by side. -/
theorem cat6_4 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (4 : Fin 6)) = a4 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (4 : Fin 6)) 4 (by show (4 : ℕ) < 6; omega) S16x1 a4 rfl rfl 4 rfl
    (ix2 r (0 : Fin 1)) (fun b hb => by
      match b with
      | ⟨0, _⟩ => rfl
      | ⟨1, _⟩ => exact absurd rfl hb) rfl

/-- Column 5 of 6 columns laid side by side. -/
theorem cat6_5 {α : Type} (a0 a1 a2 a3 a4 a5 : S16x1.Idx → α) (r : Fin 16) :
    concatenate S16x6 1 [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (5 : Fin 6)) = a5 (ix2 r (0 : Fin 1)) :=
  concatenate_apply_piece (1 : Fin S16x6.rank) [⟨S16x1, a0⟩, ⟨S16x1, a1⟩, ⟨S16x1, a2⟩, ⟨S16x1, a3⟩, ⟨S16x1, a4⟩, ⟨S16x1, a5⟩] concatenates_S16x1_S16x1_S16x1_S16x1_S16x1_S16x1_S16x6_d1 (ix2 r (5 : Fin 6)) 5 (by show (5 : ℕ) < 6; omega) S16x1 a5 rfl rfl 5 rfl
    (ix2 r (0 : Fin 1)) (fun b hb => by
      match b with
      | ⟨0, _⟩ => rfl
      | ⟨1, _⟩ => exact absurd rfl hb) rfl

/-! ## The payloads at an index -/

theorem pay7_apply (x : Vec Ideal S16x4x6x8192 .f32) (r : Fin 16) (ch : Fin 6) (l : Fin 8192) :
    k0_pay7 (slab0 x) (ix3 r ch l) = x (ix4 r (0 : Fin 4) ch l) := slab_apply x _ 0 rfl _ _ r ch l
theorem pay8_apply (x : Vec Ideal S16x4x6x8192 .f32) (r : Fin 16) (ch : Fin 6) (l : Fin 8192) :
    k0_pay8 (slab1 x) (ix3 r ch l) = x (ix4 r (1 : Fin 4) ch l) := slab_apply x _ 1 rfl _ _ r ch l
theorem pay9_apply (x : Vec Ideal S16x4x6x8192 .f32) (r : Fin 16) (ch : Fin 6) (l : Fin 8192) :
    k0_pay9 (slab2 x) (ix3 r ch l) = x (ix4 r (2 : Fin 4) ch l) := slab_apply x _ 2 rfl _ _ r ch l
theorem pay10_apply (x : Vec Ideal S16x4x6x8192 .f32) (r : Fin 16) (ch : Fin 6) (l : Fin 8192) :
    k0_pay10 (slab3 x) (ix3 r ch l) = x (ix4 r (3 : Fin 4) ch l) := slab_apply x _ 3 rfl _ _ r ch l

/-- Lanes, channels, column, at row r. -/
theorem col_apply (v : FVec Ideal S16x6x8192 .f32) (hφ : FKind.Formats .f32)
    (hacc : (0x00000000#32 : BitVec 32) = FKind.add.neutral .f32 hφ) (hφ' : FKind.Formats .f32)
    (hacc' : (0x00000000#32 : BitVec 32) = FKind.add.neutral .f32 hφ') (r : Fin 16) :
    shapeCast S16x1 (multiReduction .add [1] S16 (multiReduction .add [2] S16x6 v 0x00000000#32 reduces_S16x6x8192_S16x6 hφ hacc)
        0x00000000#32 reduces_S16x6_S16 hφ' hacc') shapeCasts_S16_S16x1 (ix2 r (0 : Fin 1))
      = ∑ ch : Fin 6, ∑ l : Fin 8192, v (ix3 r ch l) :=
  (col_cast _ r).trans (chanlane_apply v hφ hacc hφ' hacc' r)

theorem dsum_congr {f g : Fin 6 → Fin 8192 → EReal} (h : ∀ ch l, f ch l = g ch l) :
    ∑ ch : Fin 6, ∑ l : Fin 8192, f ch l = ∑ ch : Fin 6, ∑ l : Fin 8192, g ch l :=
  Finset.sum_congr rfl fun ch _ => Finset.sum_congr rfl fun l _ => h ch l

/-- A pointwise product at an index. -/
theorem prod_apply (a b : FVec Ideal S16x6x8192 .f32) (j : S16x6x8192.Idx) (p q : EReal) (ha : a j = p) (hb : b j = q) :
    mulf a b j = p * q := by subst ha hb; rfl
/-- A pointwise absolute difference at an index. -/
theorem absdiff_apply (a b : FVec Ideal S16x6x8192 .f32) (j : S16x6x8192.Idx) (p q : EReal) (ha : a j = p) (hb : b j = q) :
    absf (subf a b) j = max (p - q) (-(p - q)) := by subst ha hb; rfl

/-- Column `i` of the first tile: the sum of motor `i`. -/
theorem tileSum_apply (x : Vec Ideal S16x4x6x8192 .f32) (r : Fin 16) (i : Fin 4) : tileSum x (ix2 r i) = bsum1 x r i := by
  match i with
  | ⟨0, _⟩ =>
    show k0_pay11 (slab0 x) (slab1 x) (slab2 x) (slab3 x) (ix2 r (0 : Fin 4)) = bsum1 x r 0
    unfold k0_pay11 bsum1
    exact (cat4_0 _ _ _ _ r).trans ((col_apply _ _ _ _ _ r).trans (dsum_congr fun ch l => (pay7_apply x r ch l)))
  | ⟨1, _⟩ =>
    show k0_pay11 (slab0 x) (slab1 x) (slab2 x) (slab3 x) (ix2 r (1 : Fin 4)) = bsum1 x r 1
    unfold k0_pay11 bsum1
    exact (cat4_1 _ _ _ _ r).trans ((col_apply _ _ _ _ _ r).trans (dsum_congr fun ch l => (pay8_apply x r ch l)))
  | ⟨2, _⟩ =>
    show k0_pay11 (slab0 x) (slab1 x) (slab2 x) (slab3 x) (ix2 r (2 : Fin 4)) = bsum1 x r 2
    unfold k0_pay11 bsum1
    exact (cat4_2 _ _ _ _ r).trans ((col_apply _ _ _ _ _ r).trans (dsum_congr fun ch l => (pay9_apply x r ch l)))
  | ⟨3, _⟩ =>
    show k0_pay11 (slab0 x) (slab1 x) (slab2 x) (slab3 x) (ix2 r (3 : Fin 4)) = bsum1 x r 3
    unfold k0_pay11 bsum1
    exact (cat4_3 _ _ _ _ r).trans ((col_apply _ _ _ _ _ r).trans (dsum_congr fun ch l => (pay10_apply x r ch l)))

/-- Column `i` of the second tile: the sum of the squares of motor `i`. -/
theorem tileSq_apply (x : Vec Ideal S16x4x6x8192 .f32) (r : Fin 16) (i : Fin 4) : tileSq x (ix2 r i) = bsum2 x r i i := by
  match i with
  | ⟨0, _⟩ =>
    show k0_pay14 (k0_pay9 (slab2 x)) (k0_pay10 (slab3 x)) (k0_pay12 (slab0 x)) (k0_pay13 (slab1 x)) (ix2 r (0 : Fin 4)) = bsum2 x r 0 0
    unfold k0_pay14 bsum2
    refine (cat4_0 _ _ _ _ r).trans ((col_cast _ r).trans ?_)
    unfold k0_pay12
    exact (chanlane_apply _ _ _ _ _ r).trans (dsum_congr fun ch l => prod_apply _ _ _ _ _ (pay7_apply x r ch l) (pay7_apply x r ch l))
  | ⟨1, _⟩ =>
    show k0_pay14 (k0_pay9 (slab2 x)) (k0_pay10 (slab3 x)) (k0_pay12 (slab0 x)) (k0_pay13 (slab1 x)) (ix2 r (1 : Fin 4)) = bsum2 x r 1 1
    unfold k0_pay14 bsum2
    refine (cat4_1 _ _ _ _ r).trans ((col_apply _ _ _ _ _ r).trans (dsum_congr fun ch l => ?_))
    unfold k0_pay13
    exact prod_apply _ _ _ _ _ (pay8_apply x r ch l) (pay8_apply x r ch l)
  | ⟨2, _⟩ =>
    show k0_pay14 (k0_pay9 (slab2 x)) (k0_pay10 (slab3 x)) (k0_pay12 (slab0 x)) (k0_pay13 (slab1 x)) (ix2 r (2 : Fin 4)) = bsum2 x r 2 2
    unfold k0_pay14 bsum2
    exact (cat4_2 _ _ _ _ r).trans ((col_apply _ _ _ _ _ r).trans (dsum_congr fun ch l => prod_apply _ _ _ _ _ (pay9_apply x r ch l) (pay9_apply x r ch l)))
  | ⟨3, _⟩ =>
    show k0_pay14 (k0_pay9 (slab2 x)) (k0_pay10 (slab3 x)) (k0_pay12 (slab0 x)) (k0_pay13 (slab1 x)) (ix2 r (3 : Fin 4)) = bsum2 x r 3 3
    unfold k0_pay14 bsum2
    exact (cat4_3 _ _ _ _ r).trans ((col_apply _ _ _ _ _ r).trans (dsum_congr fun ch l => prod_apply _ _ _ _ _ (pay10_apply x r ch l) (pay10_apply x r ch l)))

/-- Column `p` of the third tile: the sum of the products of the `p`-th correlation pair. -/
theorem tileProd_apply (x : Vec Ideal S16x4x6x8192 .f32) (r : Fin 16) (p : Fin 6) :
    tileProd x (ix2 r p) = bsum2 x r (Cert.Spec.corrPair p).1 (Cert.Spec.corrPair p).2 := by
  match p with
  | ⟨0, _⟩ =>
    show k0_pay15 (k0_pay7 (slab0 x)) (k0_pay8 (slab1 x)) (k0_pay9 (slab2 x)) (k0_pay10 (slab3 x)) (ix2 r (0 : Fin 6)) = bsum2 x r 0 1
    unfold k0_pay15 bsum2
    exact (cat6_0 _ _ _ _ _ _ r).trans ((col_apply _ _ _ _ _ r).trans (dsum_congr fun ch l => prod_apply _ _ _ _ _ (pay7_apply x r ch l) (pay8_apply x r ch l)))
  | ⟨1, _⟩ =>
    show k0_pay15 (k0_pay7 (slab0 x)) (k0_pay8 (slab1 x)) (k0_pay9 (slab2 x)) (k0_pay10 (slab3 x)) (ix2 r (1 : Fin 6)) = bsum2 x r 0 2
    unfold k0_pay15 bsum2
    exact (cat6_1 _ _ _ _ _ _ r).trans ((col_apply _ _ _ _ _ r).trans (dsum_congr fun ch l => prod_apply _ _ _ _ _ (pay7_apply x r ch l) (pay9_apply x r ch l)))
  | ⟨2, _⟩ =>
    show k0_pay15 (k0_pay7 (slab0 x)) (k0_pay8 (slab1 x)) (k0_pay9 (slab2 x)) (k0_pay10 (slab3 x)) (ix2 r (2 : Fin 6)) = bsum2 x r 0 3
    unfold k0_pay15 bsum2
    exact (cat6_2 _ _ _ _ _ _ r).trans ((col_apply _ _ _ _ _ r).trans (dsum_congr fun ch l => prod_apply _ _ _ _ _ (pay7_apply x r ch l) (pay10_apply x r ch l)))
  | ⟨3, _⟩ =>
    show k0_pay15 (k0_pay7 (slab0 x)) (k0_pay8 (slab1 x)) (k0_pay9 (slab2 x)) (k0_pay10 (slab3 x)) (ix2 r (3 : Fin 6)) = bsum2 x r 1 2
    unfold k0_pay15 bsum2
    exact (cat6_3 _ _ _ _ _ _ r).trans ((col_apply _ _ _ _ _ r).trans (dsum_congr fun ch l => prod_apply _ _ _ _ _ (pay8_apply x r ch l) (pay9_apply x r ch l)))
  | ⟨4, _⟩ =>
    show k0_pay15 (k0_pay7 (slab0 x)) (k0_pay8 (slab1 x)) (k0_pay9 (slab2 x)) (k0_pay10 (slab3 x)) (ix2 r (4 : Fin 6)) = bsum2 x r 1 3
    unfold k0_pay15 bsum2
    exact (cat6_4 _ _ _ _ _ _ r).trans ((col_apply _ _ _ _ _ r).trans (dsum_congr fun ch l => prod_apply _ _ _ _ _ (pay8_apply x r ch l) (pay10_apply x r ch l)))
  | ⟨5, _⟩ =>
    show k0_pay15 (k0_pay7 (slab0 x)) (k0_pay8 (slab1 x)) (k0_pay9 (slab2 x)) (k0_pay10 (slab3 x)) (ix2 r (5 : Fin 6)) = bsum2 x r 2 3
    unfold k0_pay15 bsum2
    exact (cat6_5 _ _ _ _ _ _ r).trans ((col_apply _ _ _ _ _ r).trans (dsum_congr fun ch l => prod_apply _ _ _ _ _ (pay9_apply x r ch l) (pay10_apply x r ch l)))

/-- Column `p` of the fourth tile: the sum of the absolute differences of the `p`-th difference pair. -/
theorem tileAbs_apply (x : Vec Ideal S16x4x6x8192 .f32) (r : Fin 16) (p : Fin 6) :
    tileAbs x (ix2 r p) = bsumAbs x r (Cert.Spec.diffPair p).1 (Cert.Spec.diffPair p).2 := by
  match p with
  | ⟨0, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (0 : Fin 6)) = bsumAbs x r 0 2
    unfold k0_pay17 bsumAbs
    refine (cat6_0 _ _ _ _ _ _ r).trans ((col_cast _ r).trans ((chans_apply _ _ _ r).trans (Finset.sum_congr rfl fun ch _ => ?_)))
    unfold k0_pay16
    exact (lanes_apply _ _ _ r ch).trans (Finset.sum_congr rfl fun l _ => absdiff_apply _ _ _ _ _ (pay7_apply x r ch l) (pay9_apply x r ch l))
  | ⟨1, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (1 : Fin 6)) = bsumAbs x r 1 3
    unfold k0_pay17 bsumAbs
    exact (cat6_1 _ _ _ _ _ _ r).trans ((col_apply _ _ _ _ _ r).trans (dsum_congr fun ch l => absdiff_apply _ _ _ _ _ (pay8_apply x r ch l) (pay10_apply x r ch l)))
  | ⟨2, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (2 : Fin 6)) = bsumAbs x r 0 1
    unfold k0_pay17 bsumAbs
    exact (cat6_2 _ _ _ _ _ _ r).trans ((col_apply _ _ _ _ _ r).trans (dsum_congr fun ch l => absdiff_apply _ _ _ _ _ (pay7_apply x r ch l) (pay8_apply x r ch l)))
  | ⟨3, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (3 : Fin 6)) = bsumAbs x r 1 2
    unfold k0_pay17 bsumAbs
    exact (cat6_3 _ _ _ _ _ _ r).trans ((col_apply _ _ _ _ _ r).trans (dsum_congr fun ch l => absdiff_apply _ _ _ _ _ (pay8_apply x r ch l) (pay9_apply x r ch l)))
  | ⟨4, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (4 : Fin 6)) = bsumAbs x r 2 3
    unfold k0_pay17 bsumAbs
    exact (cat6_4 _ _ _ _ _ _ r).trans ((col_apply _ _ _ _ _ r).trans (dsum_congr fun ch l => absdiff_apply _ _ _ _ _ (pay9_apply x r ch l) (pay10_apply x r ch l)))
  | ⟨5, _⟩ =>
    show k0_pay17 (k0_pay7 (slab0 x)) (k0_pay8 (slab1 x)) (k0_pay9 (slab2 x)) (k0_pay10 (slab3 x)) (k0_pay16 (k0_pay7 (slab0 x)) (k0_pay9 (slab2 x))) (ix2 r (5 : Fin 6)) = bsumAbs x r 3 0
    unfold k0_pay17 bsumAbs
    exact (cat6_5 _ _ _ _ _ _ r).trans ((col_apply _ _ _ _ _ r).trans (dsum_congr fun ch l => absdiff_apply _ _ _ _ _ (pay10_apply x r ch l) (pay7_apply x r ch l)))

/-! ## Adding a tile to an accumulator, and the reset -/

theorem acc18_apply (v23 : FVec Ideal S16x4 .f32) (v97 : Vec Ideal S16x4 .f32) (j : S16x4.Idx) : k0_pay18 v23 v97 j = v97 j + v23 j := by
  unfold k0_pay18; exact congrFun (shapeCast_self _ _) j
theorem acc19_apply (v40 : FVec Ideal S16x4 .f32) (v102 : Vec Ideal S16x4 .f32) (j : S16x4.Idx) : k0_pay19 v40 v102 j = v102 j + v40 j := by
  unfold k0_pay19; exact congrFun (shapeCast_self _ _) j
theorem acc1_apply (v65 : FVec Ideal S16x6 .f32) (v107 : Vec Ideal S16x6 .f32) (j : S16x6.Idx) : k0_pay1 v65 v107 j = v107 j + v65 j := by
  unfold k0_pay1; exact congrFun (shapeCast_self _ _) j
theorem acc2_apply (v96 : FVec Ideal S16x6 .f32) (v112 : Vec Ideal S16x6 .f32) (j : S16x6.Idx) : k0_pay2 v96 v112 j = v112 j + v96 j := by
  unfold k0_pay2; exact congrFun (shapeCast_self _ _) j

theorem zero3_apply (j : S16x4.Idx) : k0_pay3 (F := Ideal) j = 0 := by
  unfold k0_pay3; exact (congrFun (shapeCast_self _ _) j).trans Ideal.ofBits_zero_f32
theorem zero4_apply (j : S16x4.Idx) : k0_pay4 (F := Ideal) j = 0 := by
  unfold k0_pay4; exact (congrFun (shapeCast_self _ _) j).trans Ideal.ofBits_zero_f32
theorem zero5_apply (j : S16x6.Idx) : k0_pay5 (F := Ideal) j = 0 := by
  unfold k0_pay5; exact (congrFun (shapeCast_self _ _) j).trans Ideal.ofBits_zero_f32
theorem zero6_apply (j : S16x6.Idx) : k0_pay6 (F := Ideal) j = 0 := by
  unfold k0_pay6; exact (congrFun (shapeCast_self _ _) j).trans Ideal.ofBits_zero_f32

end Cert.KernelIdeal.Hand

end
-- ==== Proof.KernelIdealValue.Pieces.lean ====
/-
  The reduction kernel's body read as values, at any float instance. At every grid point the body loads the four motor
  slabs of the input block (the block is batch × motor × channel × time; motor `k` is the unit-stride rectangle at offset
  (0, k, 0, 0) of extents 16 × 1 × 6 × 8192), forms from them four tiles of sums — per-motor sums, sums of squares, six cross
  products, six sums of absolute differences — and adds each tile to an accumulator. Stated here, case by case: what each
  accumulator holds after the body is that tile added to what the accumulator held before (at the first time tile: to the
  zero block the reset has just stored), and at the last time tile each output window's buffer receives a copy of its
  accumulator. Each statement is the contents the body's stores into the buffer leave: the last store covers the whole buffer
  at offset zero, so it is that store's payload, and a load of a buffer the body has stored whole reads that store's payload.
-/
import proofs.«168515_j63797444215021_2_alg».proof.Proof.KernelIdealValue.Tiles
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- At the first time tile accumulator 0 ends at its tile added to the zero block the reset stored. -/
theorem sout0_A_0_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i) (x0 : Vec F S16x4x6x8192 .f32) :
    sout0_A_0 c i arg2 harg2 arg3 harg3 arg4 harg4 arg5 harg5 arg6 harg6 arg7 harg7 arg8 harg8 arg9 harg9 arg10 harg10 hc0 hc1 x0 = k0_pay18 (tileSum x0) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0)]
  unfold kernelRun0_A
  dsimp only
  sl_unfold_words
  rw [View.canon_cons_unit_zero (S := S16x4) hz2, View.readCov_unit_zero (S := S16x4) _ hz2]
  simp only [View.readAt_eq_ld, harg2.read_unread, harg7.read_unread, harg8.read_unread, harg9.read_unread, harg10.read_unread, View.ld_unit_zero (S := S16x4) hz2]

/-- At a middle time tile accumulator 0 ends at its tile added to what it held. -/
theorem sout0_B_0_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i) (x0 : Vec F S16x4x6x8192 .f32) (xs0 : Vec F S16x4 .f32) (xs1 : Vec F S16x4 .f32) (xs2 : Vec F S16x6 .f32) (xs3 : Vec F S16x6 .f32) :
    sout0_B_0 c i arg2 harg2 arg3 harg3 arg4 harg4 arg5 harg5 arg6 harg6 arg7 harg7 arg8 harg8 arg9 harg9 arg10 harg10 hc0 hc1 x0 xs0 xs1 xs2 xs3 = k0_pay18 (tileSum x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 xs0 xs1 xs2 xs3)]
  unfold kernelRun0_B
  dsimp only
  sl_unfold_words
  rw [View.canon_unit_zero (S := S16x4) hz2]
  simp only [View.readAt_eq_ld, harg2.read_unread, harg7.read_unread, harg8.read_unread, harg9.read_unread, harg10.read_unread, View.ld_unit_zero (S := S16x4) hz2]

/-- At a last time tile accumulator 0 ends at its tile added to what it held. -/
theorem sout0_C_0_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    sout0_C_0 c i arg2 harg2 arg3 harg3 arg4 harg4 arg5 harg5 arg6 harg6 arg7 harg7 arg8 harg8 arg9 harg9 arg10 harg10 hc0 hc1 x0 xs0 xs1 xs2 xs3 = k0_pay18 (tileSum x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x4) hz2]
  simp only [View.readAt_eq_ld, harg2.read_unread, harg7.read_unread, harg8.read_unread, harg9.read_unread, harg10.read_unread, View.ld_unit_zero (S := S16x4) hz2]

/-- At the last time tile output window 1's buffer receives accumulator 0. -/
theorem out0_C_1_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    out0_C_1 c i arg2 harg2 arg3 harg3 arg4 harg4 arg5 harg5 arg6 harg6 arg7 harg7 arg8 harg8 arg9 harg9 arg10 harg10 hc0 hc1 x0 xs0 xs1 xs2 xs3 = k0_pay18 (tileSum x0) xs0 := by
  unfold out0_C_1
  rw [View.read_writes_eq_canon _ _ _ (cover0_C_1 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x4) hz2, View.readCov_unit_zero (S := S16x4) _ hz2]
  simp only [View.readAt_eq_ld, harg2.read_unread, harg7.read_unread, harg8.read_unread, harg9.read_unread, harg10.read_unread, View.ld_unit_zero (S := S16x4) hz2]

/-- At the first time tile accumulator 1 ends at its tile added to the zero block the reset stored. -/
theorem sout0_A_1_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i) (x0 : Vec F S16x4x6x8192 .f32) :
    sout0_A_1 c i arg2 harg2 arg3 harg3 arg4 harg4 arg5 harg5 arg6 harg6 arg7 harg7 arg8 harg8 arg9 harg9 arg10 harg10 hc0 hc1 x0 = k0_pay19 (tileSq x0) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0)]
  unfold kernelRun0_A
  dsimp only
  sl_unfold_words
  rw [View.canon_cons_unit_zero (S := S16x4) hz2, View.readCov_unit_zero (S := S16x4) _ hz2]
  simp only [View.readAt_eq_ld, harg2.read_unread, harg7.read_unread, harg8.read_unread, harg9.read_unread, harg10.read_unread, View.ld_unit_zero (S := S16x4) hz2]

/-- At a middle time tile accumulator 1 ends at its tile added to what it held. -/
theorem sout0_B_1_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i) (x0 : Vec F S16x4x6x8192 .f32) (xs0 : Vec F S16x4 .f32) (xs1 : Vec F S16x4 .f32) (xs2 : Vec F S16x6 .f32) (xs3 : Vec F S16x6 .f32) :
    sout0_B_1 c i arg2 harg2 arg3 harg3 arg4 harg4 arg5 harg5 arg6 harg6 arg7 harg7 arg8 harg8 arg9 harg9 arg10 harg10 hc0 hc1 x0 xs0 xs1 xs2 xs3 = k0_pay19 (tileSq x0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 xs0 xs1 xs2 xs3)]
  unfold kernelRun0_B
  dsimp only
  sl_unfold_words
  rw [View.canon_unit_zero (S := S16x4) hz2]
  simp only [View.readAt_eq_ld, harg2.read_unread, harg7.read_unread, harg8.read_unread, harg9.read_unread, harg10.read_unread, View.ld_unit_zero (S := S16x4) hz2]

/-- At a last time tile accumulator 1 ends at its tile added to what it held. -/
theorem sout0_C_1_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    sout0_C_1 c i arg2 harg2 arg3 harg3 arg4 harg4 arg5 harg5 arg6 harg6 arg7 harg7 arg8 harg8 arg9 harg9 arg10 harg10 hc0 hc1 x0 xs0 xs1 xs2 xs3 = k0_pay19 (tileSq x0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x4) hz2]
  simp only [View.readAt_eq_ld, harg2.read_unread, harg7.read_unread, harg8.read_unread, harg9.read_unread, harg10.read_unread, View.ld_unit_zero (S := S16x4) hz2]

/-- At the last time tile output window 2's buffer receives accumulator 1. -/
theorem out0_C_2_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    out0_C_2 c i arg2 harg2 arg3 harg3 arg4 harg4 arg5 harg5 arg6 harg6 arg7 harg7 arg8 harg8 arg9 harg9 arg10 harg10 hc0 hc1 x0 xs0 xs1 xs2 xs3 = k0_pay19 (tileSq x0) xs1 := by
  unfold out0_C_2
  rw [View.read_writes_eq_canon _ _ _ (cover0_C_2 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x4) hz2, View.readCov_unit_zero (S := S16x4) _ hz2]
  simp only [View.readAt_eq_ld, harg2.read_unread, harg7.read_unread, harg8.read_unread, harg9.read_unread, harg10.read_unread, View.ld_unit_zero (S := S16x4) hz2]

/-- At the first time tile accumulator 2 ends at its tile added to the zero block the reset stored. -/
theorem sout0_A_2_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i) (x0 : Vec F S16x4x6x8192 .f32) :
    sout0_A_2 c i arg2 harg2 arg3 harg3 arg4 harg4 arg5 harg5 arg6 harg6 arg7 harg7 arg8 harg8 arg9 harg9 arg10 harg10 hc0 hc1 x0 = k0_pay1 (tileProd x0) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0)]
  unfold kernelRun0_A
  dsimp only
  sl_unfold_words
  rw [View.canon_cons_unit_zero (S := S16x6) hz2, View.readCov_unit_zero (S := S16x6) _ hz2]
  simp only [View.readAt_eq_ld, harg2.read_unread, harg7.read_unread, harg8.read_unread, harg9.read_unread, harg10.read_unread, View.ld_unit_zero (S := S16x6) hz2]

/-- At a middle time tile accumulator 2 ends at its tile added to what it held. -/
theorem sout0_B_2_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i) (x0 : Vec F S16x4x6x8192 .f32) (xs0 : Vec F S16x4 .f32) (xs1 : Vec F S16x4 .f32) (xs2 : Vec F S16x6 .f32) (xs3 : Vec F S16x6 .f32) :
    sout0_B_2 c i arg2 harg2 arg3 harg3 arg4 harg4 arg5 harg5 arg6 harg6 arg7 harg7 arg8 harg8 arg9 harg9 arg10 harg10 hc0 hc1 x0 xs0 xs1 xs2 xs3 = k0_pay1 (tileProd x0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 xs0 xs1 xs2 xs3)]
  unfold kernelRun0_B
  dsimp only
  sl_unfold_words
  rw [View.canon_unit_zero (S := S16x6) hz2]
  simp only [View.readAt_eq_ld, harg2.read_unread, harg7.read_unread, harg8.read_unread, harg9.read_unread, harg10.read_unread, View.ld_unit_zero (S := S16x6) hz2]

/-- At a last time tile accumulator 2 ends at its tile added to what it held. -/
theorem sout0_C_2_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    sout0_C_2 c i arg2 harg2 arg3 harg3 arg4 harg4 arg5 harg5 arg6 harg6 arg7 harg7 arg8 harg8 arg9 harg9 arg10 harg10 hc0 hc1 x0 xs0 xs1 xs2 xs3 = k0_pay1 (tileProd x0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x6) hz2]
  simp only [View.readAt_eq_ld, harg2.read_unread, harg7.read_unread, harg8.read_unread, harg9.read_unread, harg10.read_unread, View.ld_unit_zero (S := S16x6) hz2]

/-- At the last time tile output window 3's buffer receives accumulator 2. -/
theorem out0_C_3_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    out0_C_3 c i arg2 harg2 arg3 harg3 arg4 harg4 arg5 harg5 arg6 harg6 arg7 harg7 arg8 harg8 arg9 harg9 arg10 harg10 hc0 hc1 x0 xs0 xs1 xs2 xs3 = k0_pay1 (tileProd x0) xs2 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x6) hz2, View.readCov_unit_zero (S := S16x6) _ hz2]
  simp only [View.readAt_eq_ld, harg2.read_unread, harg7.read_unread, harg8.read_unread, harg9.read_unread, harg10.read_unread, View.ld_unit_zero (S := S16x6) hz2]

/-- At the first time tile accumulator 3 ends at its tile added to the zero block the reset stored. -/
theorem sout0_A_3_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : cond0_0 i) (hc1 : ¬cond0_1 i) (x0 : Vec F S16x4x6x8192 .f32) :
    sout0_A_3 c i arg2 harg2 arg3 harg3 arg4 harg4 arg5 harg5 arg6 harg6 arg7 harg7 arg8 harg8 arg9 harg9 arg10 harg10 hc0 hc1 x0 = k0_pay2 (tileAbs x0) (k0_pay6 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0)]
  unfold kernelRun0_A
  dsimp only
  sl_unfold_words
  rw [View.canon_cons_unit_zero (S := S16x6) hz2, View.readCov_unit_zero (S := S16x6) _ hz2]
  simp only [View.readAt_eq_ld, harg2.read_unread, harg7.read_unread, harg8.read_unread, harg9.read_unread, harg10.read_unread, View.ld_unit_zero (S := S16x6) hz2]

/-- At a middle time tile accumulator 3 ends at its tile added to what it held. -/
theorem sout0_B_3_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : ¬cond0_1 i) (x0 : Vec F S16x4x6x8192 .f32) (xs0 : Vec F S16x4 .f32) (xs1 : Vec F S16x4 .f32) (xs2 : Vec F S16x6 .f32) (xs3 : Vec F S16x6 .f32) :
    sout0_B_3 c i arg2 harg2 arg3 harg3 arg4 harg4 arg5 harg5 arg6 harg6 arg7 harg7 arg8 harg8 arg9 harg9 arg10 harg10 hc0 hc1 x0 xs0 xs1 xs2 xs3 = k0_pay2 (tileAbs x0) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 xs0 xs1 xs2 xs3)]
  unfold kernelRun0_B
  dsimp only
  sl_unfold_words
  rw [View.canon_unit_zero (S := S16x6) hz2]
  simp only [View.readAt_eq_ld, harg2.read_unread, harg7.read_unread, harg8.read_unread, harg9.read_unread, harg10.read_unread, View.ld_unit_zero (S := S16x6) hz2]

/-- At a last time tile accumulator 3 ends at its tile added to what it held. -/
theorem sout0_C_3_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    sout0_C_3 c i arg2 harg2 arg3 harg3 arg4 harg4 arg5 harg5 arg6 harg6 arg7 harg7 arg8 harg8 arg9 harg9 arg10 harg10 hc0 hc1 x0 xs0 xs1 xs2 xs3 = k0_pay2 (tileAbs x0) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x6) hz2]
  simp only [View.readAt_eq_ld, harg2.read_unread, harg7.read_unread, harg8.read_unread, harg9.read_unread, harg10.read_unread, View.ld_unit_zero (S := S16x6) hz2]

/-- At the last time tile output window 4's buffer receives accumulator 3. -/
theorem out0_C_4_eq (c : Dev nD) (i : grid0.Coords) (arg2 : Memref sig .tc .vmem S16x4x6x8192 .f32) (harg2 : arg2.IsWhole) (arg3 : Memref sig .tc .vmem S16x4 .f32) (harg3 : arg3.IsWhole) (arg4 : Memref sig .tc .vmem S16x4 .f32) (harg4 : arg4.IsWhole) (arg5 : Memref sig .tc .vmem S16x6 .f32) (harg5 : arg5.IsWhole) (arg6 : Memref sig .tc .vmem S16x6 .f32) (harg6 : arg6.IsWhole) (arg7 : Memref sig .tc .vmem S16x4 .f32) (harg7 : arg7.IsWhole) (arg8 : Memref sig .tc .vmem S16x4 .f32) (harg8 : arg8.IsWhole) (arg9 : Memref sig .tc .vmem S16x6 .f32) (harg9 : arg9.IsWhole) (arg10 : Memref sig .tc .vmem S16x6 .f32) (harg10 : arg10.IsWhole) (hc0 : ¬cond0_0 i) (hc1 : cond0_1 i) (x0 : Vec F S16x4x6x8192 .f32) (xs0 : Vec F S16x4 .f32) (xs1 : Vec F S16x4 .f32) (xs2 : Vec F S16x6 .f32) (xs3 : Vec F S16x6 .f32) :
    out0_C_4 c i arg2 harg2 arg3 harg3 arg4 harg4 arg5 harg5 arg6 harg6 arg7 harg7 arg8 harg8 arg9 harg9 arg10 harg10 hc0 hc1 x0 xs0 xs1 xs2 xs3 = k0_pay2 (tileAbs x0) xs3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 xs0 xs1 xs2 xs3)]
  unfold kernelRun0_C
  dsimp only
  sl_unfold_words
  rw [View.canon_unit_zero (S := S16x6) hz2, View.readCov_unit_zero (S := S16x6) _ hz2]
  simp only [View.readAt_eq_ld, harg2.read_unread, harg7.read_unread, harg8.read_unread, harg9.read_unread, harg10.read_unread, View.ld_unit_zero (S := S16x6) hz2]

end Cert.KernelIdeal.Hand

end
-- ==== Proof.KernelIdealValue.Acc.lean ====
/-
  What the four accumulators of the reduction kernel hold after each grid point, over the extended reals. The grid is
  sixteen batch tiles by four time tiles, point `n` being time tile `n % 4` of batch tile `n / 4`. At a point whose time
  tile is the first, each accumulator ends at zero plus the point's tile; at every other point at what the point before
  left plus the point's tile; at the last time tile the output windows' buffers receive the same. So after point `n` each
  accumulator holds the running sum of the tiles of the points of its batch tile up to `n`, and after the last time tile of
  batch tile `q` the sum of the four tiles of points `4q … 4q + 3`.
-/
import proofs.«168515_j63797444215021_2_alg».proof.Proof.KernelIdealValue.Pieces

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open scoped BigOperators

/-! ## A running sum that restarts at every fourth point -/

section Run
variable {ι : Type}

/-- Zero plus the point's term at the multiples of four, the point before's value plus the point's term elsewhere. -/
def runAcc (T : ℕ → ι → EReal) : ℕ → ι → EReal
  | 0 => fun j => 0 + T 0 j
  | n + 1 => if (n + 1) % 4 = 0 then fun j => 0 + T (n + 1) j else fun j => runAcc T n j + T (n + 1) j

theorem runAcc_reset (T : ℕ → ι → EReal) (n : ℕ) (h : n % 4 = 0) (j : ι) : runAcc T n j = 0 + T n j := by
  cases n with
  | zero => rfl
  | succ n => rw [runAcc, if_pos h]

theorem runAcc_step (T : ℕ → ι → EReal) (n : ℕ) (h : ¬(n + 1) % 4 = 0) (j : ι) :
    runAcc T (n + 1) j = runAcc T n j + T (n + 1) j := by
  rw [runAcc, if_neg h]

/-- After the fourth point of a run of four: the sum of the four terms. -/
theorem runAcc_last (T : ℕ → ι → EReal) (q : ℕ) (j : ι) :
    runAcc T (4 * q + 3) j = T (4 * q) j + T (4 * q + 1) j + T (4 * q + 2) j + T (4 * q + 3) j := by
  have e3 := runAcc_step T (4 * q + 2) (by omega) j
  have e2 := runAcc_step T (4 * q + 1) (by omega) j
  have e1 := runAcc_step T (4 * q) (by omega) j
  have e0 := runAcc_reset T (4 * q) (by omega) j
  rw [zero_add] at e0
  exact e3.trans (congrArg (· + T (4 * q + 3) j) (e2.trans (congrArg (· + T (4 * q + 2) j) (e1.trans (congrArg (· + T (4 * q + 1) j) e0)))))

end Run

variable (m : (ℓ : Loc nD τ sig) → Buf (Elt Ideal) ℓ)

/-! ## The tiles of a grid point -/

/-- Point `n`'s first tile (zero past the grid, where it is never read). -/
def tile0At (c : Dev nD) (n : ℕ) (j : S16x4.Idx) : EReal :=
  if h : n < cfg0.N then tileSum (F := Ideal) (iblk m c 0 ⟨n, h⟩) j else 0
theorem tile0At_eq (c : Dev nD) (t : Fin cfg0.N) (j : S16x4.Idx) :
    tile0At m c t.val j = tileSum (F := Ideal) (iblk m c 0 t) j := dif_pos t.isLt

/-- Point `n`'s second tile (zero past the grid, where it is never read). -/
def tile1At (c : Dev nD) (n : ℕ) (j : S16x4.Idx) : EReal :=
  if h : n < cfg0.N then tileSq (F := Ideal) (iblk m c 0 ⟨n, h⟩) j else 0
theorem tile1At_eq (c : Dev nD) (t : Fin cfg0.N) (j : S16x4.Idx) :
    tile1At m c t.val j = tileSq (F := Ideal) (iblk m c 0 t) j := dif_pos t.isLt

/-- Point `n`'s third tile (zero past the grid, where it is never read). -/
def tile2At (c : Dev nD) (n : ℕ) (j : S16x6.Idx) : EReal :=
  if h : n < cfg0.N then tileProd (F := Ideal) (iblk m c 0 ⟨n, h⟩) j else 0
theorem tile2At_eq (c : Dev nD) (t : Fin cfg0.N) (j : S16x6.Idx) :
    tile2At m c t.val j = tileProd (F := Ideal) (iblk m c 0 t) j := dif_pos t.isLt

/-- Point `n`'s fourth tile (zero past the grid, where it is never read). -/
def tile3At (c : Dev nD) (n : ℕ) (j : S16x6.Idx) : EReal :=
  if h : n < cfg0.N then tileAbs (F := Ideal) (iblk m c 0 ⟨n, h⟩) j else 0
theorem tile3At_eq (c : Dev nD) (t : Fin cfg0.N) (j : S16x6.Idx) :
    tile3At m c t.val j = tileAbs (F := Ideal) (iblk m c 0 t) j := dif_pos t.isLt

/-! ## What a point leaves, case by case -/

theorem stepA_scr0 (c : Dev nD) (t : Fin cfg0.N) (h0 : t.val % 4 = 0) (h1 : ¬t.val % 4 = 3) (j : S16x4.Idx) :
    (stepA m c t h0 h1).2.1 j = 0 + tileSum (F := Ideal) (iblk m c 0 t) j :=
  (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)) j).trans
    ((acc18_apply (tileSum (F := Ideal) (iblk m c 0 t)) (k0_pay3 (F := Ideal)) j).trans
      (congrArg (· + tileSum (F := Ideal) (iblk m c 0 t) j) (zero3_apply j)))

theorem stepB_scr0 (c : Dev nD) (t : Fin cfg0.N) (h0 : ¬t.val % 4 = 0) (h1 : ¬t.val % 4 = 3) (prev : Scr Ideal) (j : S16x4.Idx) :
    (stepB m c t h0 h1 prev).2.1 j = prev.1 j + tileSum (F := Ideal) (iblk m c 0 t) j :=
  (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2) j).trans
    (acc18_apply (tileSum (F := Ideal) (iblk m c 0 t)) prev.1 j)

theorem stepC_scr0 (c : Dev nD) (t : Fin cfg0.N) (h0 : ¬t.val % 4 = 0) (h1 : t.val % 4 = 3) (prev : Scr Ideal) (j : S16x4.Idx) :
    (stepC m c t h0 h1 prev).2.1 j = prev.1 j + tileSum (F := Ideal) (iblk m c 0 t) j :=
  (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc18_apply (tileSum (F := Ideal) (iblk m c 0 t)) prev.1 j)

theorem stepC_out1 (c : Dev nD) (t : Fin cfg0.N) (h0 : ¬t.val % 4 = 0) (h1 : t.val % 4 = 3) (prev : Scr Ideal) (j : S16x4.Idx) :
    (stepC m c t h0 h1 prev).1.1 j = prev.1 j + tileSum (F := Ideal) (iblk m c 0 t) j :=
  (congrFun (out0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc18_apply (tileSum (F := Ideal) (iblk m c 0 t)) prev.1 j)

theorem stepA_scr1 (c : Dev nD) (t : Fin cfg0.N) (h0 : t.val % 4 = 0) (h1 : ¬t.val % 4 = 3) (j : S16x4.Idx) :
    (stepA m c t h0 h1).2.2.1 j = 0 + tileSq (F := Ideal) (iblk m c 0 t) j :=
  (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)) j).trans
    ((acc19_apply (tileSq (F := Ideal) (iblk m c 0 t)) (k0_pay4 (F := Ideal)) j).trans
      (congrArg (· + tileSq (F := Ideal) (iblk m c 0 t) j) (zero4_apply j)))

theorem stepB_scr1 (c : Dev nD) (t : Fin cfg0.N) (h0 : ¬t.val % 4 = 0) (h1 : ¬t.val % 4 = 3) (prev : Scr Ideal) (j : S16x4.Idx) :
    (stepB m c t h0 h1 prev).2.2.1 j = prev.2.1 j + tileSq (F := Ideal) (iblk m c 0 t) j :=
  (congrFun (sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2) j).trans
    (acc19_apply (tileSq (F := Ideal) (iblk m c 0 t)) prev.2.1 j)

theorem stepC_scr1 (c : Dev nD) (t : Fin cfg0.N) (h0 : ¬t.val % 4 = 0) (h1 : t.val % 4 = 3) (prev : Scr Ideal) (j : S16x4.Idx) :
    (stepC m c t h0 h1 prev).2.2.1 j = prev.2.1 j + tileSq (F := Ideal) (iblk m c 0 t) j :=
  (congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc19_apply (tileSq (F := Ideal) (iblk m c 0 t)) prev.2.1 j)

theorem stepC_out2 (c : Dev nD) (t : Fin cfg0.N) (h0 : ¬t.val % 4 = 0) (h1 : t.val % 4 = 3) (prev : Scr Ideal) (j : S16x4.Idx) :
    (stepC m c t h0 h1 prev).1.2.1 j = prev.2.1 j + tileSq (F := Ideal) (iblk m c 0 t) j :=
  (congrFun (out0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc19_apply (tileSq (F := Ideal) (iblk m c 0 t)) prev.2.1 j)

theorem stepA_scr2 (c : Dev nD) (t : Fin cfg0.N) (h0 : t.val % 4 = 0) (h1 : ¬t.val % 4 = 3) (j : S16x6.Idx) :
    (stepA m c t h0 h1).2.2.2.1 j = 0 + tileProd (F := Ideal) (iblk m c 0 t) j :=
  (congrFun (sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)) j).trans
    ((acc1_apply (tileProd (F := Ideal) (iblk m c 0 t)) (k0_pay5 (F := Ideal)) j).trans
      (congrArg (· + tileProd (F := Ideal) (iblk m c 0 t) j) (zero5_apply j)))

theorem stepB_scr2 (c : Dev nD) (t : Fin cfg0.N) (h0 : ¬t.val % 4 = 0) (h1 : ¬t.val % 4 = 3) (prev : Scr Ideal) (j : S16x6.Idx) :
    (stepB m c t h0 h1 prev).2.2.2.1 j = prev.2.2.1 j + tileProd (F := Ideal) (iblk m c 0 t) j :=
  (congrFun (sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2) j).trans
    (acc1_apply (tileProd (F := Ideal) (iblk m c 0 t)) prev.2.2.1 j)

theorem stepC_scr2 (c : Dev nD) (t : Fin cfg0.N) (h0 : ¬t.val % 4 = 0) (h1 : t.val % 4 = 3) (prev : Scr Ideal) (j : S16x6.Idx) :
    (stepC m c t h0 h1 prev).2.2.2.1 j = prev.2.2.1 j + tileProd (F := Ideal) (iblk m c 0 t) j :=
  (congrFun (sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc1_apply (tileProd (F := Ideal) (iblk m c 0 t)) prev.2.2.1 j)

theorem stepC_out3 (c : Dev nD) (t : Fin cfg0.N) (h0 : ¬t.val % 4 = 0) (h1 : t.val % 4 = 3) (prev : Scr Ideal) (j : S16x6.Idx) :
    (stepC m c t h0 h1 prev).1.2.2.1 j = prev.2.2.1 j + tileProd (F := Ideal) (iblk m c 0 t) j :=
  (congrFun (out0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc1_apply (tileProd (F := Ideal) (iblk m c 0 t)) prev.2.2.1 j)

theorem stepA_scr3 (c : Dev nD) (t : Fin cfg0.N) (h0 : t.val % 4 = 0) (h1 : ¬t.val % 4 = 3) (j : S16x6.Idx) :
    (stepA m c t h0 h1).2.2.2.2 j = 0 + tileAbs (F := Ideal) (iblk m c 0 t) j :=
  (congrFun (sout0_A_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)) j).trans
    ((acc2_apply (tileAbs (F := Ideal) (iblk m c 0 t)) (k0_pay6 (F := Ideal)) j).trans
      (congrArg (· + tileAbs (F := Ideal) (iblk m c 0 t) j) (zero6_apply j)))

theorem stepB_scr3 (c : Dev nD) (t : Fin cfg0.N) (h0 : ¬t.val % 4 = 0) (h1 : ¬t.val % 4 = 3) (prev : Scr Ideal) (j : S16x6.Idx) :
    (stepB m c t h0 h1 prev).2.2.2.2 j = prev.2.2.2 j + tileAbs (F := Ideal) (iblk m c 0 t) j :=
  (congrFun (sout0_B_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) prev.1 prev.2.1 prev.2.2.1 prev.2.2.2) j).trans
    (acc2_apply (tileAbs (F := Ideal) (iblk m c 0 t)) prev.2.2.2 j)

theorem stepC_scr3 (c : Dev nD) (t : Fin cfg0.N) (h0 : ¬t.val % 4 = 0) (h1 : t.val % 4 = 3) (prev : Scr Ideal) (j : S16x6.Idx) :
    (stepC m c t h0 h1 prev).2.2.2.2 j = prev.2.2.2 j + tileAbs (F := Ideal) (iblk m c 0 t) j :=
  (congrFun (sout0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc2_apply (tileAbs (F := Ideal) (iblk m c 0 t)) prev.2.2.2 j)

theorem stepC_out4 (c : Dev nD) (t : Fin cfg0.N) (h0 : ¬t.val % 4 = 0) (h1 : t.val % 4 = 3) (prev : Scr Ideal) (j : S16x6.Idx) :
    (stepC m c t h0 h1 prev).1.2.2.2 j = prev.2.2.2 j + tileAbs (F := Ideal) (iblk m c 0 t) j :=
  (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) prev.1 prev.2.1 prev.2.2.1 prev.2.2.2) j).trans
    (acc2_apply (tileAbs (F := Ideal) (iblk m c 0 t)) prev.2.2.2 j)

/-! ## The accumulators after each point -/

/-- Accumulator 0 after point `n`: the running sum of its batch tile's tiles up to `n`. -/
theorem scr0_eq (c : Dev nD) : ∀ (n : ℕ) (hn : n < cfg0.N) (j : S16x4.Idx),
    (outsAt0 m c n hn).2.1 j = runAcc (tile0At m c) n j
  | 0, hn, j => by
    have e : outsAt0 m c 0 hn = stepA m c ⟨0, hn⟩ (Nat.zero_mod _) (show ¬(0 % 4 = 3) by decide) := rfl
    rw [e]
    exact (stepA_scr0 m c ⟨0, hn⟩ _ _ j).trans (congrArg (0 + ·) (tile0At_eq m c ⟨0, hn⟩ j).symm)
  | n + 1, hn, j => by
    by_cases h0 : (n + 1) % 4 = 0
    · have h1 : ¬(n + 1) % 4 = 3 := by omega
      rw [outsAt0_A m c ⟨n + 1, hn⟩ h0 h1]
      exact ((stepA_scr0 m c ⟨n + 1, hn⟩ h0 h1 j).trans (congrArg (0 + ·) (tile0At_eq m c ⟨n + 1, hn⟩ j).symm)).trans
        (runAcc_reset _ (n + 1) h0 j).symm
    · by_cases h1 : (n + 1) % 4 = 3
      · rw [outsAt0_C m c ⟨n + 1, hn⟩ h0 h1]
        refine ((stepC_scr0 m c ⟨n + 1, hn⟩ h0 h1 _ j).trans ?_).trans (runAcc_step _ n h0 j).symm
        exact congrArg₂ (· + ·) (scr0_eq c n (Nat.lt_of_succ_lt hn) j) (tile0At_eq m c ⟨n + 1, hn⟩ j).symm
      · rw [outsAt0_B m c ⟨n + 1, hn⟩ h0 h1]
        refine ((stepB_scr0 m c ⟨n + 1, hn⟩ h0 h1 _ j).trans ?_).trans (runAcc_step _ n h0 j).symm
        exact congrArg₂ (· + ·) (scr0_eq c n (Nat.lt_of_succ_lt hn) j) (tile0At_eq m c ⟨n + 1, hn⟩ j).symm

/-- Output window 1's buffer after a last time tile: the sum of the four tiles of the point's batch tile. -/
theorem out1_last (c : Dev nD) (t : Fin cfg0.N) (h1 : t.val % 4 = 3) (j : S16x4.Idx) :
    (outsAt0 m c t.val t.isLt).1.1 j
      = tile0At m c (4 * (t.val / 4)) j + tile0At m c (4 * (t.val / 4) + 1) j + tile0At m c (4 * (t.val / 4) + 2) j
        + tile0At m c (4 * (t.val / 4) + 3) j := by
  have h0 : ¬t.val % 4 = 0 := by omega
  have ht : t.val = 4 * (t.val / 4) + 3 := by omega
  have hp : t.val - 1 = 4 * (t.val / 4) + 2 := by omega
  rw [outsAt0_C m c t h0 h1]
  refine (stepC_out1 m c t h0 h1 _ j).trans ?_
  have hs := scr0_eq m c (t.val - 1) (Nat.lt_of_le_of_lt (Nat.sub_le _ _) t.isLt) j
  have e2 := runAcc_step (tile0At m c) (4 * (t.val / 4) + 1) (by omega) j
  have e1 := runAcc_step (tile0At m c) (4 * (t.val / 4)) (by omega) j
  have e0 := runAcc_reset (tile0At m c) (4 * (t.val / 4)) (by omega) j
  rw [zero_add] at e0
  rw [hs, hp, e2, e1, e0, ← tile0At_eq m c t j]
  exact congrArg (_ + tile0At m c · j) ht

/-- Accumulator 1 after point `n`: the running sum of its batch tile's tiles up to `n`. -/
theorem scr1_eq (c : Dev nD) : ∀ (n : ℕ) (hn : n < cfg0.N) (j : S16x4.Idx),
    (outsAt0 m c n hn).2.2.1 j = runAcc (tile1At m c) n j
  | 0, hn, j => by
    have e : outsAt0 m c 0 hn = stepA m c ⟨0, hn⟩ (Nat.zero_mod _) (show ¬(0 % 4 = 3) by decide) := rfl
    rw [e]
    exact (stepA_scr1 m c ⟨0, hn⟩ _ _ j).trans (congrArg (0 + ·) (tile1At_eq m c ⟨0, hn⟩ j).symm)
  | n + 1, hn, j => by
    by_cases h0 : (n + 1) % 4 = 0
    · have h1 : ¬(n + 1) % 4 = 3 := by omega
      rw [outsAt0_A m c ⟨n + 1, hn⟩ h0 h1]
      exact ((stepA_scr1 m c ⟨n + 1, hn⟩ h0 h1 j).trans (congrArg (0 + ·) (tile1At_eq m c ⟨n + 1, hn⟩ j).symm)).trans
        (runAcc_reset _ (n + 1) h0 j).symm
    · by_cases h1 : (n + 1) % 4 = 3
      · rw [outsAt0_C m c ⟨n + 1, hn⟩ h0 h1]
        refine ((stepC_scr1 m c ⟨n + 1, hn⟩ h0 h1 _ j).trans ?_).trans (runAcc_step _ n h0 j).symm
        exact congrArg₂ (· + ·) (scr1_eq c n (Nat.lt_of_succ_lt hn) j) (tile1At_eq m c ⟨n + 1, hn⟩ j).symm
      · rw [outsAt0_B m c ⟨n + 1, hn⟩ h0 h1]
        refine ((stepB_scr1 m c ⟨n + 1, hn⟩ h0 h1 _ j).trans ?_).trans (runAcc_step _ n h0 j).symm
        exact congrArg₂ (· + ·) (scr1_eq c n (Nat.lt_of_succ_lt hn) j) (tile1At_eq m c ⟨n + 1, hn⟩ j).symm

/-- Output window 2's buffer after a last time tile: the sum of the four tiles of the point's batch tile. -/
theorem out2_last (c : Dev nD) (t : Fin cfg0.N) (h1 : t.val % 4 = 3) (j : S16x4.Idx) :
    (outsAt0 m c t.val t.isLt).1.2.1 j
      = tile1At m c (4 * (t.val / 4)) j + tile1At m c (4 * (t.val / 4) + 1) j + tile1At m c (4 * (t.val / 4) + 2) j
        + tile1At m c (4 * (t.val / 4) + 3) j := by
  have h0 : ¬t.val % 4 = 0 := by omega
  have ht : t.val = 4 * (t.val / 4) + 3 := by omega
  have hp : t.val - 1 = 4 * (t.val / 4) + 2 := by omega
  rw [outsAt0_C m c t h0 h1]
  refine (stepC_out2 m c t h0 h1 _ j).trans ?_
  have hs := scr1_eq m c (t.val - 1) (Nat.lt_of_le_of_lt (Nat.sub_le _ _) t.isLt) j
  have e2 := runAcc_step (tile1At m c) (4 * (t.val / 4) + 1) (by omega) j
  have e1 := runAcc_step (tile1At m c) (4 * (t.val / 4)) (by omega) j
  have e0 := runAcc_reset (tile1At m c) (4 * (t.val / 4)) (by omega) j
  rw [zero_add] at e0
  rw [hs, hp, e2, e1, e0, ← tile1At_eq m c t j]
  exact congrArg (_ + tile1At m c · j) ht

/-- Accumulator 2 after point `n`: the running sum of its batch tile's tiles up to `n`. -/
theorem scr2_eq (c : Dev nD) : ∀ (n : ℕ) (hn : n < cfg0.N) (j : S16x6.Idx),
    (outsAt0 m c n hn).2.2.2.1 j = runAcc (tile2At m c) n j
  | 0, hn, j => by
    have e : outsAt0 m c 0 hn = stepA m c ⟨0, hn⟩ (Nat.zero_mod _) (show ¬(0 % 4 = 3) by decide) := rfl
    rw [e]
    exact (stepA_scr2 m c ⟨0, hn⟩ _ _ j).trans (congrArg (0 + ·) (tile2At_eq m c ⟨0, hn⟩ j).symm)
  | n + 1, hn, j => by
    by_cases h0 : (n + 1) % 4 = 0
    · have h1 : ¬(n + 1) % 4 = 3 := by omega
      rw [outsAt0_A m c ⟨n + 1, hn⟩ h0 h1]
      exact ((stepA_scr2 m c ⟨n + 1, hn⟩ h0 h1 j).trans (congrArg (0 + ·) (tile2At_eq m c ⟨n + 1, hn⟩ j).symm)).trans
        (runAcc_reset _ (n + 1) h0 j).symm
    · by_cases h1 : (n + 1) % 4 = 3
      · rw [outsAt0_C m c ⟨n + 1, hn⟩ h0 h1]
        refine ((stepC_scr2 m c ⟨n + 1, hn⟩ h0 h1 _ j).trans ?_).trans (runAcc_step _ n h0 j).symm
        exact congrArg₂ (· + ·) (scr2_eq c n (Nat.lt_of_succ_lt hn) j) (tile2At_eq m c ⟨n + 1, hn⟩ j).symm
      · rw [outsAt0_B m c ⟨n + 1, hn⟩ h0 h1]
        refine ((stepB_scr2 m c ⟨n + 1, hn⟩ h0 h1 _ j).trans ?_).trans (runAcc_step _ n h0 j).symm
        exact congrArg₂ (· + ·) (scr2_eq c n (Nat.lt_of_succ_lt hn) j) (tile2At_eq m c ⟨n + 1, hn⟩ j).symm

/-- Output window 3's buffer after a last time tile: the sum of the four tiles of the point's batch tile. -/
theorem out3_last (c : Dev nD) (t : Fin cfg0.N) (h1 : t.val % 4 = 3) (j : S16x6.Idx) :
    (outsAt0 m c t.val t.isLt).1.2.2.1 j
      = tile2At m c (4 * (t.val / 4)) j + tile2At m c (4 * (t.val / 4) + 1) j + tile2At m c (4 * (t.val / 4) + 2) j
        + tile2At m c (4 * (t.val / 4) + 3) j := by
  have h0 : ¬t.val % 4 = 0 := by omega
  have ht : t.val = 4 * (t.val / 4) + 3 := by omega
  have hp : t.val - 1 = 4 * (t.val / 4) + 2 := by omega
  rw [outsAt0_C m c t h0 h1]
  refine (stepC_out3 m c t h0 h1 _ j).trans ?_
  have hs := scr2_eq m c (t.val - 1) (Nat.lt_of_le_of_lt (Nat.sub_le _ _) t.isLt) j
  have e2 := runAcc_step (tile2At m c) (4 * (t.val / 4) + 1) (by omega) j
  have e1 := runAcc_step (tile2At m c) (4 * (t.val / 4)) (by omega) j
  have e0 := runAcc_reset (tile2At m c) (4 * (t.val / 4)) (by omega) j
  rw [zero_add] at e0
  rw [hs, hp, e2, e1, e0, ← tile2At_eq m c t j]
  exact congrArg (_ + tile2At m c · j) ht

/-- Accumulator 3 after point `n`: the running sum of its batch tile's tiles up to `n`. -/
theorem scr3_eq (c : Dev nD) : ∀ (n : ℕ) (hn : n < cfg0.N) (j : S16x6.Idx),
    (outsAt0 m c n hn).2.2.2.2 j = runAcc (tile3At m c) n j
  | 0, hn, j => by
    have e : outsAt0 m c 0 hn = stepA m c ⟨0, hn⟩ (Nat.zero_mod _) (show ¬(0 % 4 = 3) by decide) := rfl
    rw [e]
    exact (stepA_scr3 m c ⟨0, hn⟩ _ _ j).trans (congrArg (0 + ·) (tile3At_eq m c ⟨0, hn⟩ j).symm)
  | n + 1, hn, j => by
    by_cases h0 : (n + 1) % 4 = 0
    · have h1 : ¬(n + 1) % 4 = 3 := by omega
      rw [outsAt0_A m c ⟨n + 1, hn⟩ h0 h1]
      exact ((stepA_scr3 m c ⟨n + 1, hn⟩ h0 h1 j).trans (congrArg (0 + ·) (tile3At_eq m c ⟨n + 1, hn⟩ j).symm)).trans
        (runAcc_reset _ (n + 1) h0 j).symm
    · by_cases h1 : (n + 1) % 4 = 3
      · rw [outsAt0_C m c ⟨n + 1, hn⟩ h0 h1]
        refine ((stepC_scr3 m c ⟨n + 1, hn⟩ h0 h1 _ j).trans ?_).trans (runAcc_step _ n h0 j).symm
        exact congrArg₂ (· + ·) (scr3_eq c n (Nat.lt_of_succ_lt hn) j) (tile3At_eq m c ⟨n + 1, hn⟩ j).symm
      · rw [outsAt0_B m c ⟨n + 1, hn⟩ h0 h1]
        refine ((stepB_scr3 m c ⟨n + 1, hn⟩ h0 h1 _ j).trans ?_).trans (runAcc_step _ n h0 j).symm
        exact congrArg₂ (· + ·) (scr3_eq c n (Nat.lt_of_succ_lt hn) j) (tile3At_eq m c ⟨n + 1, hn⟩ j).symm

/-- Output window 4's buffer after a last time tile: the sum of the four tiles of the point's batch tile. -/
theorem out4_last (c : Dev nD) (t : Fin cfg0.N) (h1 : t.val % 4 = 3) (j : S16x6.Idx) :
    (outsAt0 m c t.val t.isLt).1.2.2.2 j
      = tile3At m c (4 * (t.val / 4)) j + tile3At m c (4 * (t.val / 4) + 1) j + tile3At m c (4 * (t.val / 4) + 2) j
        + tile3At m c (4 * (t.val / 4) + 3) j := by
  have h0 : ¬t.val % 4 = 0 := by omega
  have ht : t.val = 4 * (t.val / 4) + 3 := by omega
  have hp : t.val - 1 = 4 * (t.val / 4) + 2 := by omega
  rw [outsAt0_C m c t h0 h1]
  refine (stepC_out4 m c t h0 h1 _ j).trans ?_
  have hs := scr3_eq m c (t.val - 1) (Nat.lt_of_le_of_lt (Nat.sub_le _ _) t.isLt) j
  have e2 := runAcc_step (tile3At m c) (4 * (t.val / 4) + 1) (by omega) j
  have e1 := runAcc_step (tile3At m c) (4 * (t.val / 4)) (by omega) j
  have e0 := runAcc_reset (tile3At m c) (4 * (t.val / 4)) (by omega) j
  rw [zero_add] at e0
  rw [hs, hp, e2, e1, e0, ← tile3At_eq m c t j]
  exact congrArg (_ + tile3At m c · j) ht

end Cert.KernelIdeal.Hand

end
-- ==== Proof.KernelIdealValue.lean ====
/-
  The four arrays the reduction kernel writes, over the extended reals, as functions of its argument as the region finds it
  (batch × motor × channel × time, 256 × 4 × 6 × 32768). The input window's block at grid point `n` is batch rows
  `16 (n / 4) … 16 (n / 4) + 15` and times `8192 (n % 4) … 8192 (n % 4) + 8191` of the argument, all motors and channels.
  So the tile a point adds to an accumulator is, at row `r` of the batch tile, the sum over channels and over the point's
  8192 times of the argument's entries (their products, their absolute differences) at batch row `16 (n / 4) + r`; the sum
  over all 32768 times splits as the sum over the four time tiles of the sums over each tile's 8192 times (time
  `8192 s + l`; addition of extended reals is commutative and associative, nothing else is used); and the block an output
  window writes back at the last time tile of batch tile `q` — the only points where it is written back — is rows
  `16 q … 16 q + 15` of the whole-array function. Every row lies in the block of the point `4 (row / 16) + 3`, so each array
  ends at that function: the per-motor sums, the sums of squares, the six cross products, the six absolute-difference sums.
-/
import proofs.«168515_j63797444215021_2_alg».proof.Proof.KernelIdealValue.Acc

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

/-! ## All the times as four tiles of times -/

/-- A sum over the 32768 times is the sum over the four time tiles of the sums over a tile's 8192 times. -/
theorem sum_time (f : Fin 32768 → EReal) :
    ∑ t : Fin 32768, f t = ∑ s : Fin 4, ∑ l : Fin 8192, f ⟨8192 * s.val + l.val, by omega⟩ := by
  rw [← Equiv.sum_comp (finProdFinEquiv : Fin 4 × Fin 8192 ≃ Fin 32768) f, Fintype.sum_prod_type]
  refine Finset.sum_congr rfl fun s _ => Finset.sum_congr rfl fun l _ => congrArg f (Fin.ext ?_)
  show l.val + 8192 * s.val = 8192 * s.val + l.val
  omega

/-- The part of a sum over channels and times that lies in time tile `s`. -/
def part (g : Fin 6 → Fin 32768 → EReal) (s : ℕ) (hs : s < 4) : EReal :=
  ∑ ch : Fin 6, ∑ l : Fin 8192, g ch ⟨8192 * s + l.val, by omega⟩

/-- A sum over channels and times is the sum of its four parts. -/
theorem sum_parts (g : Fin 6 → Fin 32768 → EReal) :
    ∑ ch : Fin 6, ∑ t : Fin 32768, g ch t
      = part g 0 (by omega) + part g 1 (by omega) + part g 2 (by omega) + part g 3 (by omega) := by
  have e : ∀ ch : Fin 6, ∑ t : Fin 32768, g ch t = ∑ s : Fin 4, ∑ l : Fin 8192, g ch ⟨8192 * s.val + l.val, by omega⟩ :=
    fun ch => sum_time (g ch)
  rw [Finset.sum_congr rfl fun ch _ => e ch, Finset.sum_comm, Fin.sum_univ_four]
  rfl

theorem absdiff_congr {a b p q : EReal} (ha : a = p) (hb : b = q) : max (a - b) (-(a - b)) = max (p - q) (-(p - q)) := by
  subst ha hb; rfl

variable (m : (ℓ : Loc nD τ sig) → Buf (Elt Ideal) ℓ)

/-- The argument as the region finds it: batch × motor × channel × time. -/
abbrev argX (c : Dev nD) : Cert.Spec.Arr4 := V m c main_v0

/-! ## The windows' blocks -/

/-- The block indices of the five windows at a point, decided over the grid: the input's block is batch tile `n / 4`, time
    tile `n % 4`; each output's block is batch tile `n / 4`. -/
theorem idx_facts : ∀ t : Fin cfg0.N,
    win0_0.index t (0 : Fin 4) = t.val / 4 ∧ win0_0.index t (1 : Fin 4) = 0 ∧ win0_0.index t (2 : Fin 4) = 0
    ∧ win0_0.index t (3 : Fin 4) = t.val % 4
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

/-- The input block of time tile `s` of batch tile `q`, at (r, i, ch, l): the argument at (16 q + r, i, ch, 8192 s + l). -/
theorem iblk_X (c : Dev nD) (q : ℕ) (hq : q < 16) (s : ℕ) (hs : s < 4) (hlt : 4 * q + s < cfg0.N)
    (r : Fin 16) (i : Fin 4) (ch : Fin 6) (l : Fin 8192) :
    iblk m c 0 ⟨4 * q + s, hlt⟩ (ix4 r i ch l)
      = argX m c (ix4 (⟨16 * q + r.val, by omega⟩ : Fin 256) i ch (⟨8192 * s + l.val, by omega⟩ : Fin 32768)) := by
  obtain ⟨e0, e1, e2, e3, -⟩ := idx_facts ⟨4 * q + s, hlt⟩
  have d0 : (4 * q + s) / 4 = q := by omega
  have d3 : (4 * q + s) % 4 = s := by omega
  unfold iblk
  rw [View.read_apply]
  show V m c main_v0 _ = V m c main_v0 _
  refine congrArg (V m c main_v0) (funext fun a => Fin.ext ?_)
  match a with
  | ⟨0, _⟩ =>
    show win0_0.index ⟨4 * q + s, hlt⟩ (0 : Fin 4) * 16 + 1 * r.val = 16 * q + r.val
    rw [e0]; show (4 * q + s) / 4 * 16 + 1 * r.val = _; rw [d0]; omega
  | ⟨1, _⟩ =>
    show win0_0.index ⟨4 * q + s, hlt⟩ (1 : Fin 4) * 4 + 1 * i.val = i.val
    rw [e1]; omega
  | ⟨2, _⟩ =>
    show win0_0.index ⟨4 * q + s, hlt⟩ (2 : Fin 4) * 6 + 1 * ch.val = ch.val
    rw [e2]; omega
  | ⟨3, _⟩ =>
    show win0_0.index ⟨4 * q + s, hlt⟩ (3 : Fin 4) * 8192 + 1 * l.val = 8192 * s + l.val
    rw [e3]; show (4 * q + s) % 4 * 8192 + 1 * l.val = _; rw [d3]; omega

/-! ## Output window 1 -/

/-- The array window 1 ends holding. -/
def G1 (c : Dev nD) : S256x4.Idx → EReal := fun j => Cert.Spec.sum1 (argX m c) (j 0) (j 1)

/-- The tile of time tile `s` of batch tile `q`, at row `r`: the part of the whole sum that lies in that time tile. -/
theorem tile0_X (c : Dev nD) (q : ℕ) (hq : q < 16) (s : ℕ) (hs : s < 4) (r : Fin 16) (i : Fin 4) :
    tile0At m c (4 * q + s) (ix2 r i) = part (fun ch t => argX m c (ix4 (⟨16 * q + r.val, by omega⟩ : Fin 256) i ch t)) s hs := by
  have hN : cfg0.N = 64 := N_0
  have hlt : 4 * q + s < cfg0.N := by omega
  refine (tile0At_eq m c ⟨4 * q + s, hlt⟩ (ix2 r i)).trans ((tileSum_apply (iblk m c 0 ⟨4 * q + s, hlt⟩) r i).trans ?_)
  unfold bsum1 part
  exact dsum_congr fun ch l => iblk_X m c q hq s hs hlt r i ch l

/-- What a last time tile writes back is its block of the whole-array function. -/
theorem flushed1_eq (c : Dev nD) (t : Fin cfg0.N) (hf : (cfg0.win 1).flush t = true) :
    (dats m 0 c).flushed 1 t = ((cfg0.win 1).blk t).view.read (Elt Ideal) (G1 m c) := by
  have h3 : t.val % 4 = 3 := (flush0_1 t).mp hf
  have hN : cfg0.N = 64 := N_0
  have ht := t.isLt
  have hq : t.val / 4 < 16 := by omega
  obtain ⟨-, -, -, -, f0, f1, -⟩ := idx_facts t
  show (cfg0.win 1).cut (grid0.coords t) ((dats m 0 c).after 1 t) = _
  rw [after0_1]
  funext y
  obtain ⟨r, i, rfl⟩ : ∃ (r : Fin 16) (i : Fin 4), y = ix2 r i := ⟨y 0, y 1, eq_ix2 y⟩
  rw [View.read_apply]
  have hemb : ((cfg0.win 1).blk t).view.emb (ix2 r i) = ix2 (⟨16 * (t.val / 4) + r.val, by omega⟩ : Fin 256) i := by
    funext a; apply Fin.ext
    match a with
    | ⟨0, _⟩ => show win0_1.index t (0 : Fin 2) * 16 + 1 * r.val = 16 * (t.val / 4) + r.val; rw [f0]; omega
    | ⟨1, _⟩ => show win0_1.index t (1 : Fin 2) * 4 + 1 * i.val = i.val; rw [f1]; omega
  rw [hemb]
  show (outsAt0 m c t.val t.isLt).1.1 (ix2 r i) = _
  refine (out1_last m c t h3 (ix2 r i)).trans ?_
  show _ = Cert.Spec.sum1 (argX m c) (⟨16 * (t.val / 4) + r.val, by omega⟩ : Fin 256) i
  unfold Cert.Spec.sum1
  refine Eq.trans ?_ (sum_parts _).symm
  exact congrArg₂ (· + ·) (congrArg₂ (· + ·) (congrArg₂ (· + ·)
    (tile0_X m c (t.val / 4) hq 0 (by omega) r i) (tile0_X m c (t.val / 4) hq 1 (by omega) r i))
    (tile0_X m c (t.val / 4) hq 2 (by omega) r i)) (tile0_X m c (t.val / 4) hq 3 (by omega) r i)

/-- An index of the array is in a point's block iff each coordinate is in the block's range on its axis. -/
theorem mem_blk1 (t : Fin cfg0.N) (i : S256x4.Idx) :
    i ∈ ((cfg0.win 1).blk t).view.set ↔ ∀ a : Fin 2, win0_1.index t a * S16x4.size a ≤ (i a).val ∧ (i a).val < win0_1.index t a * S16x4.size a + S16x4.size a := by
  show i ∈ ((View.whole main_v1_0).slice (win0_1.rect t)).set ↔ _
  rw [View.set_slice_whole, Rect.mem_set_unit]
  exact Iff.rfl

/-- Every row lies in the block written back at the last time tile of its batch tile. -/
theorem cover1 (i : S256x4.Idx) : ∃ t : Fin cfg0.N, (cfg0.win 1).flush t = true ∧ i ∈ ((cfg0.win 1).blk t).view.set := by
  have hN : cfg0.N = 64 := N_0
  have hi0 : (i 0).val < 256 := (i 0).isLt
  have hi1 : (i 1).val < 4 := (i 1).isLt
  have hlt : 4 * ((i 0).val / 16) + 3 < cfg0.N := by omega
  obtain ⟨-, -, -, -, f0, f1, -⟩ := idx_facts ⟨4 * ((i 0).val / 16) + 3, hlt⟩
  refine ⟨⟨4 * ((i 0).val / 16) + 3, hlt⟩, (flush0_1 _).mpr (by show (4 * ((i 0).val / 16) + 3) % 4 = 3; omega), ?_⟩
  rw [mem_blk1]
  intro a
  match a with
  | ⟨0, _⟩ =>
    show win0_1.index ⟨4 * ((i 0).val / 16) + 3, hlt⟩ (0 : Fin 2) * 16 ≤ (i 0).val ∧ (i 0).val < win0_1.index ⟨4 * ((i 0).val / 16) + 3, hlt⟩ (0 : Fin 2) * 16 + 16
    rw [f0]; show (4 * ((i 0).val / 16) + 3) / 4 * 16 ≤ (i 0).val ∧ (i 0).val < (4 * ((i 0).val / 16) + 3) / 4 * 16 + 16; omega
  | ⟨1, _⟩ =>
    show win0_1.index ⟨4 * ((i 0).val / 16) + 3, hlt⟩ (1 : Fin 2) * 4 ≤ (i 1).val ∧ (i 1).val < win0_1.index ⟨4 * ((i 0).val / 16) + 3, hlt⟩ (1 : Fin 2) * 4 + 4
    rw [f1]; omega

/-- The array window 1 ends holding, index by index. -/
theorem final1 (c : Dev nD) : (dats m 0 c).arrAt 1 cfg0.N = fun j => Cert.Spec.sum1 (argX m c) (j 0) (j 1) :=
  (dats m 0 c).arrAt_eq_of_cover 1 (G1 m c) (flushed1_eq m c) (cover1)

/-! ## Output window 2 -/

/-- The array window 2 ends holding. -/
def G2 (c : Dev nD) : S256x4.Idx → EReal := fun j => Cert.Spec.sum2 (argX m c) (j 0) (j 1) (j 1)

/-- The tile of time tile `s` of batch tile `q`, at row `r`: the part of the whole sum that lies in that time tile. -/
theorem tile1_X (c : Dev nD) (q : ℕ) (hq : q < 16) (s : ℕ) (hs : s < 4) (r : Fin 16) (i : Fin 4) :
    tile1At m c (4 * q + s) (ix2 r i) = part (fun ch t => argX m c (ix4 (⟨16 * q + r.val, by omega⟩ : Fin 256) i ch t) * argX m c (ix4 (⟨16 * q + r.val, by omega⟩ : Fin 256) i ch t)) s hs := by
  have hN : cfg0.N = 64 := N_0
  have hlt : 4 * q + s < cfg0.N := by omega
  refine (tile1At_eq m c ⟨4 * q + s, hlt⟩ (ix2 r i)).trans ((tileSq_apply (iblk m c 0 ⟨4 * q + s, hlt⟩) r i).trans ?_)
  unfold bsum2 part
  exact dsum_congr fun ch l => congrArg₂ (· * ·) (iblk_X m c q hq s hs hlt r i ch l) (iblk_X m c q hq s hs hlt r i ch l)

/-- What a last time tile writes back is its block of the whole-array function. -/
theorem flushed2_eq (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  have hN : cfg0.N = 64 := N_0
  have ht := t.isLt
  have hq : t.val / 4 < 16 := by omega
  obtain ⟨-, -, -, -, -, -, f0, f1, -⟩ := idx_facts t
  show (cfg0.win 2).cut (grid0.coords t) ((dats m 0 c).after 2 t) = _
  rw [after0_2]
  funext y
  obtain ⟨r, i, rfl⟩ : ∃ (r : Fin 16) (i : Fin 4), y = ix2 r i := ⟨y 0, y 1, eq_ix2 y⟩
  rw [View.read_apply]
  have hemb : ((cfg0.win 2).blk t).view.emb (ix2 r i) = ix2 (⟨16 * (t.val / 4) + r.val, by omega⟩ : Fin 256) i := by
    funext a; apply Fin.ext
    match a with
    | ⟨0, _⟩ => show win0_2.index t (0 : Fin 2) * 16 + 1 * r.val = 16 * (t.val / 4) + r.val; rw [f0]; omega
    | ⟨1, _⟩ => show win0_2.index t (1 : Fin 2) * 4 + 1 * i.val = i.val; rw [f1]; omega
  rw [hemb]
  show (outsAt0 m c t.val t.isLt).1.2.1 (ix2 r i) = _
  refine (out2_last m c t h3 (ix2 r i)).trans ?_
  show _ = Cert.Spec.sum2 (argX m c) (⟨16 * (t.val / 4) + r.val, by omega⟩ : Fin 256) i i
  unfold Cert.Spec.sum2
  refine Eq.trans ?_ (sum_parts _).symm
  exact congrArg₂ (· + ·) (congrArg₂ (· + ·) (congrArg₂ (· + ·)
    (tile1_X m c (t.val / 4) hq 0 (by omega) r i) (tile1_X m c (t.val / 4) hq 1 (by omega) r i))
    (tile1_X m c (t.val / 4) hq 2 (by omega) r i)) (tile1_X m c (t.val / 4) hq 3 (by omega) r i)

/-- An index of the array is in a point's block iff each coordinate is in the block's range on its axis. -/
theorem mem_blk2 (t : Fin cfg0.N) (i : S256x4.Idx) :
    i ∈ ((cfg0.win 2).blk t).view.set ↔ ∀ a : Fin 2, win0_2.index t a * S16x4.size a ≤ (i a).val ∧ (i a).val < win0_2.index t a * S16x4.size a + S16x4.size a := by
  show i ∈ ((View.whole main_v1_1).slice (win0_2.rect t)).set ↔ _
  rw [View.set_slice_whole, Rect.mem_set_unit]
  exact Iff.rfl

/-- Every row lies in the block written back at the last time tile of its batch tile. -/
theorem cover2 (i : S256x4.Idx) : ∃ t : Fin cfg0.N, (cfg0.win 2).flush t = true ∧ i ∈ ((cfg0.win 2).blk t).view.set := by
  have hN : cfg0.N = 64 := N_0
  have hi0 : (i 0).val < 256 := (i 0).isLt
  have hi1 : (i 1).val < 4 := (i 1).isLt
  have hlt : 4 * ((i 0).val / 16) + 3 < cfg0.N := by omega
  obtain ⟨-, -, -, -, -, -, f0, f1, -⟩ := idx_facts ⟨4 * ((i 0).val / 16) + 3, hlt⟩
  refine ⟨⟨4 * ((i 0).val / 16) + 3, hlt⟩, (flush0_2 _).mpr (by show (4 * ((i 0).val / 16) + 3) % 4 = 3; omega), ?_⟩
  rw [mem_blk2]
  intro a
  match a with
  | ⟨0, _⟩ =>
    show win0_2.index ⟨4 * ((i 0).val / 16) + 3, hlt⟩ (0 : Fin 2) * 16 ≤ (i 0).val ∧ (i 0).val < win0_2.index ⟨4 * ((i 0).val / 16) + 3, hlt⟩ (0 : Fin 2) * 16 + 16
    rw [f0]; show (4 * ((i 0).val / 16) + 3) / 4 * 16 ≤ (i 0).val ∧ (i 0).val < (4 * ((i 0).val / 16) + 3) / 4 * 16 + 16; omega
  | ⟨1, _⟩ =>
    show win0_2.index ⟨4 * ((i 0).val / 16) + 3, hlt⟩ (1 : Fin 2) * 4 ≤ (i 1).val ∧ (i 1).val < win0_2.index ⟨4 * ((i 0).val / 16) + 3, hlt⟩ (1 : Fin 2) * 4 + 4
    rw [f1]; omega

/-- The array window 2 ends holding, index by index. -/
theorem final2 (c : Dev nD) : (dats m 0 c).arrAt 2 cfg0.N = fun j => Cert.Spec.sum2 (argX m c) (j 0) (j 1) (j 1) :=
  (dats m 0 c).arrAt_eq_of_cover 2 (G2 m c) (flushed2_eq m c) (cover2)

/-! ## Output window 3 -/

/-- The array window 3 ends holding. -/
def G3 (c : Dev nD) : S256x6.Idx → EReal := fun j => Cert.Spec.sum2 (argX m c) (j 0) (Cert.Spec.corrPair (j 1)).1 (Cert.Spec.corrPair (j 1)).2

/-- The tile of time tile `s` of batch tile `q`, at row `r`: the part of the whole sum that lies in that time tile. -/
theorem tile2_X (c : Dev nD) (q : ℕ) (hq : q < 16) (s : ℕ) (hs : s < 4) (r : Fin 16) (p : Fin 6) :
    tile2At m c (4 * q + s) (ix2 r p) = part (fun ch t => argX m c (ix4 (⟨16 * q + r.val, by omega⟩ : Fin 256) (Cert.Spec.corrPair p).1 ch t) * argX m c (ix4 (⟨16 * q + r.val, by omega⟩ : Fin 256) (Cert.Spec.corrPair p).2 ch t)) s hs := by
  have hN : cfg0.N = 64 := N_0
  have hlt : 4 * q + s < cfg0.N := by omega
  refine (tile2At_eq m c ⟨4 * q + s, hlt⟩ (ix2 r p)).trans ((tileProd_apply (iblk m c 0 ⟨4 * q + s, hlt⟩) r p).trans ?_)
  unfold bsum2 part
  exact dsum_congr fun ch l => congrArg₂ (· * ·) (iblk_X m c q hq s hs hlt r (Cert.Spec.corrPair p).1 ch l) (iblk_X m c q hq s hs hlt r (Cert.Spec.corrPair p).2 ch l)

/-- What a last time tile writes back is its block of the whole-array function. -/
theorem flushed3_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have hN : cfg0.N = 64 := N_0
  have ht := t.isLt
  have hq : t.val / 4 < 16 := by omega
  obtain ⟨-, -, -, -, -, -, -, -, f0, f1, -⟩ := idx_facts t
  show (cfg0.win 3).cut (grid0.coords t) ((dats m 0 c).after 3 t) = _
  rw [after0_3]
  funext y
  obtain ⟨r, p, rfl⟩ : ∃ (r : Fin 16) (p : Fin 6), y = ix2 r p := ⟨y 0, y 1, eq_ix2 y⟩
  rw [View.read_apply]
  have hemb : ((cfg0.win 3).blk t).view.emb (ix2 r p) = ix2 (⟨16 * (t.val / 4) + r.val, by omega⟩ : Fin 256) p := by
    funext a; apply Fin.ext
    match a with
    | ⟨0, _⟩ => show win0_3.index t (0 : Fin 2) * 16 + 1 * r.val = 16 * (t.val / 4) + r.val; rw [f0]; omega
    | ⟨1, _⟩ => show win0_3.index t (1 : Fin 2) * 6 + 1 * p.val = p.val; rw [f1]; omega
  rw [hemb]
  show (outsAt0 m c t.val t.isLt).1.2.2.1 (ix2 r p) = _
  refine (out3_last m c t h3 (ix2 r p)).trans ?_
  show _ = Cert.Spec.sum2 (argX m c) (⟨16 * (t.val / 4) + r.val, by omega⟩ : Fin 256) (Cert.Spec.corrPair p).1 (Cert.Spec.corrPair p).2
  unfold Cert.Spec.sum2
  refine Eq.trans ?_ (sum_parts _).symm
  exact congrArg₂ (· + ·) (congrArg₂ (· + ·) (congrArg₂ (· + ·)
    (tile2_X m c (t.val / 4) hq 0 (by omega) r p) (tile2_X m c (t.val / 4) hq 1 (by omega) r p))
    (tile2_X m c (t.val / 4) hq 2 (by omega) r p)) (tile2_X m c (t.val / 4) hq 3 (by omega) r p)

/-- An index of the array is in a point's block iff each coordinate is in the block's range on its axis. -/
theorem mem_blk3 (t : Fin cfg0.N) (i : S256x6.Idx) :
    i ∈ ((cfg0.win 3).blk t).view.set ↔ ∀ a : Fin 2, win0_3.index t a * S16x6.size a ≤ (i a).val ∧ (i a).val < win0_3.index t a * S16x6.size a + S16x6.size a := by
  show i ∈ ((View.whole main_v1_2).slice (win0_3.rect t)).set ↔ _
  rw [View.set_slice_whole, Rect.mem_set_unit]
  exact Iff.rfl

/-- Every row lies in the block written back at the last time tile of its batch tile. -/
theorem cover3 (i : S256x6.Idx) : ∃ t : Fin cfg0.N, (cfg0.win 3).flush t = true ∧ i ∈ ((cfg0.win 3).blk t).view.set := by
  have hN : cfg0.N = 64 := N_0
  have hi0 : (i 0).val < 256 := (i 0).isLt
  have hi1 : (i 1).val < 6 := (i 1).isLt
  have hlt : 4 * ((i 0).val / 16) + 3 < cfg0.N := by omega
  obtain ⟨-, -, -, -, -, -, -, -, f0, f1, -⟩ := idx_facts ⟨4 * ((i 0).val / 16) + 3, hlt⟩
  refine ⟨⟨4 * ((i 0).val / 16) + 3, hlt⟩, (flush0_3 _).mpr (by show (4 * ((i 0).val / 16) + 3) % 4 = 3; omega), ?_⟩
  rw [mem_blk3]
  intro a
  match a with
  | ⟨0, _⟩ =>
    show win0_3.index ⟨4 * ((i 0).val / 16) + 3, hlt⟩ (0 : Fin 2) * 16 ≤ (i 0).val ∧ (i 0).val < win0_3.index ⟨4 * ((i 0).val / 16) + 3, hlt⟩ (0 : Fin 2) * 16 + 16
    rw [f0]; show (4 * ((i 0).val / 16) + 3) / 4 * 16 ≤ (i 0).val ∧ (i 0).val < (4 * ((i 0).val / 16) + 3) / 4 * 16 + 16; omega
  | ⟨1, _⟩ =>
    show win0_3.index ⟨4 * ((i 0).val / 16) + 3, hlt⟩ (1 : Fin 2) * 6 ≤ (i 1).val ∧ (i 1).val < win0_3.index ⟨4 * ((i 0).val / 16) + 3, hlt⟩ (1 : Fin 2) * 6 + 6
    rw [f1]; omega

/-- The array window 3 ends holding, index by index. -/
theorem final3 (c : Dev nD) : (dats m 0 c).arrAt 3 cfg0.N = fun j => Cert.Spec.sum2 (argX m c) (j 0) (Cert.Spec.corrPair (j 1)).1 (Cert.Spec.corrPair (j 1)).2 :=
  (dats m 0 c).arrAt_eq_of_cover 3 (G3 m c) (flushed3_eq m c) (cover3)

/-! ## Output window 4 -/

/-- The array window 4 ends holding. -/
def G4 (c : Dev nD) : S256x6.Idx → EReal := fun j => Cert.Spec.sumAbs (argX m c) (j 0) (Cert.Spec.diffPair (j 1)).1 (Cert.Spec.diffPair (j 1)).2

/-- The tile of time tile `s` of batch tile `q`, at row `r`: the part of the whole sum that lies in that time tile. -/
theorem tile3_X (c : Dev nD) (q : ℕ) (hq : q < 16) (s : ℕ) (hs : s < 4) (r : Fin 16) (p : Fin 6) :
    tile3At m c (4 * q + s) (ix2 r p) = part (fun ch t => max (argX m c (ix4 (⟨16 * q + r.val, by omega⟩ : Fin 256) (Cert.Spec.diffPair p).1 ch t) - argX m c (ix4 (⟨16 * q + r.val, by omega⟩ : Fin 256) (Cert.Spec.diffPair p).2 ch t)) (-(argX m c (ix4 (⟨16 * q + r.val, by omega⟩ : Fin 256) (Cert.Spec.diffPair p).1 ch t) - argX m c (ix4 (⟨16 * q + r.val, by omega⟩ : Fin 256) (Cert.Spec.diffPair p).2 ch t)))) s hs := by
  have hN : cfg0.N = 64 := N_0
  have hlt : 4 * q + s < cfg0.N := by omega
  refine (tile3At_eq m c ⟨4 * q + s, hlt⟩ (ix2 r p)).trans ((tileAbs_apply (iblk m c 0 ⟨4 * q + s, hlt⟩) r p).trans ?_)
  unfold bsumAbs part
  exact dsum_congr fun ch l => absdiff_congr (iblk_X m c q hq s hs hlt r (Cert.Spec.diffPair p).1 ch l) (iblk_X m c q hq s hs hlt r (Cert.Spec.diffPair p).2 ch l)

/-- What a last time tile writes back is its block of the whole-array function. -/
theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  have hN : cfg0.N = 64 := N_0
  have ht := t.isLt
  have hq : t.val / 4 < 16 := by omega
  obtain ⟨-, -, -, -, -, -, -, -, -, -, f0, f1⟩ := idx_facts t
  show (cfg0.win 4).cut (grid0.coords t) ((dats m 0 c).after 4 t) = _
  rw [after0_4]
  funext y
  obtain ⟨r, p, rfl⟩ : ∃ (r : Fin 16) (p : Fin 6), y = ix2 r p := ⟨y 0, y 1, eq_ix2 y⟩
  rw [View.read_apply]
  have hemb : ((cfg0.win 4).blk t).view.emb (ix2 r p) = ix2 (⟨16 * (t.val / 4) + r.val, by omega⟩ : Fin 256) p := by
    funext a; apply Fin.ext
    match a with
    | ⟨0, _⟩ => show win0_4.index t (0 : Fin 2) * 16 + 1 * r.val = 16 * (t.val / 4) + r.val; rw [f0]; omega
    | ⟨1, _⟩ => show win0_4.index t (1 : Fin 2) * 6 + 1 * p.val = p.val; rw [f1]; omega
  rw [hemb]
  show (outsAt0 m c t.val t.isLt).1.2.2.2 (ix2 r p) = _
  refine (out4_last m c t h3 (ix2 r p)).trans ?_
  show _ = Cert.Spec.sumAbs (argX m c) (⟨16 * (t.val / 4) + r.val, by omega⟩ : Fin 256) (Cert.Spec.diffPair p).1 (Cert.Spec.diffPair p).2
  unfold Cert.Spec.sumAbs
  refine Eq.trans ?_ (sum_parts _).symm
  exact congrArg₂ (· + ·) (congrArg₂ (· + ·) (congrArg₂ (· + ·)
    (tile3_X m c (t.val / 4) hq 0 (by omega) r p) (tile3_X m c (t.val / 4) hq 1 (by omega) r p))
    (tile3_X m c (t.val / 4) hq 2 (by omega) r p)) (tile3_X m c (t.val / 4) hq 3 (by omega) r p)

/-- An index of the array is in a point's block iff each coordinate is in the block's range on its axis. -/
theorem mem_blk4 (t : Fin cfg0.N) (i : S256x6.Idx) :
    i ∈ ((cfg0.win 4).blk t).view.set ↔ ∀ a : Fin 2, win0_4.index t a * S16x6.size a ≤ (i a).val ∧ (i a).val < win0_4.index t a * S16x6.size a + S16x6.size a := by
  show i ∈ ((View.whole main_v1_3).slice (win0_4.rect t)).set ↔ _
  rw [View.set_slice_whole, Rect.mem_set_unit]
  exact Iff.rfl

/-- Every row lies in the block written back at the last time tile of its batch tile. -/
theorem cover4 (i : S256x6.Idx) : ∃ t : Fin cfg0.N, (cfg0.win 4).flush t = true ∧ i ∈ ((cfg0.win 4).blk t).view.set := by
  have hN : cfg0.N = 64 := N_0
  have hi0 : (i 0).val < 256 := (i 0).isLt
  have hi1 : (i 1).val < 6 := (i 1).isLt
  have hlt : 4 * ((i 0).val / 16) + 3 < cfg0.N := by omega
  obtain ⟨-, -, -, -, -, -, -, -, -, -, f0, f1⟩ := idx_facts ⟨4 * ((i 0).val / 16) + 3, hlt⟩
  refine ⟨⟨4 * ((i 0).val / 16) + 3, hlt⟩, (flush0_4 _).mpr (by show (4 * ((i 0).val / 16) + 3) % 4 = 3; omega), ?_⟩
  rw [mem_blk4]
  intro a
  match a with
  | ⟨0, _⟩ =>
    show win0_4.index ⟨4 * ((i 0).val / 16) + 3, hlt⟩ (0 : Fin 2) * 16 ≤ (i 0).val ∧ (i 0).val < win0_4.index ⟨4 * ((i 0).val / 16) + 3, hlt⟩ (0 : Fin 2) * 16 + 16
    rw [f0]; show (4 * ((i 0).val / 16) + 3) / 4 * 16 ≤ (i 0).val ∧ (i 0).val < (4 * ((i 0).val / 16) + 3) / 4 * 16 + 16; omega
  | ⟨1, _⟩ =>
    show win0_4.index ⟨4 * ((i 0).val / 16) + 3, hlt⟩ (1 : Fin 2) * 6 ≤ (i 1).val ∧ (i 1).val < win0_4.index ⟨4 * ((i 0).val / 16) + 3, hlt⟩ (1 : Fin 2) * 6 + 6
    rw [f1]; omega

/-- The array window 4 ends holding, index by index. -/
theorem final4 (c : Dev nD) : (dats m 0 c).arrAt 4 cfg0.N = fun j => Cert.Spec.sumAbs (argX m c) (j 0) (Cert.Spec.diffPair (j 1)).1 (Cert.Spec.diffPair (j 1)).2 :=
  (dats m 0 c).arrAt_eq_of_cover 4 (G4 m c) (flushed4_eq m c) (cover4)

end Cert.KernelIdeal.Hand

end
-- ==== Proof.RefRun.lean ====
/-
  The reference as a straight line. Its entry point calls three outlined functions (the unbiased standard deviation,
  which calls the variance, which calls a select; and the diagonal of the 4 × 4 cross sums, a gather over two iotas);
  with each callee's operations written at the call site over that call's buffers the entry point is one list of 217
  host operations. Hence its run: every weakly fair execution terminates with every buffer at the operations' fold over
  the launch contents, and the argument, which no operation writes, ends as launched.
-/
import proofs.«168515_j63797444215021_2_alg».proof.Proof.Gen.ReferenceIdeal
import Idealize.ShloMosaic.Lib.StableHlo.Run
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry point's 217 operations, in order, the callees' at their call sites. -/
abbrev ops : List (HloOp τ sig (Elt F)) :=
  [ StableHlo.reshape main_arg0 main_v0 rfl shapeCasts_S256x24x32768_S256x4x6x32768,
    StableHlo.binary main_v0 main_v0 main_v1 (mulf : (⟨S256x4x6x32768, .f32⟩ : BufTy).Contents (Elt F) → (⟨S256x4x6x32768, .f32⟩ : BufTy).Contents (Elt F) → (⟨S256x4x6x32768, .f32⟩ : BufTy).Contents (Elt F)),
    StableHlo.nullary main_cst (constant S_ .f32 0x00000000#32),
    StableHlo.binary main_v1 main_cst main_v2 ((fun x v => Host.reduceAdd x v reducesTo_S256x4x6x32768_S256x4_d2_3 h_S_) : (⟨S256x4x6x32768, .f32⟩ : BufTy).Contents (Elt F) → (⟨S_, .f32⟩ : BufTy).Contents (Elt F) → (⟨S256x4, .f32⟩ : BufTy).Contents (Elt F)),
    StableHlo.nullary main_cst_0 (constant S_ .f32 0x48400000#32),
    StableHlo.unary main_cst_0 main_v3 (broadcastInDim S256x4 ![] bcast_S_S256x4 : (⟨S_, .f32⟩ : BufTy).Contents (Elt F) → (⟨S256x4, .f32⟩ : BufTy).Contents (Elt F)),
    StableHlo.binary main_v2 main_v3 main_v4 (Host.divf : (⟨S256x4, .f32⟩ : BufTy).Contents (Elt F) → (⟨S256x4, .f32⟩ : BufTy).Contents (Elt F) → (⟨S256x4, .f32⟩ : BufTy).Contents (Elt F)),
    StableHlo.nullary main_c (constantI S_ 32 1#32),
    StableHlo.TRef.nullary main_call0.call0.cst (constant S_ .f32 0x00000000#32),
    StableHlo.TRef.binary (.of main_v4 : StableHlo.TRef sig ⟨S256x4, .f32⟩) main_call0.call0.cst main_call0.call0.v0 (fun x v => Host.reduceAdd x v reducesTo_S256x4_S256_d1 h_S_),
    StableHlo.TRef.unary main_call0.call0.v0 main_call0.call0.v1 (broadcastInDim S256x1 ![0] bcast_S256_S256x1_0),
    StableHlo.TRef.nullary main_call0.call0.cst_0 (constant S_ .f32 0x40800000#32),
    StableHlo.TRef.unary main_call0.call0.cst_0 main_call0.call0.v2 (broadcastInDim S256x1 ![] bcast_S_S256x1),
    StableHlo.TRef.binary main_call0.call0.v1 main_call0.call0.v2 main_call0.call0.v3 Host.divf,
    StableHlo.TRef.unary main_call0.call0.v3 main_call0.call0.v4 (broadcastInDim S256x4 ![0, 1] bcast_S256x1_S256x4_0_1),
    StableHlo.TRef.binary (.of main_v4 : StableHlo.TRef sig ⟨S256x4, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x40800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S256x4_S256_d1 h_S_),
    StableHlo.TRef.unary main_call0.call0.v8 main_call0.call0.v10 (broadcastInDim S256 ![] bcast_S_S256),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S256 ![] bcast_S_S256),
    StableHlo.TRef.ternary main_call0.call0.v12 main_call0.call0.v11 main_call0.call0.call0.v1 main_call0.call0.call0.v2 (fun p a b => select (broadcastInDim S256 ![] bcast_S_S256 p) a b),
    StableHlo.TRef.unary main_call0.call0.call0.v2 main_call0.v1 Host.sqrt,
    StableHlo.nullary main_cst_1 (constant S_ .f32 0xFF800000#32),
    StableHlo.binary main_v4 main_cst_1 main_v6 ((fun x v => Host.reduce FloatOps.maximumf x v reducesTo_S256x4_S256_d1 h_S_) : (⟨S256x4, .f32⟩ : BufTy).Contents (Elt F) → (⟨S_, .f32⟩ : BufTy).Contents (Elt F) → (⟨S256, .f32⟩ : BufTy).Contents (Elt F)),
    StableHlo.nullary main_cst_2 (constant S_ .f32 0x7F800000#32),
    StableHlo.binary main_v4 main_cst_2 main_v7 ((fun x v => Host.reduce FloatOps.minimumf x v reducesTo_S256x4_S256_d1 h_S_) : (⟨S256x4, .f32⟩ : BufTy).Contents (Elt F) → (⟨S_, .f32⟩ : BufTy).Contents (Elt F) → (⟨S256, .f32⟩ : BufTy).Contents (Elt F)),
    StableHlo.nullary main_cst_3 (constant S_ .f32 0x322BCC77#32),
    StableHlo.unary main_cst_3 main_v8 (broadcastInDim S256 ![] bcast_S_S256 : (⟨S_, .f32⟩ : BufTy).Contents (Elt F) → (⟨S256, .f32⟩ : BufTy).Contents (Elt F)),
    StableHlo.binary main_v7 main_v8 main_v9 (addf : (⟨S256, .f32⟩ : BufTy).Contents (Elt F) → (⟨S256, .f32⟩ : BufTy).Contents (Elt F) → (⟨S256, .f32⟩ : BufTy).Contents (Elt F)),
    StableHlo.binary main_v6 main_v9 main_v10 (Host.divf : (⟨S256, .f32⟩ : BufTy).Contents (Elt F) → (⟨S256, .f32⟩ : BufTy).Contents (Elt F) → (⟨S256, .f32⟩ : BufTy).Contents (Elt F)),
    StableHlo.reshape main_v0 main_v11 rfl shapeCasts_S256x4x6x32768_S256x4x196608,
    StableHlo.nullary main_cst_4 (constant S_ .f32 0x00000000#32),
    StableHlo.binary main_v11 main_cst_4 main_v12 ((fun x v => Host.reduceAdd x v reducesTo_S256x4x196608_S256x4_d2 h_S_) : (⟨S256x4x196608, .f32⟩ : BufTy).Contents (Elt F) → (⟨S_, .f32⟩ : BufTy).Contents (Elt F) → (⟨S256x4, .f32⟩ : BufTy).Contents (Elt F)),
    StableHlo.unary main_v12 main_v13 (broadcastInDim S256x4x1 ![0, 1] bcast_S256x4_S256x4x1_0_1 : (⟨S256x4, .f32⟩ : BufTy).Contents (Elt F) → (⟨S256x4x1, .f32⟩ : BufTy).Contents (Elt F)),
    StableHlo.nullary main_cst_5 (constant S_ .f32 0x48400000#32),
    StableHlo.unary main_cst_5 main_v14 (broadcastInDim S256x4x1 ![] bcast_S_S256x4x1 : (⟨S_, .f32⟩ : BufTy).Contents (Elt F) → (⟨S256x4x1, .f32⟩ : BufTy).Contents (Elt F)),
    StableHlo.binary main_v13 main_v14 main_v15 (Host.divf : (⟨S256x4x1, .f32⟩ : BufTy).Contents (Elt F) → (⟨S256x4x1, .f32⟩ : BufTy).Contents (Elt F) → (⟨S256x4x1, .f32⟩ : BufTy).Contents (Elt F)),
    StableHlo.unary main_v15 main_v16 (broadcastInDim S256x4x196608 ![0, 1, 2] bcast_S256x4x1_S256x4x196608_0_1_2 : (⟨S256x4x1, .f32⟩ : BufTy).Contents (Elt F) → (⟨S256x4x196608, .f32⟩ : BufTy).Contents (Elt F)),
    StableHlo.binary main_v11 main_v16 main_v17 (subf : (⟨S256x4x196608, .f32⟩ : BufTy).Contents (Elt F) → (⟨S256x4x196608, .f32⟩ : BufTy).Contents (Elt F) → (⟨S256x4x196608, .f32⟩ : BufTy).Contents (Elt F)),
    StableHlo.binary main_v17 main_v17 main_v18 ((fun l r => Host.dotGeneral dot_S256x4x196608_S256x4x196608_S256x4x4_2_2_1_1_0_0 none l r) : (⟨S256x4x196608, .f32⟩ : BufTy).Contents (Elt F) → (⟨S256x4x196608, .f32⟩ : BufTy).Contents (Elt F) → (⟨S256x4x4, .f32⟩ : BufTy).Contents (Elt F)),
    StableHlo.TRef.nullary main_call1.v0 (iotaInDim S4 32 0),
    StableHlo.TRef.nullary main_call1.v1 (iotaInDim S4 32 0),
    StableHlo.TRef.nullary main_call1.c (constantI S_ 32 0#32),
    StableHlo.TRef.unary main_call1.c main_call1.v2 (broadcastInDim S4 ![] bcast_S_S4),
    StableHlo.TRef.binary main_call1.v0 main_call1.v2 main_call1.v3 (cmpi .slt),
    StableHlo.TRef.nullary main_call1.c_0 (constantI S_ 32 4#32),
    StableHlo.TRef.unary main_call1.c_0 main_call1.v4 (broadcastInDim S4 ![] bcast_S_S4),
    StableHlo.TRef.binary main_call1.v0 main_call1.v4 main_call1.v5 addi,
    StableHlo.TRef.ternary main_call1.v3 main_call1.v5 main_call1.v0 main_call1.v6 select,
    StableHlo.TRef.nullary main_call1.c_1 (constantI S_ 32 0#32),
    StableHlo.TRef.unary main_call1.c_1 main_call1.v7 (broadcastInDim S4 ![] bcast_S_S4),
    StableHlo.TRef.binary main_call1.v1 main_call1.v7 main_call1.v8 (cmpi .slt),
    StableHlo.TRef.nullary main_call1.c_2 (constantI S_ 32 4#32),
    StableHlo.TRef.unary main_call1.c_2 main_call1.v9 (broadcastInDim S4 ![] bcast_S_S4),
    StableHlo.TRef.binary main_call1.v1 main_call1.v9 main_call1.v10 addi,
    StableHlo.TRef.ternary main_call1.v8 main_call1.v10 main_call1.v1 main_call1.v11 select,
    StableHlo.TRef.unary main_call1.v6 main_call1.v12 (broadcastInDim S4x1 ![0] bcast_S4_S4x1_0),
    StableHlo.TRef.unary main_call1.v11 main_call1.v13 (broadcastInDim S4x1 ![0] bcast_S4_S4x1_0),
    StableHlo.TRef.binary main_call1.v12 main_call1.v13 main_call1.v14 (fun a b => concatenate S4x2 1 [⟨S4x1, a⟩, ⟨S4x1, b⟩] concatenates_S4x1_S4x1_S4x2_d1),
    StableHlo.TRef.binary (.of main_v18 : StableHlo.TRef sig ⟨S256x4x4, .f32⟩) main_call1.v14 main_call1.v15 (fun x i => Host.gather gather_S256x4x4_S4x2_S256x4_0_12_n_n_12_1_25611 x i),
    StableHlo.unary main_v19 main_v20 (Host.sqrt : (⟨S256x4, .f32⟩ : BufTy).Contents (Elt F) → (⟨S256x4, .f32⟩ : BufTy).Contents (Elt F)),
    StableHlo.unary main_v18 main_v21 ((extractStridedSlice S256x1x1 ![0, 0, 1] · slices_S256x4x4_S256x1x1_0_0_1) : (⟨S256x4x4, .f32⟩ : BufTy).Contents (Elt F) → (⟨S256x1x1, .f32⟩ : BufTy).Contents (Elt F)),
    StableHlo.reshape main_v21 main_v22 rfl shapeCasts_S256x1x1_S256,
    StableHlo.unary main_v20 main_v23 ((extractStridedSlice S256x1 ![0, 0] · slices_S256x4_S256x1_0_0) : (⟨S256x4, .f32⟩ : BufTy).Contents (Elt F) → (⟨S256x1, .f32⟩ : BufTy).Contents (Elt F)),
    StableHlo.reshape main_v23 main_v24 rfl shapeCasts_S256x1_S256,
    StableHlo.unary main_v20 main_v25 ((extractStridedSlice S256x1 ![0, 1] · slices_S256x4_S256x1_0_1) : (⟨S256x4, .f32⟩ : BufTy).Contents (Elt F) → (⟨S256x1, .f32⟩ : BufTy).Contents (Elt F)),
    StableHlo.reshape main_v25 main_v26 rfl shapeCasts_S256x1_S256,
    StableHlo.binary main_v24 main_v26 main_v27 (mulf : (⟨S256, .f32⟩ : BufTy).Contents (Elt F) → (⟨S256, .f32⟩ : BufTy).Contents (Elt F) → (⟨S256, .f32⟩ : BufTy).Contents (Elt F)),
    StableHlo.nullary main_cst_6 (constant S_ .f32 0x322BCC77#32),
    StableHlo.unary main_cst_6 main_v28 (broadcastInDim S256 ![] bcast_S_S256 : (⟨S_, .f32⟩ : BufTy).Contents (Elt F) → (⟨S256, .f32⟩ : BufTy).Contents (Elt F)),
    StableHlo.binary main_v27 main_v28 main_v29 (addf : (⟨S256, .f32⟩ : BufTy).Contents (Elt F) → (⟨S256, .f32⟩ : BufTy).Contents (Elt F) → (⟨S256, .f32⟩ : BufTy).Contents (Elt F)),
    StableHlo.binary main_v22 main_v29 main_v30 (Host.divf : (⟨S256, .f32⟩ : BufTy).Contents (Elt F) → (⟨S256, .f32⟩ : BufTy).Contents (Elt F) → (⟨S256, .f32⟩ : BufTy).Contents (Elt F)),
    StableHlo.unary main_v18 main_v31 ((extractStridedSlice S256x1x1 ![0, 0, 2] · slices_S256x4x4_S256x1x1_0_0_2) : (⟨S256x4x4, .f32⟩ : BufTy).Contents (Elt F) → (⟨S256x1x1, .f32⟩ : BufTy).Contents (Elt F)),
    StableHlo.reshape main_v31 main_v32 rfl shapeCasts_S256x1x1_S256,
    StableHlo.unary main_v20 main_v33 ((extractStridedSlice S256x1 ![0, 0] · slices_S256x4_S256x1_0_0) : (⟨S256x4, .f32⟩ : BufTy).Contents (Elt F) → (⟨S256x1, .f32⟩ : BufTy).Contents (Elt F)),
    StableHlo.reshape main_v33 main_v34 rfl shapeCasts_S256x1_S256,
    StableHlo.unary main_v20 main_v35 ((extractStridedSlice S256x1 ![0, 2] · slices_S256x4_S256x1_0_2) : (⟨S256x4, .f32⟩ : BufTy).Contents (Elt F) → (⟨S256x1, .f32⟩ : BufTy).Contents (Elt F)),
    StableHlo.reshape main_v35 main_v36 rfl shapeCasts_S256x1_S256,
    StableHlo.binary main_v34 main_v36 main_v37 (mulf : (⟨S256, .f32⟩ : BufTy).Contents (Elt F) → (⟨S256, .f32⟩ : BufTy).Contents (Elt F) → (⟨S256, .f32⟩ : BufTy).Contents (Elt F)),
    StableHlo.nullary main_cst_7 (constant S_ .f32 0x322BCC77#32),
    StableHlo.unary main_cst_7 main_v38 (broadcastInDim S256 ![] bcast_S_S256 : (⟨S_, .f32⟩ : BufTy).Contents (Elt F) → (⟨S256, .f32⟩ : BufTy).Contents (Elt F)),
    StableHlo.binary main_v37 main_v38 main_v39 (addf : (⟨S256, .f32⟩ : BufTy).Contents (Elt F) → (⟨S256, .f32⟩ : BufTy).Contents (Elt F) → (⟨S256, .f32⟩ : BufTy).Contents (Elt F)),
    StableHlo.binary main_v32 main_v39 main_v40 (Host.divf : (⟨S256, .f32⟩ : BufTy).Contents (Elt F) → (⟨S256, .f32⟩ : BufTy).Contents (Elt F) → (⟨S256, .f32⟩ : BufTy).Contents (Elt F)),
    StableHlo.unary main_v18 main_v41 ((extractStridedSlice S256x1x1 ![0, 0, 3] · slices_S256x4x4_S256x1x1_0_0_3) : (⟨S256x4x4, .f32⟩ : BufTy).Contents (Elt F) → (⟨S256x1x1, .f32⟩ : BufTy).Contents (Elt F)),
    StableHlo.reshape main_v41 main_v42 rfl shapeCasts_S256x1x1_S256,
    StableHlo.unary main_v20 main_v43 ((extractStridedSlice S256x1 ![0, 0] · slices_S256x4_S256x1_0_0) : (⟨S256x4, .f32⟩ : BufTy).Contents (Elt F) → (⟨S256x1, .f32⟩ : BufTy).Contents (Elt F)),
    StableHlo.reshape main_v43 main_v44 rfl shapeCasts_S256x1_S256,
    StableHlo.unary main_v20 main_v45 ((extractStridedSlice S256x1 ![0, 3] · slices_S256x4_S256x1_0_3) : (⟨S256x4, .f32⟩ : BufTy).Contents (Elt F) → (⟨S256x1, .f32⟩ : BufTy).Contents (Elt F)),
    StableHlo.reshape main_v45 main_v46 rfl shapeCasts_S256x1_S256,
    StableHlo.binary main_v44 main_v46 main_v47 (mulf : (⟨S256, .f32⟩ : BufTy).Contents (Elt F) → (⟨S256, .f32⟩ : BufTy).Contents (Elt F) → (⟨S256, .f32⟩ : BufTy).Contents (Elt F)),
    StableHlo.nullary main_cst_8 (constant S_ .f32 0x322BCC77#32),
    StableHlo.unary main_cst_8 main_v48 (broadcastInDim S256 ![] bcast_S_S256 : (⟨S_, .f32⟩ : BufTy).Contents (Elt F) → (⟨S256, .f32⟩ : BufTy).Contents (Elt F)),
    StableHlo.binary main_v47 main_v48 main_v49 (addf : (⟨S256, .f32⟩ : BufTy).Contents (Elt F) → (⟨S256, .f32⟩ : BufTy).Contents (Elt F) → (⟨S256, .f32⟩ : BufTy).Contents (Elt F)),
    StableHlo.binary main_v42 main_v49 main_v50 (Host.divf : (⟨S256, .f32⟩ : BufTy).Contents (Elt F) → (⟨S256, .f32⟩ : BufTy).Contents (Elt F) → (⟨S256, .f32⟩ : BufTy).Contents (Elt F)),
    StableHlo.unary main_v18 main_v51 ((extractStridedSlice S256x1x1 ![0, 1, 2] · slices_S256x4x4_S256x1x1_0_1_2) : (⟨S256x4x4, .f32⟩ : BufTy).Contents (Elt F) → (⟨S256x1x1, .f32⟩ : BufTy).Contents (Elt F)),
    StableHlo.reshape main_v51 main_v52 rfl shapeCasts_S256x1x1_S256,
    StableHlo.unary main_v20 main_v53 ((extractStridedSlice S256x1 ![0, 1] · slices_S256x4_S256x1_0_1) : (⟨S256x4, .f32⟩ : BufTy).Contents (Elt F) → (⟨S256x1, .f32⟩ : BufTy).Contents (Elt F)),
    StableHlo.reshape main_v53 main_v54 rfl shapeCasts_S256x1_S256,
    StableHlo.unary main_v20 main_v55 ((extractStridedSlice S256x1 ![0, 2] · slices_S256x4_S256x1_0_2) : (⟨S256x4, .f32⟩ : BufTy).Contents (Elt F) → (⟨S256x1, .f32⟩ : BufTy).Contents (Elt F)),
    StableHlo.reshape main_v55 main_v56 rfl shapeCasts_S256x1_S256,
    StableHlo.binary main_v54 main_v56 main_v57 (mulf : (⟨S256, .f32⟩ : BufTy).Contents (Elt F) → (⟨S256, .f32⟩ : BufTy).Contents (Elt F) → (⟨S256, .f32⟩ : BufTy).Contents (Elt F)),
    StableHlo.nullary main_cst_9 (constant S_ .f32 0x322BCC77#32),
    StableHlo.unary main_cst_9 main_v58 (broadcastInDim S256 ![] bcast_S_S256 : (⟨S_, .f32⟩ : BufTy).Contents (Elt F) → (⟨S256, .f32⟩ : BufTy).Contents (Elt F)),
    StableHlo.binary main_v57 main_v58 main_v59 (addf : (⟨S256, .f32⟩ : BufTy).Contents (Elt F) → (⟨S256, .f32⟩ : BufTy).Contents (Elt F) → (⟨S256, .f32⟩ : BufTy).Contents (Elt F)),
    StableHlo.binary main_v52 main_v59 main_v60 (Host.divf : (⟨S256, .f32⟩ : BufTy).Contents (Elt F) → (⟨S256, .f32⟩ : BufTy).Contents (Elt F) → (⟨S256, .f32⟩ : BufTy).Contents (Elt F)),
    StableHlo.unary main_v18 main_v61 ((extractStridedSlice S256x1x1 ![0, 1, 3] · slices_S256x4x4_S256x1x1_0_1_3) : (⟨S256x4x4, .f32⟩ : BufTy).Contents (Elt F) → (⟨S256x1x1, .f32⟩ : BufTy).Contents (Elt F)),
    StableHlo.reshape main_v61 main_v62 rfl shapeCasts_S256x1x1_S256,
    StableHlo.unary main_v20 main_v63 ((extractStridedSlice S256x1 ![0, 1] · slices_S256x4_S256x1_0_1) : (⟨S256x4, .f32⟩ : BufTy).Contents (Elt F) → (⟨S256x1, .f32⟩ : BufTy).Contents (Elt F)),
    StableHlo.reshape main_v63 main_v64 rfl shapeCasts_S256x1_S256,
    StableHlo.unary main_v20 main_v65 ((extractStridedSlice S256x1 ![0, 3] · slices_S256x4_S256x1_0_3) : (⟨S256x4, .f32⟩ : BufTy).Contents (Elt F) → (⟨S256x1, .f32⟩ : BufTy).Contents (Elt F)),
    StableHlo.reshape main_v65 main_v66 rfl shapeCasts_S256x1_S256,
    StableHlo.binary main_v64 main_v66 main_v67 (mulf : (⟨S256, .f32⟩ : BufTy).Contents (Elt F) → (⟨S256, .f32⟩ : BufTy).Contents (Elt F) → (⟨S256, .f32⟩ : BufTy).Contents (Elt F)),
    StableHlo.nullary main_cst_10 (constant S_ .f32 0x322BCC77#32),
    StableHlo.unary main_cst_10 main_v68 (broadcastInDim S256 ![] bcast_S_S256 : (⟨S_, .f32⟩ : BufTy).Contents (Elt F) → (⟨S256, .f32⟩ : BufTy).Contents (Elt F)),
    StableHlo.binary main_v67 main_v68 main_v69 (addf : (⟨S256, .f32⟩ : BufTy).Contents (Elt F) → (⟨S256, .f32⟩ : BufTy).Contents (Elt F) → (⟨S256, .f32⟩ : BufTy).Contents (Elt F)),
    StableHlo.binary main_v62 main_v69 main_v70 (Host.divf : (⟨S256, .f32⟩ : BufTy).Contents (Elt F) → (⟨S256, .f32⟩ : BufTy).Contents (Elt F) → (⟨S256, .f32⟩ : BufTy).Contents (Elt F)),
    StableHlo.unary main_v18 main_v71 ((extractStridedSlice S256x1x1 ![0, 2, 3] · slices_S256x4x4_S256x1x1_0_2_3) : (⟨S256x4x4, .f32⟩ : BufTy).Contents (Elt F) → (⟨S256x1x1, .f32⟩ : BufTy).Contents (Elt F)),
    StableHlo.reshape main_v71 main_v72 rfl shapeCasts_S256x1x1_S256,
    StableHlo.unary main_v20 main_v73 ((extractStridedSlice S256x1 ![0, 2] · slices_S256x4_S256x1_0_2) : (⟨S256x4, .f32⟩ : BufTy).Contents (Elt F) → (⟨S256x1, .f32⟩ : BufTy).Contents (Elt F)),
    StableHlo.reshape main_v73 main_v74 rfl shapeCasts_S256x1_S256,
    StableHlo.unary main_v20 main_v75 ((extractStridedSlice S256x1 ![0, 3] · slices_S256x4_S256x1_0_3) : (⟨S256x4, .f32⟩ : BufTy).Contents (Elt F) → (⟨S256x1, .f32⟩ : BufTy).Contents (Elt F)),
    StableHlo.reshape main_v75 main_v76 rfl shapeCasts_S256x1_S256,
    StableHlo.binary main_v74 main_v76 main_v77 (mulf : (⟨S256, .f32⟩ : BufTy).Contents (Elt F) → (⟨S256, .f32⟩ : BufTy).Contents (Elt F) → (⟨S256, .f32⟩ : BufTy).Contents (Elt F)),
    StableHlo.nullary main_cst_11 (constant S_ .f32 0x322BCC77#32),
    StableHlo.unary main_cst_11 main_v78 (broadcastInDim S256 ![] bcast_S_S256 : (⟨S_, .f32⟩ : BufTy).Contents (Elt F) → (⟨S256, .f32⟩ : BufTy).Contents (Elt F)),
    StableHlo.binary main_v77 main_v78 main_v79 (addf : (⟨S256, .f32⟩ : BufTy).Contents (Elt F) → (⟨S256, .f32⟩ : BufTy).Contents (Elt F) → (⟨S256, .f32⟩ : BufTy).Contents (Elt F)),
    StableHlo.binary main_v72 main_v79 main_v80 (Host.divf : (⟨S256, .f32⟩ : BufTy).Contents (Elt F) → (⟨S256, .f32⟩ : BufTy).Contents (Elt F) → (⟨S256, .f32⟩ : BufTy).Contents (Elt F)),
    StableHlo.unary main_v0 main_v81 ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)),
    StableHlo.reshape main_v81 main_v82 rfl shapeCasts_S256x1x6x32768_S256x6x32768,
    StableHlo.unary main_v0 main_v83 ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)),
    StableHlo.reshape main_v83 main_v84 rfl shapeCasts_S256x1x6x32768_S256x6x32768,
    StableHlo.binary main_v82 main_v84 main_v85 (subf : (⟨S256x6x32768, .f32⟩ : BufTy).Contents (Elt F) → (⟨S256x6x32768, .f32⟩ : BufTy).Contents (Elt F) → (⟨S256x6x32768, .f32⟩ : BufTy).Contents (Elt F)),
    StableHlo.unary main_v85 main_v86 (Host.absf : (⟨S256x6x32768, .f32⟩ : BufTy).Contents (Elt F) → (⟨S256x6x32768, .f32⟩ : BufTy).Contents (Elt F)),
    StableHlo.nullary main_cst_12 (constant S_ .f32 0x00000000#32),
    StableHlo.binary main_v86 main_cst_12 main_v87 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_13 (constant S_ .f32 0x48400000#32),
    StableHlo.unary main_cst_13 main_v88 (broadcastInDim S256 ![] bcast_S_S256 : (⟨S_, .f32⟩ : BufTy).Contents (Elt F) → (⟨S256, .f32⟩ : BufTy).Contents (Elt F)),
    StableHlo.binary main_v87 main_v88 main_v89 (Host.divf : (⟨S256, .f32⟩ : BufTy).Contents (Elt F) → (⟨S256, .f32⟩ : BufTy).Contents (Elt F) → (⟨S256, .f32⟩ : BufTy).Contents (Elt F)),
    StableHlo.unary main_v0 main_v90 ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)),
    StableHlo.reshape main_v90 main_v91 rfl shapeCasts_S256x1x6x32768_S256x6x32768,
    StableHlo.unary main_v0 main_v92 ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)),
    StableHlo.reshape main_v92 main_v93 rfl shapeCasts_S256x1x6x32768_S256x6x32768,
    StableHlo.binary main_v91 main_v93 main_v94 (subf : (⟨S256x6x32768, .f32⟩ : BufTy).Contents (Elt F) → (⟨S256x6x32768, .f32⟩ : BufTy).Contents (Elt F) → (⟨S256x6x32768, .f32⟩ : BufTy).Contents (Elt F)),
    StableHlo.unary main_v94 main_v95 (Host.absf : (⟨S256x6x32768, .f32⟩ : BufTy).Contents (Elt F) → (⟨S256x6x32768, .f32⟩ : BufTy).Contents (Elt F)),
    StableHlo.nullary main_cst_14 (constant S_ .f32 0x00000000#32),
    StableHlo.binary main_v95 main_cst_14 main_v96 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_15 (constant S_ .f32 0x48400000#32),
    StableHlo.unary main_cst_15 main_v97 (broadcastInDim S256 ![] bcast_S_S256 : (⟨S_, .f32⟩ : BufTy).Contents (Elt F) → (⟨S256, .f32⟩ : BufTy).Contents (Elt F)),
    StableHlo.binary main_v96 main_v97 main_v98 (Host.divf : (⟨S256, .f32⟩ : BufTy).Contents (Elt F) → (⟨S256, .f32⟩ : BufTy).Contents (Elt F) → (⟨S256, .f32⟩ : BufTy).Contents (Elt F)),
    StableHlo.unary main_v0 main_v99 ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)),
    StableHlo.reshape main_v99 main_v100 rfl shapeCasts_S256x1x6x32768_S256x6x32768,
    StableHlo.unary main_v0 main_v101 ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)),
    StableHlo.reshape main_v101 main_v102 rfl shapeCasts_S256x1x6x32768_S256x6x32768,
    StableHlo.binary main_v100 main_v102 main_v103 (subf : (⟨S256x6x32768, .f32⟩ : BufTy).Contents (Elt F) → (⟨S256x6x32768, .f32⟩ : BufTy).Contents (Elt F) → (⟨S256x6x32768, .f32⟩ : BufTy).Contents (Elt F)),
    StableHlo.unary main_v103 main_v104 (Host.absf : (⟨S256x6x32768, .f32⟩ : BufTy).Contents (Elt F) → (⟨S256x6x32768, .f32⟩ : BufTy).Contents (Elt F)),
    StableHlo.nullary main_cst_16 (constant S_ .f32 0x00000000#32),
    StableHlo.binary main_v104 main_cst_16 main_v105 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_17 (constant S_ .f32 0x48400000#32),
    StableHlo.unary main_cst_17 main_v106 (broadcastInDim S256 ![] bcast_S_S256 : (⟨S_, .f32⟩ : BufTy).Contents (Elt F) → (⟨S256, .f32⟩ : BufTy).Contents (Elt F)),
    StableHlo.binary main_v105 main_v106 main_v107 (Host.divf : (⟨S256, .f32⟩ : BufTy).Contents (Elt F) → (⟨S256, .f32⟩ : BufTy).Contents (Elt F) → (⟨S256, .f32⟩ : BufTy).Contents (Elt F)),
    StableHlo.unary main_v0 main_v108 ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)),
    StableHlo.reshape main_v108 main_v109 rfl shapeCasts_S256x1x6x32768_S256x6x32768,
    StableHlo.unary main_v0 main_v110 ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)),
    StableHlo.reshape main_v110 main_v111 rfl shapeCasts_S256x1x6x32768_S256x6x32768,
    StableHlo.binary main_v109 main_v111 main_v112 (subf : (⟨S256x6x32768, .f32⟩ : BufTy).Contents (Elt F) → (⟨S256x6x32768, .f32⟩ : BufTy).Contents (Elt F) → (⟨S256x6x32768, .f32⟩ : BufTy).Contents (Elt F)),
    StableHlo.unary main_v112 main_v113 (Host.absf : (⟨S256x6x32768, .f32⟩ : BufTy).Contents (Elt F) → (⟨S256x6x32768, .f32⟩ : BufTy).Contents (Elt F)),
    StableHlo.nullary main_cst_18 (constant S_ .f32 0x00000000#32),
    StableHlo.binary main_v113 main_cst_18 main_v114 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_19 (constant S_ .f32 0x48400000#32),
    StableHlo.unary main_cst_19 main_v115 (broadcastInDim S256 ![] bcast_S_S256 : (⟨S_, .f32⟩ : BufTy).Contents (Elt F) → (⟨S256, .f32⟩ : BufTy).Contents (Elt F)),
    StableHlo.binary main_v114 main_v115 main_v116 (Host.divf : (⟨S256, .f32⟩ : BufTy).Contents (Elt F) → (⟨S256, .f32⟩ : BufTy).Contents (Elt F) → (⟨S256, .f32⟩ : BufTy).Contents (Elt F)),
    StableHlo.unary main_v0 main_v117 ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)),
    StableHlo.reshape main_v117 main_v118 rfl shapeCasts_S256x1x6x32768_S256x6x32768,
    StableHlo.unary main_v0 main_v119 ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)),
    StableHlo.reshape main_v119 main_v120 rfl shapeCasts_S256x1x6x32768_S256x6x32768,
    StableHlo.binary main_v118 main_v120 main_v121 (subf : (⟨S256x6x32768, .f32⟩ : BufTy).Contents (Elt F) → (⟨S256x6x32768, .f32⟩ : BufTy).Contents (Elt F) → (⟨S256x6x32768, .f32⟩ : BufTy).Contents (Elt F)),
    StableHlo.unary main_v121 main_v122 (Host.absf : (⟨S256x6x32768, .f32⟩ : BufTy).Contents (Elt F) → (⟨S256x6x32768, .f32⟩ : BufTy).Contents (Elt F)),
    StableHlo.nullary main_cst_20 (constant S_ .f32 0x00000000#32),
    StableHlo.binary main_v122 main_cst_20 main_v123 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_21 (constant S_ .f32 0x48400000#32),
    StableHlo.unary main_cst_21 main_v124 (broadcastInDim S256 ![] bcast_S_S256 : (⟨S_, .f32⟩ : BufTy).Contents (Elt F) → (⟨S256, .f32⟩ : BufTy).Contents (Elt F)),
    StableHlo.binary main_v123 main_v124 main_v125 (Host.divf : (⟨S256, .f32⟩ : BufTy).Contents (Elt F) → (⟨S256, .f32⟩ : BufTy).Contents (Elt F) → (⟨S256, .f32⟩ : BufTy).Contents (Elt F)),
    StableHlo.unary main_v0 main_v126 ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)),
    StableHlo.reshape main_v126 main_v127 rfl shapeCasts_S256x1x6x32768_S256x6x32768,
    StableHlo.unary main_v0 main_v128 ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)),
    StableHlo.reshape main_v128 main_v129 rfl shapeCasts_S256x1x6x32768_S256x6x32768,
    StableHlo.binary main_v127 main_v129 main_v130 (subf : (⟨S256x6x32768, .f32⟩ : BufTy).Contents (Elt F) → (⟨S256x6x32768, .f32⟩ : BufTy).Contents (Elt F) → (⟨S256x6x32768, .f32⟩ : BufTy).Contents (Elt F)),
    StableHlo.unary main_v130 main_v131 (Host.absf : (⟨S256x6x32768, .f32⟩ : BufTy).Contents (Elt F) → (⟨S256x6x32768, .f32⟩ : BufTy).Contents (Elt F)),
    StableHlo.nullary main_cst_22 (constant S_ .f32 0x00000000#32),
    StableHlo.binary main_v131 main_cst_22 main_v132 ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)),
    StableHlo.nullary main_cst_23 (constant S_ .f32 0x48400000#32),
    StableHlo.unary main_cst_23 main_v133 (broadcastInDim S256 ![] bcast_S_S256 : (⟨S_, .f32⟩ : BufTy).Contents (Elt F) → (⟨S256, .f32⟩ : BufTy).Contents (Elt F)),
    StableHlo.binary main_v132 main_v133 main_v134 (Host.divf : (⟨S256, .f32⟩ : BufTy).Contents (Elt F) → (⟨S256, .f32⟩ : BufTy).Contents (Elt F) → (⟨S256, .f32⟩ : BufTy).Contents (Elt F)),
    StableHlo.unary main_v5 main_v135 (broadcastInDim S256x1 ![0] bcast_S256_S256x1_0 : (⟨S256, .f32⟩ : BufTy).Contents (Elt F) → (⟨S256x1, .f32⟩ : BufTy).Contents (Elt F)),
    StableHlo.unary main_v10 main_v136 (broadcastInDim S256x1 ![0] bcast_S256_S256x1_0 : (⟨S256, .f32⟩ : BufTy).Contents (Elt F) → (⟨S256x1, .f32⟩ : BufTy).Contents (Elt F)),
    StableHlo.unary main_v30 main_v137 (broadcastInDim S256x1 ![0] bcast_S256_S256x1_0 : (⟨S256, .f32⟩ : BufTy).Contents (Elt F) → (⟨S256x1, .f32⟩ : BufTy).Contents (Elt F)),
    StableHlo.unary main_v40 main_v138 (broadcastInDim S256x1 ![0] bcast_S256_S256x1_0 : (⟨S256, .f32⟩ : BufTy).Contents (Elt F) → (⟨S256x1, .f32⟩ : BufTy).Contents (Elt F)),
    StableHlo.unary main_v50 main_v139 (broadcastInDim S256x1 ![0] bcast_S256_S256x1_0 : (⟨S256, .f32⟩ : BufTy).Contents (Elt F) → (⟨S256x1, .f32⟩ : BufTy).Contents (Elt F)),
    StableHlo.unary main_v60 main_v140 (broadcastInDim S256x1 ![0] bcast_S256_S256x1_0 : (⟨S256, .f32⟩ : BufTy).Contents (Elt F) → (⟨S256x1, .f32⟩ : BufTy).Contents (Elt F)),
    StableHlo.unary main_v70 main_v141 (broadcastInDim S256x1 ![0] bcast_S256_S256x1_0 : (⟨S256, .f32⟩ : BufTy).Contents (Elt F) → (⟨S256x1, .f32⟩ : BufTy).Contents (Elt F)),
    StableHlo.unary main_v80 main_v142 (broadcastInDim S256x1 ![0] bcast_S256_S256x1_0 : (⟨S256, .f32⟩ : BufTy).Contents (Elt F) → (⟨S256x1, .f32⟩ : BufTy).Contents (Elt F)),
    StableHlo.unary main_v89 main_v143 (broadcastInDim S256x1 ![0] bcast_S256_S256x1_0 : (⟨S256, .f32⟩ : BufTy).Contents (Elt F) → (⟨S256x1, .f32⟩ : BufTy).Contents (Elt F)),
    StableHlo.unary main_v98 main_v144 (broadcastInDim S256x1 ![0] bcast_S256_S256x1_0 : (⟨S256, .f32⟩ : BufTy).Contents (Elt F) → (⟨S256x1, .f32⟩ : BufTy).Contents (Elt F)),
    StableHlo.unary main_v107 main_v145 (broadcastInDim S256x1 ![0] bcast_S256_S256x1_0 : (⟨S256, .f32⟩ : BufTy).Contents (Elt F) → (⟨S256x1, .f32⟩ : BufTy).Contents (Elt F)),
    StableHlo.unary main_v116 main_v146 (broadcastInDim S256x1 ![0] bcast_S256_S256x1_0 : (⟨S256, .f32⟩ : BufTy).Contents (Elt F) → (⟨S256x1, .f32⟩ : BufTy).Contents (Elt F)),
    StableHlo.unary main_v125 main_v147 (broadcastInDim S256x1 ![0] bcast_S256_S256x1_0 : (⟨S256, .f32⟩ : BufTy).Contents (Elt F) → (⟨S256x1, .f32⟩ : BufTy).Contents (Elt F)),
    StableHlo.unary main_v134 main_v148 (broadcastInDim S256x1 ![0] bcast_S256_S256x1_0 : (⟨S256, .f32⟩ : BufTy).Contents (Elt F) → (⟨S256x1, .f32⟩ : BufTy).Contents (Elt F)),
    StableHlo.nary ![main_v135, main_v136, main_v137, main_v138, main_v139, main_v140, main_v141, main_v142, main_v143, main_v144, main_v145, main_v146, main_v147, main_v148] main_v149 (fun u => concatenate S256x14 1 [⟨S256x1, u 0⟩, ⟨S256x1, u 1⟩, ⟨S256x1, u 2⟩, ⟨S256x1, u 3⟩, ⟨S256x1, u 4⟩, ⟨S256x1, u 5⟩, ⟨S256x1, u 6⟩, ⟨S256x1, u 7⟩, ⟨S256x1, u 8⟩, ⟨S256x1, u 9⟩, ⟨S256x1, u 10⟩, ⟨S256x1, u 11⟩, ⟨S256x1, u 12⟩, ⟨S256x1, u 13⟩] concatenates_S256x1_S256x1_S256x1_S256x1_S256x1_S256x1_S256x1_S256x1_S256x1_S256x1_S256x1_S256x1_S256x1_S256x1_S256x14_d1) ]

/-- The entry point is that straight line: the callees' bodies and the windows unfold to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., unary_bufs_sub .., binary_bufs_sub .., binary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., unary_bufs_sub .., nullary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

/-- None allocates. -/
theorem ops_fresh : (ops : List (HloOp τ sig (Elt F))).Forall fun op => op.fresh = ∅ := by
  simp only [List.Forall]; repeat' constructor

/-- None writes the argument. -/
theorem ops_arg : (ops : List (HloOp τ sig (Elt F))).Forall fun op => Proc.devRef .tc main_arg0 ∉ op.writes := by
  simp only [ops, List.Forall, StableHlo.TRef.nullary, StableHlo.TRef.unary, StableHlo.TRef.binary, StableHlo.TRef.ternary, StableHlo.TRef.reshape, StableHlo.TRef.nary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- From any memory with zero counters every weakly fair execution of the entry point terminates, each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.forall_iff_forall_mem.mp ops_fresh) op h)

/-- The argument ends as launched. -/
theorem arg0_kept (V : Valuation τ sig (Elt F)) : after ops V (main_arg0 : DevRef τ sig) = V (main_arg0 : DevRef τ sig) :=
  StableHlo.after_of_forall_not_mem (b := Proc.devRef .tc main_arg0) _ _ (List.forall_iff_forall_mem.mp ops_arg)

/-- The reference's frame. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c main_arg0).trans (arg0_kept _)) (run_main m ρ)

end Cert.ReferenceIdeal.RefRun

end
-- ==== Proof.RefAsm.lean ====
/-
  The last stretch of both programs, as one function. Each result row is fourteen numbers: the unbiased standard
  deviation of the four motor energies, the ratio of the largest energy to the smallest plus a small constant, six
  correlations (a cross sum divided by the product of two norms plus the constant), and six mean absolute differences.
  `asm` is that assembly over its inputs — the energies, the four norms, the six numerators and the six means —, cut
  column by column, and the definitions after it are what the reference feeds it: each a composition of the reference's
  operations on the argument.
-/
import proofs.«168515_j63797444215021_2_alg».proof.Proof.RefRun

set_option maxRecDepth 16384

noncomputable section

namespace Cert.ReferenceIdeal.RefAsm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 40000000 in
/-- Column 0: the unbiased standard deviation of a row's four energies. -/
def colStd (main_v4 : FVec F S256x4 .f32) : FVec F S256 .f32 :=
  let main_c : IVec S_ 32 := (constantI S_ 32 1#32)
  let main_call0_call0_cst : FVec F S_ .f32 := (constant (F := F) S_ .f32 0x00000000#32)
  let main_call0_call0_v0 : FVec F S256 .f32 := Host.reduceAdd main_v4 main_call0_call0_cst reducesTo_S256x4_S256_d1 h_S_
  let main_call0_call0_v1 : FVec F S256x1 .f32 := (broadcastInDim S256x1 ![0] bcast_S256_S256x1_0) main_call0_call0_v0
  let main_call0_call0_cst_0 : FVec F S_ .f32 := (constant (F := F) S_ .f32 0x40800000#32)
  let main_call0_call0_v2 : FVec F S256x1 .f32 := (broadcastInDim S256x1 ![] bcast_S_S256x1) main_call0_call0_cst_0
  let main_call0_call0_v3 : FVec F S256x1 .f32 := Host.divf main_call0_call0_v1 main_call0_call0_v2
  let main_call0_call0_v4 : FVec F S256x4 .f32 := (broadcastInDim S256x4 ![0, 1] bcast_S256x1_S256x4_0_1) main_call0_call0_v3
  let main_call0_call0_v5 : FVec F S256x4 .f32 := subf main_v4 main_call0_call0_v4
  let main_call0_call0_v6 : FVec F S256x4 .f32 := mulf main_call0_call0_v5 main_call0_call0_v5
  let main_call0_call0_v7 : FVec F S_ .f32 := (sitofp .f32) main_c
  let main_call0_call0_cst_1 : FVec F S_ .f32 := (constant (F := F) S_ .f32 0x40800000#32)
  let main_call0_call0_v8 : FVec F S_ .f32 := subf main_call0_call0_cst_1 main_call0_call0_v7
  let main_call0_call0_cst_2 : FVec F S_ .f32 := (constant (F := F) S_ .f32 0x00000000#32)
  let main_call0_call0_v9 : FVec F S256 .f32 := Host.reduceAdd main_call0_call0_v6 main_call0_call0_cst_2 reducesTo_S256x4_S256_d1 h_S_
  let main_call0_call0_v10 : FVec F S256 .f32 := (broadcastInDim S256 ![] bcast_S_S256) main_call0_call0_v8
  let main_call0_call0_v11 : FVec F S256 .f32 := Host.divf main_call0_call0_v9 main_call0_call0_v10
  let main_call0_call0_cst_3 : FVec F S_ .f32 := (constant (F := F) S_ .f32 0x00000000#32)
  let main_call0_call0_v12 : IVec S_ 1 := (cmpf .ogt) main_call0_call0_v8 main_call0_call0_cst_3
  let main_call0_call0_cst_4 : FVec F S_ .f32 := (constant (F := F) S_ .f32 0x7FC00000#32)
  let main_call0_call0_call0_v0 : FVec F S_ .f32 := id main_call0_call0_cst_4
  let main_call0_call0_call0_v1 : FVec F S256 .f32 := (broadcastInDim S256 ![] bcast_S_S256) main_call0_call0_call0_v0
  let main_call0_v0 : FVec F S256 .f32 := select (broadcastInDim S256 ![] bcast_S_S256 main_call0_call0_v12) main_call0_call0_v11 main_call0_call0_call0_v1
  let main_v5 : FVec F S256 .f32 := Host.sqrt main_call0_v0
  main_v5

set_option maxHeartbeats 40000000 in
/-- Column 1: the largest energy over the smallest plus the small constant. -/
def colRatio (main_v4 : FVec F S256x4 .f32) : FVec F S256 .f32 :=
  let main_cst_1 : FVec F S_ .f32 := (constant (F := F) S_ .f32 0xFF800000#32)
  let main_v6 : FVec F S256 .f32 := ((fun x v => Host.reduce FloatOps.maximumf x v reducesTo_S256x4_S256_d1 h_S_) : (⟨S256x4, .f32⟩ : BufTy).Contents (Elt F) → (⟨S_, .f32⟩ : BufTy).Contents (Elt F) → (⟨S256, .f32⟩ : BufTy).Contents (Elt F)) main_v4 main_cst_1
  let main_cst_2 : FVec F S_ .f32 := (constant (F := F) S_ .f32 0x7F800000#32)
  let main_v7 : FVec F S256 .f32 := ((fun x v => Host.reduce FloatOps.minimumf x v reducesTo_S256x4_S256_d1 h_S_) : (⟨S256x4, .f32⟩ : BufTy).Contents (Elt F) → (⟨S_, .f32⟩ : BufTy).Contents (Elt F) → (⟨S256, .f32⟩ : BufTy).Contents (Elt F)) main_v4 main_cst_2
  let main_cst_3 : FVec F S_ .f32 := (constant (F := F) S_ .f32 0x322BCC77#32)
  let main_v8 : FVec F S256 .f32 := (broadcastInDim S256 ![] bcast_S_S256 : (⟨S_, .f32⟩ : BufTy).Contents (Elt F) → (⟨S256, .f32⟩ : BufTy).Contents (Elt F)) main_cst_3
  let main_v9 : FVec F S256 .f32 := (addf : (⟨S256, .f32⟩ : BufTy).Contents (Elt F) → (⟨S256, .f32⟩ : BufTy).Contents (Elt F) → (⟨S256, .f32⟩ : BufTy).Contents (Elt F)) main_v7 main_v8
  let main_v10 : FVec F S256 .f32 := (Host.divf : (⟨S256, .f32⟩ : BufTy).Contents (Elt F) → (⟨S256, .f32⟩ : BufTy).Contents (Elt F) → (⟨S256, .f32⟩ : BufTy).Contents (Elt F)) main_v6 main_v9
  main_v10

set_option maxHeartbeats 40000000 in
/-- Column 2: a numerator over the product of two of the row's norms plus the small constant. -/
def colCorr0 (main_v20 : FVec F S256x4 .f32) (main_v22 : FVec F S256 .f32) : FVec F S256 .f32 :=
  let main_v23 : FVec F S256x1 .f32 := ((extractStridedSlice S256x1 ![0, 0] · slices_S256x4_S256x1_0_0) : (⟨S256x4, .f32⟩ : BufTy).Contents (Elt F) → (⟨S256x1, .f32⟩ : BufTy).Contents (Elt F)) main_v20
  let main_v24 : FVec F S256 .f32 := shapeCast S256 main_v23 shapeCasts_S256x1_S256
  let main_v25 : FVec F S256x1 .f32 := ((extractStridedSlice S256x1 ![0, 1] · slices_S256x4_S256x1_0_1) : (⟨S256x4, .f32⟩ : BufTy).Contents (Elt F) → (⟨S256x1, .f32⟩ : BufTy).Contents (Elt F)) main_v20
  let main_v26 : FVec F S256 .f32 := shapeCast S256 main_v25 shapeCasts_S256x1_S256
  let main_v27 : FVec F S256 .f32 := (mulf : (⟨S256, .f32⟩ : BufTy).Contents (Elt F) → (⟨S256, .f32⟩ : BufTy).Contents (Elt F) → (⟨S256, .f32⟩ : BufTy).Contents (Elt F)) main_v24 main_v26
  let main_cst_6 : FVec F S_ .f32 := (constant (F := F) S_ .f32 0x322BCC77#32)
  let main_v28 : FVec F S256 .f32 := (broadcastInDim S256 ![] bcast_S_S256 : (⟨S_, .f32⟩ : BufTy).Contents (Elt F) → (⟨S256, .f32⟩ : BufTy).Contents (Elt F)) main_cst_6
  let main_v29 : FVec F S256 .f32 := (addf : (⟨S256, .f32⟩ : BufTy).Contents (Elt F) → (⟨S256, .f32⟩ : BufTy).Contents (Elt F) → (⟨S256, .f32⟩ : BufTy).Contents (Elt F)) main_v27 main_v28
  let main_v30 : FVec F S256 .f32 := (Host.divf : (⟨S256, .f32⟩ : BufTy).Contents (Elt F) → (⟨S256, .f32⟩ : BufTy).Contents (Elt F) → (⟨S256, .f32⟩ : BufTy).Contents (Elt F)) main_v22 main_v29
  main_v30

set_option maxHeartbeats 40000000 in
/-- Column 3: a numerator over the product of two of the row's norms plus the small constant. -/
def colCorr1 (main_v20 : FVec F S256x4 .f32) (main_v32 : FVec F S256 .f32) : FVec F S256 .f32 :=
  let main_v33 : FVec F S256x1 .f32 := ((extractStridedSlice S256x1 ![0, 0] · slices_S256x4_S256x1_0_0) : (⟨S256x4, .f32⟩ : BufTy).Contents (Elt F) → (⟨S256x1, .f32⟩ : BufTy).Contents (Elt F)) main_v20
  let main_v34 : FVec F S256 .f32 := shapeCast S256 main_v33 shapeCasts_S256x1_S256
  let main_v35 : FVec F S256x1 .f32 := ((extractStridedSlice S256x1 ![0, 2] · slices_S256x4_S256x1_0_2) : (⟨S256x4, .f32⟩ : BufTy).Contents (Elt F) → (⟨S256x1, .f32⟩ : BufTy).Contents (Elt F)) main_v20
  let main_v36 : FVec F S256 .f32 := shapeCast S256 main_v35 shapeCasts_S256x1_S256
  let main_v37 : FVec F S256 .f32 := (mulf : (⟨S256, .f32⟩ : BufTy).Contents (Elt F) → (⟨S256, .f32⟩ : BufTy).Contents (Elt F) → (⟨S256, .f32⟩ : BufTy).Contents (Elt F)) main_v34 main_v36
  let main_cst_7 : FVec F S_ .f32 := (constant (F := F) S_ .f32 0x322BCC77#32)
  let main_v38 : FVec F S256 .f32 := (broadcastInDim S256 ![] bcast_S_S256 : (⟨S_, .f32⟩ : BufTy).Contents (Elt F) → (⟨S256, .f32⟩ : BufTy).Contents (Elt F)) main_cst_7
  let main_v39 : FVec F S256 .f32 := (addf : (⟨S256, .f32⟩ : BufTy).Contents (Elt F) → (⟨S256, .f32⟩ : BufTy).Contents (Elt F) → (⟨S256, .f32⟩ : BufTy).Contents (Elt F)) main_v37 main_v38
  let main_v40 : FVec F S256 .f32 := (Host.divf : (⟨S256, .f32⟩ : BufTy).Contents (Elt F) → (⟨S256, .f32⟩ : BufTy).Contents (Elt F) → (⟨S256, .f32⟩ : BufTy).Contents (Elt F)) main_v32 main_v39
  main_v40

set_option maxHeartbeats 40000000 in
/-- Column 4: a numerator over the product of two of the row's norms plus the small constant. -/
def colCorr2 (main_v20 : FVec F S256x4 .f32) (main_v42 : FVec F S256 .f32) : FVec F S256 .f32 :=
  let main_v43 : FVec F S256x1 .f32 := ((extractStridedSlice S256x1 ![0, 0] · slices_S256x4_S256x1_0_0) : (⟨S256x4, .f32⟩ : BufTy).Contents (Elt F) → (⟨S256x1, .f32⟩ : BufTy).Contents (Elt F)) main_v20
  let main_v44 : FVec F S256 .f32 := shapeCast S256 main_v43 shapeCasts_S256x1_S256
  let main_v45 : FVec F S256x1 .f32 := ((extractStridedSlice S256x1 ![0, 3] · slices_S256x4_S256x1_0_3) : (⟨S256x4, .f32⟩ : BufTy).Contents (Elt F) → (⟨S256x1, .f32⟩ : BufTy).Contents (Elt F)) main_v20
  let main_v46 : FVec F S256 .f32 := shapeCast S256 main_v45 shapeCasts_S256x1_S256
  let main_v47 : FVec F S256 .f32 := (mulf : (⟨S256, .f32⟩ : BufTy).Contents (Elt F) → (⟨S256, .f32⟩ : BufTy).Contents (Elt F) → (⟨S256, .f32⟩ : BufTy).Contents (Elt F)) main_v44 main_v46
  let main_cst_8 : FVec F S_ .f32 := (constant (F := F) S_ .f32 0x322BCC77#32)
  let main_v48 : FVec F S256 .f32 := (broadcastInDim S256 ![] bcast_S_S256 : (⟨S_, .f32⟩ : BufTy).Contents (Elt F) → (⟨S256, .f32⟩ : BufTy).Contents (Elt F)) main_cst_8
  let main_v49 : FVec F S256 .f32 := (addf : (⟨S256, .f32⟩ : BufTy).Contents (Elt F) → (⟨S256, .f32⟩ : BufTy).Contents (Elt F) → (⟨S256, .f32⟩ : BufTy).Contents (Elt F)) main_v47 main_v48
  let main_v50 : FVec F S256 .f32 := (Host.divf : (⟨S256, .f32⟩ : BufTy).Contents (Elt F) → (⟨S256, .f32⟩ : BufTy).Contents (Elt F) → (⟨S256, .f32⟩ : BufTy).Contents (Elt F)) main_v42 main_v49
  main_v50

set_option maxHeartbeats 40000000 in
/-- Column 5: a numerator over the product of two of the row's norms plus the small constant. -/
def colCorr3 (main_v20 : FVec F S256x4 .f32) (main_v52 : FVec F S256 .f32) : FVec F S256 .f32 :=
  let main_v53 : FVec F S256x1 .f32 := ((extractStridedSlice S256x1 ![0, 1] · slices_S256x4_S256x1_0_1) : (⟨S256x4, .f32⟩ : BufTy).Contents (Elt F) → (⟨S256x1, .f32⟩ : BufTy).Contents (Elt F)) main_v20
  let main_v54 : FVec F S256 .f32 := shapeCast S256 main_v53 shapeCasts_S256x1_S256
  let main_v55 : FVec F S256x1 .f32 := ((extractStridedSlice S256x1 ![0, 2] · slices_S256x4_S256x1_0_2) : (⟨S256x4, .f32⟩ : BufTy).Contents (Elt F) → (⟨S256x1, .f32⟩ : BufTy).Contents (Elt F)) main_v20
  let main_v56 : FVec F S256 .f32 := shapeCast S256 main_v55 shapeCasts_S256x1_S256
  let main_v57 : FVec F S256 .f32 := (mulf : (⟨S256, .f32⟩ : BufTy).Contents (Elt F) → (⟨S256, .f32⟩ : BufTy).Contents (Elt F) → (⟨S256, .f32⟩ : BufTy).Contents (Elt F)) main_v54 main_v56
  let main_cst_9 : FVec F S_ .f32 := (constant (F := F) S_ .f32 0x322BCC77#32)
  let main_v58 : FVec F S256 .f32 := (broadcastInDim S256 ![] bcast_S_S256 : (⟨S_, .f32⟩ : BufTy).Contents (Elt F) → (⟨S256, .f32⟩ : BufTy).Contents (Elt F)) main_cst_9
  let main_v59 : FVec F S256 .f32 := (addf : (⟨S256, .f32⟩ : BufTy).Contents (Elt F) → (⟨S256, .f32⟩ : BufTy).Contents (Elt F) → (⟨S256, .f32⟩ : BufTy).Contents (Elt F)) main_v57 main_v58
  let main_v60 : FVec F S256 .f32 := (Host.divf : (⟨S256, .f32⟩ : BufTy).Contents (Elt F) → (⟨S256, .f32⟩ : BufTy).Contents (Elt F) → (⟨S256, .f32⟩ : BufTy).Contents (Elt F)) main_v52 main_v59
  main_v60

set_option maxHeartbeats 40000000 in
/-- Column 6: a numerator over the product of two of the row's norms plus the small constant. -/
def colCorr4 (main_v20 : FVec F S256x4 .f32) (main_v62 : FVec F S256 .f32) : FVec F S256 .f32 :=
  let main_v63 : FVec F S256x1 .f32 := ((extractStridedSlice S256x1 ![0, 1] · slices_S256x4_S256x1_0_1) : (⟨S256x4, .f32⟩ : BufTy).Contents (Elt F) → (⟨S256x1, .f32⟩ : BufTy).Contents (Elt F)) main_v20
  let main_v64 : FVec F S256 .f32 := shapeCast S256 main_v63 shapeCasts_S256x1_S256
  let main_v65 : FVec F S256x1 .f32 := ((extractStridedSlice S256x1 ![0, 3] · slices_S256x4_S256x1_0_3) : (⟨S256x4, .f32⟩ : BufTy).Contents (Elt F) → (⟨S256x1, .f32⟩ : BufTy).Contents (Elt F)) main_v20
  let main_v66 : FVec F S256 .f32 := shapeCast S256 main_v65 shapeCasts_S256x1_S256
  let main_v67 : FVec F S256 .f32 := (mulf : (⟨S256, .f32⟩ : BufTy).Contents (Elt F) → (⟨S256, .f32⟩ : BufTy).Contents (Elt F) → (⟨S256, .f32⟩ : BufTy).Contents (Elt F)) main_v64 main_v66
  let main_cst_10 : FVec F S_ .f32 := (constant (F := F) S_ .f32 0x322BCC77#32)
  let main_v68 : FVec F S256 .f32 := (broadcastInDim S256 ![] bcast_S_S256 : (⟨S_, .f32⟩ : BufTy).Contents (Elt F) → (⟨S256, .f32⟩ : BufTy).Contents (Elt F)) main_cst_10
  let main_v69 : FVec F S256 .f32 := (addf : (⟨S256, .f32⟩ : BufTy).Contents (Elt F) → (⟨S256, .f32⟩ : BufTy).Contents (Elt F) → (⟨S256, .f32⟩ : BufTy).Contents (Elt F)) main_v67 main_v68
  let main_v70 : FVec F S256 .f32 := (Host.divf : (⟨S256, .f32⟩ : BufTy).Contents (Elt F) → (⟨S256, .f32⟩ : BufTy).Contents (Elt F) → (⟨S256, .f32⟩ : BufTy).Contents (Elt F)) main_v62 main_v69
  main_v70

set_option maxHeartbeats 40000000 in
/-- Column 7: a numerator over the product of two of the row's norms plus the small constant. -/
def colCorr5 (main_v20 : FVec F S256x4 .f32) (main_v72 : FVec F S256 .f32) : FVec F S256 .f32 :=
  let main_v73 : FVec F S256x1 .f32 := ((extractStridedSlice S256x1 ![0, 2] · slices_S256x4_S256x1_0_2) : (⟨S256x4, .f32⟩ : BufTy).Contents (Elt F) → (⟨S256x1, .f32⟩ : BufTy).Contents (Elt F)) main_v20
  let main_v74 : FVec F S256 .f32 := shapeCast S256 main_v73 shapeCasts_S256x1_S256
  let main_v75 : FVec F S256x1 .f32 := ((extractStridedSlice S256x1 ![0, 3] · slices_S256x4_S256x1_0_3) : (⟨S256x4, .f32⟩ : BufTy).Contents (Elt F) → (⟨S256x1, .f32⟩ : BufTy).Contents (Elt F)) main_v20
  let main_v76 : FVec F S256 .f32 := shapeCast S256 main_v75 shapeCasts_S256x1_S256
  let main_v77 : FVec F S256 .f32 := (mulf : (⟨S256, .f32⟩ : BufTy).Contents (Elt F) → (⟨S256, .f32⟩ : BufTy).Contents (Elt F) → (⟨S256, .f32⟩ : BufTy).Contents (Elt F)) main_v74 main_v76
  let main_cst_11 : FVec F S_ .f32 := (constant (F := F) S_ .f32 0x322BCC77#32)
  let main_v78 : FVec F S256 .f32 := (broadcastInDim S256 ![] bcast_S_S256 : (⟨S_, .f32⟩ : BufTy).Contents (Elt F) → (⟨S256, .f32⟩ : BufTy).Contents (Elt F)) main_cst_11
  let main_v79 : FVec F S256 .f32 := (addf : (⟨S256, .f32⟩ : BufTy).Contents (Elt F) → (⟨S256, .f32⟩ : BufTy).Contents (Elt F) → (⟨S256, .f32⟩ : BufTy).Contents (Elt F)) main_v77 main_v78
  let main_v80 : FVec F S256 .f32 := (Host.divf : (⟨S256, .f32⟩ : BufTy).Contents (Elt F) → (⟨S256, .f32⟩ : BufTy).Contents (Elt F) → (⟨S256, .f32⟩ : BufTy).Contents (Elt F)) main_v72 main_v79
  main_v80

set_option maxHeartbeats 40000000 in
/-- Fourteen columns side by side. -/
def asm14 (main_v5 : FVec F S256 .f32) (main_v10 : FVec F S256 .f32) (main_v30 : FVec F S256 .f32) (main_v40 : FVec F S256 .f32) (main_v50 : FVec F S256 .f32) (main_v60 : FVec F S256 .f32) (main_v70 : FVec F S256 .f32) (main_v80 : FVec F S256 .f32) (main_v89 : FVec F S256 .f32) (main_v98 : FVec F S256 .f32) (main_v107 : FVec F S256 .f32) (main_v116 : FVec F S256 .f32) (main_v125 : FVec F S256 .f32) (main_v134 : FVec F S256 .f32) : FVec F S256x14 .f32 :=
  let main_v135 : FVec F S256x1 .f32 := (broadcastInDim S256x1 ![0] bcast_S256_S256x1_0 : (⟨S256, .f32⟩ : BufTy).Contents (Elt F) → (⟨S256x1, .f32⟩ : BufTy).Contents (Elt F)) main_v5
  let main_v136 : FVec F S256x1 .f32 := (broadcastInDim S256x1 ![0] bcast_S256_S256x1_0 : (⟨S256, .f32⟩ : BufTy).Contents (Elt F) → (⟨S256x1, .f32⟩ : BufTy).Contents (Elt F)) main_v10
  let main_v137 : FVec F S256x1 .f32 := (broadcastInDim S256x1 ![0] bcast_S256_S256x1_0 : (⟨S256, .f32⟩ : BufTy).Contents (Elt F) → (⟨S256x1, .f32⟩ : BufTy).Contents (Elt F)) main_v30
  let main_v138 : FVec F S256x1 .f32 := (broadcastInDim S256x1 ![0] bcast_S256_S256x1_0 : (⟨S256, .f32⟩ : BufTy).Contents (Elt F) → (⟨S256x1, .f32⟩ : BufTy).Contents (Elt F)) main_v40
  let main_v139 : FVec F S256x1 .f32 := (broadcastInDim S256x1 ![0] bcast_S256_S256x1_0 : (⟨S256, .f32⟩ : BufTy).Contents (Elt F) → (⟨S256x1, .f32⟩ : BufTy).Contents (Elt F)) main_v50
  let main_v140 : FVec F S256x1 .f32 := (broadcastInDim S256x1 ![0] bcast_S256_S256x1_0 : (⟨S256, .f32⟩ : BufTy).Contents (Elt F) → (⟨S256x1, .f32⟩ : BufTy).Contents (Elt F)) main_v60
  let main_v141 : FVec F S256x1 .f32 := (broadcastInDim S256x1 ![0] bcast_S256_S256x1_0 : (⟨S256, .f32⟩ : BufTy).Contents (Elt F) → (⟨S256x1, .f32⟩ : BufTy).Contents (Elt F)) main_v70
  let main_v142 : FVec F S256x1 .f32 := (broadcastInDim S256x1 ![0] bcast_S256_S256x1_0 : (⟨S256, .f32⟩ : BufTy).Contents (Elt F) → (⟨S256x1, .f32⟩ : BufTy).Contents (Elt F)) main_v80
  let main_v143 : FVec F S256x1 .f32 := (broadcastInDim S256x1 ![0] bcast_S256_S256x1_0 : (⟨S256, .f32⟩ : BufTy).Contents (Elt F) → (⟨S256x1, .f32⟩ : BufTy).Contents (Elt F)) main_v89
  let main_v144 : FVec F S256x1 .f32 := (broadcastInDim S256x1 ![0] bcast_S256_S256x1_0 : (⟨S256, .f32⟩ : BufTy).Contents (Elt F) → (⟨S256x1, .f32⟩ : BufTy).Contents (Elt F)) main_v98
  let main_v145 : FVec F S256x1 .f32 := (broadcastInDim S256x1 ![0] bcast_S256_S256x1_0 : (⟨S256, .f32⟩ : BufTy).Contents (Elt F) → (⟨S256x1, .f32⟩ : BufTy).Contents (Elt F)) main_v107
  let main_v146 : FVec F S256x1 .f32 := (broadcastInDim S256x1 ![0] bcast_S256_S256x1_0 : (⟨S256, .f32⟩ : BufTy).Contents (Elt F) → (⟨S256x1, .f32⟩ : BufTy).Contents (Elt F)) main_v116
  let main_v147 : FVec F S256x1 .f32 := (broadcastInDim S256x1 ![0] bcast_S256_S256x1_0 : (⟨S256, .f32⟩ : BufTy).Contents (Elt F) → (⟨S256x1, .f32⟩ : BufTy).Contents (Elt F)) main_v125
  let main_v148 : FVec F S256x1 .f32 := (broadcastInDim S256x1 ![0] bcast_S256_S256x1_0 : (⟨S256, .f32⟩ : BufTy).Contents (Elt F) → (⟨S256x1, .f32⟩ : BufTy).Contents (Elt F)) main_v134
  let main_v149 : FVec F S256x14 .f32 := concatenate S256x14 1 [⟨S256x1, main_v135⟩, ⟨S256x1, main_v136⟩, ⟨S256x1, main_v137⟩, ⟨S256x1, main_v138⟩, ⟨S256x1, main_v139⟩, ⟨S256x1, main_v140⟩, ⟨S256x1, main_v141⟩, ⟨S256x1, main_v142⟩, ⟨S256x1, main_v143⟩, ⟨S256x1, main_v144⟩, ⟨S256x1, main_v145⟩, ⟨S256x1, main_v146⟩, ⟨S256x1, main_v147⟩, ⟨S256x1, main_v148⟩] concatenates_S256x1_S256x1_S256x1_S256x1_S256x1_S256x1_S256x1_S256x1_S256x1_S256x1_S256x1_S256x1_S256x1_S256x1_S256x14_d1
  main_v149

/-- The fourteen columns assembled from the energies, the norms, the six correlation numerators and the six mean
    absolute differences. -/
def asm (E : FVec F S256x4 .f32) (N : FVec F S256x4 .f32) (num0 : FVec F S256 .f32) (num1 : FVec F S256 .f32) (num2 : FVec F S256 .f32) (num3 : FVec F S256 .f32) (num4 : FVec F S256 .f32) (num5 : FVec F S256 .f32) (dd0 : FVec F S256 .f32) (dd1 : FVec F S256 .f32) (dd2 : FVec F S256 .f32) (dd3 : FVec F S256 .f32) (dd4 : FVec F S256 .f32) (dd5 : FVec F S256 .f32) : FVec F S256x14 .f32 :=
  asm14 (colStd E) (colRatio E) (colCorr0 N num0) (colCorr1 N num1) (colCorr2 N num2) (colCorr3 N num3) (colCorr4 N num4) (colCorr5 N num5) dd0 dd1 dd2 dd3 dd4 dd5

set_option maxHeartbeats 40000000 in
/-- The reference's per-motor sums of squares over channels and time. -/
def refSq (main_arg0 : FVec F S256x24x32768 .f32) : FVec F S256x4 .f32 :=
  let main_v0 : FVec F S256x4x6x32768 .f32 := shapeCast S256x4x6x32768 main_arg0 shapeCasts_S256x24x32768_S256x4x6x32768
  let main_v1 : FVec F S256x4x6x32768 .f32 := (mulf : (⟨S256x4x6x32768, .f32⟩ : BufTy).Contents (Elt F) → (⟨S256x4x6x32768, .f32⟩ : BufTy).Contents (Elt F) → (⟨S256x4x6x32768, .f32⟩ : BufTy).Contents (Elt F)) main_v0 main_v0
  let main_cst : FVec F S_ .f32 := (constant (F := F) S_ .f32 0x00000000#32)
  let main_v2 : FVec F S256x4 .f32 := ((fun x v => Host.reduceAdd x v reducesTo_S256x4x6x32768_S256x4_d2_3 h_S_) : (⟨S256x4x6x32768, .f32⟩ : BufTy).Contents (Elt F) → (⟨S_, .f32⟩ : BufTy).Contents (Elt F) → (⟨S256x4, .f32⟩ : BufTy).Contents (Elt F)) main_v1 main_cst
  main_v2

set_option maxHeartbeats 40000000 in
/-- The energies: the sums of squares over the count. -/
def refE (main_v2 : FVec F S256x4 .f32) : FVec F S256x4 .f32 :=
  let main_cst_0 : FVec F S_ .f32 := (constant (F := F) S_ .f32 0x48400000#32)
  let main_v3 : FVec F S256x4 .f32 := (broadcastInDim S256x4 ![] bcast_S_S256x4 : (⟨S_, .f32⟩ : BufTy).Contents (Elt F) → (⟨S256x4, .f32⟩ : BufTy).Contents (Elt F)) main_cst_0
  let main_v4 : FVec F S256x4 .f32 := (Host.divf : (⟨S256x4, .f32⟩ : BufTy).Contents (Elt F) → (⟨S256x4, .f32⟩ : BufTy).Contents (Elt F) → (⟨S256x4, .f32⟩ : BufTy).Contents (Elt F)) main_v2 main_v3
  main_v4

set_option maxHeartbeats 40000000 in
/-- The motor signals, flattened over channels and time, less their means. -/
def refCen (main_arg0 : FVec F S256x24x32768 .f32) : FVec F S256x4x196608 .f32 :=
  let main_v0 : FVec F S256x4x6x32768 .f32 := shapeCast S256x4x6x32768 main_arg0 shapeCasts_S256x24x32768_S256x4x6x32768
  let main_v11 : FVec F S256x4x196608 .f32 := shapeCast S256x4x196608 main_v0 shapeCasts_S256x4x6x32768_S256x4x196608
  let main_cst_4 : FVec F S_ .f32 := (constant (F := F) S_ .f32 0x00000000#32)
  let main_v12 : FVec F S256x4 .f32 := ((fun x v => Host.reduceAdd x v reducesTo_S256x4x196608_S256x4_d2 h_S_) : (⟨S256x4x196608, .f32⟩ : BufTy).Contents (Elt F) → (⟨S_, .f32⟩ : BufTy).Contents (Elt F) → (⟨S256x4, .f32⟩ : BufTy).Contents (Elt F)) main_v11 main_cst_4
  let main_v13 : FVec F S256x4x1 .f32 := (broadcastInDim S256x4x1 ![0, 1] bcast_S256x4_S256x4x1_0_1 : (⟨S256x4, .f32⟩ : BufTy).Contents (Elt F) → (⟨S256x4x1, .f32⟩ : BufTy).Contents (Elt F)) main_v12
  let main_cst_5 : FVec F S_ .f32 := (constant (F := F) S_ .f32 0x48400000#32)
  let main_v14 : FVec F S256x4x1 .f32 := (broadcastInDim S256x4x1 ![] bcast_S_S256x4x1 : (⟨S_, .f32⟩ : BufTy).Contents (Elt F) → (⟨S256x4x1, .f32⟩ : BufTy).Contents (Elt F)) main_cst_5
  let main_v15 : FVec F S256x4x1 .f32 := (Host.divf : (⟨S256x4x1, .f32⟩ : BufTy).Contents (Elt F) → (⟨S256x4x1, .f32⟩ : BufTy).Contents (Elt F) → (⟨S256x4x1, .f32⟩ : BufTy).Contents (Elt F)) main_v13 main_v14
  let main_v16 : FVec F S256x4x196608 .f32 := (broadcastInDim S256x4x196608 ![0, 1, 2] bcast_S256x4x1_S256x4x196608_0_1_2 : (⟨S256x4x1, .f32⟩ : BufTy).Contents (Elt F) → (⟨S256x4x196608, .f32⟩ : BufTy).Contents (Elt F)) main_v15
  let main_v17 : FVec F S256x4x196608 .f32 := (subf : (⟨S256x4x196608, .f32⟩ : BufTy).Contents (Elt F) → (⟨S256x4x196608, .f32⟩ : BufTy).Contents (Elt F) → (⟨S256x4x196608, .f32⟩ : BufTy).Contents (Elt F)) main_v11 main_v16
  main_v17

set_option maxHeartbeats 40000000 in
/-- The 4 × 4 cross sums of the centred motor signals. -/
def refG (main_v17 : FVec F S256x4x196608 .f32) : FVec F S256x4x4 .f32 :=
  let main_v18 : FVec F S256x4x4 .f32 := ((fun l r => Host.dotGeneral dot_S256x4x196608_S256x4x196608_S256x4x4_2_2_1_1_0_0 none l r) : (⟨S256x4x196608, .f32⟩ : BufTy).Contents (Elt F) → (⟨S256x4x196608, .f32⟩ : BufTy).Contents (Elt F) → (⟨S256x4x4, .f32⟩ : BufTy).Contents (Elt F)) main_v17 main_v17
  main_v18

set_option maxHeartbeats 40000000 in
/-- The diagonal of the cross sums. -/
def refDiag (main_v18 : FVec F S256x4x4 .f32) : FVec F S256x4 .f32 :=
  let main_call1_v0 : IVec S4 32 := (iotaInDim S4 32 0)
  let main_call1_v1 : IVec S4 32 := (iotaInDim S4 32 0)
  let main_call1_c : IVec S_ 32 := (constantI S_ 32 0#32)
  let main_call1_v2 : IVec S4 32 := (broadcastInDim S4 ![] bcast_S_S4) main_call1_c
  let main_call1_v3 : IVec S4 1 := (cmpi .slt) main_call1_v0 main_call1_v2
  let main_call1_c_0 : IVec S_ 32 := (constantI S_ 32 4#32)
  let main_call1_v4 : IVec S4 32 := (broadcastInDim S4 ![] bcast_S_S4) main_call1_c_0
  let main_call1_v5 : IVec S4 32 := addi main_call1_v0 main_call1_v4
  let main_call1_v6 : IVec S4 32 := select main_call1_v3 main_call1_v5 main_call1_v0
  let main_call1_c_1 : IVec S_ 32 := (constantI S_ 32 0#32)
  let main_call1_v7 : IVec S4 32 := (broadcastInDim S4 ![] bcast_S_S4) main_call1_c_1
  let main_call1_v8 : IVec S4 1 := (cmpi .slt) main_call1_v1 main_call1_v7
  let main_call1_c_2 : IVec S_ 32 := (constantI S_ 32 4#32)
  let main_call1_v9 : IVec S4 32 := (broadcastInDim S4 ![] bcast_S_S4) main_call1_c_2
  let main_call1_v10 : IVec S4 32 := addi main_call1_v1 main_call1_v9
  let main_call1_v11 : IVec S4 32 := select main_call1_v8 main_call1_v10 main_call1_v1
  let main_call1_v12 : IVec S4x1 32 := (broadcastInDim S4x1 ![0] bcast_S4_S4x1_0) main_call1_v6
  let main_call1_v13 : IVec S4x1 32 := (broadcastInDim S4x1 ![0] bcast_S4_S4x1_0) main_call1_v11
  let main_call1_v14 : IVec S4x2 32 := concatenate S4x2 1 [⟨S4x1, main_call1_v12⟩, ⟨S4x1, main_call1_v13⟩] concatenates_S4x1_S4x1_S4x2_d1
  let main_v19 : FVec F S256x4 .f32 := Host.gather gather_S256x4x4_S4x2_S256x4_0_12_n_n_12_1_25611 main_v18 main_call1_v14
  main_v19

set_option maxHeartbeats 40000000 in
/-- The norms: the square roots of the diagonal. -/
def refN (main_v19 : FVec F S256x4 .f32) : FVec F S256x4 .f32 :=
  let main_v20 : FVec F S256x4 .f32 := (Host.sqrt : (⟨S256x4, .f32⟩ : BufTy).Contents (Elt F) → (⟨S256x4, .f32⟩ : BufTy).Contents (Elt F)) main_v19
  main_v20

set_option maxHeartbeats 40000000 in
/-- Correlation numerator 0: one off-diagonal entry of the cross sums per row. -/
def refNum0 (main_v18 : FVec F S256x4x4 .f32) : FVec F S256 .f32 :=
  let main_v21 : FVec F S256x1x1 .f32 := ((extractStridedSlice S256x1x1 ![0, 0, 1] · slices_S256x4x4_S256x1x1_0_0_1) : (⟨S256x4x4, .f32⟩ : BufTy).Contents (Elt F) → (⟨S256x1x1, .f32⟩ : BufTy).Contents (Elt F)) main_v18
  let main_v22 : FVec F S256 .f32 := shapeCast S256 main_v21 shapeCasts_S256x1x1_S256
  main_v22

set_option maxHeartbeats 40000000 in
/-- Correlation numerator 1: one off-diagonal entry of the cross sums per row. -/
def refNum1 (main_v18 : FVec F S256x4x4 .f32) : FVec F S256 .f32 :=
  let main_v31 : FVec F S256x1x1 .f32 := ((extractStridedSlice S256x1x1 ![0, 0, 2] · slices_S256x4x4_S256x1x1_0_0_2) : (⟨S256x4x4, .f32⟩ : BufTy).Contents (Elt F) → (⟨S256x1x1, .f32⟩ : BufTy).Contents (Elt F)) main_v18
  let main_v32 : FVec F S256 .f32 := shapeCast S256 main_v31 shapeCasts_S256x1x1_S256
  main_v32

set_option maxHeartbeats 40000000 in
/-- Correlation numerator 2: one off-diagonal entry of the cross sums per row. -/
def refNum2 (main_v18 : FVec F S256x4x4 .f32) : FVec F S256 .f32 :=
  let main_v41 : FVec F S256x1x1 .f32 := ((extractStridedSlice S256x1x1 ![0, 0, 3] · slices_S256x4x4_S256x1x1_0_0_3) : (⟨S256x4x4, .f32⟩ : BufTy).Contents (Elt F) → (⟨S256x1x1, .f32⟩ : BufTy).Contents (Elt F)) main_v18
  let main_v42 : FVec F S256 .f32 := shapeCast S256 main_v41 shapeCasts_S256x1x1_S256
  main_v42

set_option maxHeartbeats 40000000 in
/-- Correlation numerator 3: one off-diagonal entry of the cross sums per row. -/
def refNum3 (main_v18 : FVec F S256x4x4 .f32) : FVec F S256 .f32 :=
  let main_v51 : FVec F S256x1x1 .f32 := ((extractStridedSlice S256x1x1 ![0, 1, 2] · slices_S256x4x4_S256x1x1_0_1_2) : (⟨S256x4x4, .f32⟩ : BufTy).Contents (Elt F) → (⟨S256x1x1, .f32⟩ : BufTy).Contents (Elt F)) main_v18
  let main_v52 : FVec F S256 .f32 := shapeCast S256 main_v51 shapeCasts_S256x1x1_S256
  main_v52

set_option maxHeartbeats 40000000 in
/-- Correlation numerator 4: one off-diagonal entry of the cross sums per row. -/
def refNum4 (main_v18 : FVec F S256x4x4 .f32) : FVec F S256 .f32 :=
  let main_v61 : FVec F S256x1x1 .f32 := ((extractStridedSlice S256x1x1 ![0, 1, 3] · slices_S256x4x4_S256x1x1_0_1_3) : (⟨S256x4x4, .f32⟩ : BufTy).Contents (Elt F) → (⟨S256x1x1, .f32⟩ : BufTy).Contents (Elt F)) main_v18
  let main_v62 : FVec F S256 .f32 := shapeCast S256 main_v61 shapeCasts_S256x1x1_S256
  main_v62

set_option maxHeartbeats 40000000 in
/-- Correlation numerator 5: one off-diagonal entry of the cross sums per row. -/
def refNum5 (main_v18 : FVec F S256x4x4 .f32) : FVec F S256 .f32 :=
  let main_v71 : FVec F S256x1x1 .f32 := ((extractStridedSlice S256x1x1 ![0, 2, 3] · slices_S256x4x4_S256x1x1_0_2_3) : (⟨S256x4x4, .f32⟩ : BufTy).Contents (Elt F) → (⟨S256x1x1, .f32⟩ : BufTy).Contents (Elt F)) main_v18
  let main_v72 : FVec F S256 .f32 := shapeCast S256 main_v71 shapeCasts_S256x1x1_S256
  main_v72

set_option maxHeartbeats 40000000 in
/-- The argument as batch × motor × channel × time. -/
def refM (main_arg0 : FVec F S256x24x32768 .f32) : FVec F S256x4x6x32768 .f32 :=
  let main_v0 : FVec F S256x4x6x32768 .f32 := shapeCast S256x4x6x32768 main_arg0 shapeCasts_S256x24x32768_S256x4x6x32768
  main_v0

set_option maxHeartbeats 40000000 in
/-- Mean absolute difference 0 of two motors over channels and time. -/
def refDD0 (main_v0 : FVec F S256x4x6x32768 .f32) : FVec F S256 .f32 :=
  let main_v81 : FVec F S256x1x6x32768 .f32 := ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)) main_v0
  let main_v82 : FVec F S256x6x32768 .f32 := shapeCast S256x6x32768 main_v81 shapeCasts_S256x1x6x32768_S256x6x32768
  let main_v83 : FVec F S256x1x6x32768 .f32 := ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)) main_v0
  let main_v84 : FVec F S256x6x32768 .f32 := shapeCast S256x6x32768 main_v83 shapeCasts_S256x1x6x32768_S256x6x32768
  let main_v85 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v82 main_v84
  let main_v86 : FVec F S256x6x32768 .f32 := (Host.absf : (⟨S256x6x32768, .f32⟩ : BufTy).Contents (Elt F) → (⟨S256x6x32768, .f32⟩ : BufTy).Contents (Elt F)) main_v85
  let main_cst_12 : FVec F S_ .f32 := (constant (F := F) S_ .f32 0x00000000#32)
  let main_v87 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v86 main_cst_12
  let main_cst_13 : FVec F S_ .f32 := (constant (F := F) S_ .f32 0x48400000#32)
  let main_v88 : FVec F S256 .f32 := (broadcastInDim S256 ![] bcast_S_S256 : (⟨S_, .f32⟩ : BufTy).Contents (Elt F) → (⟨S256, .f32⟩ : BufTy).Contents (Elt F)) main_cst_13
  let main_v89 : FVec F S256 .f32 := (Host.divf : (⟨S256, .f32⟩ : BufTy).Contents (Elt F) → (⟨S256, .f32⟩ : BufTy).Contents (Elt F) → (⟨S256, .f32⟩ : BufTy).Contents (Elt F)) main_v87 main_v88
  main_v89

set_option maxHeartbeats 40000000 in
/-- Mean absolute difference 1 of two motors over channels and time. -/
def refDD1 (main_v0 : FVec F S256x4x6x32768 .f32) : FVec F S256 .f32 :=
  let main_v90 : FVec F S256x1x6x32768 .f32 := ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)) main_v0
  let main_v91 : FVec F S256x6x32768 .f32 := shapeCast S256x6x32768 main_v90 shapeCasts_S256x1x6x32768_S256x6x32768
  let main_v92 : FVec F S256x1x6x32768 .f32 := ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)) main_v0
  let main_v93 : FVec F S256x6x32768 .f32 := shapeCast S256x6x32768 main_v92 shapeCasts_S256x1x6x32768_S256x6x32768
  let main_v94 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v91 main_v93
  let main_v95 : FVec F S256x6x32768 .f32 := (Host.absf : (⟨S256x6x32768, .f32⟩ : BufTy).Contents (Elt F) → (⟨S256x6x32768, .f32⟩ : BufTy).Contents (Elt F)) main_v94
  let main_cst_14 : FVec F S_ .f32 := (constant (F := F) S_ .f32 0x00000000#32)
  let main_v96 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v95 main_cst_14
  let main_cst_15 : FVec F S_ .f32 := (constant (F := F) S_ .f32 0x48400000#32)
  let main_v97 : FVec F S256 .f32 := (broadcastInDim S256 ![] bcast_S_S256 : (⟨S_, .f32⟩ : BufTy).Contents (Elt F) → (⟨S256, .f32⟩ : BufTy).Contents (Elt F)) main_cst_15
  let main_v98 : FVec F S256 .f32 := (Host.divf : (⟨S256, .f32⟩ : BufTy).Contents (Elt F) → (⟨S256, .f32⟩ : BufTy).Contents (Elt F) → (⟨S256, .f32⟩ : BufTy).Contents (Elt F)) main_v96 main_v97
  main_v98

set_option maxHeartbeats 40000000 in
/-- Mean absolute difference 2 of two motors over channels and time. -/
def refDD2 (main_v0 : FVec F S256x4x6x32768 .f32) : FVec F S256 .f32 :=
  let main_v99 : FVec F S256x1x6x32768 .f32 := ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)) main_v0
  let main_v100 : FVec F S256x6x32768 .f32 := shapeCast S256x6x32768 main_v99 shapeCasts_S256x1x6x32768_S256x6x32768
  let main_v101 : FVec F S256x1x6x32768 .f32 := ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)) main_v0
  let main_v102 : FVec F S256x6x32768 .f32 := shapeCast S256x6x32768 main_v101 shapeCasts_S256x1x6x32768_S256x6x32768
  let main_v103 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v100 main_v102
  let main_v104 : FVec F S256x6x32768 .f32 := (Host.absf : (⟨S256x6x32768, .f32⟩ : BufTy).Contents (Elt F) → (⟨S256x6x32768, .f32⟩ : BufTy).Contents (Elt F)) main_v103
  let main_cst_16 : FVec F S_ .f32 := (constant (F := F) S_ .f32 0x00000000#32)
  let main_v105 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v104 main_cst_16
  let main_cst_17 : FVec F S_ .f32 := (constant (F := F) S_ .f32 0x48400000#32)
  let main_v106 : FVec F S256 .f32 := (broadcastInDim S256 ![] bcast_S_S256 : (⟨S_, .f32⟩ : BufTy).Contents (Elt F) → (⟨S256, .f32⟩ : BufTy).Contents (Elt F)) main_cst_17
  let main_v107 : FVec F S256 .f32 := (Host.divf : (⟨S256, .f32⟩ : BufTy).Contents (Elt F) → (⟨S256, .f32⟩ : BufTy).Contents (Elt F) → (⟨S256, .f32⟩ : BufTy).Contents (Elt F)) main_v105 main_v106
  main_v107

set_option maxHeartbeats 40000000 in
/-- Mean absolute difference 3 of two motors over channels and time. -/
def refDD3 (main_v0 : FVec F S256x4x6x32768 .f32) : FVec F S256 .f32 :=
  let main_v108 : FVec F S256x1x6x32768 .f32 := ((extractStridedSlice S256x1x6x32768 ![0, 1, 0, 0] · slices_S256x4x6x32768_S256x1x6x32768_0_1_0_0) : (⟨S256x4x6x32768, .f32⟩ : BufTy).Contents (Elt F) → (⟨S256x1x6x32768, .f32⟩ : BufTy).Contents (Elt F)) main_v0
  let main_v109 : FVec F S256x6x32768 .f32 := shapeCast S256x6x32768 main_v108 shapeCasts_S256x1x6x32768_S256x6x32768
  let main_v110 : FVec F S256x1x6x32768 .f32 := ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)) main_v0
  let main_v111 : FVec F S256x6x32768 .f32 := shapeCast S256x6x32768 main_v110 shapeCasts_S256x1x6x32768_S256x6x32768
  let main_v112 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v109 main_v111
  let main_v113 : FVec F S256x6x32768 .f32 := (Host.absf : (⟨S256x6x32768, .f32⟩ : BufTy).Contents (Elt F) → (⟨S256x6x32768, .f32⟩ : BufTy).Contents (Elt F)) main_v112
  let main_cst_18 : FVec F S_ .f32 := (constant (F := F) S_ .f32 0x00000000#32)
  let main_v114 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v113 main_cst_18
  let main_cst_19 : FVec F S_ .f32 := (constant (F := F) S_ .f32 0x48400000#32)
  let main_v115 : FVec F S256 .f32 := (broadcastInDim S256 ![] bcast_S_S256 : (⟨S_, .f32⟩ : BufTy).Contents (Elt F) → (⟨S256, .f32⟩ : BufTy).Contents (Elt F)) main_cst_19
  let main_v116 : FVec F S256 .f32 := (Host.divf : (⟨S256, .f32⟩ : BufTy).Contents (Elt F) → (⟨S256, .f32⟩ : BufTy).Contents (Elt F) → (⟨S256, .f32⟩ : BufTy).Contents (Elt F)) main_v114 main_v115
  main_v116

set_option maxHeartbeats 40000000 in
/-- Mean absolute difference 4 of two motors over channels and time. -/
def refDD4 (main_v0 : FVec F S256x4x6x32768 .f32) : FVec F S256 .f32 :=
  let main_v117 : FVec F S256x1x6x32768 .f32 := ((extractStridedSlice S256x1x6x32768 ![0, 2, 0, 0] · slices_S256x4x6x32768_S256x1x6x32768_0_2_0_0) : (⟨S256x4x6x32768, .f32⟩ : BufTy).Contents (Elt F) → (⟨S256x1x6x32768, .f32⟩ : BufTy).Contents (Elt F)) main_v0
  let main_v118 : FVec F S256x6x32768 .f32 := shapeCast S256x6x32768 main_v117 shapeCasts_S256x1x6x32768_S256x6x32768
  let main_v119 : FVec F S256x1x6x32768 .f32 := ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)) main_v0
  let main_v120 : FVec F S256x6x32768 .f32 := shapeCast S256x6x32768 main_v119 shapeCasts_S256x1x6x32768_S256x6x32768
  let main_v121 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v118 main_v120
  let main_v122 : FVec F S256x6x32768 .f32 := (Host.absf : (⟨S256x6x32768, .f32⟩ : BufTy).Contents (Elt F) → (⟨S256x6x32768, .f32⟩ : BufTy).Contents (Elt F)) main_v121
  let main_cst_20 : FVec F S_ .f32 := (constant (F := F) S_ .f32 0x00000000#32)
  let main_v123 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v122 main_cst_20
  let main_cst_21 : FVec F S_ .f32 := (constant (F := F) S_ .f32 0x48400000#32)
  let main_v124 : FVec F S256 .f32 := (broadcastInDim S256 ![] bcast_S_S256 : (⟨S_, .f32⟩ : BufTy).Contents (Elt F) → (⟨S256, .f32⟩ : BufTy).Contents (Elt F)) main_cst_21
  let main_v125 : FVec F S256 .f32 := (Host.divf : (⟨S256, .f32⟩ : BufTy).Contents (Elt F) → (⟨S256, .f32⟩ : BufTy).Contents (Elt F) → (⟨S256, .f32⟩ : BufTy).Contents (Elt F)) main_v123 main_v124
  main_v125

set_option maxHeartbeats 40000000 in
/-- Mean absolute difference 5 of two motors over channels and time. -/
def refDD5 (main_v0 : FVec F S256x4x6x32768 .f32) : FVec F S256 .f32 :=
  let main_v126 : FVec F S256x1x6x32768 .f32 := ((extractStridedSlice S256x1x6x32768 ![0, 3, 0, 0] · slices_S256x4x6x32768_S256x1x6x32768_0_3_0_0) : (⟨S256x4x6x32768, .f32⟩ : BufTy).Contents (Elt F) → (⟨S256x1x6x32768, .f32⟩ : BufTy).Contents (Elt F)) main_v0
  let main_v127 : FVec F S256x6x32768 .f32 := shapeCast S256x6x32768 main_v126 shapeCasts_S256x1x6x32768_S256x6x32768
  let main_v128 : FVec F S256x1x6x32768 .f32 := ((extractStridedSlice S256x1x6x32768 ![0, 0, 0, 0] · slices_S256x4x6x32768_S256x1x6x32768_0_0_0_0) : (⟨S256x4x6x32768, .f32⟩ : BufTy).Contents (Elt F) → (⟨S256x1x6x32768, .f32⟩ : BufTy).Contents (Elt F)) main_v0
  let main_v129 : FVec F S256x6x32768 .f32 := shapeCast S256x6x32768 main_v128 shapeCasts_S256x1x6x32768_S256x6x32768
  let main_v130 : FVec F S256x6x32768 .f32 := (subf : (⟨S256x6x32768, .f32⟩ : BufTy).Contents (Elt F) → (⟨S256x6x32768, .f32⟩ : BufTy).Contents (Elt F) → (⟨S256x6x32768, .f32⟩ : BufTy).Contents (Elt F)) main_v127 main_v129
  let main_v131 : FVec F S256x6x32768 .f32 := (Host.absf : (⟨S256x6x32768, .f32⟩ : BufTy).Contents (Elt F) → (⟨S256x6x32768, .f32⟩ : BufTy).Contents (Elt F)) main_v130
  let main_cst_22 : FVec F S_ .f32 := (constant (F := F) S_ .f32 0x00000000#32)
  let main_v132 : FVec F S256 .f32 := ((fun x v => Host.reduceAdd x v reducesTo_S256x6x32768_S256_d1_2 h_S_) : (⟨S256x6x32768, .f32⟩ : BufTy).Contents (Elt F) → (⟨S_, .f32⟩ : BufTy).Contents (Elt F) → (⟨S256, .f32⟩ : BufTy).Contents (Elt F)) main_v131 main_cst_22
  let main_cst_23 : FVec F S_ .f32 := (constant (F := F) S_ .f32 0x48400000#32)
  let main_v133 : FVec F S256 .f32 := (broadcastInDim S256 ![] bcast_S_S256 : (⟨S_, .f32⟩ : BufTy).Contents (Elt F) → (⟨S256, .f32⟩ : BufTy).Contents (Elt F)) main_cst_23
  let main_v134 : FVec F S256 .f32 := (Host.divf : (⟨S256, .f32⟩ : BufTy).Contents (Elt F) → (⟨S256, .f32⟩ : BufTy).Contents (Elt F) → (⟨S256, .f32⟩ : BufTy).Contents (Elt F)) main_v132 main_v133
  main_v134

end Cert.ReferenceIdeal.RefAsm

end
-- ==== Proof.KerAsm.lean ====
/-
  What the kernel's tail feeds the final assembly, as functions of the four accumulated arrays (per-motor sums, sums of
  squares, six cross products, six absolute-difference sums): the energies are the sums of squares over the count; the
  norms are the square roots of the sums of squares less count · mean², floored at zero; a correlation numerator is a
  cross product less count · meanᵢ · meanₖ; a mean absolute difference is an absolute-difference sum over the count.
  The tail's result is the assembly of these — the same assembly the reference ends with.
-/
import proofs.«168515_j63797444215021_2_alg».proof.Proof.Gen.KernelIdeal.Launch
import proofs.«168515_j63797444215021_2_alg».proof.Proof.RefAsm

set_option maxRecDepth 16384

noncomputable section

namespace Cert.KernelIdeal.KerAsm

open Cert.KernelIdeal Cert.KernelIdeal.Gen Idealize.ShloMosaic Idealize.ShloMosaic.TcCoe Idealize.SL.Sem Idealize.ShloMosaic.StableHlo

variable {F : FTy → Type} [FloatOps F]

set_option maxHeartbeats 40000000 in
/-- The energies. -/
def kerE (main_v1_0 : FVec F S256x4 .f32) (main_v1_1 : FVec F S256x4 .f32) (main_v1_2 : FVec F S256x6 .f32) (main_v1_3 : FVec F S256x6 .f32) : FVec F S256x4 .f32 :=
  let main_cst_0 : FVec F S_ .f32 := (constant (F := F) S_ .f32 0x48400000#32)
  let main_v4 : FVec F S256x4 .f32 := (broadcastInDim S256x4 ![] bcast_S_S256x4 : (⟨S_, .f32⟩ : BufTy).Contents (Elt F) → (⟨S256x4, .f32⟩ : BufTy).Contents (Elt F)) main_cst_0
  let main_v5 : FVec F S256x4 .f32 := (Host.divf : (⟨S256x4, .f32⟩ : BufTy).Contents (Elt F) → (⟨S256x4, .f32⟩ : BufTy).Contents (Elt F) → (⟨S256x4, .f32⟩ : BufTy).Contents (Elt F)) main_v1_1 main_v4
  main_v5

set_option maxHeartbeats 40000000 in
/-- The norms. -/
def kerN (main_v1_0 : FVec F S256x4 .f32) (main_v1_1 : FVec F S256x4 .f32) (main_v1_2 : FVec F S256x6 .f32) (main_v1_3 : FVec F S256x6 .f32) : FVec F S256x4 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_cst_4 : FVec F S_ .f32 := (constant (F := F) S_ .f32 0x48400000#32)
  let main_v12 : FVec F S256x4 .f32 := (broadcastInDim S256x4 ![] bcast_S_S256x4 : (⟨S_, .f32⟩ : BufTy).Contents (Elt F) → (⟨S256x4, .f32⟩ : BufTy).Contents (Elt F)) main_cst_4
  let main_v13 : FVec F S256x4 .f32 := (mulf : (⟨S256x4, .f32⟩ : BufTy).Contents (Elt F) → (⟨S256x4, .f32⟩ : BufTy).Contents (Elt F) → (⟨S256x4, .f32⟩ : BufTy).Contents (Elt F)) main_v12 main_v3
  let main_v14 : FVec F S256x4 .f32 := (mulf : (⟨S256x4, .f32⟩ : BufTy).Contents (Elt F) → (⟨S256x4, .f32⟩ : BufTy).Contents (Elt F) → (⟨S256x4, .f32⟩ : BufTy).Contents (Elt F)) main_v13 main_v3
  let main_v15 : FVec F S256x4 .f32 := (subf : (⟨S256x4, .f32⟩ : BufTy).Contents (Elt F) → (⟨S256x4, .f32⟩ : BufTy).Contents (Elt F) → (⟨S256x4, .f32⟩ : BufTy).Contents (Elt F)) main_v1_1 main_v14
  let main_cst_5 : FVec F S_ .f32 := (constant (F := F) S_ .f32 0x00000000#32)
  let main_v16 : FVec F S256x4 .f32 := (broadcastInDim S256x4 ![] bcast_S_S256x4 : (⟨S_, .f32⟩ : BufTy).Contents (Elt F) → (⟨S256x4, .f32⟩ : BufTy).Contents (Elt F)) main_cst_5
  let main_v17 : FVec F S256x4 .f32 := (maximumf : (⟨S256x4, .f32⟩ : BufTy).Contents (Elt F) → (⟨S256x4, .f32⟩ : BufTy).Contents (Elt F) → (⟨S256x4, .f32⟩ : BufTy).Contents (Elt F)) main_v15 main_v16
  let main_v18 : FVec F S256x4 .f32 := (Host.sqrt : (⟨S256x4, .f32⟩ : BufTy).Contents (Elt F) → (⟨S256x4, .f32⟩ : BufTy).Contents (Elt F)) main_v17
  main_v18

set_option maxHeartbeats 40000000 in
/-- Correlation numerator 0. -/
def kerNum0 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v19 : FVec F S256x1 .f32 := ((extractStridedSlice S256x1 ![0, 0] · slices_S256x6_S256x1_0_0) : (⟨S256x6, .f32⟩ : BufTy).Contents (Elt F) → (⟨S256x1, .f32⟩ : BufTy).Contents (Elt F)) main_v1_2
  let main_v20 : FVec F S256 .f32 := shapeCast S256 main_v19 shapeCasts_S256x1_S256
  let main_v21 : FVec F S256x1 .f32 := ((extractStridedSlice S256x1 ![0, 0] · slices_S256x4_S256x1_0_0) : (⟨S256x4, .f32⟩ : BufTy).Contents (Elt F) → (⟨S256x1, .f32⟩ : BufTy).Contents (Elt F)) main_v3
  let main_v22 : FVec F S256 .f32 := shapeCast S256 main_v21 shapeCasts_S256x1_S256
  let main_cst_6 : FVec F S_ .f32 := (constant (F := F) S_ .f32 0x48400000#32)
  let main_v23 : FVec F S256 .f32 := (broadcastInDim S256 ![] bcast_S_S256 : (⟨S_, .f32⟩ : BufTy).Contents (Elt F) → (⟨S256, .f32⟩ : BufTy).Contents (Elt F)) main_cst_6
  let main_v24 : FVec F S256 .f32 := (mulf : (⟨S256, .f32⟩ : BufTy).Contents (Elt F) → (⟨S256, .f32⟩ : BufTy).Contents (Elt F) → (⟨S256, .f32⟩ : BufTy).Contents (Elt F)) main_v23 main_v22
  let main_v25 : FVec F S256x1 .f32 := ((extractStridedSlice S256x1 ![0, 1] · slices_S256x4_S256x1_0_1) : (⟨S256x4, .f32⟩ : BufTy).Contents (Elt F) → (⟨S256x1, .f32⟩ : BufTy).Contents (Elt F)) main_v3
  let main_v26 : FVec F S256 .f32 := shapeCast S256 main_v25 shapeCasts_S256x1_S256
  let main_v27 : FVec F S256 .f32 := (mulf : (⟨S256, .f32⟩ : BufTy).Contents (Elt F) → (⟨S256, .f32⟩ : BufTy).Contents (Elt F) → (⟨S256, .f32⟩ : BufTy).Contents (Elt F)) main_v24 main_v26
  let main_v28 : FVec F S256 .f32 := (subf : (⟨S256, .f32⟩ : BufTy).Contents (Elt F) → (⟨S256, .f32⟩ : BufTy).Contents (Elt F) → (⟨S256, .f32⟩ : BufTy).Contents (Elt F)) main_v20 main_v27
  main_v28
set_option maxHeartbeats 40000000 in
/-- Correlation numerator 1. -/
def kerNum1 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v37 : FVec F S256x1 .f32 := ((extractStridedSlice S256x1 ![0, 1] · slices_S256x6_S256x1_0_1) : (⟨S256x6, .f32⟩ : BufTy).Contents (Elt F) → (⟨S256x1, .f32⟩ : BufTy).Contents (Elt F)) main_v1_2
  let main_v38 : FVec F S256 .f32 := shapeCast S256 main_v37 shapeCasts_S256x1_S256
  let main_v39 : FVec F S256x1 .f32 := ((extractStridedSlice S256x1 ![0, 0] · slices_S256x4_S256x1_0_0) : (⟨S256x4, .f32⟩ : BufTy).Contents (Elt F) → (⟨S256x1, .f32⟩ : BufTy).Contents (Elt F)) main_v3
  let main_v40 : FVec F S256 .f32 := shapeCast S256 main_v39 shapeCasts_S256x1_S256
  let main_cst_8 : FVec F S_ .f32 := (constant (F := F) S_ .f32 0x48400000#32)
  let main_v41 : FVec F S256 .f32 := (broadcastInDim S256 ![] bcast_S_S256 : (⟨S_, .f32⟩ : BufTy).Contents (Elt F) → (⟨S256, .f32⟩ : BufTy).Contents (Elt F)) main_cst_8
  let main_v42 : FVec F S256 .f32 := (mulf : (⟨S256, .f32⟩ : BufTy).Contents (Elt F) → (⟨S256, .f32⟩ : BufTy).Contents (Elt F) → (⟨S256, .f32⟩ : BufTy).Contents (Elt F)) main_v41 main_v40
  let main_v43 : FVec F S256x1 .f32 := ((extractStridedSlice S256x1 ![0, 2] · slices_S256x4_S256x1_0_2) : (⟨S256x4, .f32⟩ : BufTy).Contents (Elt F) → (⟨S256x1, .f32⟩ : BufTy).Contents (Elt F)) main_v3
  let main_v44 : FVec F S256 .f32 := shapeCast S256 main_v43 shapeCasts_S256x1_S256
  let main_v45 : FVec F S256 .f32 := (mulf : (⟨S256, .f32⟩ : BufTy).Contents (Elt F) → (⟨S256, .f32⟩ : BufTy).Contents (Elt F) → (⟨S256, .f32⟩ : BufTy).Contents (Elt F)) main_v42 main_v44
  let main_v46 : FVec F S256 .f32 := (subf : (⟨S256, .f32⟩ : BufTy).Contents (Elt F) → (⟨S256, .f32⟩ : BufTy).Contents (Elt F) → (⟨S256, .f32⟩ : BufTy).Contents (Elt F)) main_v38 main_v45
  main_v46
set_option maxHeartbeats 40000000 in
/-- Correlation numerator 2. -/
def kerNum2 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v55 : FVec F S256x1 .f32 := ((extractStridedSlice S256x1 ![0, 2] · slices_S256x6_S256x1_0_2) : (⟨S256x6, .f32⟩ : BufTy).Contents (Elt F) → (⟨S256x1, .f32⟩ : BufTy).Contents (Elt F)) main_v1_2
  let main_v56 : FVec F S256 .f32 := shapeCast S256 main_v55 shapeCasts_S256x1_S256
  let main_v57 : FVec F S256x1 .f32 := ((extractStridedSlice S256x1 ![0, 0] · slices_S256x4_S256x1_0_0) : (⟨S256x4, .f32⟩ : BufTy).Contents (Elt F) → (⟨S256x1, .f32⟩ : BufTy).Contents (Elt F)) main_v3
  let main_v58 : FVec F S256 .f32 := shapeCast S256 main_v57 shapeCasts_S256x1_S256
  let main_cst_10 : FVec F S_ .f32 := (constant (F := F) S_ .f32 0x48400000#32)
  let main_v59 : FVec F S256 .f32 := (broadcastInDim S256 ![] bcast_S_S256 : (⟨S_, .f32⟩ : BufTy).Contents (Elt F) → (⟨S256, .f32⟩ : BufTy).Contents (Elt F)) main_cst_10
  let main_v60 : FVec F S256 .f32 := (mulf : (⟨S256, .f32⟩ : BufTy).Contents (Elt F) → (⟨S256, .f32⟩ : BufTy).Contents (Elt F) → (⟨S256, .f32⟩ : BufTy).Contents (Elt F)) main_v59 main_v58
  let main_v61 : FVec F S256x1 .f32 := ((extractStridedSlice S256x1 ![0, 3] · slices_S256x4_S256x1_0_3) : (⟨S256x4, .f32⟩ : BufTy).Contents (Elt F) → (⟨S256x1, .f32⟩ : BufTy).Contents (Elt F)) main_v3
  let main_v62 : FVec F S256 .f32 := shapeCast S256 main_v61 shapeCasts_S256x1_S256
  let main_v63 : FVec F S256 .f32 := (mulf : (⟨S256, .f32⟩ : BufTy).Contents (Elt F) → (⟨S256, .f32⟩ : BufTy).Contents (Elt F) → (⟨S256, .f32⟩ : BufTy).Contents (Elt F)) main_v60 main_v62
  let main_v64 : FVec F S256 .f32 := (subf : (⟨S256, .f32⟩ : BufTy).Contents (Elt F) → (⟨S256, .f32⟩ : BufTy).Contents (Elt F) → (⟨S256, .f32⟩ : BufTy).Contents (Elt F)) main_v56 main_v63
  main_v64
set_option maxHeartbeats 40000000 in
/-- Correlation numerator 3. -/
def kerNum3 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v73 : FVec F S256x1 .f32 := ((extractStridedSlice S256x1 ![0, 3] · slices_S256x6_S256x1_0_3) : (⟨S256x6, .f32⟩ : BufTy).Contents (Elt F) → (⟨S256x1, .f32⟩ : BufTy).Contents (Elt F)) main_v1_2
  let main_v74 : FVec F S256 .f32 := shapeCast S256 main_v73 shapeCasts_S256x1_S256
  let main_v75 : FVec F S256x1 .f32 := ((extractStridedSlice S256x1 ![0, 1] · slices_S256x4_S256x1_0_1) : (⟨S256x4, .f32⟩ : BufTy).Contents (Elt F) → (⟨S256x1, .f32⟩ : BufTy).Contents (Elt F)) main_v3
  let main_v76 : FVec F S256 .f32 := shapeCast S256 main_v75 shapeCasts_S256x1_S256
  let main_cst_12 : FVec F S_ .f32 := (constant (F := F) S_ .f32 0x48400000#32)
  let main_v77 : FVec F S256 .f32 := (broadcastInDim S256 ![] bcast_S_S256 : (⟨S_, .f32⟩ : BufTy).Contents (Elt F) → (⟨S256, .f32⟩ : BufTy).Contents (Elt F)) main_cst_12
  let main_v78 : FVec F S256 .f32 := (mulf : (⟨S256, .f32⟩ : BufTy).Contents (Elt F) → (⟨S256, .f32⟩ : BufTy).Contents (Elt F) → (⟨S256, .f32⟩ : BufTy).Contents (Elt F)) main_v77 main_v76
  let main_v79 : FVec F S256x1 .f32 := ((extractStridedSlice S256x1 ![0, 2] · slices_S256x4_S256x1_0_2) : (⟨S256x4, .f32⟩ : BufTy).Contents (Elt F) → (⟨S256x1, .f32⟩ : BufTy).Contents (Elt F)) main_v3
  let main_v80 : FVec F S256 .f32 := shapeCast S256 main_v79 shapeCasts_S256x1_S256
  let main_v81 : FVec F S256 .f32 := (mulf : (⟨S256, .f32⟩ : BufTy).Contents (Elt F) → (⟨S256, .f32⟩ : BufTy).Contents (Elt F) → (⟨S256, .f32⟩ : BufTy).Contents (Elt F)) main_v78 main_v80
  let main_v82 : FVec F S256 .f32 := (subf : (⟨S256, .f32⟩ : BufTy).Contents (Elt F) → (⟨S256, .f32⟩ : BufTy).Contents (Elt F) → (⟨S256, .f32⟩ : BufTy).Contents (Elt F)) main_v74 main_v81
  main_v82
set_option maxHeartbeats 40000000 in
/-- Correlation numerator 4. -/
def kerNum4 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v91 : FVec F S256x1 .f32 := ((extractStridedSlice S256x1 ![0, 4] · slices_S256x6_S256x1_0_4) : (⟨S256x6, .f32⟩ : BufTy).Contents (Elt F) → (⟨S256x1, .f32⟩ : BufTy).Contents (Elt F)) main_v1_2
  let main_v92 : FVec F S256 .f32 := shapeCast S256 main_v91 shapeCasts_S256x1_S256
  let main_v93 : FVec F S256x1 .f32 := ((extractStridedSlice S256x1 ![0, 1] · slices_S256x4_S256x1_0_1) : (⟨S256x4, .f32⟩ : BufTy).Contents (Elt F) → (⟨S256x1, .f32⟩ : BufTy).Contents (Elt F)) main_v3
  let main_v94 : FVec F S256 .f32 := shapeCast S256 main_v93 shapeCasts_S256x1_S256
  let main_cst_14 : FVec F S_ .f32 := (constant (F := F) S_ .f32 0x48400000#32)
  let main_v95 : FVec F S256 .f32 := (broadcastInDim S256 ![] bcast_S_S256 : (⟨S_, .f32⟩ : BufTy).Contents (Elt F) → (⟨S256, .f32⟩ : BufTy).Contents (Elt F)) main_cst_14
  let main_v96 : FVec F S256 .f32 := (mulf : (⟨S256, .f32⟩ : BufTy).Contents (Elt F) → (⟨S256, .f32⟩ : BufTy).Contents (Elt F) → (⟨S256, .f32⟩ : BufTy).Contents (Elt F)) main_v95 main_v94
  let main_v97 : FVec F S256x1 .f32 := ((extractStridedSlice S256x1 ![0, 3] · slices_S256x4_S256x1_0_3) : (⟨S256x4, .f32⟩ : BufTy).Contents (Elt F) → (⟨S256x1, .f32⟩ : BufTy).Contents (Elt F)) main_v3
  let main_v98 : FVec F S256 .f32 := shapeCast S256 main_v97 shapeCasts_S256x1_S256
  let main_v99 : FVec F S256 .f32 := (mulf : (⟨S256, .f32⟩ : BufTy).Contents (Elt F) → (⟨S256, .f32⟩ : BufTy).Contents (Elt F) → (⟨S256, .f32⟩ : BufTy).Contents (Elt F)) main_v96 main_v98
  let main_v100 : FVec F S256 .f32 := (subf : (⟨S256, .f32⟩ : BufTy).Contents (Elt F) → (⟨S256, .f32⟩ : BufTy).Contents (Elt F) → (⟨S256, .f32⟩ : BufTy).Contents (Elt F)) main_v92 main_v99
  main_v100
set_option maxHeartbeats 40000000 in
/-- Correlation numerator 5. -/
def kerNum5 (main_v1_0 : FVec F S256x4 .f32) (main_v1_1 : FVec F S256x4 .f32) (main_v1_2 : FVec F S256x6 .f32) (main_v1_3 : FVec F S256x6 .f32) : FVec F S256 .f32 :=
  let main_cst : FVec F S_ .f32 := (constant (F := F) S_ .f32 0x48400000#32)
  let main_v2 : FVec F S256x4 .f32 := (broadcastInDim S256x4 ![] bcast_S_S256x4 : (⟨S_, .f32⟩ : BufTy).Contents (Elt F) → (⟨S256x4, .f32⟩ : BufTy).Contents (Elt F)) main_cst
  let main_v3 : FVec F S256x4 .f32 := (Host.divf : (⟨S256x4, .f32⟩ : BufTy).Contents (Elt F) → (⟨S256x4, .f32⟩ : BufTy).Contents (Elt F) → (⟨S256x4, .f32⟩ : BufTy).Contents (Elt F)) main_v1_0 main_v2
  let main_v109 : FVec F S256x1 .f32 := ((extractStridedSlice S256x1 ![0, 5] · slices_S256x6_S256x1_0_5) : (⟨S256x6, .f32⟩ : BufTy).Contents (Elt F) → (⟨S256x1, .f32⟩ : BufTy).Contents (Elt F)) main_v1_2
  let main_v110 : FVec F S256 .f32 := shapeCast S256 main_v109 shapeCasts_S256x1_S256
  let main_v111 : FVec F S256x1 .f32 := ((extractStridedSlice S256x1 ![0, 2] · slices_S256x4_S256x1_0_2) : (⟨S256x4, .f32⟩ : BufTy).Contents (Elt F) → (⟨S256x1, .f32⟩ : BufTy).Contents (Elt F)) main_v3
  let main_v112 : FVec F S256 .f32 := shapeCast S256 main_v111 shapeCasts_S256x1_S256
  let main_cst_16 : FVec F S_ .f32 := (constant (F := F) S_ .f32 0x48400000#32)
  let main_v113 : FVec F S256 .f32 := (broadcastInDim S256 ![] bcast_S_S256 : (⟨S_, .f32⟩ : BufTy).Contents (Elt F) → (⟨S256, .f32⟩ : BufTy).Contents (Elt F)) main_cst_16
  let main_v114 : FVec F S256 .f32 := (mulf : (⟨S256, .f32⟩ : BufTy).Contents (Elt F) → (⟨S256, .f32⟩ : BufTy).Contents (Elt F) → (⟨S256, .f32⟩ : BufTy).Contents (Elt F)) main_v113 main_v112
  let main_v115 : FVec F S256x1 .f32 := ((extractStridedSlice S256x1 ![0, 3] · slices_S256x4_S256x1_0_3) : (⟨S256x4, .f32⟩ : BufTy).Contents (Elt F) → (⟨S256x1, .f32⟩ : BufTy).Contents (Elt F)) main_v3
  let main_v116 : FVec F S256 .f32 := shapeCast S256 main_v115 shapeCasts_S256x1_S256
  let main_v117 : FVec F S256 .f32 := (mulf : (⟨S256, .f32⟩ : BufTy).Contents (Elt F) → (⟨S256, .f32⟩ : BufTy).Contents (Elt F) → (⟨S256, .f32⟩ : BufTy).Contents (Elt F)) main_v114 main_v116
  let main_v118 : FVec F S256 .f32 := (subf : (⟨S256, .f32⟩ : BufTy).Contents (Elt F) → (⟨S256, .f32⟩ : BufTy).Contents (Elt F) → (⟨S256, .f32⟩ : BufTy).Contents (Elt F)) main_v110 main_v117
  main_v118

set_option maxHeartbeats 40000000 in
/-- Mean absolute difference 0. -/
def kerDD0 (main_v1_0 : FVec F S256x4 .f32) (main_v1_1 : FVec F S256x4 .f32) (main_v1_2 : FVec F S256x6 .f32) (main_v1_3 : FVec F S256x6 .f32) : FVec F S256 .f32 :=
  let main_v127 : FVec F S256x1 .f32 := ((extractStridedSlice S256x1 ![0, 0] · slices_S256x6_S256x1_0_0) : (⟨S256x6, .f32⟩ : BufTy).Contents (Elt F) → (⟨S256x1, .f32⟩ : BufTy).Contents (Elt F)) main_v1_3
  let main_v128 : FVec F S256 .f32 := shapeCast S256 main_v127 shapeCasts_S256x1_S256
  let main_cst_18 : FVec F S_ .f32 := (constant (F := F) S_ .f32 0x48400000#32)
  let main_v129 : FVec F S256 .f32 := (broadcastInDim S256 ![] bcast_S_S256 : (⟨S_, .f32⟩ : BufTy).Contents (Elt F) → (⟨S256, .f32⟩ : BufTy).Contents (Elt F)) main_cst_18
  let main_v130 : FVec F S256 .f32 := (Host.divf : (⟨S256, .f32⟩ : BufTy).Contents (Elt F) → (⟨S256, .f32⟩ : BufTy).Contents (Elt F) → (⟨S256, .f32⟩ : BufTy).Contents (Elt F)) main_v128 main_v129
  main_v130
set_option maxHeartbeats 40000000 in
/-- Mean absolute difference 1. -/
def kerDD1 (main_v1_0 : FVec F S256x4 .f32) (main_v1_1 : FVec F S256x4 .f32) (main_v1_2 : FVec F S256x6 .f32) (main_v1_3 : FVec F S256x6 .f32) : FVec F S256 .f32 :=
  let main_v131 : FVec F S256x1 .f32 := ((extractStridedSlice S256x1 ![0, 1] · slices_S256x6_S256x1_0_1) : (⟨S256x6, .f32⟩ : BufTy).Contents (Elt F) → (⟨S256x1, .f32⟩ : BufTy).Contents (Elt F)) main_v1_3
  let main_v132 : FVec F S256 .f32 := shapeCast S256 main_v131 shapeCasts_S256x1_S256
  let main_cst_19 : FVec F S_ .f32 := (constant (F := F) S_ .f32 0x48400000#32)
  let main_v133 : FVec F S256 .f32 := (broadcastInDim S256 ![] bcast_S_S256 : (⟨S_, .f32⟩ : BufTy).Contents (Elt F) → (⟨S256, .f32⟩ : BufTy).Contents (Elt F)) main_cst_19
  let main_v134 : FVec F S256 .f32 := (Host.divf : (⟨S256, .f32⟩ : BufTy).Contents (Elt F) → (⟨S256, .f32⟩ : BufTy).Contents (Elt F) → (⟨S256, .f32⟩ : BufTy).Contents (Elt F)) main_v132 main_v133
  main_v134
set_option maxHeartbeats 40000000 in
/-- Mean absolute difference 2. -/
def kerDD2 (main_v1_0 : FVec F S256x4 .f32) (main_v1_1 : FVec F S256x4 .f32) (main_v1_2 : FVec F S256x6 .f32) (main_v1_3 : FVec F S256x6 .f32) : FVec F S256 .f32 :=
  let main_v135 : FVec F S256x1 .f32 := ((extractStridedSlice S256x1 ![0, 2] · slices_S256x6_S256x1_0_2) : (⟨S256x6, .f32⟩ : BufTy).Contents (Elt F) → (⟨S256x1, .f32⟩ : BufTy).Contents (Elt F)) main_v1_3
  let main_v136 : FVec F S256 .f32 := shapeCast S256 main_v135 shapeCasts_S256x1_S256
  let main_cst_20 : FVec F S_ .f32 := (constant (F := F) S_ .f32 0x48400000#32)
  let main_v137 : FVec F S256 .f32 := (broadcastInDim S256 ![] bcast_S_S256 : (⟨S_, .f32⟩ : BufTy).Contents (Elt F) → (⟨S256, .f32⟩ : BufTy).Contents (Elt F)) main_cst_20
  let main_v138 : FVec F S256 .f32 := (Host.divf : (⟨S256, .f32⟩ : BufTy).Contents (Elt F) → (⟨S256, .f32⟩ : BufTy).Contents (Elt F) → (⟨S256, .f32⟩ : BufTy).Contents (Elt F)) main_v136 main_v137
  main_v138
set_option maxHeartbeats 40000000 in
/-- Mean absolute difference 3. -/
def kerDD3 (main_v1_0 : FVec F S256x4 .f32) (main_v1_1 : FVec F S256x4 .f32) (main_v1_2 : FVec F S256x6 .f32) (main_v1_3 : FVec F S256x6 .f32) : FVec F S256 .f32 :=
  let main_v139 : FVec F S256x1 .f32 := ((extractStridedSlice S256x1 ![0, 3] · slices_S256x6_S256x1_0_3) : (⟨S256x6, .f32⟩ : BufTy).Contents (Elt F) → (⟨S256x1, .f32⟩ : BufTy).Contents (Elt F)) main_v1_3
  let main_v140 : FVec F S256 .f32 := shapeCast S256 main_v139 shapeCasts_S256x1_S256
  let main_cst_21 : FVec F S_ .f32 := (constant (F := F) S_ .f32 0x48400000#32)
  let main_v141 : FVec F S256 .f32 := (broadcastInDim S256 ![] bcast_S_S256 : (⟨S_, .f32⟩ : BufTy).Contents (Elt F) → (⟨S256, .f32⟩ : BufTy).Contents (Elt F)) main_cst_21
  let main_v142 : FVec F S256 .f32 := (Host.divf : (⟨S256, .f32⟩ : BufTy).Contents (Elt F) → (⟨S256, .f32⟩ : BufTy).Contents (Elt F) → (⟨S256, .f32⟩ : BufTy).Contents (Elt F)) main_v140 main_v141
  main_v142
set_option maxHeartbeats 40000000 in
/-- Mean absolute difference 4. -/
def kerDD4 (main_v1_0 : FVec F S256x4 .f32) (main_v1_1 : FVec F S256x4 .f32) (main_v1_2 : FVec F S256x6 .f32) (main_v1_3 : FVec F S256x6 .f32) : FVec F S256 .f32 :=
  let main_v143 : FVec F S256x1 .f32 := ((extractStridedSlice S256x1 ![0, 4] · slices_S256x6_S256x1_0_4) : (⟨S256x6, .f32⟩ : BufTy).Contents (Elt F) → (⟨S256x1, .f32⟩ : BufTy).Contents (Elt F)) main_v1_3
  let main_v144 : FVec F S256 .f32 := shapeCast S256 main_v143 shapeCasts_S256x1_S256
  let main_cst_22 : FVec F S_ .f32 := (constant (F := F) S_ .f32 0x48400000#32)
  let main_v145 : FVec F S256 .f32 := (broadcastInDim S256 ![] bcast_S_S256 : (⟨S_, .f32⟩ : BufTy).Contents (Elt F) → (⟨S256, .f32⟩ : BufTy).Contents (Elt F)) main_cst_22
  let main_v146 : FVec F S256 .f32 := (Host.divf : (⟨S256, .f32⟩ : BufTy).Contents (Elt F) → (⟨S256, .f32⟩ : BufTy).Contents (Elt F) → (⟨S256, .f32⟩ : BufTy).Contents (Elt F)) main_v144 main_v145
  main_v146
set_option maxHeartbeats 40000000 in
/-- Mean absolute difference 5. -/
def kerDD5 (main_v1_0 : FVec F S256x4 .f32) (main_v1_1 : FVec F S256x4 .f32) (main_v1_2 : FVec F S256x6 .f32) (main_v1_3 : FVec F S256x6 .f32) : FVec F S256 .f32 :=
  let main_v147 : FVec F S256x1 .f32 := ((extractStridedSlice S256x1 ![0, 5] · slices_S256x6_S256x1_0_5) : (⟨S256x6, .f32⟩ : BufTy).Contents (Elt F) → (⟨S256x1, .f32⟩ : BufTy).Contents (Elt F)) main_v1_3
  let main_v148 : FVec F S256 .f32 := shapeCast S256 main_v147 shapeCasts_S256x1_S256
  let main_cst_23 : FVec F S_ .f32 := (constant (F := F) S_ .f32 0x48400000#32)
  let main_v149 : FVec F S256 .f32 := (broadcastInDim S256 ![] bcast_S_S256 : (⟨S_, .f32⟩ : BufTy).Contents (Elt F) → (⟨S256, .f32⟩ : BufTy).Contents (Elt F)) main_cst_23
  let main_v150 : FVec F S256 .f32 := (Host.divf : (⟨S256, .f32⟩ : BufTy).Contents (Elt F) → (⟨S256, .f32⟩ : BufTy).Contents (Elt F) → (⟨S256, .f32⟩ : BufTy).Contents (Elt F)) main_v148 main_v149
  main_v150

end Cert.KernelIdeal.KerAsm

end
-- ==== Proof.KerOut.lean ====
/-
  The kernel's result buffer, read off its tail: from any contents of the buffers the tail starts from, the fold of the
  tail's operations at the result is the final assembly of the kernel's energies, norms, correlation numerators and
  mean absolute differences of the four accumulated arrays.
-/
import proofs.«168515_j63797444215021_2_alg».proof.Proof.KerAsm

set_option maxRecDepth 16384

noncomputable section

namespace Cert.KernelIdeal.KerAsm

open Cert.KernelIdeal Cert.KernelIdeal.Gen Idealize.ShloMosaic Idealize.ShloMosaic.TcCoe Idealize.SL.Sem Idealize.ShloMosaic.StableHlo

variable {F : FTy → Type} [FloatOps F]

attribute [local irreducible] Host.reduceAdd Host.reduce in
set_option maxRecDepth 65536 in
set_option maxHeartbeats 8000000 in
theorem out_eq (W : Valuation τ sig (Elt F)) :
    after (List.flatten [hostOps1, hostOps1_1, hostOps1_2]) W (main_v165 : DevRef τ sig)
      = Cert.ReferenceIdeal.RefAsm.asm (kerE (W (main_v1_0 : DevRef τ sig)) (W (main_v1_1 : DevRef τ sig)) (W (main_v1_2 : DevRef τ sig)) (W (main_v1_3 : DevRef τ sig))) (kerN (W (main_v1_0 : DevRef τ sig)) (W (main_v1_1 : DevRef τ sig)) (W (main_v1_2 : DevRef τ sig)) (W (main_v1_3 : DevRef τ sig)))
          (kerNum0 (W (main_v1_0 : DevRef τ sig)) (W (main_v1_1 : DevRef τ sig)) (W (main_v1_2 : DevRef τ sig)) (W (main_v1_3 : DevRef τ sig))) (kerNum1 (W (main_v1_0 : DevRef τ sig)) (W (main_v1_1 : DevRef τ sig)) (W (main_v1_2 : DevRef τ sig)) (W (main_v1_3 : DevRef τ sig))) (kerNum2 (W (main_v1_0 : DevRef τ sig)) (W (main_v1_1 : DevRef τ sig)) (W (main_v1_2 : DevRef τ sig)) (W (main_v1_3 : DevRef τ sig))) (kerNum3 (W (main_v1_0 : DevRef τ sig)) (W (main_v1_1 : DevRef τ sig)) (W (main_v1_2 : DevRef τ sig)) (W (main_v1_3 : DevRef τ sig))) (kerNum4 (W (main_v1_0 : DevRef τ sig)) (W (main_v1_1 : DevRef τ sig)) (W (main_v1_2 : DevRef τ sig)) (W (main_v1_3 : DevRef τ sig))) (kerNum5 (W (main_v1_0 : DevRef τ sig)) (W (main_v1_1 : DevRef τ sig)) (W (main_v1_2 : DevRef τ sig)) (W (main_v1_3 : DevRef τ sig)))
          (kerDD0 (W (main_v1_0 : DevRef τ sig)) (W (main_v1_1 : DevRef τ sig)) (W (main_v1_2 : DevRef τ sig)) (W (main_v1_3 : DevRef τ sig))) (kerDD1 (W (main_v1_0 : DevRef τ sig)) (W (main_v1_1 : DevRef τ sig)) (W (main_v1_2 : DevRef τ sig)) (W (main_v1_3 : DevRef τ sig))) (kerDD2 (W (main_v1_0 : DevRef τ sig)) (W (main_v1_1 : DevRef τ sig)) (W (main_v1_2 : DevRef τ sig)) (W (main_v1_3 : DevRef τ sig))) (kerDD3 (W (main_v1_0 : DevRef τ sig)) (W (main_v1_1 : DevRef τ sig)) (W (main_v1_2 : DevRef τ sig)) (W (main_v1_3 : DevRef τ sig))) (kerDD4 (W (main_v1_0 : DevRef τ sig)) (W (main_v1_1 : DevRef τ sig)) (W (main_v1_2 : DevRef τ sig)) (W (main_v1_3 : DevRef τ sig))) (kerDD5 (W (main_v1_0 : DevRef τ sig)) (W (main_v1_1 : DevRef τ sig)) (W (main_v1_2 : DevRef τ sig)) (W (main_v1_3 : DevRef τ sig))) := by
  simp only [List.flatten_cons, List.flatten_nil, List.append_nil, List.cons_append, List.nil_append]
  after_results_simp
  rfl

end Cert.KernelIdeal.KerAsm

end
-- ==== Proof.RefOut.lean ====
/-
  The reference's result buffer, read off its run: the fold of its 217 operations at the result is the assembly of the
  reference's energies, norms, correlation numerators and mean absolute differences of the argument.
-/
import proofs.«168515_j63797444215021_2_alg».proof.Proof.RefAsm

set_option maxRecDepth 16384

noncomputable section

namespace Cert.ReferenceIdeal.RefAsm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 65536 in
set_option maxHeartbeats 8000000 in
theorem out_eq (V : Valuation τ sig (Elt F)) :
    after ops V (main_v149 : DevRef τ sig)
      = asm (refE (refSq (V (main_arg0 : DevRef τ sig)))) (refN (refDiag (refG (refCen (V (main_arg0 : DevRef τ sig))))))
          (refNum0 (refG (refCen (V (main_arg0 : DevRef τ sig))))) (refNum1 (refG (refCen (V (main_arg0 : DevRef τ sig))))) (refNum2 (refG (refCen (V (main_arg0 : DevRef τ sig))))) (refNum3 (refG (refCen (V (main_arg0 : DevRef τ sig))))) (refNum4 (refG (refCen (V (main_arg0 : DevRef τ sig))))) (refNum5 (refG (refCen (V (main_arg0 : DevRef τ sig)))))
          (refDD0 (refM (V (main_arg0 : DevRef τ sig)))) (refDD1 (refM (V (main_arg0 : DevRef τ sig)))) (refDD2 (refM (V (main_arg0 : DevRef τ sig)))) (refDD3 (refM (V (main_arg0 : DevRef τ sig)))) (refDD4 (refM (V (main_arg0 : DevRef τ sig)))) (refDD5 (refM (V (main_arg0 : DevRef τ sig)))) := by
  after_results_simp
  rfl

end Cert.ReferenceIdeal.RefAsm

end
-- ==== Proof.RefValue.Defs.lean ====
/-
  The reference's intermediate arrays as functions of its argument: the argument read as batch × motor × channel × time,
  each motor's signal flattened to one axis of 6 · 32768 entries, its sum, its mean, the centred signal, the 4 × 4 cross
  sums of the centred signals, their diagonal, and the sum of absolute differences of two motors.
-/
import proofs.«168515_j63797444215021_2_alg».proof.Proof.RefRun
import proofs.«168515_j63797444215021_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The argument read as batch × motor × channel × time. -/
abbrev arr4 (x : FVec F S256x24x32768 .f32) : FVec F S256x4x6x32768 .f32 :=
  shapeCast S256x4x6x32768 x shapeCasts_S256x24x32768_S256x4x6x32768

/-- The sum over channels and time of the squares. -/
abbrev sqSum (X : FVec F S256x4x6x32768 .f32) : FVec F S256x4 .f32 :=
  Host.reduceAdd (mulf X X) (constant S_ .f32 0x00000000#32) reducesTo_S256x4x6x32768_S256x4_d2_3 h_S_

/-- Each motor's signal on one axis. -/
abbrev flat (X : FVec F S256x4x6x32768 .f32) : FVec F S256x4x196608 .f32 :=
  shapeCast S256x4x196608 X shapeCasts_S256x4x6x32768_S256x4x196608

/-- Each motor's sum. -/
abbrev rowSum (X : FVec F S256x4x6x32768 .f32) : FVec F S256x4 .f32 :=
  Host.reduceAdd (flat X) (constant S_ .f32 0x00000000#32) reducesTo_S256x4x196608_S256x4_d2 h_S_

/-- Each motor's mean. -/
abbrev meanT (X : FVec F S256x4x6x32768 .f32) : FVec F S256x4x1 .f32 :=
  Host.divf (broadcastInDim S256x4x1 ![0, 1] bcast_S256x4_S256x4x1_0_1 (rowSum X))
    (broadcastInDim S256x4x1 ![] bcast_S_S256x4x1 (constant S_ .f32 0x48400000#32))

/-- Each motor's signal less its mean. -/
abbrev cenT (X : FVec F S256x4x6x32768 .f32) : FVec F S256x4x196608 .f32 :=
  subf (flat X) (broadcastInDim S256x4x196608 ![0, 1, 2] bcast_S256x4x1_S256x4x196608_0_1_2 (meanT X))

/-- The cross sums of the centred signals. -/
abbrev gram (X : FVec F S256x4x6x32768 .f32) : FVec F S256x4x4 .f32 :=
  Host.dotGeneral dot_S256x4x196608_S256x4x196608_S256x4x4_2_2_1_1_0_0 none (cenT X) (cenT X)

/-- The motor numbers 0 … 3, each moved up by 4 if it were negative. -/
abbrev wrapIota : IVec S4 32 :=
  select (cmpi .slt (iotaInDim S4 32 0) (broadcastInDim S4 ![] bcast_S_S4 (constantI S_ 32 0#32)))
    (addi (iotaInDim S4 32 0) (broadcastInDim S4 ![] bcast_S_S4 (constantI S_ 32 4#32))) (iotaInDim S4 32 0)

/-- The pairs (i, i). -/
abbrev diagIdx : IVec S4x2 32 :=
  concatenate S4x2 1 [⟨S4x1, broadcastInDim S4x1 ![0] bcast_S4_S4x1_0 wrapIota⟩,
    ⟨S4x1, broadcastInDim S4x1 ![0] bcast_S4_S4x1_0 wrapIota⟩] concatenates_S4x1_S4x1_S4x2_d1

/-- The diagonal of the cross sums. -/
abbrev diag (X : FVec F S256x4x6x32768 .f32) : FVec F S256x4 .f32 :=
  Host.gather gather_S256x4x4_S4x2_S256x4_0_12_n_n_12_1_25611 (gram X) diagIdx

/-- One motor's signal as batch × channel × time. -/
abbrev motor (X : FVec F S256x4x6x32768 .f32) (off : Fin 4 → Nat) (h : S256x4x6x32768.Slices off S256x1x6x32768) :
    FVec F S256x6x32768 .f32 :=
  shapeCast S256x6x32768 (extractStridedSlice S256x1x6x32768 off X h) shapeCasts_S256x1x6x32768_S256x6x32768

/-- The sum over channels and time of the absolute differences of two signals. -/
abbrev absSum (a b : FVec F S256x6x32768 .f32) : FVec F S256 .f32 :=
  Host.reduceAdd (Host.absf (subf a b)) (constant S_ .f32 0x00000000#32) reducesTo_S256x6x32768_S256_d1_2 h_S_

end Cert.ReferenceIdeal.RefValue

end
-- ==== Proof.RefValue.Terms.lean ====
/-
  What the reference's straight line leaves in the buffers the comparison reads, as terms over its argument: the
  operations that feed a buffer composed, the other operations leaving it alone.
-/
import proofs.«168515_j63797444215021_2_alg».proof.Proof.RefValue.Defs

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.reduceAdd Host.reduce Host.gather in
/-- The sums of squares. -/
theorem term_v2 (V : Valuation τ sig (Elt F)) :
    after ops V (main_v2 : DevRef τ sig) = sqSum (arr4 (V (main_arg0 : DevRef τ sig))) := by
  after_results_simp
  rfl

attribute [local irreducible] Host.reduceAdd Host.reduce Host.gather in
/-- The cross sums of the centred signals. -/
theorem term_v18 (V : Valuation τ sig (Elt F)) :
    after ops V (main_v18 : DevRef τ sig) = gram (arr4 (V (main_arg0 : DevRef τ sig))) := by
  after_results_simp
  rfl

attribute [local irreducible] Host.reduceAdd Host.reduce Host.gather in
set_option maxHeartbeats 4000000 in
/-- Their diagonal (the index pairs' buffers are read off the fold by computation). -/
theorem term_v19 (V : Valuation τ sig (Elt F)) :
    after ops V (main_v19 : DevRef τ sig) = diag (arr4 (V (main_arg0 : DevRef τ sig))) := by
  after_results_simp
  rfl

attribute [local irreducible] Host.reduceAdd Host.reduce Host.gather in
/-- The absolute differences of motors 0 and 2. -/
theorem term_v87 (V : Valuation τ sig (Elt F)) :
    after ops V (main_v87 : DevRef τ sig)
      = absSum (motor (arr4 (V (main_arg0 : DevRef τ sig))) ![0, 0, 0, 0] slices_S256x4x6x32768_S256x1x6x32768_0_0_0_0)
          (motor (arr4 (V (main_arg0 : DevRef τ sig))) ![0, 2, 0, 0] slices_S256x4x6x32768_S256x1x6x32768_0_2_0_0) := by
  after_results_simp
  rfl

attribute [local irreducible] Host.reduceAdd Host.reduce Host.gather in
/-- Of motors 1 and 3. -/
theorem term_v96 (V : Valuation τ sig (Elt F)) :
    after ops V (main_v96 : DevRef τ sig)
      = absSum (motor (arr4 (V (main_arg0 : DevRef τ sig))) ![0, 1, 0, 0] slices_S256x4x6x32768_S256x1x6x32768_0_1_0_0)
          (motor (arr4 (V (main_arg0 : DevRef τ sig))) ![0, 3, 0, 0] slices_S256x4x6x32768_S256x1x6x32768_0_3_0_0) := by
  after_results_simp
  rfl

attribute [local irreducible] Host.reduceAdd Host.reduce Host.gather in
/-- Of motors 0 and 1. -/
theorem term_v105 (V : Valuation τ sig (Elt F)) :
    after ops V (main_v105 : DevRef τ sig)
      = absSum (motor (arr4 (V (main_arg0 : DevRef τ sig))) ![0, 0, 0, 0] slices_S256x4x6x32768_S256x1x6x32768_0_0_0_0)
          (motor (arr4 (V (main_arg0 : DevRef τ sig))) ![0, 1, 0, 0] slices_S256x4x6x32768_S256x1x6x32768_0_1_0_0) := by
  after_results_simp
  rfl

attribute [local irreducible] Host.reduceAdd Host.reduce Host.gather in
/-- Of motors 1 and 2. -/
theorem term_v114 (V : Valuation τ sig (Elt F)) :
    after ops V (main_v114 : DevRef τ sig)
      = absSum (motor (arr4 (V (main_arg0 : DevRef τ sig))) ![0, 1, 0, 0] slices_S256x4x6x32768_S256x1x6x32768_0_1_0_0)
          (motor (arr4 (V (main_arg0 : DevRef τ sig))) ![0, 2, 0, 0] slices_S256x4x6x32768_S256x1x6x32768_0_2_0_0) := by
  after_results_simp
  rfl

attribute [local irreducible] Host.reduceAdd Host.reduce Host.gather in
/-- Of motors 2 and 3. -/
theorem term_v123 (V : Valuation τ sig (Elt F)) :
    after ops V (main_v123 : DevRef τ sig)
      = absSum (motor (arr4 (V (main_arg0 : DevRef τ sig))) ![0, 2, 0, 0] slices_S256x4x6x32768_S256x1x6x32768_0_2_0_0)
          (motor (arr4 (V (main_arg0 : DevRef τ sig))) ![0, 3, 0, 0] slices_S256x4x6x32768_S256x1x6x32768_0_3_0_0) := by
  after_results_simp
  rfl

attribute [local irreducible] Host.reduceAdd Host.reduce Host.gather in
/-- Of motors 3 and 0. -/
theorem term_v132 (V : Valuation τ sig (Elt F)) :
    after ops V (main_v132 : DevRef τ sig)
      = absSum (motor (arr4 (V (main_arg0 : DevRef τ sig))) ![0, 3, 0, 0] slices_S256x4x6x32768_S256x1x6x32768_0_3_0_0)
          (motor (arr4 (V (main_arg0 : DevRef τ sig))) ![0, 0, 0, 0] slices_S256x4x6x32768_S256x1x6x32768_0_0_0_0) := by
  after_results_simp
  rfl

end Cert.ReferenceIdeal.RefValue

end
-- ==== Proof.RefValue.lean ====
/-
  The reference's buffers read at an index, over the extended reals. With the argument read as batch × motor × channel ×
  time: the sums of squares are the zero word plus the double sum over channels and time of the squares; a motor's mean
  is its sum from the zero word divided by the word for 196608; the 4 × 4 cross sums are the double sums of the products
  of the centred signals, and their diagonal reads the same sums at (i, i); the six sums of absolute differences are the
  zero word plus the double sums of the larger of a difference and its negative. A reduction over two axes sums over
  the indices that drop to the result index, which are the images of (channel, time); the flattened axis of 6 · 32768
  positions is channel-major.
-/
import proofs.«168515_j63797444215021_2_alg».proof.Proof.RefValue.Terms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.Spec
open scoped BigOperators

/-! ## Sums over the indices that drop to a given one -/

/-- A sum over the indices a predicate picks, when those are exactly the values of an injective family, is the sum
    over the family. -/
theorem sum_filter_eq_sum_of_range {ι κ M : Type} [Fintype ι] [DecidableEq ι] [Fintype κ] [AddCommMonoid M]
    (p : ι → Prop) [DecidablePred p] (e : κ → ι) (he : Function.Injective e) (hp : ∀ i, p i ↔ ∃ k, e k = i) (f : ι → M) :
    ∑ i ∈ Finset.univ.filter p, f i = ∑ k, f (e k) := by
  have h : Finset.univ.filter p = Finset.univ.map ⟨e, he⟩ := by
    ext i
    simp only [Finset.mem_filter, Finset.mem_univ, true_and, Finset.mem_map, Function.Embedding.coeFn_mk]
    exact hp i
  rw [h, Finset.sum_map]
  rfl

/-- The 196608 positions of a motor's signal are channel × time, channel-major. -/
theorem sum_flat {M : Type} [AddCommMonoid M] (f : Fin 196608 → M) :
    ∑ p, f p = ∑ ch : Fin 6, ∑ t : Fin 32768, f ⟨ch.val * 32768 + t.val, by have := ch.isLt; have := t.isLt; omega⟩ := by
  rw [← Equiv.sum_comp (finProdFinEquiv : Fin 6 × Fin 32768 ≃ Fin (6 * 32768)) f, Fintype.sum_prod_type]
  refine Finset.sum_congr rfl fun ch _ => Finset.sum_congr rfl fun t _ => congrArg f (Fin.ext ?_)
  show t.val + 32768 * ch.val = ch.val * 32768 + t.val
  omega

/-! ## The sums of squares -/

theorem sqSum_apply (X : Arr4) (j : S256x4.Idx) :
    sqSum (F := Ideal) X j = Ideal.ofBits .f32 0x00000000#32 + sum2 X (j 0) (j 1) (j 1) := by
  show Ideal.hostReduceAdd reducesTo_S256x4x6x32768_S256x4_d2_3 (mulf (F := Ideal) X X) (Ideal.ofBits .f32 0x00000000#32) j = _
  unfold Ideal.hostReduceAdd
  refine congrArg (Ideal.ofBits .f32 0x00000000#32 + ·) ?_
  rw [sum_filter_eq_sum_of_range _ (fun p : Fin 6 × Fin 32768 => (ix4 (j 0) (j 1) p.1 p.2 : S256x4x6x32768.Idx))
    (fun p q h => Prod.ext (congrFun h 2) (congrFun h 3))
    (fun i => ⟨fun hd => ⟨(i 2, i 3), by
        subst hd
        funext a
        match a with
        | ⟨0, _⟩ => rfl
        | ⟨1, _⟩ => rfl
        | ⟨2, _⟩ => rfl
        | ⟨3, _⟩ => rfl⟩,
      fun ⟨p, hp⟩ => by
        subst hp
        funext b
        match b with
        | ⟨0, _⟩ => rfl
        | ⟨1, _⟩ => rfl⟩), Fintype.sum_prod_type]
  rfl

/-! ## The sums of absolute differences -/

/-- Motor `i`'s signal at (batch, channel, time) is the argument there. -/
theorem motor_apply (X : Arr4) (i : Fin 4) (off : Fin 4 → Nat) (hoff : off = ![0, i.val, 0, 0])
    (h : S256x4x6x32768.Slices off S256x1x6x32768) (b : Fin 256) (ch : Fin 6) (t : Fin 32768) :
    motor (F := Ideal) X off h (ix3 b ch t) = X (ix4 b i ch t) := by
  subst hoff
  show shapeCast S256x6x32768 (extractStridedSlice S256x1x6x32768 ![0, i.val, 0, 0] X h) shapeCasts_S256x1x6x32768_S256x6x32768 (ix3 b ch t) = _
  rw [shapeCast_apply _ _ _ (ix4 b (0 : Fin 1) ch t) (by
    rw [Shape.rowMajor_val_four, Shape.rowMajor_val_three]
    show ((b.val * 1 + 0) * 6 + ch.val) * 32768 + t.val = (b.val * 6 + ch.val) * 32768 + t.val
    omega)]
  exact slice4_axis1_apply i.val X h b (0 : Fin 1) ch t i (by simp)

theorem absSum_apply (A B : FVec Ideal S256x6x32768 .f32) (b : Fin 256) :
    absSum (F := Ideal) A B (ix1 b) = Ideal.ofBits .f32 0x00000000#32
      + ∑ ch : Fin 6, ∑ t : Fin 32768, max (A (ix3 b ch t) - B (ix3 b ch t)) (-(A (ix3 b ch t) - B (ix3 b ch t))) := by
  show Ideal.hostReduceAdd reducesTo_S256x6x32768_S256_d1_2 (Host.absf (F := Ideal) (subf (F := Ideal) A B)) (Ideal.ofBits .f32 0x00000000#32) (ix1 b) = _
  unfold Ideal.hostReduceAdd
  refine congrArg (Ideal.ofBits .f32 0x00000000#32 + ·) ?_
  rw [sum_filter_eq_sum_of_range _ (fun p : Fin 6 × Fin 32768 => (ix3 b p.1 p.2 : S256x6x32768.Idx))
    (fun p q h => Prod.ext (congrFun h 1) (congrFun h 2))
    (fun i => ⟨fun hd => ⟨(i 1, i 2), by
        have h0 : i 0 = b := congrFun hd 0
        subst h0
        funext a
        match a with
        | ⟨0, _⟩ => rfl
        | ⟨1, _⟩ => rfl
        | ⟨2, _⟩ => rfl⟩,
      fun ⟨p, hp⟩ => by
        subst hp
        funext c
        match c with
        | ⟨0, _⟩ => rfl⟩), Fintype.sum_prod_type]
  rfl

/-- The sum of absolute differences of motors `i` and `k`. -/
theorem absSum_motor (X : Arr4) (i k : Fin 4) (oi ok : Fin 4 → Nat) (hoi : oi = ![0, i.val, 0, 0]) (hok : ok = ![0, k.val, 0, 0])
    (hi : S256x4x6x32768.Slices oi S256x1x6x32768) (hk : S256x4x6x32768.Slices ok S256x1x6x32768) :
    absSum (F := Ideal) (motor (F := Ideal) X oi hi) (motor (F := Ideal) X ok hk)
      = fun j => Ideal.ofBits .f32 0x00000000#32 + sumAbs X (j 0) i k := by
  funext j
  obtain ⟨b, rfl⟩ : ∃ b : Fin 256, j = ix1 b := ⟨j 0, eq_ix1 j⟩
  rw [absSum_apply]
  refine congrArg (Ideal.ofBits .f32 0x00000000#32 + ·) ?_
  refine Finset.sum_congr rfl fun ch _ => Finset.sum_congr rfl fun t _ => ?_
  rw [motor_apply X i oi hoi hi, motor_apply X k ok hok hk]

/-! ## The cross sums of the centred signals -/

/-- The mean of motor `i`'s signal: its sum from the zero word, divided by the number of entries. -/
def mean (X : Arr4) (b : Fin 256) (i : Fin 4) : EReal :=
  Ideal.div (Ideal.ofBits .f32 0x00000000#32 + sum1 X b i) (Ideal.ofBits .f32 0x48400000#32)

/-- The sum over channels and time of the products of motor `i`'s and motor `k`'s signals, each less its mean. -/
def cen (X : Arr4) (b : Fin 256) (i k : Fin 4) : EReal :=
  ∑ ch : Fin 6, ∑ t : Fin 32768, (X (ix4 b i ch t) - mean X b i) * (X (ix4 b k ch t) - mean X b k)

/-- Position `ch · 32768 + t` of motor `i`'s flattened signal is the argument at (channel, time). -/
theorem flat_apply (X : Arr4) (b : Fin 256) (i : Fin 4) (ch : Fin 6) (t : Fin 32768) (p : Fin 196608)
    (hp : p.val = ch.val * 32768 + t.val) : flat (F := Ideal) X (ix3 b i p) = X (ix4 b i ch t) :=
  shapeCast_apply X _ _ _ (by
    rw [Shape.rowMajor_val_four, Shape.rowMajor_val_three]
    show ((b.val * 4 + i.val) * 6 + ch.val) * 32768 + t.val = (b.val * 4 + i.val) * 196608 + p.val
    omega)

theorem rowSum_apply (X : Arr4) (j : S256x4.Idx) :
    rowSum (F := Ideal) X j = Ideal.ofBits .f32 0x00000000#32 + sum1 X (j 0) (j 1) := by
  show Ideal.hostReduceAdd reducesTo_S256x4x196608_S256x4_d2 (flat (F := Ideal) X) (Ideal.ofBits .f32 0x00000000#32) j = _
  unfold Ideal.hostReduceAdd
  refine congrArg (Ideal.ofBits .f32 0x00000000#32 + ·) ?_
  rw [sum_filter_eq_sum_of_range _ (fun p : Fin 196608 => (ix3 (j 0) (j 1) p : S256x4x196608.Idx))
    (fun p q h => congrFun h 2)
    (fun x => ⟨fun hd => ⟨x 2, by
        subst hd
        funext a
        match a with
        | ⟨0, _⟩ => rfl
        | ⟨1, _⟩ => rfl
        | ⟨2, _⟩ => rfl⟩,
      fun ⟨p, hp⟩ => by
        subst hp
        funext c
        match c with
        | ⟨0, _⟩ => rfl
        | ⟨1, _⟩ => rfl⟩), sum_flat]
  exact Finset.sum_congr rfl fun ch _ => Finset.sum_congr rfl fun t _ => flat_apply X (j 0) (j 1) ch t _ rfl

theorem meanT_apply (X : Arr4) (b : Fin 256) (i : Fin 4) (u : Fin 1) :
    meanT (F := Ideal) X (ix3 b i u) = mean X b i := by
  show Ideal.div (broadcastInDim S256x4x1 ![0, 1] bcast_S256x4_S256x4x1_0_1 (rowSum (F := Ideal) X) (ix3 b i u))
    (Ideal.ofBits .f32 0x48400000#32) = _
  rw [broadcastInDim_apply _ _ _ _ (ix2 b i) (fun a => by
    match a with
    | ⟨0, _⟩ => rfl
    | ⟨1, _⟩ => rfl), rowSum_apply]
  rfl

theorem cenT_apply (X : Arr4) (b : Fin 256) (i : Fin 4) (ch : Fin 6) (t : Fin 32768) (p : Fin 196608)
    (hp : p.val = ch.val * 32768 + t.val) : cenT (F := Ideal) X (ix3 b i p) = X (ix4 b i ch t) - mean X b i := by
  show flat (F := Ideal) X (ix3 b i p)
    - broadcastInDim S256x4x196608 ![0, 1, 2] bcast_S256x4x1_S256x4x196608_0_1_2 (meanT (F := Ideal) X) (ix3 b i p) = _
  rw [flat_apply X b i ch t p hp, broadcastInDim_apply _ _ _ _ (ix3 b i (0 : Fin 1)) (fun a => by
    match a with
    | ⟨0, _⟩ => rfl
    | ⟨1, _⟩ => rfl
    | ⟨2, _⟩ => rfl), meanT_apply]

theorem gram_apply (X : Arr4) (b : Fin 256) (i k : Fin 4) : gram (F := Ideal) X (ix3 b i k) = cen X b i k := by
  show FloatOps.dotGeneral dot_S256x4x196608_S256x4x196608_S256x4x4_2_2_1_1_0_0 none .single
    (cenT (F := Ideal) X) (cenT (F := Ideal) X) (ix3 b i k) = _
  rw [Ideal.dotGeneral_apply,
    ← Equiv.sum_comp (contrEquiv1 dot_S256x4x196608_S256x4x196608_S256x4x4_2_2_1_1_0_0 196608 rfl rfl).symm, sum_flat]
  refine Finset.sum_congr rfl fun ch _ => Finset.sum_congr rfl fun t _ => ?_
  have hl : ∀ p : Fin 196608, dot_S256x4x196608_S256x4x196608_S256x4x4_2_2_1_1_0_0.lhsIdx (ix3 b i k)
      ((contrEquiv1 dot_S256x4x196608_S256x4x196608_S256x4x4_2_2_1_1_0_0 196608 rfl rfl).symm p) = ix3 b i p := fun p => by
    funext a
    refine Fin.ext ?_
    match a with
    | ⟨0, _⟩ => rfl
    | ⟨1, _⟩ => rfl
    | ⟨2, _⟩ =>
      exact (DotDims.lhsIdx_val_of_single _ (cl := 2) rfl (ix3 b i k) _).trans (contrEquiv1_symm_val _ 196608 rfl rfl p)
  have hr : ∀ p : Fin 196608, dot_S256x4x196608_S256x4x196608_S256x4x4_2_2_1_1_0_0.rhsIdx (ix3 b i k)
      ((contrEquiv1 dot_S256x4x196608_S256x4x196608_S256x4x4_2_2_1_1_0_0 196608 rfl rfl).symm p) = ix3 b k p := fun p => by
    funext a
    refine Fin.ext ?_
    match a with
    | ⟨0, _⟩ => rfl
    | ⟨1, _⟩ => rfl
    | ⟨2, _⟩ =>
      exact (DotDims.rhsIdx_val_of_single _ (cr := 2) rfl (ix3 b i k) _).trans (contrEquiv1_symm_val _ 196608 rfl rfl p)
  rw [hl, hr, cenT_apply X b i ch t _ rfl, cenT_apply X b k ch t _ rfl]

/-! ## The diagonal -/

/-- Row `i` of the pairs is (i, i). -/
theorem diagIdx_apply : ∀ (i : Fin 4) (c : Fin 2), diagIdx (ix2 i c) = BitVec.ofNat 32 i.val := by decide

/-- A motor number read as a signed 32-bit word and clamped into 0 … 3 is itself. -/
theorem clamp_ofNat : ∀ i : Fin 4, min (BitVec.ofNat 32 i.val).toInt.toNat 3 + 0 + 0 = i.val := by decide

/-- The operand index the gather reads at (b, i) is (b, i, i). -/
theorem diag_operandIdx (b : Fin 256) (i : Fin 4) :
    gather_S256x4x4_S4x2_S256x4_0_12_n_n_12_1_25611.operandIdx (ix2 b i) diagIdx = ix3 b i i := by
  funext a
  refine Fin.ext ?_
  match a with
  | ⟨0, _⟩ =>
    show gather_S256x4x4_S4x2_S256x4_0_12_n_n_12_1_25611.start (ix2 b i) diagIdx 0
      + gather_S256x4x4_S4x2_S256x4_0_12_n_n_12_1_25611.batchCoord (ix2 b i) 0
      + gather_S256x4x4_S4x2_S256x4_0_12_n_n_12_1_25611.offCoord (ix2 b i) 0 = b.val
    have h1 : gather_S256x4x4_S4x2_S256x4_0_12_n_n_12_1_25611.start (ix2 b i) diagIdx 0 = 0 := rfl
    have h2 : gather_S256x4x4_S4x2_S256x4_0_12_n_n_12_1_25611.batchCoord (ix2 b i) 0 = 0 := rfl
    have h3 : gather_S256x4x4_S4x2_S256x4_0_12_n_n_12_1_25611.offCoord (ix2 b i) 0 = b.val := rfl
    rw [h1, h2, h3]
    omega
  | ⟨1, _⟩ =>
    show gather_S256x4x4_S4x2_S256x4_0_12_n_n_12_1_25611.start (ix2 b i) diagIdx 1
      + gather_S256x4x4_S4x2_S256x4_0_12_n_n_12_1_25611.batchCoord (ix2 b i) 1
      + gather_S256x4x4_S4x2_S256x4_0_12_n_n_12_1_25611.offCoord (ix2 b i) 1 = i.val
    have h2 : gather_S256x4x4_S4x2_S256x4_0_12_n_n_12_1_25611.batchCoord (ix2 b i) 1 = 0 := rfl
    have h3 : gather_S256x4x4_S4x2_S256x4_0_12_n_n_12_1_25611.offCoord (ix2 b i) 1 = 0 := rfl
    have h1 : gather_S256x4x4_S4x2_S256x4_0_12_n_n_12_1_25611.start (ix2 b i) diagIdx 1
        = min (diagIdx (ix2 i (0 : Fin 2))).toInt.toNat 3 := rfl
    rw [h1, h2, h3, diagIdx_apply]
    exact clamp_ofNat i
  | ⟨2, _⟩ =>
    show gather_S256x4x4_S4x2_S256x4_0_12_n_n_12_1_25611.start (ix2 b i) diagIdx 2
      + gather_S256x4x4_S4x2_S256x4_0_12_n_n_12_1_25611.batchCoord (ix2 b i) 2
      + gather_S256x4x4_S4x2_S256x4_0_12_n_n_12_1_25611.offCoord (ix2 b i) 2 = i.val
    have h2 : gather_S256x4x4_S4x2_S256x4_0_12_n_n_12_1_25611.batchCoord (ix2 b i) 2 = 0 := rfl
    have h3 : gather_S256x4x4_S4x2_S256x4_0_12_n_n_12_1_25611.offCoord (ix2 b i) 2 = 0 := rfl
    have h1 : gather_S256x4x4_S4x2_S256x4_0_12_n_n_12_1_25611.start (ix2 b i) diagIdx 2
        = min (diagIdx (ix2 i (1 : Fin 2))).toInt.toNat 3 := rfl
    rw [h1, h2, h3, diagIdx_apply]
    exact clamp_ofNat i

theorem diag_apply (X : Arr4) (b : Fin 256) (i : Fin 4) : diag (F := Ideal) X (ix2 b i) = cen X b i i := by
  show gram (F := Ideal) X (gather_S256x4x4_S4x2_S256x4_0_12_n_n_12_1_25611.operandIdx (ix2 b i) diagIdx) = _
  rw [diag_operandIdx, gram_apply]

/-! ## The reference's buffers -/

section Buffers

variable (V : Valuation τ sig (Elt Ideal))

/-- The sums of squares: buffer %2 at (b, i) is the zero word plus the sum of motor `i`'s squares. -/
theorem refSq :
    after ops V (main_v2 : DevRef τ sig) = fun j => Ideal.ofBits .f32 0x00000000#32
      + sum2 (shapeCast S256x4x6x32768 (V (main_arg0 : DevRef τ sig)) shapeCasts_S256x24x32768_S256x4x6x32768) (j 0) (j 1) (j 1) := by
  rw [term_v2]
  funext j
  exact sqSum_apply _ j

/-- The cross sums: buffer %18 at (b, i, k) is the sum of products of the centred signals of motors `i` and `k`. -/
theorem refG :
    after ops V (main_v18 : DevRef τ sig)
      = fun j => cen (shapeCast S256x4x6x32768 (V (main_arg0 : DevRef τ sig)) shapeCasts_S256x24x32768_S256x4x6x32768) (j 0) (j 1) (j 2) := by
  rw [term_v18]
  funext j
  obtain ⟨b, i, k, rfl⟩ : ∃ (b : Fin 256) (i k : Fin 4), j = ix3 b i k := ⟨j 0, j 1, j 2, eq_ix3 j⟩
  exact gram_apply _ b i k

/-- Their diagonal: buffer %19 at (b, i) is the sum of squares of motor `i`'s centred signal. -/
theorem refDiag :
    after ops V (main_v19 : DevRef τ sig)
      = fun j => cen (shapeCast S256x4x6x32768 (V (main_arg0 : DevRef τ sig)) shapeCasts_S256x24x32768_S256x4x6x32768) (j 0) (j 1) (j 1) := by
  rw [term_v19]
  funext j
  obtain ⟨b, i, rfl⟩ : ∃ (b : Fin 256) (i : Fin 4), j = ix2 b i := ⟨j 0, j 1, eq_ix2 j⟩
  exact diag_apply _ b i

/-- The six sums of absolute differences, in the order of the pairs. -/
theorem refAbs0 :
    after ops V (main_v87 : DevRef τ sig) = fun j => Ideal.ofBits .f32 0x00000000#32
      + sumAbs (shapeCast S256x4x6x32768 (V (main_arg0 : DevRef τ sig)) shapeCasts_S256x24x32768_S256x4x6x32768) (j 0) (diffPair 0).1 (diffPair 0).2 := by
  rw [term_v87]
  exact absSum_motor _ 0 2 _ _ rfl rfl _ _

theorem refAbs1 :
    after ops V (main_v96 : DevRef τ sig) = fun j => Ideal.ofBits .f32 0x00000000#32
      + sumAbs (shapeCast S256x4x6x32768 (V (main_arg0 : DevRef τ sig)) shapeCasts_S256x24x32768_S256x4x6x32768) (j 0) (diffPair 1).1 (diffPair 1).2 := by
  rw [term_v96]
  exact absSum_motor _ 1 3 _ _ rfl rfl _ _

theorem refAbs2 :
    after ops V (main_v105 : DevRef τ sig) = fun j => Ideal.ofBits .f32 0x00000000#32
      + sumAbs (shapeCast S256x4x6x32768 (V (main_arg0 : DevRef τ sig)) shapeCasts_S256x24x32768_S256x4x6x32768) (j 0) (diffPair 2).1 (diffPair 2).2 := by
  rw [term_v105]
  exact absSum_motor _ 0 1 _ _ rfl rfl _ _

theorem refAbs3 :
    after ops V (main_v114 : DevRef τ sig) = fun j => Ideal.ofBits .f32 0x00000000#32
      + sumAbs (shapeCast S256x4x6x32768 (V (main_arg0 : DevRef τ sig)) shapeCasts_S256x24x32768_S256x4x6x32768) (j 0) (diffPair 3).1 (diffPair 3).2 := by
  rw [term_v114]
  exact absSum_motor _ 1 2 _ _ rfl rfl _ _

theorem refAbs4 :
    after ops V (main_v123 : DevRef τ sig) = fun j => Ideal.ofBits .f32 0x00000000#32
      + sumAbs (shapeCast S256x4x6x32768 (V (main_arg0 : DevRef τ sig)) shapeCasts_S256x24x32768_S256x4x6x32768) (j 0) (diffPair 4).1 (diffPair 4).2 := by
  rw [term_v123]
  exact absSum_motor _ 2 3 _ _ rfl rfl _ _

theorem refAbs5 :
    after ops V (main_v132 : DevRef τ sig) = fun j => Ideal.ofBits .f32 0x00000000#32
      + sumAbs (shapeCast S256x4x6x32768 (V (main_arg0 : DevRef τ sig)) shapeCasts_S256x24x32768_S256x4x6x32768) (j 0) (diffPair 5).1 (diffPair 5).2 := by
  rw [term_v132]
  exact absSum_motor _ 3 0 _ _ rfl rfl _ _

end Buffers

end Cert.ReferenceIdeal.RefValue

end
-- ==== Proof.Algebra.lean ====
/-
  The algebra that joins the two programs. Over a finite index type of n entries, for real signals x and y with means
  μ = (∑ x) / n and ν = (∑ y) / n, the sum of the products of the centred signals is the sum of the products less
  n · μ · ν; with y = x it is a sum of squares, so it is not negative. Sums of reals embed into the extended reals
  term by term, and the word 0x48400000 denotes the real 196608, the number of entries of a motor signal.
-/
import proofs.«168515_j63797444215021_2_alg».proof.Proof.Spec
import Idealize.ShloMosaic.PureOps.Ideal.Laws

noncomputable section

namespace Cert.Spec

open Idealize.ShloMosaic
open scoped BigOperators

/-- The count of a motor signal's entries, as the programs spell it. -/
theorem count_word : Ideal.ofBits .f32 0x48400000#32 = ((196608 : ℝ) : EReal) := by
  simp [Ideal.ofBits, Ideal.ieee, -EReal.coe_mul]; norm_num

/-- A finite sum of reals, embedded, is the sum of the embedded terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The centred cross sum is the cross sum less n · μ · ν. -/
theorem moment {ι : Type*} [Fintype ι] (n : ℝ) (hn : n ≠ 0) (hc : (Fintype.card ι : ℝ) = n) (x y : ι → ℝ) :
    ∑ i, (x i - (∑ j, x j) / n) * (y i - (∑ j, y j) / n)
      = ∑ i, x i * y i - n * ((∑ j, x j) / n) * ((∑ j, y j) / n) := by
  have h1 : ∀ i, (x i - (∑ j, x j) / n) * (y i - (∑ j, y j) / n)
      = x i * y i - (∑ j, x j) / n * y i - x i * ((∑ j, y j) / n) + (∑ j, x j) / n * ((∑ j, y j) / n) := fun i => by ring
  simp only [h1, Finset.sum_add_distrib, Finset.sum_sub_distrib, ← Finset.mul_sum, ← Finset.sum_mul, Finset.sum_const,
    Finset.card_univ, nsmul_eq_mul, hc]
  field_simp
  ring

/-- With y = x the centred sum is a sum of squares. -/
theorem moment_nonneg {ι : Type*} [Fintype ι] (n : ℝ) (x : ι → ℝ) :
    0 ≤ ∑ i, (x i - (∑ j, x j) / n) * (x i - (∑ j, x j) / n) :=
  Finset.sum_nonneg fun i _ => mul_self_nonneg _

end Cert.Spec

end
-- ==== Proof.Bridge.lean ====
/-
  The two programs' leaf terms agree. With the argument's entries real, a motor's centred cross sum with another is
  their cross sum less count · mean · mean, and with itself it is a sum of squares, hence not negative and untouched by
  the floor at zero; the energies and the mean absolute differences are the same quotients on both sides, the zero word
  a reference's sum starts from adding nothing.
-/
import proofs.«168515_j63797444215021_2_alg».proof.Proof.RefAsm
import proofs.«168515_j63797444215021_2_alg».proof.Proof.KerAsm
import proofs.«168515_j63797444215021_2_alg».proof.Proof.RefValue
import proofs.«168515_j63797444215021_2_alg».proof.Proof.Algebra
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.Bridge

open Idealize.ShloMosaic Idealize.ShloMosaic.ValueIdx Cert.Spec Cert.ReferenceIdeal.RefValue
open scoped BigOperators

/-! ## The four accumulated arrays -/

/-- Per-motor sums. -/
def A1 (X : Arr4) : (⟨2, ![256, 4]⟩ : Shape).Idx → EReal := fun j => sum1 X (j 0) (j 1)
/-- Per-motor sums of squares. -/
def A2 (X : Arr4) : (⟨2, ![256, 4]⟩ : Shape).Idx → EReal := fun j => sum2 X (j 0) (j 1) (j 1)
/-- The six cross products. -/
def A3 (X : Arr4) : (⟨2, ![256, 6]⟩ : Shape).Idx → EReal :=
  fun j => sum2 X (j 0) (corrPair (j 1)).1 (corrPair (j 1)).2
/-- The six sums of absolute differences. -/
def A4 (X : Arr4) : (⟨2, ![256, 6]⟩ : Shape).Idx → EReal :=
  fun j => sumAbs X (j 0) (diffPair (j 1)).1 (diffPair (j 1)).2

/-! ## Real entries -/

/-- A double sum of embedded reals is the embedded sum over the pairs. -/
theorem dsum_coe (f : Fin 6 → Fin 32768 → ℝ) :
    ∑ ch, ∑ t, ((f ch t : ℝ) : EReal) = ((∑ p : Fin 6 × Fin 32768, f p.1 p.2 : ℝ) : EReal) := by
  rw [Fintype.sum_prod_type', coe_sum]
  exact Finset.sum_congr rfl fun ch _ => (coe_sum _ _).symm

theorem card_pairs : (Fintype.card (Fin 6 × Fin 32768) : ℝ) = 196608 := by
  rw [Fintype.card_prod, Fintype.card_fin, Fintype.card_fin]; norm_num

section Real

variable (X : Arr4) (r : (⟨4, ![256, 4, 6, 32768]⟩ : Shape).Idx → ℝ) (hr : ∀ i, X i = (r i : EReal))
include hr

theorem sum1_real (b : Fin 256) (i : Fin 4) :
    sum1 X b i = ((∑ p : Fin 6 × Fin 32768, r (ix4 b i p.1 p.2) : ℝ) : EReal) := by
  unfold sum1
  simp only [hr]
  exact dsum_coe fun ch t => r (ix4 b i ch t)

theorem sum2_real (b : Fin 256) (i k : Fin 4) :
    sum2 X b i k = ((∑ p : Fin 6 × Fin 32768, r (ix4 b i p.1 p.2) * r (ix4 b k p.1 p.2) : ℝ) : EReal) := by
  unfold sum2
  simp only [hr, ← EReal.coe_mul]
  exact dsum_coe fun ch t => r (ix4 b i ch t) * r (ix4 b k ch t)

/-- The kernel's mean: the sum over the count. -/
theorem kmean_real (b : Fin 256) (i : Fin 4) :
    Ideal.div (sum1 X b i) (Ideal.ofBits .f32 0x48400000#32)
      = (((∑ p : Fin 6 × Fin 32768, r (ix4 b i p.1 p.2)) / 196608 : ℝ) : EReal) := by
  rw [sum1_real X r hr, count_word, Ideal.div_coe (by norm_num), ← EReal.coe_mul, mul_one_div]

/-- The reference's mean: the same, the zero word adding nothing. -/
theorem mean_real (b : Fin 256) (i : Fin 4) :
    mean X b i = (((∑ p : Fin 6 × Fin 32768, r (ix4 b i p.1 p.2)) / 196608 : ℝ) : EReal) := by
  unfold mean
  rw [Ideal.ofBits_zero_f32, zero_add]
  exact kmean_real X r hr b i

theorem cen_real (b : Fin 256) (i k : Fin 4) :
    cen X b i k = ((∑ p : Fin 6 × Fin 32768,
      (r (ix4 b i p.1 p.2) - (∑ q : Fin 6 × Fin 32768, r (ix4 b i q.1 q.2)) / 196608)
        * (r (ix4 b k p.1 p.2) - (∑ q : Fin 6 × Fin 32768, r (ix4 b k q.1 q.2)) / 196608) : ℝ) : EReal) := by
  unfold cen
  simp only [hr, mean_real X r hr, ← EReal.coe_sub, ← EReal.coe_mul]
  exact dsum_coe fun ch t => (r (ix4 b i ch t) - (∑ q : Fin 6 × Fin 32768, r (ix4 b i q.1 q.2)) / 196608)
    * (r (ix4 b k ch t) - (∑ q : Fin 6 × Fin 32768, r (ix4 b k q.1 q.2)) / 196608)

/-- The centred cross sum is the cross sum less count · mean · mean, in the kernel's order of operations. -/
theorem cen_eq (b : Fin 256) (i k : Fin 4) :
    cen X b i k = sum2 X b i k
      - Ideal.ofBits .f32 0x48400000#32 * Ideal.div (sum1 X b i) (Ideal.ofBits .f32 0x48400000#32)
        * Ideal.div (sum1 X b k) (Ideal.ofBits .f32 0x48400000#32) := by
  rw [cen_real X r hr, kmean_real X r hr, kmean_real X r hr, sum2_real X r hr, count_word, ← EReal.coe_mul, ← EReal.coe_mul,
    ← EReal.coe_sub]
  exact congrArg _ (moment 196608 (by norm_num) card_pairs _ _)

/-- The centred sum of squares is not negative. -/
theorem cen_self_nonneg (b : Fin 256) (i : Fin 4) : 0 ≤ cen X b i i := by
  rw [cen_real X r hr]
  exact EReal.coe_nonneg.mpr (moment_nonneg 196608 _)

end Real

/-! ## Columns and entries -/

/-- Column `c` of a 256-row array, as a vector, at row `b`. -/
theorem col_apply {α : Type} {n : Nat} (A : (⟨2, ![256, n]⟩ : Shape).Idx → α) (c : Fin n) (off : Fin 2 → Nat)
    (hoff : off = ![0, c.val]) (h : (⟨2, ![256, n]⟩ : Shape).Slices off ⟨2, ![256, 1]⟩)
    (h' : (⟨2, ![256, 1]⟩ : Shape).ShapeCasts ⟨1, ![256]⟩) (b : Fin 256) :
    shapeCast ⟨1, ![256]⟩ (extractStridedSlice ⟨2, ![256, 1]⟩ off A h) h' (ix1 b) = A (ix2 b c) := by
  subst hoff
  rw [shapeCast_apply _ _ _ (ix2 b (0 : Fin 1)) (by
    rw [Shape.rowMajor_val_two, Shape.rowMajor_val_one]
    show b.val * 1 + 0 = b.val
    omega)]
  exact slice2_axis1_apply c.val A h b (0 : Fin 1) c (by simp)

/-- Entry (i, k) of each row's 4 × 4 block, as a vector, at row `b`. -/
theorem entry_apply {α : Type} (G : (⟨3, ![256, 4, 4]⟩ : Shape).Idx → α) (i k : Fin 4) (off : Fin 3 → Nat)
    (hoff : off = ![0, i.val, k.val]) (h : (⟨3, ![256, 4, 4]⟩ : Shape).Slices off ⟨3, ![256, 1, 1]⟩)
    (h' : (⟨3, ![256, 1, 1]⟩ : Shape).ShapeCasts ⟨1, ![256]⟩) (b : Fin 256) :
    shapeCast ⟨1, ![256]⟩ (extractStridedSlice ⟨3, ![256, 1, 1]⟩ off G h) h' (ix1 b) = G (ix3 b i k) := by
  subst hoff
  rw [shapeCast_apply _ _ _ (ix3 b (0 : Fin 1) (0 : Fin 1)) (by
    rw [Shape.rowMajor_val_three, Shape.rowMajor_val_one]
    show (b.val * 1 + 0) * 1 + 0 = b.val
    omega)]
  exact extractStridedSlice_apply _ _ _ _ (ix3 b i k) (fun ax => by
    match ax with
    | ⟨0, _⟩ => exact (Nat.zero_add _).symm
    | ⟨1, _⟩ => show i.val = i.val + 0; omega
    | ⟨2, _⟩ => show k.val = k.val + 0; omega)

/-! ## The kernel's leaf terms at an index -/

section Kernel

open Cert.KernelIdeal Cert.KernelIdeal.Gen Cert.KernelIdeal.KerAsm

variable (a1 a2 : FVec Ideal Cert.KernelIdeal.S256x4 .f32) (a3 a4 : FVec Ideal Cert.KernelIdeal.S256x6 .f32)

theorem kerE_apply (j : Cert.KernelIdeal.S256x4.Idx) :
    kerE (F := Ideal) a1 a2 a3 a4 j = Ideal.div (a2 j) (Ideal.ofBits .f32 0x48400000#32) := rfl

theorem kerN_apply (j : Cert.KernelIdeal.S256x4.Idx) :
    kerN (F := Ideal) a1 a2 a3 a4 j = Ideal.sqrt (max (a2 j
      - Ideal.ofBits .f32 0x48400000#32 * Ideal.div (a1 j) (Ideal.ofBits .f32 0x48400000#32)
        * Ideal.div (a1 j) (Ideal.ofBits .f32 0x48400000#32)) (Ideal.ofBits .f32 0x00000000#32)) := rfl

/-- A correlation numerator's term: a column of the cross products less count · meanᵢ · meanₖ. -/
theorem num_core (c : Fin 6) (i k : Fin 4) (oc oi ok : Fin 2 → Nat) (hc : oc = ![0, c.val]) (hi : oi = ![0, i.val])
    (hk : ok = ![0, k.val]) (h1 : Cert.KernelIdeal.S256x6.Slices oc Cert.KernelIdeal.S256x1)
    (h2 : Cert.KernelIdeal.S256x4.Slices oi Cert.KernelIdeal.S256x1) (h3 : Cert.KernelIdeal.S256x4.Slices ok Cert.KernelIdeal.S256x1)
    (b : Fin 256) :
    subf (F := Ideal) (shapeCast Cert.KernelIdeal.S256 (extractStridedSlice Cert.KernelIdeal.S256x1 oc a3 h1) shapeCasts_S256x1_S256)
      (mulf (F := Ideal) (mulf (F := Ideal) (broadcastInDim Cert.KernelIdeal.S256 ![] bcast_S_S256 (constant (F := Ideal) Cert.KernelIdeal.S_ .f32 0x48400000#32))
          (shapeCast Cert.KernelIdeal.S256 (extractStridedSlice Cert.KernelIdeal.S256x1 oi
            (Host.divf (F := Ideal) a1 (broadcastInDim Cert.KernelIdeal.S256x4 ![] bcast_S_S256x4 (constant (F := Ideal) Cert.KernelIdeal.S_ .f32 0x48400000#32))) h2)
            shapeCasts_S256x1_S256))
        (shapeCast Cert.KernelIdeal.S256 (extractStridedSlice Cert.KernelIdeal.S256x1 ok
          (Host.divf (F := Ideal) a1 (broadcastInDim Cert.KernelIdeal.S256x4 ![] bcast_S_S256x4 (constant (F := Ideal) Cert.KernelIdeal.S_ .f32 0x48400000#32))) h3)
          shapeCasts_S256x1_S256)) (ix1 b)
      = a3 (ix2 b c) - Ideal.ofBits .f32 0x48400000#32 * Ideal.div (a1 (ix2 b i)) (Ideal.ofBits .f32 0x48400000#32)
          * Ideal.div (a1 (ix2 b k)) (Ideal.ofBits .f32 0x48400000#32) := by
  show shapeCast Cert.KernelIdeal.S256 (extractStridedSlice Cert.KernelIdeal.S256x1 oc a3 h1) shapeCasts_S256x1_S256 (ix1 b)
    - Ideal.ofBits .f32 0x48400000#32
      * shapeCast Cert.KernelIdeal.S256 (extractStridedSlice Cert.KernelIdeal.S256x1 oi
            (Host.divf (F := Ideal) a1 (broadcastInDim Cert.KernelIdeal.S256x4 ![] bcast_S_S256x4 (constant (F := Ideal) Cert.KernelIdeal.S_ .f32 0x48400000#32))) h2)
            shapeCasts_S256x1_S256 (ix1 b)
      * shapeCast Cert.KernelIdeal.S256 (extractStridedSlice Cert.KernelIdeal.S256x1 ok
          (Host.divf (F := Ideal) a1 (broadcastInDim Cert.KernelIdeal.S256x4 ![] bcast_S_S256x4 (constant (F := Ideal) Cert.KernelIdeal.S_ .f32 0x48400000#32))) h3)
          shapeCasts_S256x1_S256 (ix1 b) = _
  rw [col_apply a3 c oc hc h1, col_apply _ i oi hi h2, col_apply _ k ok hk h3]
  rfl

/-- A mean absolute difference's term: a column of the sums over the count. -/
theorem dd_core (c : Fin 6) (oc : Fin 2 → Nat) (hc : oc = ![0, c.val])
    (h1 : Cert.KernelIdeal.S256x6.Slices oc Cert.KernelIdeal.S256x1) (b : Fin 256) :
    Host.divf (F := Ideal) (shapeCast Cert.KernelIdeal.S256 (extractStridedSlice Cert.KernelIdeal.S256x1 oc a4 h1) shapeCasts_S256x1_S256)
      (broadcastInDim Cert.KernelIdeal.S256 ![] bcast_S_S256 (constant (F := Ideal) Cert.KernelIdeal.S_ .f32 0x48400000#32)) (ix1 b)
      = Ideal.div (a4 (ix2 b c)) (Ideal.ofBits .f32 0x48400000#32) := by
  show Ideal.div (shapeCast Cert.KernelIdeal.S256 (extractStridedSlice Cert.KernelIdeal.S256x1 oc a4 h1) shapeCasts_S256x1_S256 (ix1 b))
    (Ideal.ofBits .f32 0x48400000#32) = _
  rw [col_apply a4 c oc hc h1]

end Kernel

/-! ## The two sides' leaf terms -/

section Final

open Cert.ReferenceIdeal Cert.ReferenceIdeal.Gen Cert.ReferenceIdeal.RefAsm

/-- The argument read as batch × motor × channel × time. -/
abbrev Xof (x : FVec Ideal S256x24x32768 .f32) : Arr4 :=
  shapeCast S256x4x6x32768 x shapeCasts_S256x24x32768_S256x4x6x32768

/-- With real entries the reshaped argument has real entries. -/
theorem real_entries (x : FVec Ideal S256x24x32768 .f32) (hfin : ∀ i, ∃ r : ℝ, x i = (r : EReal)) :
    ∃ r : (⟨4, ![256, 4, 6, 32768]⟩ : Shape).Idx → ℝ, ∀ i, Xof x i = (r i : EReal) :=
  ⟨fun i => (hfin (Shape.reshapeEquiv shapeCasts_S256x24x32768_S256x4x6x32768 i)).choose,
    fun i => (hfin (Shape.reshapeEquiv shapeCasts_S256x24x32768_S256x4x6x32768 i)).choose_spec⟩

theorem A1_apply (X : Arr4) (b : Fin 256) (i : Fin 4) : A1 X (ix2 b i) = sum1 X b i := rfl
theorem A2_apply (X : Arr4) (b : Fin 256) (i : Fin 4) : A2 X (ix2 b i) = sum2 X b i i := rfl
theorem A3_apply (X : Arr4) (b : Fin 256) (c : Fin 6) : A3 X (ix2 b c) = sum2 X b (corrPair c).1 (corrPair c).2 := rfl
theorem A4_apply (X : Arr4) (b : Fin 256) (c : Fin 6) : A4 X (ix2 b c) = sumAbs X b (diffPair c).1 (diffPair c).2 := rfl

/-- The reference's leaf terms are the composed terms of its buffers. -/
theorem refSq_eq (x : FVec Ideal S256x24x32768 .f32) : refSq (F := Ideal) x = sqSum (F := Ideal) (Xof x) := rfl
theorem refE_apply (s : FVec Ideal S256x4 .f32) (j : S256x4.Idx) :
    refE (F := Ideal) s j = Ideal.div (s j) (Ideal.ofBits .f32 0x48400000#32) := rfl
theorem refG_refCen (x : FVec Ideal S256x24x32768 .f32) :
    refG (F := Ideal) (refCen (F := Ideal) x) = gram (F := Ideal) (Xof x) := rfl
theorem refDiag_gram (X : Arr4) : refDiag (F := Ideal) (gram (F := Ideal) X) = diag (F := Ideal) X := rfl
theorem refN_apply (g : FVec Ideal S256x4 .f32) (j : S256x4.Idx) : refN (F := Ideal) g j = Ideal.sqrt (g j) := rfl
theorem refM_eq (x : FVec Ideal S256x24x32768 .f32) : refM (F := Ideal) x = Xof x := rfl

/-- The reference's sum of absolute differences of motors `i` and `k` at row `b`, the zero word adding nothing. -/
theorem absSum_motor_apply (X : Arr4) (i k : Fin 4) (oi ok : Fin 4 → Nat) (hoi : oi = ![0, i.val, 0, 0])
    (hok : ok = ![0, k.val, 0, 0]) (hi : S256x4x6x32768.Slices oi S256x1x6x32768)
    (hk : S256x4x6x32768.Slices ok S256x1x6x32768) (b : Fin 256) :
    absSum (F := Ideal) (motor (F := Ideal) X oi hi) (motor (F := Ideal) X ok hk) (ix1 b) = sumAbs X b i k := by
  rw [absSum_motor X i k oi ok hoi hok hi hk]
  show Ideal.ofBits .f32 0x00000000#32 + sumAbs X b i k = _
  rw [Ideal.ofBits_zero_f32, zero_add]

/-- A mean absolute difference of the reference: the sum of absolute differences over the count. -/
theorem refDD_core (X : Arr4) (i k : Fin 4) (oi ok : Fin 4 → Nat) (hoi : oi = ![0, i.val, 0, 0])
    (hok : ok = ![0, k.val, 0, 0]) (hi : S256x4x6x32768.Slices oi S256x1x6x32768)
    (hk : S256x4x6x32768.Slices ok S256x1x6x32768) (b : Fin 256) :
    Host.divf (F := Ideal) (absSum (F := Ideal) (motor (F := Ideal) X oi hi) (motor (F := Ideal) X ok hk))
        (broadcastInDim S256 ![] bcast_S_S256 (constant (F := Ideal) S_ .f32 0x48400000#32)) (ix1 b)
      = Ideal.div (sumAbs X b i k) (Ideal.ofBits .f32 0x48400000#32) := by
  show Ideal.div (absSum (F := Ideal) (motor (F := Ideal) X oi hi) (motor (F := Ideal) X ok hk) (ix1 b))
    (Ideal.ofBits .f32 0x48400000#32) = _
  rw [absSum_motor_apply X i k oi ok hoi hok hi hk]

variable (x : FVec Ideal S256x24x32768 .f32)

/-- The energies. -/
theorem bE :
    Cert.KernelIdeal.KerAsm.kerE (F := Ideal) (A1 (Xof x)) (A2 (Xof x)) (A3 (Xof x)) (A4 (Xof x))
      = refE (F := Ideal) (refSq (F := Ideal) x) := by
  funext j
  obtain ⟨b, i, rfl⟩ : ∃ (b : Fin 256) (i : Fin 4), j = ix2 b i := ⟨j 0, j 1, eq_ix2 j⟩
  rw [kerE_apply, A2_apply, refE_apply, refSq_eq, sqSum_apply, Ideal.ofBits_zero_f32, zero_add]

/-- The norms. -/
theorem bN (hfin : ∀ i, ∃ r : ℝ, x i = (r : EReal)) :
    Cert.KernelIdeal.KerAsm.kerN (F := Ideal) (A1 (Xof x)) (A2 (Xof x)) (A3 (Xof x)) (A4 (Xof x))
      = refN (F := Ideal) (refDiag (F := Ideal) (refG (F := Ideal) (refCen (F := Ideal) x))) := by
  obtain ⟨r, hr⟩ := real_entries x hfin
  funext j
  obtain ⟨b, i, rfl⟩ : ∃ (b : Fin 256) (i : Fin 4), j = ix2 b i := ⟨j 0, j 1, eq_ix2 j⟩
  rw [kerN_apply, A1_apply, A2_apply, refN_apply, refG_refCen, refDiag_gram, diag_apply,
    ← cen_eq (Xof x) r hr b i i, Ideal.ofBits_zero_f32, max_eq_left (cen_self_nonneg (Xof x) r hr b i)]

/-- Correlation numerator 0: motors 0 and 1. -/
theorem bNum0 (hfin : ∀ i, ∃ r : ℝ, x i = (r : EReal)) :
    Cert.KernelIdeal.KerAsm.kerNum0 (F := Ideal) (A1 (Xof x)) (A2 (Xof x)) (A3 (Xof x)) (A4 (Xof x))
      = refNum0 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 0 0 1 ![0, 0] ![0, 0] ![0, 1] rfl rfl rfl _ _ _ b).trans ?_
  refine Eq.trans ?_ (entry_apply (refG (F := Ideal) (refCen (F := Ideal) x)) 0 1 ![0, 0, 1] rfl
    slices_S256x4x4_S256x1x1_0_0_1 shapeCasts_S256x1x1_S256 b).symm
  rw [refG_refCen, gram_apply, A1_apply, A1_apply, A3_apply]
  exact (cen_eq (Xof x) r hr b 0 1).symm

/-- Correlation numerator 1: motors 0 and 2. -/
theorem bNum1 (hfin : ∀ i, ∃ r : ℝ, x i = (r : EReal)) :
    Cert.KernelIdeal.KerAsm.kerNum1 (F := Ideal) (A1 (Xof x)) (A2 (Xof x)) (A3 (Xof x)) (A4 (Xof x))
      = refNum1 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 1 0 2 ![0, 1] ![0, 0] ![0, 2] rfl rfl rfl _ _ _ b).trans ?_
  refine Eq.trans ?_ (entry_apply (refG (F := Ideal) (refCen (F := Ideal) x)) 0 2 ![0, 0, 2] rfl
    slices_S256x4x4_S256x1x1_0_0_2 shapeCasts_S256x1x1_S256 b).symm
  rw [refG_refCen, gram_apply, A1_apply, A1_apply, A3_apply]
  exact (cen_eq (Xof x) r hr b 0 2).symm

/-- Correlation numerator 2: motors 0 and 3. -/
theorem bNum2 (hfin : ∀ i, ∃ r : ℝ, x i = (r : EReal)) :
    Cert.KernelIdeal.KerAsm.kerNum2 (F := Ideal) (A1 (Xof x)) (A2 (Xof x)) (A3 (Xof x)) (A4 (Xof x))
      = refNum2 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 2 0 3 ![0, 2] ![0, 0] ![0, 3] rfl rfl rfl _ _ _ b).trans ?_
  refine Eq.trans ?_ (entry_apply (refG (F := Ideal) (refCen (F := Ideal) x)) 0 3 ![0, 0, 3] rfl
    slices_S256x4x4_S256x1x1_0_0_3 shapeCasts_S256x1x1_S256 b).symm
  rw [refG_refCen, gram_apply, A1_apply, A1_apply, A3_apply]
  exact (cen_eq (Xof x) r hr b 0 3).symm

/-- Correlation numerator 3: motors 1 and 2. -/
theorem bNum3 (hfin : ∀ i, ∃ r : ℝ, x i = (r : EReal)) :
    Cert.KernelIdeal.KerAsm.kerNum3 (F := Ideal) (A1 (Xof x)) (A2 (Xof x)) (A3 (Xof x)) (A4 (Xof x))
      = refNum3 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 3 1 2 ![0, 3] ![0, 1] ![0, 2] rfl rfl rfl _ _ _ b).trans ?_
  refine Eq.trans ?_ (entry_apply (refG (F := Ideal) (refCen (F := Ideal) x)) 1 2 ![0, 1, 2] rfl
    slices_S256x4x4_S256x1x1_0_1_2 shapeCasts_S256x1x1_S256 b).symm
  rw [refG_refCen, gram_apply, A1_apply, A1_apply, A3_apply]
  exact (cen_eq (Xof x) r hr b 1 2).symm

/-- Correlation numerator 4: motors 1 and 3. -/
theorem bNum4 (hfin : ∀ i, ∃ r : ℝ, x i = (r : EReal)) :
    Cert.KernelIdeal.KerAsm.kerNum4 (F := Ideal) (A1 (Xof x)) (A2 (Xof x)) (A3 (Xof x)) (A4 (Xof x))
      = refNum4 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 4 1 3 ![0, 4] ![0, 1] ![0, 3] rfl rfl rfl _ _ _ b).trans ?_
  refine Eq.trans ?_ (entry_apply (refG (F := Ideal) (refCen (F := Ideal) x)) 1 3 ![0, 1, 3] rfl
    slices_S256x4x4_S256x1x1_0_1_3 shapeCasts_S256x1x1_S256 b).symm
  rw [refG_refCen, gram_apply, A1_apply, A1_apply, A3_apply]
  exact (cen_eq (Xof x) r hr b 1 3).symm

/-- Correlation numerator 5: motors 2 and 3. -/
theorem bNum5 (hfin : ∀ i, ∃ r : ℝ, x i = (r : EReal)) :
    Cert.KernelIdeal.KerAsm.kerNum5 (F := Ideal) (A1 (Xof x)) (A2 (Xof x)) (A3 (Xof x)) (A4 (Xof x))
      = refNum5 (F := Ideal) (refG (F := Ideal) (refCen (F := Ideal) x)) := by
  obtain ⟨r, hr⟩ := real_entries x hfin
  funext j
  obtain ⟨b, rfl⟩ : ∃ b : Fin 256, j = ix1 b := ⟨j 0, eq_ix1 j⟩
  refine (num_core (A1 (Xof x)) (A3 (Xof x)) 5 2 3 ![0, 5] ![0, 2] ![0, 3] rfl rfl rfl _ _ _ b).trans ?_
  refine Eq.trans ?_ (entry_apply (refG (F := Ideal) (refCen (F := Ideal) x)) 2 3 ![0, 2, 3] rfl
    slices_S256x4x4_S256x1x1_0_2_3 shapeCasts_S256x1x1_S256 b).symm
  rw [refG_refCen, gram_apply, A1_apply, A1_apply, A3_apply]
  exact (cen_eq (Xof x) r hr b 2 3).symm

/-- Mean absolute difference 0: motors 0 and 2. -/
theorem bDD0 :
    Cert.KernelIdeal.KerAsm.kerDD0 (F := Ideal) (A1 (Xof x)) (A2 (Xof x)) (A3 (Xof x)) (A4 (Xof x))
      = refDD0 (F := Ideal) (refM (F := Ideal) x) := by
  funext j
  obtain ⟨b, rfl⟩ : ∃ b : Fin 256, j = ix1 b := ⟨j 0, eq_ix1 j⟩
  refine (dd_core (A4 (Xof x)) 0 ![0, 0] rfl _ b).trans ?_
  rw [A4_apply]
  exact (refDD_core (Xof x) 0 2 ![0, 0, 0, 0] ![0, 2, 0, 0] rfl rfl
    slices_S256x4x6x32768_S256x1x6x32768_0_0_0_0 slices_S256x4x6x32768_S256x1x6x32768_0_2_0_0 b).symm

/-- Mean absolute difference 1: motors 1 and 3. -/
theorem bDD1 :
    Cert.KernelIdeal.KerAsm.kerDD1 (F := Ideal) (A1 (Xof x)) (A2 (Xof x)) (A3 (Xof x)) (A4 (Xof x))
      = refDD1 (F := Ideal) (refM (F := Ideal) x) := by
  funext j
  obtain ⟨b, rfl⟩ : ∃ b : Fin 256, j = ix1 b := ⟨j 0, eq_ix1 j⟩
  refine (dd_core (A4 (Xof x)) 1 ![0, 1] rfl _ b).trans ?_
  rw [A4_apply]
  exact (refDD_core (Xof x) 1 3 ![0, 1, 0, 0] ![0, 3, 0, 0] rfl rfl
    slices_S256x4x6x32768_S256x1x6x32768_0_1_0_0 slices_S256x4x6x32768_S256x1x6x32768_0_3_0_0 b).symm

/-- Mean absolute difference 2: motors 0 and 1. -/
theorem bDD2 :
    Cert.KernelIdeal.KerAsm.kerDD2 (F := Ideal) (A1 (Xof x)) (A2 (Xof x)) (A3 (Xof x)) (A4 (Xof x))
      = refDD2 (F := Ideal) (refM (F := Ideal) x) := by
  funext j
  obtain ⟨b, rfl⟩ : ∃ b : Fin 256, j = ix1 b := ⟨j 0, eq_ix1 j⟩
  refine (dd_core (A4 (Xof x)) 2 ![0, 2] rfl _ b).trans ?_
  rw [A4_apply]
  exact (refDD_core (Xof x) 0 1 ![0, 0, 0, 0] ![0, 1, 0, 0] rfl rfl
    slices_S256x4x6x32768_S256x1x6x32768_0_0_0_0 slices_S256x4x6x32768_S256x1x6x32768_0_1_0_0 b).symm

/-- Mean absolute difference 3: motors 1 and 2. -/
theorem bDD3 :
    Cert.KernelIdeal.KerAsm.kerDD3 (F := Ideal) (A1 (Xof x)) (A2 (Xof x)) (A3 (Xof x)) (A4 (Xof x))
      = refDD3 (F := Ideal) (refM (F := Ideal) x) := by
  funext j
  obtain ⟨b, rfl⟩ : ∃ b : Fin 256, j = ix1 b := ⟨j 0, eq_ix1 j⟩
  refine (dd_core (A4 (Xof x)) 3 ![0, 3] rfl _ b).trans ?_
  rw [A4_apply]
  exact (refDD_core (Xof x) 1 2 ![0, 1, 0, 0] ![0, 2, 0, 0] rfl rfl
    slices_S256x4x6x32768_S256x1x6x32768_0_1_0_0 slices_S256x4x6x32768_S256x1x6x32768_0_2_0_0 b).symm

/-- Mean absolute difference 4: motors 2 and 3. -/
theorem bDD4 :
    Cert.KernelIdeal.KerAsm.kerDD4 (F := Ideal) (A1 (Xof x)) (A2 (Xof x)) (A3 (Xof x)) (A4 (Xof x))
      = refDD4 (F := Ideal) (refM (F := Ideal) x) := by
  funext j
  obtain ⟨b, rfl⟩ : ∃ b : Fin 256, j = ix1 b := ⟨j 0, eq_ix1 j⟩
  refine (dd_core (A4 (Xof x)) 4 ![0, 4] rfl _ b).trans ?_
  rw [A4_apply]
  exact (refDD_core (Xof x) 2 3 ![0, 2, 0, 0] ![0, 3, 0, 0] rfl rfl
    slices_S256x4x6x32768_S256x1x6x32768_0_2_0_0 slices_S256x4x6x32768_S256x1x6x32768_0_3_0_0 b).symm

/-- Mean absolute difference 5: motors 3 and 0. -/
theorem bDD5 :
    Cert.KernelIdeal.KerAsm.kerDD5 (F := Ideal) (A1 (Xof x)) (A2 (Xof x)) (A3 (Xof x)) (A4 (Xof x))
      = refDD5 (F := Ideal) (refM (F := Ideal) x) := by
  funext j
  obtain ⟨b, rfl⟩ : ∃ b : Fin 256, j = ix1 b := ⟨j 0, eq_ix1 j⟩
  refine (dd_core (A4 (Xof x)) 5 ![0, 5] rfl _ b).trans ?_
  rw [A4_apply]
  exact (refDD_core (Xof x) 3 0 ![0, 3, 0, 0] ![0, 0, 0, 0] rfl rfl
    slices_S256x4x6x32768_S256x1x6x32768_0_3_0_0 slices_S256x4x6x32768_S256x1x6x32768_0_0_0_0 b).symm

end Final

end Cert.Proof.Bridge

end
-- ==== Proof.Finite.lean ====
/-
  From the precondition to real entries. The precondition says that every entry of the argument has absolute value
  below +inf; the absolute value of an extended real is the larger of it and its negative, which for either infinity
  is +inf; so every entry is a real number.
-/
import proofs.«168515_j63797444215021_2_alg».proof.Defs
import proofs.«168515_j63797444215021_2_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx

instance : Subsingleton Cert.Pre_finite_inputs.S_.Idx := ⟨fun a b => funext fun d => d.elim0⟩

/-- An extended real whose absolute value is below +inf is a real. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the argument is a real. -/
theorem entries_real [Cert.Pre_finite_inputs.Facts] (x : FVec Ideal Cert.Pre_finite_inputs.S256x24x32768 .f32)
    (h : Cert.Pre_finite_inputs.fn (F := Ideal) x = fun _ => 1#1) (i : Cert.Pre_finite_inputs.S256x24x32768.Idx) :
    ∃ r : ℝ, x i = (r : EReal) := by
  have e := congrFun h ix0
  dsimp only [Cert.Pre_finite_inputs.fn] at e
  have hi := Host.reduce_andi_all _ _ _ _ _ e i
  exact real_of_abs_lt _ hi

end Cert.Proof.Finite

end
-- ==== Proof.Claims.lean ====
/-
  The five claims. The three frames are the two kernel programs' runs with the result forgotten and the reference's
  straight-line run. Nothing was rewritten by the ideal pass. At the ideal instance both programs end with the same
  assembly of fourteen columns; the kernel feeds it the accumulated sums turned into energies, norms, correlation
  numerators and mean absolute differences by the moment forms, the reference feeds it the same quantities computed
  from the centred signals; with finite inputs the two agree entry by entry.
-/
import proofs.«168515_j63797444215021_2_alg».proof.Defs
import proofs.«168515_j63797444215021_2_alg».proof.Proof.KernelFrame.Frame
import proofs.«168515_j63797444215021_2_alg».proof.Proof.KernelIdealValue
import proofs.«168515_j63797444215021_2_alg».proof.Proof.KerOut
import proofs.«168515_j63797444215021_2_alg».proof.Proof.RefOut
import proofs.«168515_j63797444215021_2_alg».proof.Proof.Bridge
import proofs.«168515_j63797444215021_2_alg».proof.Proof.Finite

set_option maxRecDepth 16384

noncomputable section

namespace Cert.Proof.Claims

open Idealize.ShloMosaic Idealize.ShloMosaic.TcCoe Idealize.SL.Sem Idealize.ShloMosaic.StableHlo

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.RefRun.frame m ρ
theorem preserves : Cert.preserves_Kernel_KernelIdeal := trivial

/-- The common result: the assembly of the reference's energies, norms, numerators and means of the argument. -/
def outOf (x : FVec Ideal Cert.ReferenceIdeal.S256x24x32768 .f32) : FVec Ideal Cert.ReferenceIdeal.S256x14 .f32 :=
  Cert.ReferenceIdeal.RefAsm.asm (Cert.ReferenceIdeal.RefAsm.refE (Cert.ReferenceIdeal.RefAsm.refSq x)) (Cert.ReferenceIdeal.RefAsm.refN (Cert.ReferenceIdeal.RefAsm.refDiag (Cert.ReferenceIdeal.RefAsm.refG (Cert.ReferenceIdeal.RefAsm.refCen x))))
    (Cert.ReferenceIdeal.RefAsm.refNum0 (Cert.ReferenceIdeal.RefAsm.refG (Cert.ReferenceIdeal.RefAsm.refCen x))) (Cert.ReferenceIdeal.RefAsm.refNum1 (Cert.ReferenceIdeal.RefAsm.refG (Cert.ReferenceIdeal.RefAsm.refCen x))) (Cert.ReferenceIdeal.RefAsm.refNum2 (Cert.ReferenceIdeal.RefAsm.refG (Cert.ReferenceIdeal.RefAsm.refCen x))) (Cert.ReferenceIdeal.RefAsm.refNum3 (Cert.ReferenceIdeal.RefAsm.refG (Cert.ReferenceIdeal.RefAsm.refCen x))) (Cert.ReferenceIdeal.RefAsm.refNum4 (Cert.ReferenceIdeal.RefAsm.refG (Cert.ReferenceIdeal.RefAsm.refCen x))) (Cert.ReferenceIdeal.RefAsm.refNum5 (Cert.ReferenceIdeal.RefAsm.refG (Cert.ReferenceIdeal.RefAsm.refCen x)))
    (Cert.ReferenceIdeal.RefAsm.refDD0 (Cert.ReferenceIdeal.RefAsm.refM x)) (Cert.ReferenceIdeal.RefAsm.refDD1 (Cert.ReferenceIdeal.RefAsm.refM x)) (Cert.ReferenceIdeal.RefAsm.refDD2 (Cert.ReferenceIdeal.RefAsm.refM x)) (Cert.ReferenceIdeal.RefAsm.refDD3 (Cert.ReferenceIdeal.RefAsm.refM x)) (Cert.ReferenceIdeal.RefAsm.refDD4 (Cert.ReferenceIdeal.RefAsm.refM x)) (Cert.ReferenceIdeal.RefAsm.refDD5 (Cert.ReferenceIdeal.RefAsm.refM x))

/-- The reference's result buffer is the common result of the argument's contents. -/
theorem ref_core (V : Valuation Cert.ReferenceIdeal.τ Cert.ReferenceIdeal.sig (Elt Ideal))
    (x : FVec Ideal Cert.ReferenceIdeal.S256x24x32768 .f32) (hx : V (Cert.ReferenceIdeal.main_arg0 : DevRef Cert.ReferenceIdeal.τ Cert.ReferenceIdeal.sig) = x) :
    after Cert.ReferenceIdeal.RefRun.ops V (Cert.ReferenceIdeal.main_v149 : DevRef Cert.ReferenceIdeal.τ Cert.ReferenceIdeal.sig) = outOf x := by
  rw [Cert.ReferenceIdeal.RefAsm.out_eq, hx]
  rfl

/-- The kernel's tail, from any contents that hold the four accumulated sums of a finite argument, ends at the common
    result: its energies, norms, numerators and means are the reference's. -/
theorem ker_core (W : Valuation Cert.KernelIdeal.τ Cert.KernelIdeal.sig (Elt Ideal))
    (x : FVec Ideal Cert.ReferenceIdeal.S256x24x32768 .f32) (hfin : ∀ i, ∃ r : ℝ, x i = (r : EReal))
    (h1 : W (Cert.KernelIdeal.main_v1_0 : DevRef Cert.KernelIdeal.τ Cert.KernelIdeal.sig) = Cert.Proof.Bridge.A1 (Cert.Proof.Bridge.Xof x))
    (h2 : W (Cert.KernelIdeal.main_v1_1 : DevRef Cert.KernelIdeal.τ Cert.KernelIdeal.sig) = Cert.Proof.Bridge.A2 (Cert.Proof.Bridge.Xof x))
    (h3 : W (Cert.KernelIdeal.main_v1_2 : DevRef Cert.KernelIdeal.τ Cert.KernelIdeal.sig) = Cert.Proof.Bridge.A3 (Cert.Proof.Bridge.Xof x))
    (h4 : W (Cert.KernelIdeal.main_v1_3 : DevRef Cert.KernelIdeal.τ Cert.KernelIdeal.sig) = Cert.Proof.Bridge.A4 (Cert.Proof.Bridge.Xof x)) :
    after (List.flatten [Cert.KernelIdeal.Gen.hostOps1, Cert.KernelIdeal.Gen.hostOps1_1, Cert.KernelIdeal.Gen.hostOps1_2]) W
      (Cert.KernelIdeal.main_v165 : DevRef Cert.KernelIdeal.τ Cert.KernelIdeal.sig) = outOf x := by
  rw [Cert.KernelIdeal.KerAsm.out_eq, h1, h2, h3, h4, Cert.Proof.Bridge.bE x, Cert.Proof.Bridge.bN x hfin, Cert.Proof.Bridge.bNum0 x hfin, Cert.Proof.Bridge.bNum1 x hfin, Cert.Proof.Bridge.bNum2 x hfin, Cert.Proof.Bridge.bNum3 x hfin, Cert.Proof.Bridge.bNum4 x hfin, Cert.Proof.Bridge.bNum5 x hfin, Cert.Proof.Bridge.bDD0 x, Cert.Proof.Bridge.bDD1 x, Cert.Proof.Bridge.bDD2 x, Cert.Proof.Bridge.bDD3 x, Cert.Proof.Bridge.bDD4 x, Cert.Proof.Bridge.bDD5 x]
  rfl

section Kernel

open Cert.KernelIdeal Cert.KernelIdeal.Gen Cert.KernelIdeal.Hand

variable (m : (ℓ : Loc nD τ sig) → Buf (Elt Ideal) ℓ)

/-- The one operation before the region: the region finds the argument reshaped to batch × motor × channel × time. -/
theorem entry_v0 (c : Dev nD) :
    (V m c main_v0 : S256x4x6x32768.Idx → EReal)
      = shapeCast S256x4x6x32768 (m ((c : Thread nD τ).loc main_arg0)) shapeCasts_S256x24x32768_S256x4x6x32768 := by
  dsimp only [V, V0]
  simp only [hostOps0, List.flatten_cons, List.flatten_nil, List.append_nil]
  after_results
  rfl

theorem argX_eq (c : Dev nD) : argX m c = Cert.Proof.Bridge.Xof (m ((c : Thread nD τ).loc main_arg0)) := entry_v0 m c

/-- Under the precondition the argument's entries are reals. -/
theorem arg_real [Cert.Pre_finite_inputs.Facts] (hpre : Cert.Pre_KernelIdeal m) (c : Dev nD) (i : S256x24x32768.Idx) :
    ∃ r : ℝ, m ((c : Thread nD τ).loc main_arg0) i = (r : EReal) :=
  Cert.Proof.Finite.entries_real _ (hpre c) i

/-- The kernel's run: the result buffer at the tail's fold over the region's arrays, the argument as launched. -/
theorem res_eq (ρ : Dev nD → PrngReg) :
    θ_run defs (onTc (τ := τ) (main (F := Ideal))) ⟨m, fun _ => 0, ρ⟩ (fun r => ∀ c : Dev nD,
      r.2.mem ((c : Thread nD τ).loc main_v165) = Pipeline.afterTail₀ cfgs (dats m) 0 (V0 m) [hostOps1, hostOps1_1, hostOps1_2] c main_v165
      ∧ r.2.mem ((c : Thread nD τ).loc main_arg0) = m ((c : Thread nD τ).loc main_arg0)) :=
  (θ_run defs _ _).mono (fun r h c => ⟨(h c).2 main_v165 (Pipeline.mem_restRefs_of main_v165 (by decide) (by decide)),
    ((h c).2 main_arg0 (Pipeline.mem_restRefs_of main_arg0 (by decide) (by decide))).trans (W_main_arg0 m (dats m) c)⟩) (run_main m ρ)

/-- The tail's result is the common result of the argument. -/
theorem tail_out [Cert.Pre_finite_inputs.Facts] (hpre : Cert.Pre_KernelIdeal m) (c : Dev nD) :
    Pipeline.afterTail₀ cfgs (dats m) 0 (V0 m) [hostOps1, hostOps1_1, hostOps1_2] c main_v165
      = outOf (m ((c : Thread nD τ).loc main_arg0)) :=
  ker_core _ _ (arg_real m hpre c)
    ((Pipeline.withArrays_arr spec0 launch0.win.arr_inj c _ _ 1).trans ((final1 m c).trans (congrArg Cert.Proof.Bridge.A1 (argX_eq m c))))
    ((Pipeline.withArrays_arr spec0 launch0.win.arr_inj c _ _ 2).trans ((final2 m c).trans (congrArg Cert.Proof.Bridge.A2 (argX_eq m c))))
    ((Pipeline.withArrays_arr spec0 launch0.win.arr_inj c _ _ 3).trans ((final3 m c).trans (congrArg Cert.Proof.Bridge.A3 (argX_eq m c))))
    ((Pipeline.withArrays_arr spec0 launch0.win.arr_inj c _ _ 4).trans ((final4 m c).trans (congrArg Cert.Proof.Bridge.A4 (argX_eq m c))))

end Kernel

/-- At the ideal instance, from memories agreeing on the argument, both programs run and end with equal results. -/
theorem algebraic : Cert.algebraic_KernelIdeal_ReferenceIdeal := by
  intro m ρ m' ρ' hpre hagree
  refine ⟨fun c => outOf (m ((c.tc : Thread Cert.KernelIdeal.nD Cert.KernelIdeal.τ).loc Cert.KernelIdeal.main_arg0)), ?_, ?_⟩
  · exact (θ_run Cert.KernelIdeal.defs _ _).mono (fun r h c => ⟨(h c).1.trans (tail_out m hpre c), (h c).2⟩) (res_eq m ρ)
  · refine (θ_run Cert.ReferenceIdeal.defs _ _).mono (fun r h c => ⟨?_, ?_⟩) (Cert.ReferenceIdeal.RefRun.run_main (F := Ideal) m' ρ')
    · exact (h c Cert.ReferenceIdeal.main_v149).trans (ref_core _ _ (hagree c))
    · exact (h c Cert.ReferenceIdeal.main_arg0).trans (Cert.ReferenceIdeal.RefRun.arg0_kept _)

end Cert.Proof.Claims

end
-- ==== Proof.lean ====
/-
  A reduction kernel against its jnp reference, over the extended reals, for finite inputs.

  The input is 256 rows of four motor signals, each 6 channels × 32768 samples. The kernel streams the input once over
  a 16 × 4 grid and accumulates, per row, each motor's sum, sum of squares, the six cross products of two motors and
  six sums of absolute differences; the host lines after it turn these into fourteen features per row: the unbiased
  standard deviation of the four mean energies, the ratio of the largest to the smallest mean energy, six correlations
  and six mean absolute differences. The reference computes the same features from the centred signals: it subtracts
  each motor's mean, takes the 4 × 4 cross sums of the centred signals, and reads the norms off their diagonal.

  The two agree because, for a finite signal of n entries with mean μ, the centred cross sum ∑ (xᵢ − μ)(yᵢ − ν) is
  ∑ xᵢ yᵢ − n·μ·ν, and with y = x it is a sum of squares, hence not negative, so the kernel's floor at zero changes
  nothing. Everything after these quantities is one and the same assembly in both programs. Finiteness is needed:
  it is what makes every sum a real number, so that the products distribute.

  The frames: the kernel's body has three control cases over the time coordinate (reset and add; add; add and copy
  out), its accumulators are carried from one grid point to the next, and its outputs are written back at the last
  time tile of each batch tile only; the reference is a straight line of host operations.
-/
import proofs.«168515_j63797444215021_2_alg».proof.Defs
import proofs.«168515_j63797444215021_2_alg».proof.Proof.Gen.Kernel
import proofs.«168515_j63797444215021_2_alg».proof.Proof.Gen.KernelIdeal
import proofs.«168515_j63797444215021_2_alg».proof.Proof.Gen.ReferenceIdeal
import proofs.«168515_j63797444215021_2_alg».proof.Proof.Gen.Pre_finite_inputs
import proofs.«168515_j63797444215021_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
